-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S256x1 .f32) (main_arg15 : FVec F S1 .f32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S256 .f32) (main_arg12 : FVec F S256x256 .f32) (main_arg13 : FVec F S256 .f32) (main_arg14 : FVec F S256x1 .f32) (main_arg15 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S128 .f32) (main_arg8 : FVec F S128x128 .f32) (main_arg9 : FVec F S128 .f32) (main_arg10 : FVec F S128x256 .f32) (main_arg11 : FVec F S256 .f32) (main_arg12 : FVec F S256x256 .f32) (main_arg13 : FVec F S256 .f32) (main_arg14 : FVec F S256x1 .f32) (main_arg15 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x256 .f32) (main_arg11 : FVec F S256 .f32) (main_arg12 : FVec F S256x256 .f32) (main_arg13 : FVec F S256 .f32) (main_arg14 : FVec F S256x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S10000x10000 .f32) (main_arg1 : FVec F S10000x10000 .f32) (main_arg2 : FVec F S10000x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x256 .f32) (main_arg11 : FVec F S256 .f32) (main_arg12 : FVec F S256x256 .f32) (main_arg13 : FVec F S256 .f32) (main_arg14 : FVec F S256x1 .f32) (main_arg15 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x128 : Shape := ⟨2, ![1, 128]⟩
abbrev S1x256 : Shape := ⟨2, ![1, 256]⟩
abbrev S1x1 : Shape := ⟨2, ![1, 1]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S400 : Shape := ⟨1, ![400]⟩
abbrev S400x256 : Shape := ⟨2, ![400, 256]⟩
abbrev S1000x10000 : Shape := ⟨2, ![1000, 10000]⟩
abbrev S1000x1 : Shape := ⟨2, ![1000, 1]⟩
abbrev S1000x128 : Shape := ⟨2, ![1000, 128]⟩
abbrev S1000 : Shape := ⟨1, ![1000]⟩
abbrev S1000x256 : Shape := ⟨2, ![1000, 256]⟩

abbrev nBuf : Space → Nat
  | .hbm => 46
  | .vmem => 132
  | .smem => 0
  | _ => 0

abbrev vmemTy0_0 (i : Nat) : BufTy := match i % 128 with
  | 0 => ⟨S400x10000, .f32⟩
  | 1 => ⟨S400x10000, .f32⟩
  | 2 => ⟨S10000x128, .bf16⟩
  | 3 => ⟨S1x128, .f32⟩
  | 4 => ⟨S128x128, .bf16⟩
  | 5 => ⟨S128x256, .bf16⟩
  | 6 => ⟨S1x256, .f32⟩
  | 7 => ⟨S256x256, .bf16⟩
  | 8 => ⟨S1x256, .f32⟩
  | 9 => ⟨S256x1, .bf16⟩
  | 10 => ⟨S1x1, .f32⟩
  | 11 => ⟨S400x10000, .bf16⟩
  | 12 => ⟨S400x10000, .bf16⟩
  | 13 => ⟨S400x128, .bf16⟩
  | 14 => ⟨S400x128, .bf16⟩
  | 15 => ⟨S400x1, .f32⟩
  | 16 => ⟨S400x1, .f32⟩
  | 17 => ⟨S1000x10000, .bf16⟩
  | 18 => ⟨S1000x10000, .bf16⟩
  | 19 => ⟨S10000x128, .bf16⟩
  | 20 => ⟨S1000x1, .f32⟩
  | 21 => ⟨S1000x1, .f32⟩
  | 22 => ⟨S1x128, .f32⟩
  | 23 => ⟨S128x128, .bf16⟩
  | 24 => ⟨S128x256, .bf16⟩
  | 25 => ⟨S1x256, .f32⟩
  | 26 => ⟨S256x256, .bf16⟩
  | 27 => ⟨S1x256, .f32⟩
  | 28 => ⟨S256x1, .bf16⟩
  | 29 => ⟨S1x1, .f32⟩
  | 30 => ⟨S1000x128, .bf16⟩
  | 31 => ⟨S1000x128, .bf16⟩
  | 32 => ⟨S1000x1, .f32⟩
  | 33 => ⟨S1000x1, .f32⟩
  | 34 => ⟨S1000x10000, .bf16⟩
  | 35 => ⟨S1000x10000, .bf16⟩
  | 36 => ⟨S10000x128, .bf16⟩
  | 37 => ⟨S1000x1, .f32⟩
  | 38 => ⟨S1000x1, .f32⟩
  | 39 => ⟨S1x128, .f32⟩
  | 40 => ⟨S128x128, .bf16⟩
  | 41 => ⟨S128x256, .bf16⟩
  | 42 => ⟨S1x256, .f32⟩
  | 43 => ⟨S256x256, .bf16⟩
  | 44 => ⟨S1x256, .f32⟩
  | 45 => ⟨S256x1, .bf16⟩
  | 46 => ⟨S1x1, .f32⟩
  | 47 => ⟨S1000x128, .bf16⟩
  | 48 => ⟨S1000x128, .bf16⟩
  | 49 => ⟨S1000x1, .f32⟩
  | 50 => ⟨S1000x1, .f32⟩
  | 51 => ⟨S400x10000, .f32⟩
  | 52 => ⟨S400x10000, .f32⟩
  | 53 => ⟨S10000x128, .bf16⟩
  | 54 => ⟨S1x128, .f32⟩
  | 55 => ⟨S128x128, .bf16⟩
  | 56 => ⟨S128x256, .bf16⟩
  | 57 => ⟨S1x256, .f32⟩
  | 58 => ⟨S256x256, .bf16⟩
  | 59 => ⟨S1x256, .f32⟩
  | 60 => ⟨S256x1, .bf16⟩
  | 61 => ⟨S1x1, .f32⟩
  | 62 => ⟨S400x10000, .bf16⟩
  | 63 => ⟨S400x10000, .bf16⟩
  | 64 => ⟨S400x128, .bf16⟩
  | 65 => ⟨S400x128, .bf16⟩
  | 66 => ⟨S400x1, .f32⟩
  | 67 => ⟨S400x1, .f32⟩
  | 68 => ⟨S1000x10000, .bf16⟩
  | 69 => ⟨S1000x10000, .bf16⟩
  | 70 => ⟨S10000x128, .bf16⟩
  | 71 => ⟨S1000x1, .f32⟩
  | 72 => ⟨S1000x1, .f32⟩
  | 73 => ⟨S1x128, .f32⟩
  | 74 => ⟨S128x128, .bf16⟩
  | 75 => ⟨S128x256, .bf16⟩
  | 76 => ⟨S1x256, .f32⟩
  | 77 => ⟨S256x256, .bf16⟩
  | 78 => ⟨S1x256, .f32⟩
  | 79 => ⟨S256x1, .bf16⟩
  | 80 => ⟨S1x1, .f32⟩
  | 81 => ⟨S1000x128, .bf16⟩
  | 82 => ⟨S1000x128, .bf16⟩
  | 83 => ⟨S1000x1, .f32⟩
  | 84 => ⟨S1000x1, .f32⟩
  | 85 => ⟨S1000x10000, .bf16⟩
  | 86 => ⟨S1000x10000, .bf16⟩
  | 87 => ⟨S10000x128, .bf16⟩
  | 88 => ⟨S1000x1, .f32⟩
  | 89 => ⟨S1000x1, .f32⟩
  | 90 => ⟨S1x128, .f32⟩
  | 91 => ⟨S128x128, .bf16⟩
  | 92 => ⟨S128x256, .bf16⟩
  | 93 => ⟨S1x256, .f32⟩
  | 94 => ⟨S256x256, .bf16⟩
  | 95 => ⟨S1x256, .f32⟩
  | 96 => ⟨S256x1, .bf16⟩
  | 97 => ⟨S1x1, .f32⟩
  | 98 => ⟨S1000x128, .bf16⟩
  | 99 => ⟨S1000x128, .bf16⟩
  | 100 => ⟨S1000x1, .f32⟩
  | 101 => ⟨S1000x1, .f32⟩
  | 102 => ⟨S1000x10000, .bf16⟩
  | 103 => ⟨S1000x10000, .bf16⟩
  | 104 => ⟨S10000x128, .bf16⟩
  | 105 => ⟨S1000x1, .f32⟩
  | 106 => ⟨S1000x1, .f32⟩
  | 107 => ⟨S1x128, .f32⟩
  | 108 => ⟨S128x256, .bf16⟩
  | 109 => ⟨S1x256, .f32⟩
  | 110 => ⟨S256x256, .bf16⟩
  | 111 => ⟨S1x256, .f32⟩
  | 112 => ⟨S256x1, .bf16⟩
  | 113 => ⟨S1x1, .f32⟩
  | 114 => ⟨S1000x1, .f32⟩
  | 115 => ⟨S1000x1, .f32⟩
  | 116 => ⟨S1000x10000, .bf16⟩
  | 117 => ⟨S1000x10000, .bf16⟩
  | 118 => ⟨S10000x128, .bf16⟩
  | 119 => ⟨S1000x1, .f32⟩
  | 120 => ⟨S1000x1, .f32⟩
  | 121 => ⟨S1000x1, .f32⟩
  | 122 => ⟨S1000x1, .f32⟩
  | 123 => ⟨S1x128, .f32⟩
  | 124 => ⟨S128x256, .bf16⟩
  | 125 => ⟨S1x256, .f32⟩
  | 126 => ⟨S256x256, .bf16⟩
  | 127 => ⟨S1x256, .f32⟩
  | _ => ⟨S10000x10000, .f32⟩

abbrev vmemTy0_1 (i : Nat) : BufTy := match i % 128 with
  | 0 => ⟨S256x1, .bf16⟩
  | 1 => ⟨S1x1, .f32⟩
  | 2 => ⟨S1000x1, .f32⟩
  | 3 => ⟨S1000x1, .f32⟩
  | _ => ⟨S10000x10000, .f32⟩

abbrev vmemTy (i : Nat) : BufTy := match i / 128 with
  | 0 => vmemTy0_0 i
  | 1 => vmemTy0_1 i
  | _ => ⟨S10000x10000, .f32⟩

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S10000x128, .bf16⟩
  | .hbm, ⟨17, _⟩ => ⟨S128x128, .bf16⟩
  | .hbm, ⟨18, _⟩ => ⟨S128x128, .bf16⟩
  | .hbm, ⟨19, _⟩ => ⟨S128x128, .bf16⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S128x256, .bf16⟩
  | .hbm, ⟨25, _⟩ => ⟨S1x256, .f32⟩
  | .hbm, ⟨26, _⟩ => ⟨S256x256, .bf16⟩
  | .hbm, ⟨27, _⟩ => ⟨S1x256, .f32⟩
  | .hbm, ⟨28, _⟩ => ⟨S256x1, .bf16⟩
  | .hbm, ⟨29, _⟩ => ⟨S1x1, .f32⟩
  | .hbm, ⟨30, _⟩ => ⟨S10000x10000, .bf16⟩
  | .hbm, ⟨31, _⟩ => ⟨S10000x128, .bf16⟩
  | .hbm, ⟨32, _⟩ => ⟨S10000x1, .f32⟩
  | .hbm, ⟨33, _⟩ => ⟨S10000x128, .bf16⟩
  | .hbm, ⟨34, _⟩ => ⟨S10000x1, .f32⟩
  | .hbm, ⟨35, _⟩ => ⟨S10000x128, .bf16⟩
  | .hbm, ⟨36, _⟩ => ⟨S10000x1, .f32⟩
  | .hbm, ⟨37, _⟩ => ⟨S10000x10000, .bf16⟩
  | .hbm, ⟨38, _⟩ => ⟨S10000x128, .bf16⟩
  | .hbm, ⟨39, _⟩ => ⟨S10000x1, .f32⟩
  | .hbm, ⟨40, _⟩ => ⟨S10000x128, .bf16⟩
  | .hbm, ⟨41, _⟩ => ⟨S10000x1, .f32⟩
  | .hbm, ⟨42, _⟩ => ⟨S10000x128, .bf16⟩
  | .hbm, ⟨43, _⟩ => ⟨S10000x1, .f32⟩
  | .hbm, ⟨44, _⟩ => ⟨S10000x1, .f32⟩
  | .hbm, ⟨45, _⟩ => ⟨S10000x1, .f32⟩
  | .local _ .vmem, ⟨i, _⟩ => vmemTy i
  | _, _ => ⟨S10000x10000, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v15_0 : Ref sig .tc := ⟨.hbm, 33, rfl⟩
abbrev main_v15_1 : Ref sig .tc := ⟨.hbm, 34, rfl⟩
abbrev main_v16_0 : Ref sig .tc := ⟨.hbm, 35, rfl⟩
abbrev main_v16_1 : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev main_v18_0 : Ref sig .tc := ⟨.hbm, 40, rfl⟩
abbrev main_v18_1 : Ref sig .tc := ⟨.hbm, 41, rfl⟩
abbrev main_v19_0 : Ref sig .tc := ⟨.hbm, 42, rfl⟩
abbrev main_v19_1 : Ref sig .tc := ⟨.hbm, 43, rfl⟩
abbrev main_v20 : Ref sig .tc := ⟨.hbm, 44, rfl⟩
abbrev main_v21 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc2_stg11_0 : Ref sig .tc := ⟨.vmem, 47, rfl⟩
abbrev cc2_stg11_1 : Ref sig .tc := ⟨.vmem, 48, rfl⟩
abbrev cc2_stg12_0 : Ref sig .tc := ⟨.vmem, 49, rfl⟩
abbrev cc2_stg12_1 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg2_0 : Ref sig .tc := ⟨.vmem, 54, rfl⟩
abbrev cc3_stg3_0 : Ref sig .tc := ⟨.vmem, 55, rfl⟩
abbrev cc3_stg4_0 : Ref sig .tc := ⟨.vmem, 56, rfl⟩
abbrev cc3_stg5_0 : Ref sig .tc := ⟨.vmem, 57, rfl⟩
abbrev cc3_stg6_0 : Ref sig .tc := ⟨.vmem, 58, rfl⟩
abbrev cc3_stg7_0 : Ref sig .tc := ⟨.vmem, 59, rfl⟩
abbrev cc3_stg8_0 : Ref sig .tc := ⟨.vmem, 60, rfl⟩
abbrev cc3_stg9_0 : Ref sig .tc := ⟨.vmem, 61, rfl⟩
abbrev cc3_stg10_0 : Ref sig .tc := ⟨.vmem, 62, rfl⟩
abbrev cc3_stg10_1 : Ref sig .tc := ⟨.vmem, 63, rfl⟩
abbrev cc3_stg11_0 : Ref sig .tc := ⟨.vmem, 64, rfl⟩
abbrev cc3_stg11_1 : Ref sig .tc := ⟨.vmem, 65, rfl⟩
abbrev cc3_stg12_0 : Ref sig .tc := ⟨.vmem, 66, rfl⟩
abbrev cc3_stg12_1 : Ref sig .tc := ⟨.vmem, 67, rfl⟩
abbrev cc4_stg0_0 : Ref sig .tc := ⟨.vmem, 68, rfl⟩
abbrev cc4_stg0_1 : Ref sig .tc := ⟨.vmem, 69, rfl⟩
abbrev cc4_stg1_0 : Ref sig .tc := ⟨.vmem, 70, rfl⟩
abbrev cc4_stg2_0 : Ref sig .tc := ⟨.vmem, 71, rfl⟩
abbrev cc4_stg2_1 : Ref sig .tc := ⟨.vmem, 72, rfl⟩
abbrev cc4_stg3_0 : Ref sig .tc := ⟨.vmem, 73, rfl⟩
abbrev cc4_stg4_0 : Ref sig .tc := ⟨.vmem, 74, rfl⟩
abbrev cc4_stg5_0 : Ref sig .tc := ⟨.vmem, 75, rfl⟩
abbrev cc4_stg6_0 : Ref sig .tc := ⟨.vmem, 76, rfl⟩
abbrev cc4_stg7_0 : Ref sig .tc := ⟨.vmem, 77, rfl⟩
abbrev cc4_stg8_0 : Ref sig .tc := ⟨.vmem, 78, rfl⟩
abbrev cc4_stg9_0 : Ref sig .tc := ⟨.vmem, 79, rfl⟩
abbrev cc4_stg10_0 : Ref sig .tc := ⟨.vmem, 80, rfl⟩
abbrev cc4_stg11_0 : Ref sig .tc := ⟨.vmem, 81, rfl⟩
abbrev cc4_stg11_1 : Ref sig .tc := ⟨.vmem, 82, rfl⟩
abbrev cc4_stg12_0 : Ref sig .tc := ⟨.vmem, 83, rfl⟩
abbrev cc4_stg12_1 : Ref sig .tc := ⟨.vmem, 84, rfl⟩
abbrev cc5_stg0_0 : Ref sig .tc := ⟨.vmem, 85, rfl⟩
abbrev cc5_stg0_1 : Ref sig .tc := ⟨.vmem, 86, rfl⟩
abbrev cc5_stg1_0 : Ref sig .tc := ⟨.vmem, 87, rfl⟩
abbrev cc5_stg2_0 : Ref sig .tc := ⟨.vmem, 88, rfl⟩
abbrev cc5_stg2_1 : Ref sig .tc := ⟨.vmem, 89, rfl⟩
abbrev cc5_stg3_0 : Ref sig .tc := ⟨.vmem, 90, rfl⟩
abbrev cc5_stg4_0 : Ref sig .tc := ⟨.vmem, 91, rfl⟩
abbrev cc5_stg5_0 : Ref sig .tc := ⟨.vmem, 92, rfl⟩
abbrev cc5_stg6_0 : Ref sig .tc := ⟨.vmem, 93, rfl⟩
abbrev cc5_stg7_0 : Ref sig .tc := ⟨.vmem, 94, rfl⟩
abbrev cc5_stg8_0 : Ref sig .tc := ⟨.vmem, 95, rfl⟩
abbrev cc5_stg9_0 : Ref sig .tc := ⟨.vmem, 96, rfl⟩
abbrev cc5_stg10_0 : Ref sig .tc := ⟨.vmem, 97, rfl⟩
abbrev cc5_stg11_0 : Ref sig .tc := ⟨.vmem, 98, rfl⟩
abbrev cc5_stg11_1 : Ref sig .tc := ⟨.vmem, 99, rfl⟩
abbrev cc5_stg12_0 : Ref sig .tc := ⟨.vmem, 100, rfl⟩
abbrev cc5_stg12_1 : Ref sig .tc := ⟨.vmem, 101, rfl⟩
abbrev cc6_stg0_0 : Ref sig .tc := ⟨.vmem, 102, rfl⟩
abbrev cc6_stg0_1 : Ref sig .tc := ⟨.vmem, 103, rfl⟩
abbrev cc6_stg1_0 : Ref sig .tc := ⟨.vmem, 104, rfl⟩
abbrev cc6_stg2_0 : Ref sig .tc := ⟨.vmem, 105, rfl⟩
abbrev cc6_stg2_1 : Ref sig .tc := ⟨.vmem, 106, rfl⟩
abbrev cc6_stg3_0 : Ref sig .tc := ⟨.vmem, 107, rfl⟩
abbrev cc6_stg4_0 : Ref sig .tc := ⟨.vmem, 108, rfl⟩
abbrev cc6_stg5_0 : Ref sig .tc := ⟨.vmem, 109, rfl⟩
abbrev cc6_stg6_0 : Ref sig .tc := ⟨.vmem, 110, rfl⟩
abbrev cc6_stg7_0 : Ref sig .tc := ⟨.vmem, 111, rfl⟩
abbrev cc6_stg8_0 : Ref sig .tc := ⟨.vmem, 112, rfl⟩
abbrev cc6_stg9_0 : Ref sig .tc := ⟨.vmem, 113, rfl⟩
abbrev cc6_stg10_0 : Ref sig .tc := ⟨.vmem, 114, rfl⟩
abbrev cc6_stg10_1 : Ref sig .tc := ⟨.vmem, 115, rfl⟩
abbrev cc7_stg0_0 : Ref sig .tc := ⟨.vmem, 116, rfl⟩
abbrev cc7_stg0_1 : Ref sig .tc := ⟨.vmem, 117, rfl⟩
abbrev cc7_stg1_0 : Ref sig .tc := ⟨.vmem, 118, rfl⟩
abbrev cc7_stg2_0 : Ref sig .tc := ⟨.vmem, 119, rfl⟩
abbrev cc7_stg2_1 : Ref sig .tc := ⟨.vmem, 120, rfl⟩
abbrev cc7_stg3_0 : Ref sig .tc := ⟨.vmem, 121, rfl⟩
abbrev cc7_stg3_1 : Ref sig .tc := ⟨.vmem, 122, rfl⟩
abbrev cc7_stg4_0 : Ref sig .tc := ⟨.vmem, 123, rfl⟩
abbrev cc7_stg5_0 : Ref sig .tc := ⟨.vmem, 124, rfl⟩
abbrev cc7_stg6_0 : Ref sig .tc := ⟨.vmem, 125, rfl⟩
abbrev cc7_stg7_0 : Ref sig .tc := ⟨.vmem, 126, rfl⟩
abbrev cc7_stg8_0 : Ref sig .tc := ⟨.vmem, 127, rfl⟩
abbrev cc7_stg9_0 : Ref sig .tc := ⟨.vmem, 128, rfl⟩
abbrev cc7_stg10_0 : Ref sig .tc := ⟨.vmem, 129, rfl⟩
abbrev cc7_stg11_0 : Ref sig .tc := ⟨.vmem, 130, rfl⟩
abbrev cc7_stg11_1 : Ref sig .tc := ⟨.vmem, 131, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31
abbrev cc1_sem12_0 : DmaSem sig := 32
abbrev cc1_sem12_1 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem2_1 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem10_0 : DmaSem sig := 46
abbrev cc2_sem11_0 : DmaSem sig := 47
abbrev cc2_sem11_1 : DmaSem sig := 48
abbrev cc2_sem12_0 : DmaSem sig := 49
abbrev cc2_sem12_1 : DmaSem sig := 50
abbrev cc3_sem0_0 : DmaSem sig := 51
abbrev cc3_sem0_1 : DmaSem sig := 52
abbrev cc3_sem1_0 : DmaSem sig := 53
abbrev cc3_sem2_0 : DmaSem sig := 54
abbrev cc3_sem3_0 : DmaSem sig := 55
abbrev cc3_sem4_0 : DmaSem sig := 56
abbrev cc3_sem5_0 : DmaSem sig := 57
abbrev cc3_sem6_0 : DmaSem sig := 58
abbrev cc3_sem7_0 : DmaSem sig := 59
abbrev cc3_sem8_0 : DmaSem sig := 60
abbrev cc3_sem9_0 : DmaSem sig := 61
abbrev cc3_sem10_0 : DmaSem sig := 62
abbrev cc3_sem10_1 : DmaSem sig := 63
abbrev cc3_sem11_0 : DmaSem sig := 64
abbrev cc3_sem11_1 : DmaSem sig := 65
abbrev cc3_sem12_0 : DmaSem sig := 66
abbrev cc3_sem12_1 : DmaSem sig := 67
abbrev cc4_sem0_0 : DmaSem sig := 68
abbrev cc4_sem0_1 : DmaSem sig := 69
abbrev cc4_sem1_0 : DmaSem sig := 70
abbrev cc4_sem2_0 : DmaSem sig := 71
abbrev cc4_sem2_1 : DmaSem sig := 72
abbrev cc4_sem3_0 : DmaSem sig := 73
abbrev cc4_sem4_0 : DmaSem sig := 74
abbrev cc4_sem5_0 : DmaSem sig := 75
abbrev cc4_sem6_0 : DmaSem sig := 76
abbrev cc4_sem7_0 : DmaSem sig := 77
abbrev cc4_sem8_0 : DmaSem sig := 78
abbrev cc4_sem9_0 : DmaSem sig := 79
abbrev cc4_sem10_0 : DmaSem sig := 80
abbrev cc4_sem11_0 : DmaSem sig := 81
abbrev cc4_sem11_1 : DmaSem sig := 82
abbrev cc4_sem12_0 : DmaSem sig := 83
abbrev cc4_sem12_1 : DmaSem sig := 84
abbrev cc5_sem0_0 : DmaSem sig := 85
abbrev cc5_sem0_1 : DmaSem sig := 86
abbrev cc5_sem1_0 : DmaSem sig := 87
abbrev cc5_sem2_0 : DmaSem sig := 88
abbrev cc5_sem2_1 : DmaSem sig := 89
abbrev cc5_sem3_0 : DmaSem sig := 90
abbrev cc5_sem4_0 : DmaSem sig := 91
abbrev cc5_sem5_0 : DmaSem sig := 92
abbrev cc5_sem6_0 : DmaSem sig := 93
abbrev cc5_sem7_0 : DmaSem sig := 94
abbrev cc5_sem8_0 : DmaSem sig := 95
abbrev cc5_sem9_0 : DmaSem sig := 96
abbrev cc5_sem10_0 : DmaSem sig := 97
abbrev cc5_sem11_0 : DmaSem sig := 98
abbrev cc5_sem11_1 : DmaSem sig := 99
abbrev cc5_sem12_0 : DmaSem sig := 100
abbrev cc5_sem12_1 : DmaSem sig := 101
abbrev cc6_sem0_0 : DmaSem sig := 102
abbrev cc6_sem0_1 : DmaSem sig := 103
abbrev cc6_sem1_0 : DmaSem sig := 104
abbrev cc6_sem2_0 : DmaSem sig := 105
abbrev cc6_sem2_1 : DmaSem sig := 106
abbrev cc6_sem3_0 : DmaSem sig := 107
abbrev cc6_sem4_0 : DmaSem sig := 108
abbrev cc6_sem5_0 : DmaSem sig := 109
abbrev cc6_sem6_0 : DmaSem sig := 110
abbrev cc6_sem7_0 : DmaSem sig := 111
abbrev cc6_sem8_0 : DmaSem sig := 112
abbrev cc6_sem9_0 : DmaSem sig := 113
abbrev cc6_sem10_0 : DmaSem sig := 114
abbrev cc6_sem10_1 : DmaSem sig := 115
abbrev cc7_sem0_0 : DmaSem sig := 116
abbrev cc7_sem0_1 : DmaSem sig := 117
abbrev cc7_sem1_0 : DmaSem sig := 118
abbrev cc7_sem2_0 : DmaSem sig := 119
abbrev cc7_sem2_1 : DmaSem sig := 120
abbrev cc7_sem3_0 : DmaSem sig := 121
abbrev cc7_sem3_1 : DmaSem sig := 122
abbrev cc7_sem4_0 : DmaSem sig := 123
abbrev cc7_sem5_0 : DmaSem sig := 124
abbrev cc7_sem6_0 : DmaSem sig := 125
abbrev cc7_sem7_0 : DmaSem sig := 126
abbrev cc7_sem8_0 : DmaSem sig := 127
abbrev cc7_sem9_0 : DmaSem sig := 128
abbrev cc7_sem10_0 : DmaSem sig := 129
abbrev cc7_sem11_0 : DmaSem sig := 130
abbrev cc7_sem11_1 : DmaSem sig := 131

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x10000 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S400x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S400x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x1 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1000x128 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1000x1 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x1 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S400x10000 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S400x128 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S400x1 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x256 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S256x1 .bf16 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S1000x128 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S1000x1 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x256 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x256 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S256x1 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S1000x128 .bf16 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 2 → Memref sig .tc .vmem S1000x1 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x256 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256x256 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S256x1 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S1000x1 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x256 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S256x256 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x256 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S256x1 .bf16 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x1 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 2 → Memref sig .tc .vmem S1000x1 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

class Facts₀ : Prop where
  bitsLt_bf16_f32 : FTy.bits .bf16 < FTy.bits .f32
  shapeCasts_S128_S1x128 : S128.ShapeCasts S1x128
  shapeCasts_S256_S1x256 : S256.ShapeCasts S1x256
  shapeCasts_S1_S1x1 : S1.ShapeCasts S1x1
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1x256_S1000x256 : S1x256.Broadcasts S1000x256
  broadcasts_S1x1_S1000x1 : S1x1.Broadcasts S1000x1
  inb_S1000x128_S1000x128_0_0 : ∀ a, (![0, 0] : Fin 2 → Nat) a + S1000x128.size a ≤ S1000x128.size a
  h_S1000x128 : 0 < S1000x128.numel
  packedbf16_S1000x128_S1000x128_0_0 : (Rect.unit (s := S1000x128) ![0, 0] S1000x128.size inb_S1000x128_S1000x128_0_0).PackedRows (EltTy.packing .bf16)
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x256_S256x256_S400x256_1_0_0_1_n_n_wf : DotDims.WF S400x256 S256x256 S400x256 [1] [0] [0] [1] [] []
  dot_S400x256_S256x1_S400x1_1_0_0_1_n_n_wf : DotDims.WF S400x256 S256x1 S400x1 [1] [0] [0] [1] [] []
  dot_S400x128_S128x128_S400x128_1_0_0_1_n_n_wf : DotDims.WF S400x128 S128x128 S400x128 [1] [0] [0] [1] [] []
  dot_S1000x10000_S10000x128_S1000x128_1_0_0_1_n_n_wf : DotDims.WF S1000x10000 S10000x128 S1000x128 [1] [0] [0] [1] [] []
  dot_S1000x128_S128x256_S1000x256_1_0_0_1_n_n_wf : DotDims.WF S1000x128 S128x256 S1000x256 [1] [0] [0] [1] [] []
  dot_S1000x256_S256x256_S1000x256_1_0_0_1_n_n_wf : DotDims.WF S1000x256 S256x256 S1000x256 [1] [0] [0] [1] [] []
  dot_S1000x256_S256x1_S1000x1_1_0_0_1_n_n_wf : DotDims.WF S1000x256 S256x1 S1000x1 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .bf16 = 32 ∨ (Rect.block (s := S256x1) S256x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x10000.size a ≤ S10000x10000.size a
  hwx0_10 : ∀ i : grid0.Coords, EltTy.bits .bf16 = 32 ∨ (Rect.block (s := S10000x10000) S400x10000.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x128.size a ≤ S10000x128.size a
  hwx0_11 : ∀ i : grid0.Coords, EltTy.bits .bf16 = 32 ∨ (Rect.block (s := S10000x128) S400x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x1.size a ≤ S10000x1.size a
  hwx0_12 : ∀ i : grid0.Coords, EltTy.bits .f32 = 32 ∨ (Rect.block (s := S10000x1) S400x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S10000x1.size a
  hwx1_2 : ∀ i : grid1.Coords, EltTy.bits .f32 = 32 ∨ (Rect.block (s := S10000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .bf16 = 32 ∨ (Rect.block (s := S128x256) S128x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .bf16 = 32 ∨ (Rect.block (s := S256x256) S256x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S256x1.size a
  hwx1_9 : ∀ i : grid1.Coords, EltTy.bits .bf16 = 32 ∨ (Rect.block (s := S256x1) S256x1.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x128.size a ≤ S10000x128.size a
  hwx1_11 : ∀ i : grid1.Coords, EltTy.bits .bf16 = 32 ∨ (Rect.block (s := S10000x128) S1000x128.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1000x1.size a ≤ S10000x1.size a
  hwx1_12 : ∀ i : grid1.Coords, EltTy.bits .f32 = 32 ∨ (Rect.block (s := S10000x1) S1000x1.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S10000x1.size a
  hwx2_2 : ∀ i : grid2.Coords, EltTy.bits .f32 = 32 ∨ (Rect.block (s := S10000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .bf16 = 32 ∨ (Rect.block (s := S128x256) S128x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .bf16 = 32 ∨ (Rect.block (s := S256x256) S256x256.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x1.size a ≤ S256x1.size a
  hwx2_9 : ∀ i : grid2.Coords, EltTy.bits .bf16 = 32 ∨ (Rect.block (s := S256x1) S256x1.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1000x128.size a ≤ S10000x128.size a
  hwx2_11 : ∀ i : grid2.Coords, EltTy.bits .bf16 = 32 ∨ (Rect.block (s := S10000x128) S1000x128.size (cc2_transform_11 i) (hinb2_11 i)).WholeWords (EltTy.packing .bf16)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1000x1.size a ≤ S10000x1.size a
  hwx2_12 : ∀ i : grid2.Coords, EltTy.bits .f32 = 32 ∨ (Rect.block (s := S10000x1) S1000x1.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .bf16 = 32 ∨ (Rect.block (s := S128x256) S128x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .bf16 = 32 ∨ (Rect.block (s := S256x256) S256x256.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x1.size a ≤ S256x1.size a
  hwx3_8 : ∀ i : grid3.Coords, EltTy.bits .bf16 = 32 ∨ (Rect.block (s := S256x1) S256x1.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S400x10000.size a ≤ S10000x10000.size a
  hwx3_10 : ∀ i : grid3.Coords, EltTy.bits .bf16 = 32 ∨ (Rect.block (s := S10000x10000) S400x10000.size (cc3_transform_10 i) (hinb3_10 i)).WholeWords (EltTy.packing .bf16)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S400x128.size a ≤ S10000x128.size a
  hwx3_11 : ∀ i : grid3.Coords, EltTy.bits .bf16 = 32 ∨ (Rect.block (s := S10000x128) S400x128.size (cc3_transform_11 i) (hinb3_11 i)).WholeWords (EltTy.packing .bf16)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S400x1.size a ≤ S10000x1.size a
  hwx3_12 : ∀ i : grid3.Coords, EltTy.bits .f32 = 32 ∨ (Rect.block (s := S10000x1) S400x1.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x10000.size a ≤ S10000x10000.size a
  hwx4_0 : ∀ i : grid4.Coords, EltTy.bits .bf16 = 32 ∨ (Rect.block (s := S10000x10000) S1000x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x1.size a ≤ S10000x1.size a
  hwx4_2 : ∀ i : grid4.Coords, EltTy.bits .f32 = 32 ∨ (Rect.block (s := S10000x1) S1000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .bf16 = 32 ∨ (Rect.block (s := S128x256) S128x256.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x256.size a ≤ S256x256.size a
  hwx4_7 : ∀ i : grid4.Coords, EltTy.bits .bf16 = 32 ∨ (Rect.block (s := S256x256) S256x256.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x256.size a ≤ S1x256.size a
  hwx4_8 : ∀ i : grid4.Coords, EltTy.bits .f32 = 32 ∨ (Rect.block (s := S1x256) S1x256.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S256x1.size a ≤ S256x1.size a
  hwx4_9 : ∀ i : grid4.Coords, EltTy.bits .bf16 = 32 ∨ (Rect.block (s := S256x1) S256x1.size (cc4_transform_9 i) (hinb4_9 i)).WholeWords (EltTy.packing .bf16)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x1.size a ≤ S1x1.size a
  hwx4_10 : ∀ i : grid4.Coords, EltTy.bits .f32 = 32 ∨ (Rect.block (s := S1x1) S1x1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1000x128.size a ≤ S10000x128.size a
  hwx4_11 : ∀ i : grid4.Coords, EltTy.bits .bf16 = 32 ∨ (Rect.block (s := S10000x128) S1000x128.size (cc4_transform_11 i) (hinb4_11 i)).WholeWords (EltTy.packing .bf16)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S1000x1.size a ≤ S10000x1.size a
  hwx4_12 : ∀ i : grid4.Coords, EltTy.bits .f32 = 32 ∨ (Rect.block (s := S10000x1) S1000x1.size (cc4_transform_12 i) (hinb4_12 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x10000.size a ≤ S10000x10000.size a
  hwx5_0 : ∀ i : grid5.Coords, EltTy.bits .bf16 = 32 ∨ (Rect.block (s := S10000x10000) S1000x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x1.size a ≤ S10000x1.size a
  hwx5_2 : ∀ i : grid5.Coords, EltTy.bits .f32 = 32 ∨ (Rect.block (s := S10000x1) S1000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .bf16 = 32 ∨ (Rect.block (s := S128x128) S128x128.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x256.size a ≤ S128x256.size a
  hwx5_5 : ∀ i : grid5.Coords, EltTy.bits .bf16 = 32 ∨ (Rect.block (s := S128x256) S128x256.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x256.size a ≤ S256x256.size a
  hwx5_7 : ∀ i : grid5.Coords, EltTy.bits .bf16 = 32 ∨ (Rect.block (s := S256x256) S256x256.size (cc5_transform_7 i) (hinb5_7 i)).WholeWords (EltTy.packing .bf16)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x256.size a ≤ S1x256.size a
  hwx5_8 : ∀ i : grid5.Coords, EltTy.bits .f32 = 32 ∨ (Rect.block (s := S1x256) S1x256.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S256x1.size a ≤ S256x1.size a
  hwx5_9 : ∀ i : grid5.Coords, EltTy.bits .bf16 = 32 ∨ (Rect.block (s := S256x1) S256x1.size (cc5_transform_9 i) (hinb5_9 i)).WholeWords (EltTy.packing .bf16)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x1.size a ≤ S1x1.size a
  hwx5_10 : ∀ i : grid5.Coords, EltTy.bits .f32 = 32 ∨ (Rect.block (s := S1x1) S1x1.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S1000x128.size a ≤ S10000x128.size a
  hwx5_11 : ∀ i : grid5.Coords, EltTy.bits .bf16 = 32 ∨ (Rect.block (s := S10000x128) S1000x128.size (cc5_transform_11 i) (hinb5_11 i)).WholeWords (EltTy.packing .bf16)
  hstage5_12 : ∀ j, (stage5_12 j).IsWhole
  nbuf5_12 : grid5.bufCount reads5_12 false = 2
  hreads5_12 : ∀ i i' : grid5.Coords, (∀ a, reads5_12 a = true → i a = i' a) → cc5_transform_12 i = cc5_transform_12 i'
  hinb5_12 : ∀ (i : grid5.Coords) a, (cc5_transform_12 i a + 1) * S1000x1.size a ≤ S10000x1.size a
  hwx5_12 : ∀ i : grid5.Coords, EltTy.bits .f32 = 32 ∨ (Rect.block (s := S10000x1) S1000x1.size (cc5_transform_12 i) (hinb5_12 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x10000.size a ≤ S10000x10000.size a
  hwx6_0 : ∀ i : grid6.Coords, EltTy.bits .bf16 = 32 ∨ (Rect.block (s := S10000x10000) S1000x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S10000x128.size a
  hwx6_1 : ∀ i : grid6.Coords, EltTy.bits .bf16 = 32 ∨ (Rect.block (s := S10000x128) S10000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x1.size a ≤ S10000x1.size a
  hwx6_2 : ∀ i : grid6.Coords, EltTy.bits .f32 = 32 ∨ (Rect.block (s := S10000x1) S1000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x256.size a ≤ S128x256.size a
  hwx6_4 : ∀ i : grid6.Coords, EltTy.bits .bf16 = 32 ∨ (Rect.block (s := S128x256) S128x256.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256x256.size a ≤ S256x256.size a
  hwx6_6 : ∀ i : grid6.Coords, EltTy.bits .bf16 = 32 ∨ (Rect.block (s := S256x256) S256x256.size (cc6_transform_6 i) (hinb6_6 i)).WholeWords (EltTy.packing .bf16)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S256x1.size a ≤ S256x1.size a
  hwx6_8 : ∀ i : grid6.Coords, EltTy.bits .bf16 = 32 ∨ (Rect.block (s := S256x1) S256x1.size (cc6_transform_8 i) (hinb6_8 i)).WholeWords (EltTy.packing .bf16)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x1.size a ≤ S1x1.size a
  hwx6_9 : ∀ i : grid6.Coords, EltTy.bits .f32 = 32 ∨ (Rect.block (s := S1x1) S1x1.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S1000x1.size a ≤ S10000x1.size a
  hwx6_10 : ∀ i : grid6.Coords, EltTy.bits .f32 = 32 ∨ (Rect.block (s := S10000x1) S1000x1.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x10000.size a ≤ S10000x10000.size a
  hwx7_0 : ∀ i : grid7.Coords, EltTy.bits .bf16 = 32 ∨ (Rect.block (s := S10000x10000) S1000x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S10000x128.size a
  hwx7_1 : ∀ i : grid7.Coords, EltTy.bits .bf16 = 32 ∨ (Rect.block (s := S10000x128) S10000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x1.size a ≤ S10000x1.size a
  hwx7_2 : ∀ i : grid7.Coords, EltTy.bits .f32 = 32 ∨ (Rect.block (s := S10000x1) S1000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x1.size a ≤ S10000x1.size a
  hwx7_3 : ∀ i : grid7.Coords, EltTy.bits .f32 = 32 ∨ (Rect.block (s := S10000x1) S1000x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x256.size a ≤ S128x256.size a
  hwx7_5 : ∀ i : grid7.Coords, EltTy.bits .bf16 = 32 ∨ (Rect.block (s := S128x256) S128x256.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S256x256.size a ≤ S256x256.size a
  hwx7_7 : ∀ i : grid7.Coords, EltTy.bits .bf16 = 32 ∨ (Rect.block (s := S256x256) S256x256.size (cc7_transform_7 i) (hinb7_7 i)).WholeWords (EltTy.packing .bf16)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x256.size a ≤ S1x256.size a
  hwx7_8 : ∀ i : grid7.Coords, EltTy.bits .f32 = 32 ∨ (Rect.block (s := S1x256) S1x256.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S256x1.size a ≤ S256x1.size a
  hwx7_9 : ∀ i : grid7.Coords, EltTy.bits .bf16 = 32 ∨ (Rect.block (s := S256x1) S256x1.size (cc7_transform_9 i) (hinb7_9 i)).WholeWords (EltTy.packing .bf16)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x1.size a ≤ S1x1.size a
  hwx7_10 : ∀ i : grid7.Coords, EltTy.bits .f32 = 32 ∨ (Rect.block (s := S1x1) S1x1.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S1000x1.size a ≤ S10000x1.size a
  hwx7_11 : ∀ i : grid7.Coords, EltTy.bits .f32 = 32 ∨ (Rect.block (s := S10000x1) S1000x1.size (cc7_transform_11 i) (hinb7_11 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x1_S400x1_1_0_0_1_n_n : DotDims S400x256 S256x1 S400x1 where
  lhsContracting := [1]
  rhsContracting := [0]
  lhsNonContracting := [0]
  rhsNonContracting := [1]
  lhsBatch := []
  rhsBatch := []
  wf := dot_S400x256_S256x1_S400x1_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14_0) S400x10000.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_1) S400x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14_2) S400x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v14_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_2) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S256x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v13) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v15_0) S1000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v15_1) S1000x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v14_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15_1) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v12) S256x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v13) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v16_0) S1000x128.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v16_1) S1000x1.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v8) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v10) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v11) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v12) S256x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v13) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v17_0) S400x10000.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v17_1) S400x128.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v17_2) S400x1.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v17_0) S1000x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17_1) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17_2) S1000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v2) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v8) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v9) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v10) S256x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v11) S1x256.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v12) S256x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v13) S1x1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v18_0) S1000x128.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v18_1) S1000x1.size cc4_transform_12 reads4_12 true false 2 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

abbrev win5_0 : Pipeline.Window sig grid5 :=
  Pipeline.Window.ofSpec (Memref.whole main_v17_0) S1000x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18_0) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v18_1) S1000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v6) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v3) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v8) S128x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v9) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v10) S256x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v11) S1x256.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v12) S256x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v13) S1x1.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v19_0) S1000x128.size cc5_transform_11 reads5_11 true false 2 stage5_11 sem5_11
    hrank5 hreads5_11 hinb5_11 nbuf5_11 (Memref.isWhole_whole _) hwx5_11 hstage5_11

abbrev win5_12 : Pipeline.Window sig grid5 :=
  Pipeline.Window.ofSpec (Memref.whole main_v19_1) S1000x1.size cc5_transform_12 reads5_12 true false 2 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

abbrev win6_0 : Pipeline.Window sig grid6 :=
  Pipeline.Window.ofSpec (Memref.whole main_v14_0) S1000x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16_0) S10000x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v16_1) S1000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v7) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v8) S128x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v9) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v10) S256x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v11) S1x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v12) S256x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v13) S1x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v20) S1000x1.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v17_0) S1000x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v19_0) S10000x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v19_1) S1000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v20) S1000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v7) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v8) S128x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v9) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v10) S256x256.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v11) S1x256.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v12) S256x1.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v13) S1x1.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v21) S1000x1.size cc7_transform_11 reads7_11 true false 2 stage7_11 sem7_11
    hrank7 hreads7_11 hinb7_11 nbuf7_11 (Memref.isWhole_whole _) hwx7_11 hstage7_11

abbrev win7 : Fin 12 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | ⟨_ + 12, h⟩ => absurd h (Nat.not_lt.2 (Nat.le_add_left _ _))
abbrev spec7 : Fin 12 → Pipeline.WinSpec sig grid7.rank := fun w => (win7 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S1x1 : Shape := ⟨2, ![1, 1]⟩

abbrev nBuf : Space → Nat
  | .hbm => 289
  | .vmem => 0
  | .smem => 0
  | _ => 0

abbrev hbmTy0_0 (i : Nat) : BufTy := match i % 128 with
  | 0 => ⟨S10000x10000, .f32⟩
  | 1 => ⟨S10000x10000, .f32⟩
  | 2 => ⟨S10000x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x256, .f32⟩
  | 11 => ⟨S256, .f32⟩
  | 12 => ⟨S256x256, .f32⟩
  | 13 => ⟨S256, .f32⟩
  | 14 => ⟨S256x1, .f32⟩
  | 15 => ⟨S1, .f32⟩
  | 16 => ⟨S10000x128, .f32⟩
  | 17 => ⟨S1x128, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S10000x128, .f32⟩
  | 24 => ⟨S_, .f32⟩
  | 25 => ⟨S10000, .f32⟩
  | 26 => ⟨S10000x1, .f32⟩
  | 27 => ⟨S10000x1, .f32⟩
  | 28 => ⟨S_, .f32⟩
  | 29 => ⟨S10000x1, .f32⟩
  | 30 => ⟨S10000x1, .f32⟩
  | 31 => ⟨S10000x128, .f32⟩
  | 32 => ⟨S10000x128, .f32⟩
  | 33 => ⟨S10000x128, .f32⟩
  | 34 => ⟨S10000x128, .f32⟩
  | 35 => ⟨S1x128, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S10000x128, .f32⟩
  | 42 => ⟨S_, .f32⟩
  | 43 => ⟨S10000, .f32⟩
  | 44 => ⟨S10000x1, .f32⟩
  | 45 => ⟨S10000x1, .f32⟩
  | 46 => ⟨S_, .f32⟩
  | 47 => ⟨S10000x1, .f32⟩
  | 48 => ⟨S10000x1, .f32⟩
  | 49 => ⟨S10000x128, .f32⟩
  | 50 => ⟨S10000x128, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S10000x128, .f32⟩
  | 60 => ⟨S_, .f32⟩
  | 61 => ⟨S10000, .f32⟩
  | 62 => ⟨S10000x1, .f32⟩
  | 63 => ⟨S10000x1, .f32⟩
  | 64 => ⟨S_, .f32⟩
  | 65 => ⟨S10000x1, .f32⟩
  | 66 => ⟨S10000x1, .f32⟩
  | 67 => ⟨S10000x128, .f32⟩
  | 68 => ⟨S10000x128, .f32⟩
  | 69 => ⟨S10000x128, .f32⟩
  | 70 => ⟨S10000x128, .f32⟩
  | 71 => ⟨S1x128, .f32⟩
  | 72 => ⟨S10000x128, .f32⟩
  | 73 => ⟨S10000x128, .f32⟩
  | 74 => ⟨S_, .f32⟩
  | 75 => ⟨S10000x128, .f32⟩
  | 76 => ⟨S10000x128, .f32⟩
  | 77 => ⟨S10000x256, .f32⟩
  | 78 => ⟨S1x256, .f32⟩
  | 79 => ⟨S10000x256, .f32⟩
  | 80 => ⟨S10000x256, .f32⟩
  | 81 => ⟨S_, .f32⟩
  | 82 => ⟨S10000x256, .f32⟩
  | 83 => ⟨S10000x256, .f32⟩
  | 84 => ⟨S10000x256, .f32⟩
  | 85 => ⟨S1x256, .f32⟩
  | 86 => ⟨S10000x256, .f32⟩
  | 87 => ⟨S10000x256, .f32⟩
  | 88 => ⟨S_, .f32⟩
  | 89 => ⟨S10000x256, .f32⟩
  | 90 => ⟨S10000x256, .f32⟩
  | 91 => ⟨S10000x1, .f32⟩
  | 92 => ⟨S1x1, .f32⟩
  | 93 => ⟨S10000x1, .f32⟩
  | 94 => ⟨S10000x1, .f32⟩
  | 95 => ⟨S10000x256, .f32⟩
  | 96 => ⟨S1x256, .f32⟩
  | 97 => ⟨S10000x256, .f32⟩
  | 98 => ⟨S10000x256, .f32⟩
  | 99 => ⟨S_, .f32⟩
  | 100 => ⟨S10000x256, .f32⟩
  | 101 => ⟨S10000x256, .f32⟩
  | 102 => ⟨S10000x256, .f32⟩
  | 103 => ⟨S1x256, .f32⟩
  | 104 => ⟨S10000x256, .f32⟩
  | 105 => ⟨S10000x256, .f32⟩
  | 106 => ⟨S_, .f32⟩
  | 107 => ⟨S10000x256, .f32⟩
  | 108 => ⟨S10000x256, .f32⟩
  | 109 => ⟨S10000x1, .f32⟩
  | 110 => ⟨S1x1, .f32⟩
  | 111 => ⟨S10000x1, .f32⟩
  | 112 => ⟨S10000x1, .f32⟩
  | 113 => ⟨S10000x1, .f32⟩
  | 114 => ⟨S10000x256, .f32⟩
  | 115 => ⟨S1x256, .f32⟩
  | 116 => ⟨S10000x256, .f32⟩
  | 117 => ⟨S10000x256, .f32⟩
  | 118 => ⟨S_, .f32⟩
  | 119 => ⟨S10000x256, .f32⟩
  | 120 => ⟨S10000x256, .f32⟩
  | 121 => ⟨S10000x256, .f32⟩
  | 122 => ⟨S1x256, .f32⟩
  | 123 => ⟨S10000x256, .f32⟩
  | 124 => ⟨S10000x256, .f32⟩
  | 125 => ⟨S_, .f32⟩
  | 126 => ⟨S10000x256, .f32⟩
  | 127 => ⟨S10000x256, .f32⟩
  | _ => ⟨S10000x10000, .f32⟩

abbrev hbmTy0_1 (i : Nat) : BufTy := match i % 128 with
  | 0 => ⟨S10000x1, .f32⟩
  | 1 => ⟨S1x1, .f32⟩
  | 2 => ⟨S10000x1, .f32⟩
  | 3 => ⟨S10000x1, .f32⟩
  | 4 => ⟨S10000x1, .f32⟩
  | 5 => ⟨S10000x256, .f32⟩
  | 6 => ⟨S1x256, .f32⟩
  | 7 => ⟨S10000x256, .f32⟩
  | 8 => ⟨S10000x256, .f32⟩
  | 9 => ⟨S_, .f32⟩
  | 10 => ⟨S10000x256, .f32⟩
  | 11 => ⟨S10000x256, .f32⟩
  | 12 => ⟨S10000x256, .f32⟩
  | 13 => ⟨S1x256, .f32⟩
  | 14 => ⟨S10000x256, .f32⟩
  | 15 => ⟨S10000x256, .f32⟩
  | 16 => ⟨S_, .f32⟩
  | 17 => ⟨S10000x256, .f32⟩
  | 18 => ⟨S10000x256, .f32⟩
  | 19 => ⟨S10000x1, .f32⟩
  | 20 => ⟨S1x1, .f32⟩
  | 21 => ⟨S10000x1, .f32⟩
  | 22 => ⟨S10000x1, .f32⟩
  | 23 => ⟨S10000x1, .f32⟩
  | 24 => ⟨S10000x128, .f32⟩
  | 25 => ⟨S1x128, .f32⟩
  | 26 => ⟨S10000x128, .f32⟩
  | 27 => ⟨S10000x128, .f32⟩
  | 28 => ⟨S_, .f32⟩
  | 29 => ⟨S10000x128, .f32⟩
  | 30 => ⟨S10000x128, .f32⟩
  | 31 => ⟨S10000x128, .f32⟩
  | 32 => ⟨S_, .f32⟩
  | 33 => ⟨S10000, .f32⟩
  | 34 => ⟨S10000x1, .f32⟩
  | 35 => ⟨S10000x1, .f32⟩
  | 36 => ⟨S_, .f32⟩
  | 37 => ⟨S10000x1, .f32⟩
  | 38 => ⟨S10000x1, .f32⟩
  | 39 => ⟨S10000x128, .f32⟩
  | 40 => ⟨S10000x128, .f32⟩
  | 41 => ⟨S10000x128, .f32⟩
  | 42 => ⟨S10000x128, .f32⟩
  | 43 => ⟨S1x128, .f32⟩
  | 44 => ⟨S10000x128, .f32⟩
  | 45 => ⟨S10000x128, .f32⟩
  | 46 => ⟨S_, .f32⟩
  | 47 => ⟨S10000x128, .f32⟩
  | 48 => ⟨S10000x128, .f32⟩
  | 49 => ⟨S10000x128, .f32⟩
  | 50 => ⟨S_, .f32⟩
  | 51 => ⟨S10000, .f32⟩
  | 52 => ⟨S10000x1, .f32⟩
  | 53 => ⟨S10000x1, .f32⟩
  | 54 => ⟨S_, .f32⟩
  | 55 => ⟨S10000x1, .f32⟩
  | 56 => ⟨S10000x1, .f32⟩
  | 57 => ⟨S10000x128, .f32⟩
  | 58 => ⟨S10000x128, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S_, .f32⟩
  | 65 => ⟨S10000x128, .f32⟩
  | 66 => ⟨S10000x128, .f32⟩
  | 67 => ⟨S10000x128, .f32⟩
  | 68 => ⟨S_, .f32⟩
  | 69 => ⟨S10000, .f32⟩
  | 70 => ⟨S10000x1, .f32⟩
  | 71 => ⟨S10000x1, .f32⟩
  | 72 => ⟨S_, .f32⟩
  | 73 => ⟨S10000x1, .f32⟩
  | 74 => ⟨S10000x1, .f32⟩
  | 75 => ⟨S10000x128, .f32⟩
  | 76 => ⟨S10000x128, .f32⟩
  | 77 => ⟨S10000x128, .f32⟩
  | 78 => ⟨S10000x128, .f32⟩
  | 79 => ⟨S1x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S10000x256, .f32⟩
  | 86 => ⟨S1x256, .f32⟩
  | 87 => ⟨S10000x256, .f32⟩
  | 88 => ⟨S10000x256, .f32⟩
  | 89 => ⟨S_, .f32⟩
  | 90 => ⟨S10000x256, .f32⟩
  | 91 => ⟨S10000x256, .f32⟩
  | 92 => ⟨S10000x256, .f32⟩
  | 93 => ⟨S1x256, .f32⟩
  | 94 => ⟨S10000x256, .f32⟩
  | 95 => ⟨S10000x256, .f32⟩
  | 96 => ⟨S_, .f32⟩
  | 97 => ⟨S10000x256, .f32⟩
  | 98 => ⟨S10000x256, .f32⟩
  | 99 => ⟨S10000x1, .f32⟩
  | 100 => ⟨S1x1, .f32⟩
  | 101 => ⟨S10000x1, .f32⟩
  | 102 => ⟨S10000x1, .f32⟩
  | 103 => ⟨S10000x256, .f32⟩
  | 104 => ⟨S1x256, .f32⟩
  | 105 => ⟨S10000x256, .f32⟩
  | 106 => ⟨S10000x256, .f32⟩
  | 107 => ⟨S_, .f32⟩
  | 108 => ⟨S10000x256, .f32⟩
  | 109 => ⟨S10000x256, .f32⟩
  | 110 => ⟨S10000x256, .f32⟩
  | 111 => ⟨S1x256, .f32⟩
  | 112 => ⟨S10000x256, .f32⟩
  | 113 => ⟨S10000x256, .f32⟩
  | 114 => ⟨S_, .f32⟩
  | 115 => ⟨S10000x256, .f32⟩
  | 116 => ⟨S10000x256, .f32⟩
  | 117 => ⟨S10000x1, .f32⟩
  | 118 => ⟨S1x1, .f32⟩
  | 119 => ⟨S10000x1, .f32⟩
  | 120 => ⟨S10000x1, .f32⟩
  | 121 => ⟨S10000x1, .f32⟩
  | 122 => ⟨S10000x256, .f32⟩
  | 123 => ⟨S1x256, .f32⟩
  | 124 => ⟨S10000x256, .f32⟩
  | 125 => ⟨S10000x256, .f32⟩
  | 126 => ⟨S_, .f32⟩
  | 127 => ⟨S10000x256, .f32⟩
  | _ => ⟨S10000x10000, .f32⟩

abbrev hbmTy0_2 (i : Nat) : BufTy := match i % 128 with
  | 0 => ⟨S10000x256, .f32⟩
  | 1 => ⟨S10000x256, .f32⟩
  | 2 => ⟨S1x256, .f32⟩
  | 3 => ⟨S10000x256, .f32⟩
  | 4 => ⟨S10000x256, .f32⟩
  | 5 => ⟨S_, .f32⟩
  | 6 => ⟨S10000x256, .f32⟩
  | 7 => ⟨S10000x256, .f32⟩
  | 8 => ⟨S10000x1, .f32⟩
  | 9 => ⟨S1x1, .f32⟩
  | 10 => ⟨S10000x1, .f32⟩
  | 11 => ⟨S10000x1, .f32⟩
  | 12 => ⟨S10000x1, .f32⟩
  | 13 => ⟨S10000x256, .f32⟩
  | 14 => ⟨S1x256, .f32⟩
  | 15 => ⟨S10000x256, .f32⟩
  | 16 => ⟨S10000x256, .f32⟩
  | 17 => ⟨S_, .f32⟩
  | 18 => ⟨S10000x256, .f32⟩
  | 19 => ⟨S10000x256, .f32⟩
  | 20 => ⟨S10000x256, .f32⟩
  | 21 => ⟨S1x256, .f32⟩
  | 22 => ⟨S10000x256, .f32⟩
  | 23 => ⟨S10000x256, .f32⟩
  | 24 => ⟨S_, .f32⟩
  | 25 => ⟨S10000x256, .f32⟩
  | 26 => ⟨S10000x256, .f32⟩
  | 27 => ⟨S10000x1, .f32⟩
  | 28 => ⟨S1x1, .f32⟩
  | 29 => ⟨S10000x1, .f32⟩
  | 30 => ⟨S10000x1, .f32⟩
  | 31 => ⟨S10000x1, .f32⟩
  | 32 => ⟨S10000x1, .f32⟩
  | _ => ⟨S10000x10000, .f32⟩

abbrev hbmTy (i : Nat) : BufTy := match i / 128 with
  | 0 => hbmTy0_0 i
  | 1 => hbmTy0_1 i
  | 2 => hbmTy0_2 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_call3_v0 : Ref sig .tc := ⟨.hbm, 41, rfl⟩
abbrev main_call3_cst : Ref sig .tc := ⟨.hbm, 42, rfl⟩
abbrev main_call3_v1 : Ref sig .tc := ⟨.hbm, 43, rfl⟩
abbrev main_call3_v2 : Ref sig .tc := ⟨.hbm, 44, rfl⟩
abbrev main_v16 : Ref sig .tc := ⟨.hbm, 45, rfl⟩
abbrev main_cst_0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call4_cst : Ref sig .tc := ⟨.hbm, 56, rfl⟩
abbrev main_call4_v0 : Ref sig .tc := ⟨.hbm, 57, rfl⟩
abbrev main_v26 : Ref sig .tc := ⟨.hbm, 58, rfl⟩
abbrev main_call5_v0 : Ref sig .tc := ⟨.hbm, 59, rfl⟩
abbrev main_call5_cst : Ref sig .tc := ⟨.hbm, 60, rfl⟩
abbrev main_call5_v1 : Ref sig .tc := ⟨.hbm, 61, rfl⟩
abbrev main_call5_v2 : Ref sig .tc := ⟨.hbm, 62, rfl⟩
abbrev main_v27 : Ref sig .tc := ⟨.hbm, 63, rfl⟩
abbrev main_cst_1 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call6_cst : Ref sig .tc := ⟨.hbm, 74, rfl⟩
abbrev main_call6_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call7_cst : Ref sig .tc := ⟨.hbm, 81, rfl⟩
abbrev main_call7_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call8_cst : Ref sig .tc := ⟨.hbm, 88, rfl⟩
abbrev main_call8_v0 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_call9_cst : Ref sig .tc := ⟨.hbm, 99, rfl⟩
abbrev main_call9_v0 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_call10_cst : Ref sig .tc := ⟨.hbm, 106, rfl⟩
abbrev main_call10_v0 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_call11_cst : Ref sig .tc := ⟨.hbm, 118, rfl⟩
abbrev main_call11_v0 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_call12_cst : Ref sig .tc := ⟨.hbm, 125, rfl⟩
abbrev main_call12_v0 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_call13_cst : Ref sig .tc := ⟨.hbm, 137, rfl⟩
abbrev main_call13_v0 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_call14_cst : Ref sig .tc := ⟨.hbm, 144, rfl⟩
abbrev main_call14_v0 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_call15_cst : Ref sig .tc := ⟨.hbm, 156, rfl⟩
abbrev main_call15_v0 : Ref sig .tc := ⟨.hbm, 157, rfl⟩
abbrev main_v101 : Ref sig .tc := ⟨.hbm, 158, rfl⟩
abbrev main_call16_v0 : Ref sig .tc := ⟨.hbm, 159, rfl⟩
abbrev main_call16_cst : Ref sig .tc := ⟨.hbm, 160, rfl⟩
abbrev main_call16_v1 : Ref sig .tc := ⟨.hbm, 161, rfl⟩
abbrev main_call16_v2 : Ref sig .tc := ⟨.hbm, 162, rfl⟩
abbrev main_v102 : Ref sig .tc := ⟨.hbm, 163, rfl⟩
abbrev main_cst_2 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_call17_cst : Ref sig .tc := ⟨.hbm, 174, rfl⟩
abbrev main_call17_v0 : Ref sig .tc := ⟨.hbm, 175, rfl⟩
abbrev main_v112 : Ref sig .tc := ⟨.hbm, 176, rfl⟩
abbrev main_call18_v0 : Ref sig .tc := ⟨.hbm, 177, rfl⟩
abbrev main_call18_cst : Ref sig .tc := ⟨.hbm, 178, rfl⟩
abbrev main_call18_v1 : Ref sig .tc := ⟨.hbm, 179, rfl⟩
abbrev main_call18_v2 : Ref sig .tc := ⟨.hbm, 180, rfl⟩
abbrev main_v113 : Ref sig .tc := ⟨.hbm, 181, rfl⟩
abbrev main_cst_3 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_call19_cst : Ref sig .tc := ⟨.hbm, 192, rfl⟩
abbrev main_call19_v0 : Ref sig .tc := ⟨.hbm, 193, rfl⟩
abbrev main_v123 : Ref sig .tc := ⟨.hbm, 194, rfl⟩
abbrev main_call20_v0 : Ref sig .tc := ⟨.hbm, 195, rfl⟩
abbrev main_call20_cst : Ref sig .tc := ⟨.hbm, 196, rfl⟩
abbrev main_call20_v1 : Ref sig .tc := ⟨.hbm, 197, rfl⟩
abbrev main_call20_v2 : Ref sig .tc := ⟨.hbm, 198, rfl⟩
abbrev main_v124 : Ref sig .tc := ⟨.hbm, 199, rfl⟩
abbrev main_cst_4 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_call21_cst : Ref sig .tc := ⟨.hbm, 210, rfl⟩
abbrev main_call21_v0 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_call22_cst : Ref sig .tc := ⟨.hbm, 217, rfl⟩
abbrev main_call22_v0 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_call23_cst : Ref sig .tc := ⟨.hbm, 224, rfl⟩
abbrev main_call23_v0 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_call24_cst : Ref sig .tc := ⟨.hbm, 235, rfl⟩
abbrev main_call24_v0 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_call25_cst : Ref sig .tc := ⟨.hbm, 242, rfl⟩
abbrev main_call25_v0 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_call26_cst : Ref sig .tc := ⟨.hbm, 254, rfl⟩
abbrev main_call26_v0 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_call27_cst : Ref sig .tc := ⟨.hbm, 261, rfl⟩
abbrev main_call27_v0 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_call28_cst : Ref sig .tc := ⟨.hbm, 273, rfl⟩
abbrev main_call28_v0 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_call29_cst : Ref sig .tc := ⟨.hbm, 280, rfl⟩
abbrev main_call29_v0 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  dot_S10000x256_S256x256_S10000x256_1_0_0_1_n_n_wf : DotDims.WF S10000x256 S256x256 S10000x256 [1] [0] [0] [1] [] []
  dot_S10000x256_S256x1_S10000x1_1_0_0_1_n_n_wf : DotDims.WF S10000x256 S256x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«103950_g67688684585008_cont_9to1c4b_879_14_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.KerOps.lean ====
/-
  The vector unit's operations of a row block, read entry by entry on the extended reals: a bias row repeated down the
  block; a product of the block with a whole matrix; a row's sum kept as a column; a column repeated across the block.
  Each reads, at entry `(p, q)` of the block, a quantity of row `p` of the block alone.
-/
import proofs.«103950_g67688684585008_cont_9to1c4b_879_14_alg».proof.Proof.LibRows
import proofs.«103950_g67688684585008_cont_9to1c4b_879_14_alg».proof.Proof.LibCols
import Idealize.ShloMosaic.PureOps.Ideal.Laws
import Idealize.ShloMosaic.Lib.Pipeline.Value
import Idealize.ShloMosaic.Lib.ValueIdx
import Idealize.ShloMosaic.Lib.ValueLayout

noncomputable section

namespace Cert.KerOps

open Idealize.ShloMosaic Idealize.ShloMosaic.ValueIdx

/-- A `[1, N]` row, cast to its own shape and repeated down `M` rows, reads its entry `c` at `(p, c)`. -/
theorem biasRow_apply {α : Type} {M N : Nat} (v : (⟨2, ![1, N]⟩ : Shape).Idx → α)
    (h1 : (⟨2, ![1, N]⟩ : Shape).ShapeCasts ⟨2, ![1, N]⟩) (h2 : (⟨2, ![1, N]⟩ : Shape).Broadcasts ⟨2, ![M, N]⟩)
    (p : Fin M) (c : Fin N) :
    broadcastTo ⟨2, ![M, N]⟩ (shapeCast ⟨2, ![1, N]⟩ v h1) h2 (ix2 p c) = v (ix2 (0 : Fin 1) c) := by
  rw [shapeCast_self, broadcastTo_1b_ab_apply]

/-- A block times a whole matrix (cast to its own shape), into a zero accumulator: entry `(p, q)` is the sum over the
    contraction index of row `p` of the block against column `q` of the matrix. -/
theorem matmulCast_apply {M K N : Nat} {φ₁ φ₂ : FTy} (D : DotDims ⟨2, ![M, K]⟩ ⟨2, ![K, N]⟩ ⟨2, ![M, N]⟩)
    (hD : D = DotDims.plain M K N) (l : FVec Ideal ⟨2, ![M, K]⟩ φ₁) (r : FVec Ideal ⟨2, ![K, N]⟩ φ₂)
    (h : (⟨2, ![K, N]⟩ : Shape).ShapeCasts ⟨2, ![K, N]⟩) (p : Fin M) (q : Fin N) :
    matmul D none l (shapeCast ⟨2, ![K, N]⟩ r h) (constant ⟨2, ![M, N]⟩ .f32 0x00000000#32) (ix2 p q)
      = ∑ i : Fin K, l (ix2 p i) * r (ix2 i q) := by
  rw [shapeCast_self]
  exact Cert.LibRows.matmul_plain_apply D hD none l r p q

/-- A row sum kept as a column: entry `(p, 0)` is the sum of row `p`. -/
theorem rowSumKeep_apply {M N : Nat} (src : FVec Ideal ⟨2, ![M, N]⟩ .f32)
    (h : (⟨2, ![M, N]⟩ : Shape).Reduces [1] ⟨1, ![M]⟩) (hc : (⟨1, ![M]⟩ : Shape).ShapeCasts ⟨2, ![M, 1]⟩)
    (p : Fin M) (u : Fin 1) :
    shapeCast ⟨2, ![M, 1]⟩ (multiReduction .add [1] ⟨1, ![M]⟩ src 0x00000000#32 h (.inl rfl) rfl) hc (ix2 p u)
      = ∑ k : Fin N, src (ix2 p k) := by
  rw [Cert.LibCols.shapeCast_a_a1_apply]
  refine (Ideal.multiReduction_add_single src 0x00000000#32 h (.inl rfl) rfl (ix1 p)).trans ?_
  exact Finset.sum_congr rfl fun k _ => congrArg src (funext fun a => by
    match a with
    | ⟨0, _⟩ => rfl
    | ⟨1, _⟩ => rfl)

/-- Row `p` of a matrix given on shape indices. -/
def row {M N : Nat} (x : (⟨2, ![M, N]⟩ : Shape).Idx → EReal) (p : Fin M) : Fin N → EReal := fun j => x (ix2 p j)
/-- A one-row matrix as a vector. -/
def rvec {N : Nat} (x : (⟨2, ![1, N]⟩ : Shape).Idx → EReal) : Fin N → EReal := fun c => x (ix2 (0 : Fin 1) c)

/-- The square root of a vector, at an entry. -/
theorem sqrt_apply {s : Shape} {φ : FTy} (a : FVec Ideal s φ) (i : s.Idx) : sqrt a i = Ideal.sqrt (a i) := rfl

end Cert.KerOps

end
-- ==== Proof.Spec.lean ====
/-
  The network both programs compute, row by row, on the extended reals. A node's feature row is a dense layer of
  its adjacency row, rectified, and (for the first three layers) divided by its Euclidean length floored at a small
  constant; the next layer's dense weights are the previous layer's features times a square matrix; each layer's
  features are scored by a three-layer perceptron, the four scores are added in order, and the two graphs' totals
  are multiplied. Everything here is a function of rows: entry `q` of row `i` of any layer depends on row `i` of
  the adjacency matrix and on whole smaller matrices only, which is why a computation cut into row blocks and the
  whole-matrix computation agree entry by entry.
-/
import Idealize.ShloMosaic.PureOps.Ideal
import Idealize.ShloMosaic.Lib.ValueIdx

noncomputable section

namespace Cert.Spec

open Idealize.ShloMosaic Idealize.ShloMosaic.ValueIdx

/-- A matrix given on shape indices, as a function of its row and column. -/
def mat {a b : Nat} (X : (⟨2, ![a, b]⟩ : Shape).Idx → EReal) : Fin a → Fin b → EReal := fun i j => X (ix2 i j)
/-- A vector given on shape indices, as a function of its position. -/
def vec {a : Nat} (v : (⟨1, ![a]⟩ : Shape).Idx → EReal) : Fin a → EReal := fun i => v (ix1 i)

/-- The rectifier: the larger of `x` and the zero word's value. -/
def relu (x : EReal) : EReal := max x (Ideal.ofBits .f32 0x00000000#32)

/-- Entry `q` of a row times a matrix: `∑ i, a i · W i q`. -/
def prod {K N : Nat} (a : Fin K → EReal) (W : Fin K → Fin N → EReal) (q : Fin N) : EReal :=
  ∑ i : Fin K, a i * W i q

/-- Entry `q` of a dense layer's row: the product's entry plus the bias entry. -/
def dense {K N : Nat} (a : Fin K → EReal) (W : Fin K → Fin N → EReal) (b : Fin N → EReal) (q : Fin N) : EReal :=
  prod a W q + b q

/-- A row divided by its Euclidean length, the length floored at the word `0x2B8CBCCC`'s value. -/
def nrm {N : Nat} (v : Fin N → EReal) (q : Fin N) : EReal :=
  Ideal.div (v q) (max (Ideal.sqrt (∑ k : Fin N, v k * v k)) (Ideal.ofBits .f32 0x2B8CBCCC#32))

/-- A rectified dense row of the adjacency row `a` against the matrix `Y`. -/
def lay (a : Fin 10000 → EReal) (Y : Fin 10000 → Fin 128 → EReal) (b : Fin 128 → EReal) (q : Fin 128) : EReal :=
  relu (dense a Y b q)

/-- The scoring perceptron's weights. -/
structure Head where
  L1 : Fin 128 → Fin 256 → EReal
  c1 : Fin 256 → EReal
  L2 : Fin 256 → Fin 256 → EReal
  c2 : Fin 256 → EReal
  L3 : Fin 256 → Fin 1 → EReal
  c3 : Fin 1 → EReal

/-- The score of one feature row: two rectified dense layers and a last dense layer with one output. -/
def score (h : Head) (v : Fin 128 → EReal) : EReal :=
  dense (fun k => relu (dense (fun j => relu (dense v h.L1 h.c1 j)) h.L2 h.c2 k)) h.L3 h.c3 0

/-- The graph convolution's weights. -/
structure Conv where
  W1 : Fin 10000 → Fin 128 → EReal
  b1 : Fin 128 → EReal
  W2 : Fin 128 → Fin 128 → EReal
  b2 : Fin 128 → EReal
  W3 : Fin 128 → Fin 128 → EReal
  b3 : Fin 128 → EReal
  W4 : Fin 128 → Fin 128 → EReal
  b4 : Fin 128 → EReal

/-- The convolution's weights from the eight weight and bias arrays. -/
def convOf (w1 : (⟨2, ![10000, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (w3 : (⟨2, ![128, 128]⟩ : Shape).Idx → EReal) (b3 : (⟨1, ![128]⟩ : Shape).Idx → EReal)
    (w4 : (⟨2, ![128, 128]⟩ : Shape).Idx → EReal) (b4 : (⟨1, ![128]⟩ : Shape).Idx → EReal) : Conv :=
  ⟨mat w1, vec b1, mat w2, vec b2, mat w3, vec b3, mat w4, vec b4⟩

/-- The scoring perceptron's weights from its six arrays. -/
def headOf (l1 : (⟨2, ![128, 256]⟩ : Shape).Idx → EReal) (c1 : (⟨1, ![256]⟩ : Shape).Idx → EReal)
    (l2 : (⟨2, ![256, 256]⟩ : Shape).Idx → EReal) (c2 : (⟨1, ![256]⟩ : Shape).Idx → EReal)
    (l3 : (⟨2, ![256, 1]⟩ : Shape).Idx → EReal) (c3 : (⟨1, ![1]⟩ : Shape).Idx → EReal) : Head :=
  ⟨mat l1, vec c1, mat l2, vec c2, mat l3, vec c3⟩

variable (cv : Conv) (A : Fin 10000 → Fin 10000 → EReal)

/-- Layer 1's normalised features. -/
def x1 (i : Fin 10000) : Fin 128 → EReal := nrm (lay (A i) cv.W1 cv.b1)
/-- Layer 2's dense weights: layer 1's features times `W2`. -/
def y2 (i : Fin 10000) (q : Fin 128) : EReal := prod (x1 cv A i) cv.W2 q
def x2 (i : Fin 10000) : Fin 128 → EReal := nrm (lay (A i) (y2 cv A) cv.b2)
def y3 (i : Fin 10000) (q : Fin 128) : EReal := prod (x2 cv A i) cv.W3 q
def x3 (i : Fin 10000) : Fin 128 → EReal := nrm (lay (A i) (y3 cv A) cv.b3)
def y4 (i : Fin 10000) (q : Fin 128) : EReal := prod (x3 cv A i) cv.W4 q
/-- Layer 4's features: rectified, not normalised. -/
def x4 (i : Fin 10000) : Fin 128 → EReal := lay (A i) (y4 cv A) cv.b4

/-- The running score after each layer, added in the layers' order. -/
def s1 (h : Head) (i : Fin 10000) : EReal := score h (x1 cv A i)
def s2 (h : Head) (i : Fin 10000) : EReal := s1 cv A h i + score h (x2 cv A i)
def s3 (h : Head) (i : Fin 10000) : EReal := s2 cv A h i + score h (x3 cv A i)
def s4 (h : Head) (i : Fin 10000) : EReal := s3 cv A h i + score h (x4 cv A i)

/-- The result at node `i`: the first graph's total score times the second graph's. -/
def result (h : Head) (Ain Aout : Fin 10000 → Fin 10000 → EReal) (i : Fin 10000) : EReal :=
  s4 cv Ain h i * s4 cv Aout h i

end Cert.Spec

end
-- ==== Proof.KerRowsA.lean ====
/-
  Layer 1 on a block of adjacency rows, entry by entry: the block's normalised features, the next layer's weights
  and the scores at row `p` are the specification's row functions of adjacency row `p` of the block.
-/
import proofs.«103950_g67688684585008_cont_9to1c4b_879_14_alg».proof.Proof.KerOps
import proofs.«103950_g67688684585008_cont_9to1c4b_879_14_alg».proof.Proof.Spec
import proofs.«103950_g67688684585008_cont_9to1c4b_879_14_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KerRows

open Idealize.ShloMosaic Idealize.ShloMosaic.ValueIdx Cert.KernelIdeal Cert.KernelIdeal.Gen Cert.KerOps

/-! ## Region 0: a block of 400 adjacency rows through layer 1 -/

set_option backward.isDefEq.respectTransparency.types false in
/-- Entry `(p, q)` of the block's normalised features: the normalised rectified dense row of adjacency row `p`. -/
theorem feat0_apply (x0 : FVec Ideal S400x10000 .f32) (x1 : FVec Ideal S10000x128 .bf16) (x2 : FVec Ideal S1x128 .f32) (p : Fin 400) (q : Fin 128) :
    k0_pay4 (F := Ideal) x0 x1 x2 (ix2 p q) = Spec.nrm (Spec.lay (row x0 p) (Spec.mat x1) (rvec x2)) q := by
  unfold k0_pay4 k0_pay3
  simp only [divf_apply, maximumf_apply, addf_apply, mulf_apply, broadcast_apply, truncf_apply, sqrt_apply, Cert.LibCols.broadcastTo_a1_ab_apply, broadcastTo_1b_ab_apply, shapeCast_self]
  rw [rowSumKeep_apply]
  simp only [maximumf_apply, addf_apply, mulf_apply, broadcast_apply, truncf_apply, broadcastTo_1b_ab_apply, shapeCast_self, Cert.LibRows.matmul_plain_apply dot_S400x10000_S10000x128_S400x128_1_0_0_1_n_n rfl none]
  rfl

set_option backward.isDefEq.respectTransparency.types false in
/-- Entry `(p, q)` of the block's next-layer weights: the features of row `p` times the square matrix. -/
theorem next0_apply (x0 : FVec Ideal S400x10000 .f32) (x1 : FVec Ideal S10000x128 .bf16) (x2 : FVec Ideal S1x128 .f32) (x3 : FVec Ideal S128x128 .bf16) (p : Fin 400) (q : Fin 128) :
    k0_pay2 (F := Ideal) (k0_pay4 x0 x1 x2) x3 (ix2 p q) = Spec.prod (Spec.nrm (Spec.lay (row x0 p) (Spec.mat x1) (rvec x2))) (Spec.mat x3) q := by
  unfold k0_pay2
  simp only [truncf_apply, shapeCast_self, Cert.LibRows.matmul_plain_apply dot_S400x128_S128x128_S400x128_1_0_0_1_n_n rfl none, feat0_apply]
  rfl

set_option backward.isDefEq.respectTransparency.types false in
/-- Entry `(p, 0)` of the block's scores: the perceptron's score of the features of row `p`. -/
theorem score0_apply (x0 : FVec Ideal S400x10000 .f32) (x1 : FVec Ideal S10000x128 .bf16) (x2 : FVec Ideal S1x128 .f32)
    (x4 : FVec Ideal S128x256 .bf16) (x5 : FVec Ideal S1x256 .f32) (x6 : FVec Ideal S256x256 .bf16) (x7 : FVec Ideal S1x256 .f32)
    (x8 : FVec Ideal S256x1 .bf16) (x9 : FVec Ideal S1x1 .f32) (p : Fin 400) :
    k0_pay1 (F := Ideal) (k0_pay5 x0 x1 x2 x4 x5 x6) x7 x8 x9 (ix2 p (0 : Fin 1))
      = Spec.score ⟨Spec.mat x4, rvec x5, Spec.mat x6, rvec x7, Spec.mat x8, rvec x9⟩ (Spec.nrm (Spec.lay (row x0 p) (Spec.mat x1) (rvec x2))) := by
  unfold k0_pay1 k0_pay5
  simp only [maximumf_apply, addf_apply, broadcast_apply, truncf_apply, broadcastTo_1b_ab_apply, shapeCast_self,
    Cert.LibRows.matmul_plain_apply dot_S400x256_S256x1_S400x1_1_0_0_1_n_n rfl none, Cert.LibRows.matmul_plain_apply dot_S400x256_S256x256_S400x256_1_0_0_1_n_n rfl none,
    Cert.LibRows.matmul_plain_apply dot_S400x128_S128x256_S400x256_1_0_0_1_n_n rfl none, feat0_apply]
  rfl

/-! ## Region 3: a block of 400 adjacency rows through layer 1 -/

set_option backward.isDefEq.respectTransparency.types false in
/-- Entry `(p, q)` of the block's normalised features: the normalised rectified dense row of adjacency row `p`. -/
theorem feat3_apply (x0 : FVec Ideal S400x10000 .f32) (x1 : FVec Ideal S10000x128 .bf16) (x2 : FVec Ideal S1x128 .f32) (p : Fin 400) (q : Fin 128) :
    k3_pay4 (F := Ideal) x0 x1 x2 (ix2 p q) = Spec.nrm (Spec.lay (row x0 p) (Spec.mat x1) (rvec x2)) q := by
  unfold k3_pay4 k3_pay3
  simp only [divf_apply, maximumf_apply, addf_apply, mulf_apply, broadcast_apply, truncf_apply, sqrt_apply, Cert.LibCols.broadcastTo_a1_ab_apply, broadcastTo_1b_ab_apply, shapeCast_self]
  rw [rowSumKeep_apply]
  simp only [maximumf_apply, addf_apply, mulf_apply, broadcast_apply, truncf_apply, broadcastTo_1b_ab_apply, shapeCast_self, Cert.LibRows.matmul_plain_apply dot_S400x10000_S10000x128_S400x128_1_0_0_1_n_n rfl none]
  rfl

set_option backward.isDefEq.respectTransparency.types false in
/-- Entry `(p, q)` of the block's next-layer weights: the features of row `p` times the square matrix. -/
theorem next3_apply (x0 : FVec Ideal S400x10000 .f32) (x1 : FVec Ideal S10000x128 .bf16) (x2 : FVec Ideal S1x128 .f32) (x3 : FVec Ideal S128x128 .bf16) (p : Fin 400) (q : Fin 128) :
    k3_pay2 (F := Ideal) (k3_pay4 x0 x1 x2) x3 (ix2 p q) = Spec.prod (Spec.nrm (Spec.lay (row x0 p) (Spec.mat x1) (rvec x2))) (Spec.mat x3) q := by
  unfold k3_pay2
  simp only [truncf_apply, shapeCast_self, Cert.LibRows.matmul_plain_apply dot_S400x128_S128x128_S400x128_1_0_0_1_n_n rfl none, feat3_apply]
  rfl

set_option backward.isDefEq.respectTransparency.types false in
/-- Entry `(p, 0)` of the block's scores: the perceptron's score of the features of row `p`. -/
theorem score3_apply (x0 : FVec Ideal S400x10000 .f32) (x1 : FVec Ideal S10000x128 .bf16) (x2 : FVec Ideal S1x128 .f32)
    (x4 : FVec Ideal S128x256 .bf16) (x5 : FVec Ideal S1x256 .f32) (x6 : FVec Ideal S256x256 .bf16) (x7 : FVec Ideal S1x256 .f32)
    (x8 : FVec Ideal S256x1 .bf16) (x9 : FVec Ideal S1x1 .f32) (p : Fin 400) :
    k3_pay1 (F := Ideal) (k3_pay5 x0 x1 x2 x4 x5 x6) x7 x8 x9 (ix2 p (0 : Fin 1))
      = Spec.score ⟨Spec.mat x4, rvec x5, Spec.mat x6, rvec x7, Spec.mat x8, rvec x9⟩ (Spec.nrm (Spec.lay (row x0 p) (Spec.mat x1) (rvec x2))) := by
  unfold k3_pay1 k3_pay5
  simp only [maximumf_apply, addf_apply, broadcast_apply, truncf_apply, broadcastTo_1b_ab_apply, shapeCast_self,
    Cert.LibRows.matmul_plain_apply dot_S400x256_S256x1_S400x1_1_0_0_1_n_n rfl none, Cert.LibRows.matmul_plain_apply dot_S400x256_S256x256_S400x256_1_0_0_1_n_n rfl none,
    Cert.LibRows.matmul_plain_apply dot_S400x128_S128x256_S400x256_1_0_0_1_n_n rfl none, feat3_apply]
  rfl

end Cert.KerRows

end
-- ==== Proof.KerReg0.lean ====
/-
  Layer 1 of the first graph, run block by block over the rows: after the region the three output arrays
  hold, row by row, the adjacency rows themselves, the next layer's weights and the first scores of the specification.
-/
import proofs.«103950_g67688684585008_cont_9to1c4b_879_14_alg».proof.Proof.KerRowsA
import proofs.«103950_g67688684585008_cont_9to1c4b_879_14_alg».proof.Proof.Gen.KernelIdeal.Frame
import Idealize.ShloMosaic.Lib.Pipeline.Value

noncomputable section

namespace Cert.KerReg0

open Cert.KernelIdeal Cert.KernelIdeal.Gen Idealize.ShloMosaic Idealize.ShloMosaic.TcCoe Idealize.SL.Sem
open Idealize.ShloMosaic.ValueIdx Cert.KerOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The global row of local row `r` of point `t`'s block: the blocks are consecutive runs of 400 rows. -/
def rowOf (t : Fin cfg0.N) (r : Fin 400) : Fin 10000 :=
  ⟨t.val * 400 + r.val, by have := t.isLt; have hN : cfg0.N = 25 := N_0; have := r.isLt; omega⟩

/-- Window 0's block index at a point: the point's number on the row axis. -/
theorem idx0 : ∀ t : Fin cfg0.N, win0_0.index t (0 : Fin 2) = t.val ∧ win0_0.index t (1 : Fin 2) = 0 :=
  (by decide +kernel : ∀ t : Fin grid0.N, _)

/-- Window 0's block at point `t`, at local entry `(r, j)`, is the array at global row `rowOf t r`. -/
theorem blk0 (c : Dev nD) (t : Fin cfg0.N) (r : Fin 400) (j : Fin 10000) :
    iblk0 V c 0 t (ix2 r j) = V c (Pipeline.arrRef spec0 0) (ix2 (rowOf t r) j) := by
  show V c (Pipeline.arrRef spec0 0) (((cfg0.win 0).blk t).view.emb (ix2 r j)) = _
  refine congrArg _ (funext fun a => Fin.ext ?_)
  obtain ⟨e0, e1⟩ := idx0 t
  match a with
  | ⟨0, _⟩ => show win0_0.index t (0 : Fin 2) * 400 + 1 * r.val = t.val * 400 + r.val; omega
  | ⟨1, _⟩ => show win0_0.index t (1 : Fin 2) * 10000 + 1 * j.val = j.val; omega

/-- Local row `r` of window 0's block is global row `rowOf t r` of the array. -/
theorem rowblk0 (c : Dev nD) (t : Fin cfg0.N) (r : Fin 400) :
    row (iblk0 V c 0 t) r = row (V c (Pipeline.arrRef spec0 0)) (rowOf t r) :=
  funext fun j => blk0 V c t r j

/-- Window 1's block index at a point: zero, the block is the whole array. -/
theorem idx1 : ∀ t : Fin cfg0.N, win0_1.index t (0 : Fin 2) = 0 ∧ win0_1.index t (1 : Fin 2) = 0 :=
  (by decide +kernel : ∀ t : Fin grid0.N, _)

/-- Window 1's block at any point is its whole array. -/
theorem blk1 (c : Dev nD) (t : Fin cfg0.N) : iblk0 V c 1 t = V c (Pipeline.arrRef spec0 1) := by
  funext y
  show V c (Pipeline.arrRef spec0 1) (((cfg0.win 1).blk t).view.emb y) = V c (Pipeline.arrRef spec0 1) y
  refine congrArg _ (funext fun a => Fin.ext ?_)
  obtain ⟨e0, e1⟩ := idx1 t
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- Window 2's block index at a point: zero, the block is the whole array. -/
theorem idx2 : ∀ t : Fin cfg0.N, win0_2.index t (0 : Fin 2) = 0 ∧ win0_2.index t (1 : Fin 2) = 0 :=
  (by decide +kernel : ∀ t : Fin grid0.N, _)

/-- Window 2's block at any point is its whole array. -/
theorem blk2 (c : Dev nD) (t : Fin cfg0.N) : iblk0 V c 2 t = V c (Pipeline.arrRef spec0 2) := by
  funext y
  show V c (Pipeline.arrRef spec0 2) (((cfg0.win 2).blk t).view.emb y) = V c (Pipeline.arrRef spec0 2) y
  refine congrArg _ (funext fun a => Fin.ext ?_)
  obtain ⟨e0, e1⟩ := idx2 t
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block index at a point: zero, the block is the whole array. -/
theorem idx3 : ∀ t : Fin cfg0.N, win0_3.index t (0 : Fin 2) = 0 ∧ win0_3.index t (1 : Fin 2) = 0 :=
  (by decide +kernel : ∀ t : Fin grid0.N, _)

/-- Window 3's block at any point is its whole array. -/
theorem blk3 (c : Dev nD) (t : Fin cfg0.N) : iblk0 V c 3 t = V c (Pipeline.arrRef spec0 3) := by
  funext y
  show V c (Pipeline.arrRef spec0 3) (((cfg0.win 3).blk t).view.emb y) = V c (Pipeline.arrRef spec0 3) y
  refine congrArg _ (funext fun a => Fin.ext ?_)
  obtain ⟨e0, e1⟩ := idx3 t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block index at a point: zero, the block is the whole array. -/
theorem idx4 : ∀ t : Fin cfg0.N, win0_4.index t (0 : Fin 2) = 0 ∧ win0_4.index t (1 : Fin 2) = 0 :=
  (by decide +kernel : ∀ t : Fin grid0.N, _)

/-- Window 4's block at any point is its whole array. -/
theorem blk4 (c : Dev nD) (t : Fin cfg0.N) : iblk0 V c 4 t = V c (Pipeline.arrRef spec0 4) := by
  funext y
  show V c (Pipeline.arrRef spec0 4) (((cfg0.win 4).blk t).view.emb y) = V c (Pipeline.arrRef spec0 4) y
  refine congrArg _ (funext fun a => Fin.ext ?_)
  obtain ⟨e0, e1⟩ := idx4 t
  match a with
  | ⟨0, _⟩ => show win0_4.index t (0 : Fin 2) * 128 + 1 * (y 0).val = (y 0).val; omega
  | ⟨1, _⟩ => show win0_4.index t (1 : Fin 2) * 256 + 1 * (y 1).val = (y 1).val; omega

/-- Window 5's block index at a point: zero, the block is the whole array. -/
theorem idx5 : ∀ t : Fin cfg0.N, win0_5.index t (0 : Fin 2) = 0 ∧ win0_5.index t (1 : Fin 2) = 0 :=
  (by decide +kernel : ∀ t : Fin grid0.N, _)

/-- Window 5's block at any point is its whole array. -/
theorem blk5 (c : Dev nD) (t : Fin cfg0.N) : iblk0 V c 5 t = V c (Pipeline.arrRef spec0 5) := by
  funext y
  show V c (Pipeline.arrRef spec0 5) (((cfg0.win 5).blk t).view.emb y) = V c (Pipeline.arrRef spec0 5) y
  refine congrArg _ (funext fun a => Fin.ext ?_)
  obtain ⟨e0, e1⟩ := idx5 t
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6's block index at a point: zero, the block is the whole array. -/
theorem idx6 : ∀ t : Fin cfg0.N, win0_6.index t (0 : Fin 2) = 0 ∧ win0_6.index t (1 : Fin 2) = 0 :=
  (by decide +kernel : ∀ t : Fin grid0.N, _)

/-- Window 6's block at any point is its whole array. -/
theorem blk6 (c : Dev nD) (t : Fin cfg0.N) : iblk0 V c 6 t = V c (Pipeline.arrRef spec0 6) := by
  funext y
  show V c (Pipeline.arrRef spec0 6) (((cfg0.win 6).blk t).view.emb y) = V c (Pipeline.arrRef spec0 6) y
  refine congrArg _ (funext fun a => Fin.ext ?_)
  obtain ⟨e0, e1⟩ := idx6 t
  match a with
  | ⟨0, _⟩ => show win0_6.index t (0 : Fin 2) * 256 + 1 * (y 0).val = (y 0).val; omega
  | ⟨1, _⟩ => show win0_6.index t (1 : Fin 2) * 256 + 1 * (y 1).val = (y 1).val; omega

/-- Window 7's block index at a point: zero, the block is the whole array. -/
theorem idx7 : ∀ t : Fin cfg0.N, win0_7.index t (0 : Fin 2) = 0 ∧ win0_7.index t (1 : Fin 2) = 0 :=
  (by decide +kernel : ∀ t : Fin grid0.N, _)

/-- Window 7's block at any point is its whole array. -/
theorem blk7 (c : Dev nD) (t : Fin cfg0.N) : iblk0 V c 7 t = V c (Pipeline.arrRef spec0 7) := by
  funext y
  show V c (Pipeline.arrRef spec0 7) (((cfg0.win 7).blk t).view.emb y) = V c (Pipeline.arrRef spec0 7) y
  refine congrArg _ (funext fun a => Fin.ext ?_)
  obtain ⟨e0, e1⟩ := idx7 t
  match a with
  | ⟨0, _⟩ => show win0_7.index t (0 : Fin 2) * 1 + 1 * (y 0).val = (y 0).val; omega
  | ⟨1, _⟩ => show win0_7.index t (1 : Fin 2) * 256 + 1 * (y 1).val = (y 1).val; omega

/-- Window 8's block index at a point: zero, the block is the whole array. -/
theorem idx8 : ∀ t : Fin cfg0.N, win0_8.index t (0 : Fin 2) = 0 ∧ win0_8.index t (1 : Fin 2) = 0 :=
  (by decide +kernel : ∀ t : Fin grid0.N, _)

/-- Window 8's block at any point is its whole array. -/
theorem blk8 (c : Dev nD) (t : Fin cfg0.N) : iblk0 V c 8 t = V c (Pipeline.arrRef spec0 8) := by
  funext y
  show V c (Pipeline.arrRef spec0 8) (((cfg0.win 8).blk t).view.emb y) = V c (Pipeline.arrRef spec0 8) y
  refine congrArg _ (funext fun a => Fin.ext ?_)
  obtain ⟨e0, e1⟩ := idx8 t
  match a with
  | ⟨0, _⟩ => show win0_8.index t (0 : Fin 2) * 256 + 1 * (y 0).val = (y 0).val; omega
  | ⟨1, _⟩ => show win0_8.index t (1 : Fin 2) * 1 + 1 * (y 1).val = (y 1).val; omega

/-- Window 9's block index at a point: zero, the block is the whole array. -/
theorem idx9 : ∀ t : Fin cfg0.N, win0_9.index t (0 : Fin 2) = 0 ∧ win0_9.index t (1 : Fin 2) = 0 :=
  (by decide +kernel : ∀ t : Fin grid0.N, _)

/-- Window 9's block at any point is its whole array. -/
theorem blk9 (c : Dev nD) (t : Fin cfg0.N) : iblk0 V c 9 t = V c (Pipeline.arrRef spec0 9) := by
  funext y
  show V c (Pipeline.arrRef spec0 9) (((cfg0.win 9).blk t).view.emb y) = V c (Pipeline.arrRef spec0 9) y
  refine congrArg _ (funext fun a => Fin.ext ?_)
  obtain ⟨e0, e1⟩ := idx9 t
  match a with
  | ⟨0, _⟩ => show win0_9.index t (0 : Fin 2) * 1 + 1 * (y 0).val = (y 0).val; omega
  | ⟨1, _⟩ => show win0_9.index t (1 : Fin 2) * 1 + 1 * (y 1).val = (y 1).val; omega

/-- Window 10's block index at a point: the point's number on the row axis. -/
theorem idx10 : ∀ t : Fin cfg0.N, win0_10.index t (0 : Fin 2) = t.val ∧ win0_10.index t (1 : Fin 2) = 0 :=
  (by decide +kernel : ∀ t : Fin grid0.N, _)

/-- Window 11's block index at a point: the point's number on the row axis. -/
theorem idx11 : ∀ t : Fin cfg0.N, win0_11.index t (0 : Fin 2) = t.val ∧ win0_11.index t (1 : Fin 2) = 0 :=
  (by decide +kernel : ∀ t : Fin grid0.N, _)

/-- Window 12's block index at a point: the point's number on the row axis. -/
theorem idx12 : ∀ t : Fin cfg0.N, win0_12.index t (0 : Fin 2) = t.val ∧ win0_12.index t (1 : Fin 2) = 0 :=
  (by decide +kernel : ∀ t : Fin grid0.N, _)

/-! ## Output window 10 -/

/-- The adjacency matrix itself: the region copies each block of rows. -/
def G10 (c : Dev nD) : S10000x10000.Idx → EReal := fun i =>
  (V c (Pipeline.arrRef spec0 0)) i

/-- An entry of point `t`'s block of window 10, embedded in the array: global row `rowOf t r`, the same column. -/
theorem emb10 (t : Fin cfg0.N) (r : Fin 400) (q : Fin 10000) :
    ((cfg0.win 10).blk t).view.emb (ix2 r q) = ix2 (rowOf t r) q := by
  funext a; apply Fin.ext
  obtain ⟨e0, e1⟩ := idx10 t
  match a with
  | ⟨0, _⟩ => show win0_10.index t (0 : Fin 2) * 400 + 1 * r.val = t.val * 400 + r.val; omega
  | ⟨1, _⟩ => show win0_10.index t (1 : Fin 2) * 10000 + 1 * q.val = q.val; omega

/-- What point `t` writes back to window 10's array is block `t` of `G10`. -/
theorem flushed10_eq (c : Dev nD) (t : Fin cfg0.N) :
    (dat0 V c).flushed 10 t = ((cfg0.win 10).blk t).view.read (Elt Ideal) (G10 V c) := by
  show (cfg0.win 10).cut (grid0.coords t) ((dat0 V c).after 10 t) = _
  rw [after0_10]
  unfold out0_10
  rw [View.canon_unit_zero hz]
  simp only [View.ld_unit_zero (S := S400x10000) hz]
  funext j
  obtain ⟨r, q, rfl⟩ : ∃ (r : Fin 400) (q : Fin 10000), j = ix2 r q := ⟨j 0, j 1, eq_ix2 j⟩
  show (iblk0 V c 0 t) (ix2 r q) = G10 V c (((cfg0.win 10).blk t).view.emb (ix2 r q))
  rw [emb10, blk0]
  rfl

/-- An index of the array is in point `t`'s block of window 10 iff each coordinate is in the block's range. -/
theorem mem_blk10 (t : Fin cfg0.N) (i : S10000x10000.Idx) :
    i ∈ ((cfg0.win 10).blk t).view.set ↔ ∀ a : Fin 2, win0_10.index t a * S400x10000.size a ≤ (i a).val ∧ (i a).val < win0_10.index t a * S400x10000.size a + S400x10000.size a := by
  show i ∈ ((View.whole main_v14_0).slice (win0_10.rect t)).set ↔ _
  rw [View.set_slice_whole, Rect.mem_set_unit]
  exact Iff.rfl

/-- Every index of window 10's array is in some point's block: row `i` is in block `i / 400`. -/
theorem cover10 (i : S10000x10000.Idx) :
    ∃ t : Fin cfg0.N, (cfg0.win 10).flush t = true ∧ i ∈ ((cfg0.win 10).blk t).view.set := by
  have hi0 : (i 0).val < 10000 := (i 0).isLt
  have hi1 : (i 1).val < 10000 := (i 1).isLt
  have hN : cfg0.N = 25 := N_0
  have ht : (i 0).val / 400 < cfg0.N := by omega
  obtain ⟨e0, e1⟩ := idx10 ⟨(i 0).val / 400, ht⟩
  refine ⟨⟨(i 0).val / 400, ht⟩, flush0_10 _, ?_⟩
  rw [mem_blk10]
  intro a
  match a with
  | ⟨0, _⟩ =>
    show win0_10.index ⟨(i 0).val / 400, ht⟩ (0 : Fin 2) * 400 ≤ (i 0).val ∧ (i 0).val < win0_10.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_10.index ⟨(i 0).val / 400, ht⟩ (1 : Fin 2) * 10000 ≤ (i 1).val ∧ (i 1).val < win0_10.index ⟨(i 0).val / 400, ht⟩ (1 : Fin 2) * 10000 + 10000
    rw [e1]; omega

/-- After the region, window 10's array holds `G10`. -/
theorem final10 (c : Dev nD) : (dat0 V c).arrAt 10 cfg0.N = G10 V c :=
  (dat0 V c).arrAt_eq_of_cover 10 (G10 V c) (fun t _ => flushed10_eq V c t) (cover10)

/-! ## Output window 11 -/

/-- The next layer's weights: row `i` is the normalised features of adjacency row `i` times the square matrix. -/
def G11 (c : Dev nD) : S10000x128.Idx → EReal := fun i =>
  Spec.prod (Spec.nrm (Spec.lay (row (V c (Pipeline.arrRef spec0 0)) (i 0)) (Spec.mat (V c (Pipeline.arrRef spec0 1))) (rvec (V c (Pipeline.arrRef spec0 2))))) (Spec.mat (V c (Pipeline.arrRef spec0 3))) (i 1)

/-- An entry of point `t`'s block of window 11, embedded in the array: global row `rowOf t r`, the same column. -/
theorem emb11 (t : Fin cfg0.N) (r : Fin 400) (q : Fin 128) :
    ((cfg0.win 11).blk t).view.emb (ix2 r q) = ix2 (rowOf t r) q := by
  funext a; apply Fin.ext
  obtain ⟨e0, e1⟩ := idx11 t
  match a with
  | ⟨0, _⟩ => show win0_11.index t (0 : Fin 2) * 400 + 1 * r.val = t.val * 400 + r.val; omega
  | ⟨1, _⟩ => show win0_11.index t (1 : Fin 2) * 128 + 1 * q.val = q.val; omega

/-- What point `t` writes back to window 11's array is block `t` of `G11`. -/
theorem flushed11_eq (c : Dev nD) (t : Fin cfg0.N) :
    (dat0 V c).flushed 11 t = ((cfg0.win 11).blk t).view.read (Elt Ideal) (G11 V c) := by
  show (cfg0.win 11).cut (grid0.coords t) ((dat0 V c).after 11 t) = _
  rw [after0_11]
  unfold out0_11
  rw [View.canon_unit_zero hz]
  simp only [View.ld_unit_zero (S := S400x10000) hz, View.ld_unit_zero (S := S10000x128) hz, View.ld_unit_zero (S := S1x128) hz, View.ld_unit_zero (S := S128x128) hz]
  funext j
  obtain ⟨r, q, rfl⟩ : ∃ (r : Fin 400) (q : Fin 128), j = ix2 r q := ⟨j 0, j 1, eq_ix2 j⟩
  refine (Cert.KerRows.next0_apply (iblk0 V c 0 t) (iblk0 V c 1 t) (iblk0 V c 2 t) (iblk0 V c 3 t) r q).trans ?_
  show _ = G11 V c (((cfg0.win 11).blk t).view.emb (ix2 r q))
  rw [emb11, rowblk0, blk1, blk2, blk3]
  rfl

/-- An index of the array is in point `t`'s block of window 11 iff each coordinate is in the block's range. -/
theorem mem_blk11 (t : Fin cfg0.N) (i : S10000x128.Idx) :
    i ∈ ((cfg0.win 11).blk t).view.set ↔ ∀ a : Fin 2, win0_11.index t a * S400x128.size a ≤ (i a).val ∧ (i a).val < win0_11.index t a * S400x128.size a + S400x128.size a := by
  show i ∈ ((View.whole main_v14_1).slice (win0_11.rect t)).set ↔ _
  rw [View.set_slice_whole, Rect.mem_set_unit]
  exact Iff.rfl

/-- Every index of window 11's array is in some point's block: row `i` is in block `i / 400`. -/
theorem cover11 (i : S10000x128.Idx) :
    ∃ t : Fin cfg0.N, (cfg0.win 11).flush t = true ∧ i ∈ ((cfg0.win 11).blk t).view.set := by
  have hi0 : (i 0).val < 10000 := (i 0).isLt
  have hi1 : (i 1).val < 128 := (i 1).isLt
  have hN : cfg0.N = 25 := N_0
  have ht : (i 0).val / 400 < cfg0.N := by omega
  obtain ⟨e0, e1⟩ := idx11 ⟨(i 0).val / 400, ht⟩
  refine ⟨⟨(i 0).val / 400, ht⟩, flush0_11 _, ?_⟩
  rw [mem_blk11]
  intro a
  match a with
  | ⟨0, _⟩ =>
    show win0_11.index ⟨(i 0).val / 400, ht⟩ (0 : Fin 2) * 400 ≤ (i 0).val ∧ (i 0).val < win0_11.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_11.index ⟨(i 0).val / 400, ht⟩ (1 : Fin 2) * 128 ≤ (i 1).val ∧ (i 1).val < win0_11.index ⟨(i 0).val / 400, ht⟩ (1 : Fin 2) * 128 + 128
    rw [e1]; omega

/-- After the region, window 11's array holds `G11`. -/
theorem final11 (c : Dev nD) : (dat0 V c).arrAt 11 cfg0.N = G11 V c :=
  (dat0 V c).arrAt_eq_of_cover 11 (G11 V c) (fun t _ => flushed11_eq V c t) (cover11)

/-! ## Output window 12 -/

/-- The first scores: entry `i` is the perceptron's score of the normalised features of adjacency row `i`. -/
def G12 (c : Dev nD) : S10000x1.Idx → EReal := fun i =>
  Spec.score ⟨Spec.mat (V c (Pipeline.arrRef spec0 4)), rvec (V c (Pipeline.arrRef spec0 5)), Spec.mat (V c (Pipeline.arrRef spec0 6)), rvec (V c (Pipeline.arrRef spec0 7)), Spec.mat (V c (Pipeline.arrRef spec0 8)), rvec (V c (Pipeline.arrRef spec0 9))⟩ (Spec.nrm (Spec.lay (row (V c (Pipeline.arrRef spec0 0)) (i 0)) (Spec.mat (V c (Pipeline.arrRef spec0 1))) (rvec (V c (Pipeline.arrRef spec0 2)))))

/-- An entry of point `t`'s block of window 12, embedded in the array: global row `rowOf t r`, the same column. -/
theorem emb12 (t : Fin cfg0.N) (r : Fin 400) (q : Fin 1) :
    ((cfg0.win 12).blk t).view.emb (ix2 r q) = ix2 (rowOf t r) q := by
  funext a; apply Fin.ext
  obtain ⟨e0, e1⟩ := idx12 t
  match a with
  | ⟨0, _⟩ => show win0_12.index t (0 : Fin 2) * 400 + 1 * r.val = t.val * 400 + r.val; omega
  | ⟨1, _⟩ => show win0_12.index t (1 : Fin 2) * 1 + 1 * q.val = q.val; omega

/-- What point `t` writes back to window 12's array is block `t` of `G12`. -/
theorem flushed12_eq (c : Dev nD) (t : Fin cfg0.N) :
    (dat0 V c).flushed 12 t = ((cfg0.win 12).blk t).view.read (Elt Ideal) (G12 V c) := by
  show (cfg0.win 12).cut (grid0.coords t) ((dat0 V c).after 12 t) = _
  rw [after0_12]
  unfold out0_12
  rw [View.canon_unit_zero hz]
  simp only [View.ld_unit_zero (S := S400x10000) hz, View.ld_unit_zero (S := S10000x128) hz, View.ld_unit_zero (S := S1x128) hz, View.ld_unit_zero (S := S128x256) hz, View.ld_unit_zero (S := S1x256) hz, View.ld_unit_zero (S := S256x256) hz, View.ld_unit_zero (S := S256x1) hz, View.ld_unit_zero (S := S1x1) hz]
  funext j
  obtain ⟨r, q, rfl⟩ : ∃ (r : Fin 400) (q : Fin 1), j = ix2 r q := ⟨j 0, j 1, eq_ix2 j⟩
  have hq : q = 0 := Subsingleton.elim _ _
  subst hq
  refine (Cert.KerRows.score0_apply (iblk0 V c 0 t) (iblk0 V c 1 t) (iblk0 V c 2 t) (iblk0 V c 4 t) (iblk0 V c 5 t) (iblk0 V c 6 t) (iblk0 V c 7 t) (iblk0 V c 8 t) (iblk0 V c 9 t) r).trans ?_
  show _ = G12 V c (((cfg0.win 12).blk t).view.emb (ix2 r (0 : Fin 1)))
  rw [emb12, rowblk0, blk1, blk2, blk4, blk5, blk6, blk7, blk8, blk9]
  rfl

/-- An index of the array is in point `t`'s block of window 12 iff each coordinate is in the block's range. -/
theorem mem_blk12 (t : Fin cfg0.N) (i : S10000x1.Idx) :
    i ∈ ((cfg0.win 12).blk t).view.set ↔ ∀ a : Fin 2, win0_12.index t a * S400x1.size a ≤ (i a).val ∧ (i a).val < win0_12.index t a * S400x1.size a + S400x1.size a := by
  show i ∈ ((View.whole main_v14_2).slice (win0_12.rect t)).set ↔ _
  rw [View.set_slice_whole, Rect.mem_set_unit]
  exact Iff.rfl

/-- Every index of window 12's array is in some point's block: row `i` is in block `i / 400`. -/
theorem cover12 (i : S10000x1.Idx) :
    ∃ t : Fin cfg0.N, (cfg0.win 12).flush t = true ∧ i ∈ ((cfg0.win 12).blk t).view.set := by
  have hi0 : (i 0).val < 10000 := (i 0).isLt
  have hi1 : (i 1).val < 1 := (i 1).isLt
  have hN : cfg0.N = 25 := N_0
  have ht : (i 0).val / 400 < cfg0.N := by omega
  obtain ⟨e0, e1⟩ := idx12 ⟨(i 0).val / 400, ht⟩
  refine ⟨⟨(i 0).val / 400, ht⟩, flush0_12 _, ?_⟩
  rw [mem_blk12]
  intro a
  match a with
  | ⟨0, _⟩ =>
    show win0_12.index ⟨(i 0).val / 400, ht⟩ (0 : Fin 2) * 400 ≤ (i 0).val ∧ (i 0).val < win0_12.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_12.index ⟨(i 0).val / 400, ht⟩ (1 : Fin 2) * 1 ≤ (i 1).val ∧ (i 1).val < win0_12.index ⟨(i 0).val / 400, ht⟩ (1 : Fin 2) * 1 + 1
    rw [e1]; omega

/-- After the region, window 12's array holds `G12`. -/
theorem final12 (c : Dev nD) : (dat0 V c).arrAt 12 cfg0.N = G12 V c :=
  (dat0 V c).arrAt_eq_of_cover 12 (G12 V c) (fun t _ => flushed12_eq V c t) (cover12)

end Cert.KerReg0

end
-- ==== Proof.KerRowsB.lean ====
/-
  A middle layer on a block of adjacency rows, entry by entry: the block's normalised features, the next layer's
  weights and the running scores at row `p` are the specification's row functions of adjacency row `p` of the block.
-/
import proofs.«103950_g67688684585008_cont_9to1c4b_879_14_alg».proof.Proof.KerOps
import proofs.«103950_g67688684585008_cont_9to1c4b_879_14_alg».proof.Proof.Spec
import proofs.«103950_g67688684585008_cont_9to1c4b_879_14_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KerRows

open Idealize.ShloMosaic Idealize.ShloMosaic.ValueIdx Cert.KernelIdeal Cert.KernelIdeal.Gen Cert.KerOps

/-! ## Region 1: a block of 1000 adjacency rows through a middle layer -/

set_option backward.isDefEq.respectTransparency.types false in
/-- Entry `(p, q)` of the block's normalised features: the normalised rectified dense row of adjacency row `p`. -/
theorem feat1_apply (x0 : FVec Ideal S1000x10000 .bf16) (x1 : FVec Ideal S10000x128 .bf16) (x3 : FVec Ideal S1x128 .f32) (p : Fin 1000) (q : Fin 128) :
    k1_pay3 (F := Ideal) x0 x1 x3 (ix2 p q) = Spec.nrm (Spec.lay (row x0 p) (Spec.mat x1) (rvec x3)) q := by
  unfold k1_pay3
  simp only [divf_apply, maximumf_apply, addf_apply, mulf_apply, broadcast_apply, truncf_apply, sqrt_apply, Cert.LibCols.broadcastTo_a1_ab_apply, broadcastTo_1b_ab_apply, shapeCast_self]
  rw [rowSumKeep_apply]
  simp only [maximumf_apply, addf_apply, mulf_apply, broadcast_apply, truncf_apply, broadcastTo_1b_ab_apply, shapeCast_self, Cert.LibRows.matmul_plain_apply dot_S1000x10000_S10000x128_S1000x128_1_0_0_1_n_n rfl none]
  rfl

set_option backward.isDefEq.respectTransparency.types false in
/-- Entry `(p, q)` of the block's next-layer weights: the features of row `p` times the square matrix. -/
theorem next1_apply (x0 : FVec Ideal S1000x10000 .bf16) (x1 : FVec Ideal S10000x128 .bf16) (x3 : FVec Ideal S1x128 .f32) (x4 : FVec Ideal S128x128 .bf16) (p : Fin 1000) (q : Fin 128) :
    k1_pay2 (F := Ideal) (k1_pay3 x0 x1 x3) x4 (ix2 p q) = Spec.prod (Spec.nrm (Spec.lay (row x0 p) (Spec.mat x1) (rvec x3))) (Spec.mat x4) q := by
  unfold k1_pay2
  simp only [truncf_apply, shapeCast_self, Cert.LibRows.matmul_plain_apply dot_S1000x128_S128x128_S1000x128_1_0_0_1_n_n rfl none, feat1_apply]
  rfl

set_option backward.isDefEq.respectTransparency.types false in
/-- Entry `(p, 0)` of the block's running scores: the score so far plus the perceptron's score of row `p`'s features. -/
theorem score1_apply (x0 : FVec Ideal S1000x10000 .bf16) (x1 : FVec Ideal S10000x128 .bf16) (x2 : FVec Ideal S1000x1 .f32) (x3 : FVec Ideal S1x128 .f32)
    (x5 : FVec Ideal S128x256 .bf16) (x6 : FVec Ideal S1x256 .f32) (x7 : FVec Ideal S256x256 .bf16) (x8 : FVec Ideal S1x256 .f32)
    (x9 : FVec Ideal S256x1 .bf16) (x10 : FVec Ideal S1x1 .f32) (p : Fin 1000) :
    k1_pay1 (F := Ideal) (k1_pay4 x2) (k1_pay5 x0 x1 x3 x5 x6 x7) x8 x9 x10 (ix2 p (0 : Fin 1))
      = x2 (ix2 p (0 : Fin 1)) + Spec.score ⟨Spec.mat x5, rvec x6, Spec.mat x7, rvec x8, Spec.mat x9, rvec x10⟩ (Spec.nrm (Spec.lay (row x0 p) (Spec.mat x1) (rvec x3))) := by
  unfold k1_pay1 k1_pay4 k1_pay5
  simp only [maximumf_apply, addf_apply, broadcast_apply, truncf_apply, broadcastTo_1b_ab_apply, shapeCast_self,
    Cert.LibRows.matmul_plain_apply dot_S1000x256_S256x1_S1000x1_1_0_0_1_n_n rfl none, Cert.LibRows.matmul_plain_apply dot_S1000x256_S256x256_S1000x256_1_0_0_1_n_n rfl none,
    Cert.LibRows.matmul_plain_apply dot_S1000x128_S128x256_S1000x256_1_0_0_1_n_n rfl none, feat1_apply]
  rfl

/-! ## Region 2: a block of 1000 adjacency rows through a middle layer -/

set_option backward.isDefEq.respectTransparency.types false in
/-- Entry `(p, q)` of the block's normalised features: the normalised rectified dense row of adjacency row `p`. -/
theorem feat2_apply (x0 : FVec Ideal S1000x10000 .bf16) (x1 : FVec Ideal S10000x128 .bf16) (x3 : FVec Ideal S1x128 .f32) (p : Fin 1000) (q : Fin 128) :
    k2_pay3 (F := Ideal) x0 x1 x3 (ix2 p q) = Spec.nrm (Spec.lay (row x0 p) (Spec.mat x1) (rvec x3)) q := by
  unfold k2_pay3
  simp only [divf_apply, maximumf_apply, addf_apply, mulf_apply, broadcast_apply, truncf_apply, sqrt_apply, Cert.LibCols.broadcastTo_a1_ab_apply, broadcastTo_1b_ab_apply, shapeCast_self]
  rw [rowSumKeep_apply]
  simp only [maximumf_apply, addf_apply, mulf_apply, broadcast_apply, truncf_apply, broadcastTo_1b_ab_apply, shapeCast_self, Cert.LibRows.matmul_plain_apply dot_S1000x10000_S10000x128_S1000x128_1_0_0_1_n_n rfl none]
  rfl

set_option backward.isDefEq.respectTransparency.types false in
/-- Entry `(p, q)` of the block's next-layer weights: the features of row `p` times the square matrix. -/
theorem next2_apply (x0 : FVec Ideal S1000x10000 .bf16) (x1 : FVec Ideal S10000x128 .bf16) (x3 : FVec Ideal S1x128 .f32) (x4 : FVec Ideal S128x128 .bf16) (p : Fin 1000) (q : Fin 128) :
    k2_pay2 (F := Ideal) (k2_pay3 x0 x1 x3) x4 (ix2 p q) = Spec.prod (Spec.nrm (Spec.lay (row x0 p) (Spec.mat x1) (rvec x3))) (Spec.mat x4) q := by
  unfold k2_pay2
  simp only [truncf_apply, shapeCast_self, Cert.LibRows.matmul_plain_apply dot_S1000x128_S128x128_S1000x128_1_0_0_1_n_n rfl none, feat2_apply]
  rfl

set_option backward.isDefEq.respectTransparency.types false in
/-- Entry `(p, 0)` of the block's running scores: the score so far plus the perceptron's score of row `p`'s features. -/
theorem score2_apply (x0 : FVec Ideal S1000x10000 .bf16) (x1 : FVec Ideal S10000x128 .bf16) (x2 : FVec Ideal S1000x1 .f32) (x3 : FVec Ideal S1x128 .f32)
    (x5 : FVec Ideal S128x256 .bf16) (x6 : FVec Ideal S1x256 .f32) (x7 : FVec Ideal S256x256 .bf16) (x8 : FVec Ideal S1x256 .f32)
    (x9 : FVec Ideal S256x1 .bf16) (x10 : FVec Ideal S1x1 .f32) (p : Fin 1000) :
    k2_pay1 (F := Ideal) (k2_pay4 x2) (k2_pay5 x0 x1 x3 x5 x6 x7) x8 x9 x10 (ix2 p (0 : Fin 1))
      = x2 (ix2 p (0 : Fin 1)) + Spec.score ⟨Spec.mat x5, rvec x6, Spec.mat x7, rvec x8, Spec.mat x9, rvec x10⟩ (Spec.nrm (Spec.lay (row x0 p) (Spec.mat x1) (rvec x3))) := by
  unfold k2_pay1 k2_pay4 k2_pay5
  simp only [maximumf_apply, addf_apply, broadcast_apply, truncf_apply, broadcastTo_1b_ab_apply, shapeCast_self,
    Cert.LibRows.matmul_plain_apply dot_S1000x256_S256x1_S1000x1_1_0_0_1_n_n rfl none, Cert.LibRows.matmul_plain_apply dot_S1000x256_S256x256_S1000x256_1_0_0_1_n_n rfl none,
    Cert.LibRows.matmul_plain_apply dot_S1000x128_S128x256_S1000x256_1_0_0_1_n_n rfl none, feat2_apply]
  rfl

/-! ## Region 4: a block of 1000 adjacency rows through a middle layer -/

set_option backward.isDefEq.respectTransparency.types false in
/-- Entry `(p, q)` of the block's normalised features: the normalised rectified dense row of adjacency row `p`. -/
theorem feat4_apply (x0 : FVec Ideal S1000x10000 .bf16) (x1 : FVec Ideal S10000x128 .bf16) (x3 : FVec Ideal S1x128 .f32) (p : Fin 1000) (q : Fin 128) :
    k4_pay3 (F := Ideal) x0 x1 x3 (ix2 p q) = Spec.nrm (Spec.lay (row x0 p) (Spec.mat x1) (rvec x3)) q := by
  unfold k4_pay3
  simp only [divf_apply, maximumf_apply, addf_apply, mulf_apply, broadcast_apply, truncf_apply, sqrt_apply, Cert.LibCols.broadcastTo_a1_ab_apply, broadcastTo_1b_ab_apply, shapeCast_self]
  rw [rowSumKeep_apply]
  simp only [maximumf_apply, addf_apply, mulf_apply, broadcast_apply, truncf_apply, broadcastTo_1b_ab_apply, shapeCast_self, Cert.LibRows.matmul_plain_apply dot_S1000x10000_S10000x128_S1000x128_1_0_0_1_n_n rfl none]
  rfl

set_option backward.isDefEq.respectTransparency.types false in
/-- Entry `(p, q)` of the block's next-layer weights: the features of row `p` times the square matrix. -/
theorem next4_apply (x0 : FVec Ideal S1000x10000 .bf16) (x1 : FVec Ideal S10000x128 .bf16) (x3 : FVec Ideal S1x128 .f32) (x4 : FVec Ideal S128x128 .bf16) (p : Fin 1000) (q : Fin 128) :
    k4_pay2 (F := Ideal) (k4_pay3 x0 x1 x3) x4 (ix2 p q) = Spec.prod (Spec.nrm (Spec.lay (row x0 p) (Spec.mat x1) (rvec x3))) (Spec.mat x4) q := by
  unfold k4_pay2
  simp only [truncf_apply, shapeCast_self, Cert.LibRows.matmul_plain_apply dot_S1000x128_S128x128_S1000x128_1_0_0_1_n_n rfl none, feat4_apply]
  rfl

set_option backward.isDefEq.respectTransparency.types false in
/-- Entry `(p, 0)` of the block's running scores: the score so far plus the perceptron's score of row `p`'s features. -/
theorem score4_apply (x0 : FVec Ideal S1000x10000 .bf16) (x1 : FVec Ideal S10000x128 .bf16) (x2 : FVec Ideal S1000x1 .f32) (x3 : FVec Ideal S1x128 .f32)
    (x5 : FVec Ideal S128x256 .bf16) (x6 : FVec Ideal S1x256 .f32) (x7 : FVec Ideal S256x256 .bf16) (x8 : FVec Ideal S1x256 .f32)
    (x9 : FVec Ideal S256x1 .bf16) (x10 : FVec Ideal S1x1 .f32) (p : Fin 1000) :
    k4_pay1 (F := Ideal) (k4_pay4 x2) (k4_pay5 x0 x1 x3 x5 x6 x7) x8 x9 x10 (ix2 p (0 : Fin 1))
      = x2 (ix2 p (0 : Fin 1)) + Spec.score ⟨Spec.mat x5, rvec x6, Spec.mat x7, rvec x8, Spec.mat x9, rvec x10⟩ (Spec.nrm (Spec.lay (row x0 p) (Spec.mat x1) (rvec x3))) := by
  unfold k4_pay1 k4_pay4 k4_pay5
  simp only [maximumf_apply, addf_apply, broadcast_apply, truncf_apply, broadcastTo_1b_ab_apply, shapeCast_self,
    Cert.LibRows.matmul_plain_apply dot_S1000x256_S256x1_S1000x1_1_0_0_1_n_n rfl none, Cert.LibRows.matmul_plain_apply dot_S1000x256_S256x256_S1000x256_1_0_0_1_n_n rfl none,
    Cert.LibRows.matmul_plain_apply dot_S1000x128_S128x256_S1000x256_1_0_0_1_n_n rfl none, feat4_apply]
  rfl

/-! ## Region 5: a block of 1000 adjacency rows through a middle layer -/

set_option backward.isDefEq.respectTransparency.types false in
/-- Entry `(p, q)` of the block's normalised features: the normalised rectified dense row of adjacency row `p`. -/
theorem feat5_apply (x0 : FVec Ideal S1000x10000 .bf16) (x1 : FVec Ideal S10000x128 .bf16) (x3 : FVec Ideal S1x128 .f32) (p : Fin 1000) (q : Fin 128) :
    k5_pay3 (F := Ideal) x0 x1 x3 (ix2 p q) = Spec.nrm (Spec.lay (row x0 p) (Spec.mat x1) (rvec x3)) q := by
  unfold k5_pay3
  simp only [divf_apply, maximumf_apply, addf_apply, mulf_apply, broadcast_apply, truncf_apply, sqrt_apply, Cert.LibCols.broadcastTo_a1_ab_apply, broadcastTo_1b_ab_apply, shapeCast_self]
  rw [rowSumKeep_apply]
  simp only [maximumf_apply, addf_apply, mulf_apply, broadcast_apply, truncf_apply, broadcastTo_1b_ab_apply, shapeCast_self, Cert.LibRows.matmul_plain_apply dot_S1000x10000_S10000x128_S1000x128_1_0_0_1_n_n rfl none]
  rfl

set_option backward.isDefEq.respectTransparency.types false in
/-- Entry `(p, q)` of the block's next-layer weights: the features of row `p` times the square matrix. -/
theorem next5_apply (x0 : FVec Ideal S1000x10000 .bf16) (x1 : FVec Ideal S10000x128 .bf16) (x3 : FVec Ideal S1x128 .f32) (x4 : FVec Ideal S128x128 .bf16) (p : Fin 1000) (q : Fin 128) :
    k5_pay2 (F := Ideal) (k5_pay3 x0 x1 x3) x4 (ix2 p q) = Spec.prod (Spec.nrm (Spec.lay (row x0 p) (Spec.mat x1) (rvec x3))) (Spec.mat x4) q := by
  unfold k5_pay2
  simp only [truncf_apply, shapeCast_self, Cert.LibRows.matmul_plain_apply dot_S1000x128_S128x128_S1000x128_1_0_0_1_n_n rfl none, feat5_apply]
  rfl

set_option backward.isDefEq.respectTransparency.types false in
/-- Entry `(p, 0)` of the block's running scores: the score so far plus the perceptron's score of row `p`'s features. -/
theorem score5_apply (x0 : FVec Ideal S1000x10000 .bf16) (x1 : FVec Ideal S10000x128 .bf16) (x2 : FVec Ideal S1000x1 .f32) (x3 : FVec Ideal S1x128 .f32)
    (x5 : FVec Ideal S128x256 .bf16) (x6 : FVec Ideal S1x256 .f32) (x7 : FVec Ideal S256x256 .bf16) (x8 : FVec Ideal S1x256 .f32)
    (x9 : FVec Ideal S256x1 .bf16) (x10 : FVec Ideal S1x1 .f32) (p : Fin 1000) :
    k5_pay1 (F := Ideal) (k5_pay4 x2) (k5_pay5 x0 x1 x3 x5 x6 x7) x8 x9 x10 (ix2 p (0 : Fin 1))
      = x2 (ix2 p (0 : Fin 1)) + Spec.score ⟨Spec.mat x5, rvec x6, Spec.mat x7, rvec x8, Spec.mat x9, rvec x10⟩ (Spec.nrm (Spec.lay (row x0 p) (Spec.mat x1) (rvec x3))) := by
  unfold k5_pay1 k5_pay4 k5_pay5
  simp only [maximumf_apply, addf_apply, broadcast_apply, truncf_apply, broadcastTo_1b_ab_apply, shapeCast_self,
    Cert.LibRows.matmul_plain_apply dot_S1000x256_S256x1_S1000x1_1_0_0_1_n_n rfl none, Cert.LibRows.matmul_plain_apply dot_S1000x256_S256x256_S1000x256_1_0_0_1_n_n rfl none,
    Cert.LibRows.matmul_plain_apply dot_S1000x128_S128x256_S1000x256_1_0_0_1_n_n rfl none, feat5_apply]
  rfl

end Cert.KerRows

end
-- ==== Proof.KerReg1.lean ====
/-
  A middle layer of the first graph, run block by block over the rows: after the region the two output arrays hold,
  row by row, the next layer's weights and the running scores of the specification.
-/
import proofs.«103950_g67688684585008_cont_9to1c4b_879_14_alg».proof.Proof.KerRowsB
import proofs.«103950_g67688684585008_cont_9to1c4b_879_14_alg».proof.Proof.Gen.KernelIdeal.Frame
import Idealize.ShloMosaic.Lib.Pipeline.Value

noncomputable section

namespace Cert.KerReg1

open Cert.KernelIdeal Cert.KernelIdeal.Gen Idealize.ShloMosaic Idealize.ShloMosaic.TcCoe Idealize.SL.Sem
open Idealize.ShloMosaic.ValueIdx Cert.KerOps
open Idealize.ShloMosaic.Pipeline (Dat)

variable (V : (c : Dev nD) → (b : Ref sig .tc) → Buf (Elt Ideal) ((c : Thread nD τ).loc b))

/-- A one-column matrix read at a row. -/
def col0 {M : Nat} (x : (⟨2, ![M, 1]⟩ : Shape).Idx → EReal) (r : Fin M) : EReal := x (ix2 r (0 : Fin 1))

theorem hz : (![0, 0] : Fin 2 → Nat) = fun _ => 0 := funext fun a => by fin_cases a <;> rfl

/-- The global row of local row `r` of point `t`'s block: the blocks are consecutive runs of 1000 rows. -/
def rowOf (t : Fin cfg1.N) (r : Fin 1000) : Fin 10000 :=
  ⟨t.val * 1000 + r.val, by have := t.isLt; have hN : cfg1.N = 10 := N_1; have := r.isLt; omega⟩

/-- Window 0's block index at a point: the point's number on the row axis. -/
theorem idx0 : ∀ t : Fin cfg1.N, win1_0.index t (0 : Fin 2) = t.val ∧ win1_0.index t (1 : Fin 2) = 0 :=
  (by decide +kernel : ∀ t : Fin grid1.N, _)

/-- Window 0's block at point `t`, at local entry `(r, j)`, is the array at global row `rowOf t r`. -/
theorem blk0 (c : Dev nD) (t : Fin cfg1.N) (r : Fin 1000) (j : Fin 10000) :
    iblk1 V c 0 t (ix2 r j) = V c (Pipeline.arrRef spec1 0) (ix2 (rowOf t r) j) := by
  show V c (Pipeline.arrRef spec1 0) (((cfg1.win 0).blk t).view.emb (ix2 r j)) = _
  refine congrArg _ (funext fun a => Fin.ext ?_)
  obtain ⟨e0, e1⟩ := idx0 t
  match a with
  | ⟨0, _⟩ => show win1_0.index t (0 : Fin 2) * 1000 + 1 * r.val = t.val * 1000 + r.val; omega
  | ⟨1, _⟩ => show win1_0.index t (1 : Fin 2) * 10000 + 1 * j.val = j.val; omega

/-- Local row `r` of window 0's block is global row `rowOf t r` of the array. -/
theorem rowblk0 (c : Dev nD) (t : Fin cfg1.N) (r : Fin 1000) :
    row (iblk1 V c 0 t) r = row (V c (Pipeline.arrRef spec1 0)) (rowOf t r) :=
  funext fun j => blk0 V c t r j

/-- Window 1's block index at a point: zero, the block is the whole array. -/
theorem idx1 : ∀ t : Fin cfg1.N, win1_1.index t (0 : Fin 2) = 0 ∧ win1_1.index t (1 : Fin 2) = 0 :=
  (by decide +kernel : ∀ t : Fin grid1.N, _)

/-- Window 1's block at any point is its whole array. -/
theorem blk1 (c : Dev nD) (t : Fin cfg1.N) : iblk1 V c 1 t = V c (Pipeline.arrRef spec1 1) := by
  funext y
  show V c (Pipeline.arrRef spec1 1) (((cfg1.win 1).blk t).view.emb y) = V c (Pipeline.arrRef spec1 1) y
  refine congrArg _ (funext fun a => Fin.ext ?_)
  obtain ⟨e0, e1⟩ := idx1 t
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- Window 2's block index at a point: the point's number on the row axis. -/
theorem idx2 : ∀ t : Fin cfg1.N, win1_2.index t (0 : Fin 2) = t.val ∧ win1_2.index t (1 : Fin 2) = 0 :=
  (by decide +kernel : ∀ t : Fin grid1.N, _)

/-- Window 2's block at point `t`, at local entry `(r, j)`, is the array at global row `rowOf t r`. -/
theorem blk2 (c : Dev nD) (t : Fin cfg1.N) (r : Fin 1000) (j : Fin 1) :
    iblk1 V c 2 t (ix2 r j) = V c (Pipeline.arrRef spec1 2) (ix2 (rowOf t r) j) := by
  show V c (Pipeline.arrRef spec1 2) (((cfg1.win 2).blk t).view.emb (ix2 r j)) = _
  refine congrArg _ (funext fun a => Fin.ext ?_)
  obtain ⟨e0, e1⟩ := idx2 t
  match a with
  | ⟨0, _⟩ => show win1_2.index t (0 : Fin 2) * 1000 + 1 * r.val = t.val * 1000 + r.val; omega
  | ⟨1, _⟩ => show win1_2.index t (1 : Fin 2) * 1 + 1 * j.val = j.val; omega

/-- Window 3's block index at a point: zero, the block is the whole array. -/
theorem idx3 : ∀ t : Fin cfg1.N, win1_3.index t (0 : Fin 2) = 0 ∧ win1_3.index t (1 : Fin 2) = 0 :=
  (by decide +kernel : ∀ t : Fin grid1.N, _)

/-- Window 3's block at any point is its whole array. -/
theorem blk3 (c : Dev nD) (t : Fin cfg1.N) : iblk1 V c 3 t = V c (Pipeline.arrRef spec1 3) := by
  funext y
  show V c (Pipeline.arrRef spec1 3) (((cfg1.win 3).blk t).view.emb y) = V c (Pipeline.arrRef spec1 3) y
  refine congrArg _ (funext fun a => Fin.ext ?_)
  obtain ⟨e0, e1⟩ := idx3 t
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block index at a point: zero, the block is the whole array. -/
theorem idx4 : ∀ t : Fin cfg1.N, win1_4.index t (0 : Fin 2) = 0 ∧ win1_4.index t (1 : Fin 2) = 0 :=
  (by decide +kernel : ∀ t : Fin grid1.N, _)

/-- Window 4's block at any point is its whole array. -/
theorem blk4 (c : Dev nD) (t : Fin cfg1.N) : iblk1 V c 4 t = V c (Pipeline.arrRef spec1 4) := by
  funext y
  show V c (Pipeline.arrRef spec1 4) (((cfg1.win 4).blk t).view.emb y) = V c (Pipeline.arrRef spec1 4) y
  refine congrArg _ (funext fun a => Fin.ext ?_)
  obtain ⟨e0, e1⟩ := idx4 t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block index at a point: zero, the block is the whole array. -/
theorem idx5 : ∀ t : Fin cfg1.N, win1_5.index t (0 : Fin 2) = 0 ∧ win1_5.index t (1 : Fin 2) = 0 :=
  (by decide +kernel : ∀ t : Fin grid1.N, _)

/-- Window 5's block at any point is its whole array. -/
theorem blk5 (c : Dev nD) (t : Fin cfg1.N) : iblk1 V c 5 t = V c (Pipeline.arrRef spec1 5) := by
  funext y
  show V c (Pipeline.arrRef spec1 5) (((cfg1.win 5).blk t).view.emb y) = V c (Pipeline.arrRef spec1 5) y
  refine congrArg _ (funext fun a => Fin.ext ?_)
  obtain ⟨e0, e1⟩ := idx5 t
  match a with
  | ⟨0, _⟩ => show win1_5.index t (0 : Fin 2) * 128 + 1 * (y 0).val = (y 0).val; omega
  | ⟨1, _⟩ => show win1_5.index t (1 : Fin 2) * 256 + 1 * (y 1).val = (y 1).val; omega

/-- Window 6's block index at a point: zero, the block is the whole array. -/
theorem idx6 : ∀ t : Fin cfg1.N, win1_6.index t (0 : Fin 2) = 0 ∧ win1_6.index t (1 : Fin 2) = 0 :=
  (by decide +kernel : ∀ t : Fin grid1.N, _)

/-- Window 6's block at any point is its whole array. -/
theorem blk6 (c : Dev nD) (t : Fin cfg1.N) : iblk1 V c 6 t = V c (Pipeline.arrRef spec1 6) := by
  funext y
  show V c (Pipeline.arrRef spec1 6) (((cfg1.win 6).blk t).view.emb y) = V c (Pipeline.arrRef spec1 6) y
  refine congrArg _ (funext fun a => Fin.ext ?_)
  obtain ⟨e0, e1⟩ := idx6 t
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- Window 7's block index at a point: zero, the block is the whole array. -/
theorem idx7 : ∀ t : Fin cfg1.N, win1_7.index t (0 : Fin 2) = 0 ∧ win1_7.index t (1 : Fin 2) = 0 :=
  (by decide +kernel : ∀ t : Fin grid1.N, _)

/-- Window 7's block at any point is its whole array. -/
theorem blk7 (c : Dev nD) (t : Fin cfg1.N) : iblk1 V c 7 t = V c (Pipeline.arrRef spec1 7) := by
  funext y
  show V c (Pipeline.arrRef spec1 7) (((cfg1.win 7).blk t).view.emb y) = V c (Pipeline.arrRef spec1 7) y
  refine congrArg _ (funext fun a => Fin.ext ?_)
  obtain ⟨e0, e1⟩ := idx7 t
  match a with
  | ⟨0, _⟩ => show win1_7.index t (0 : Fin 2) * 256 + 1 * (y 0).val = (y 0).val; omega
  | ⟨1, _⟩ => show win1_7.index t (1 : Fin 2) * 256 + 1 * (y 1).val = (y 1).val; omega

/-- Window 8's block index at a point: zero, the block is the whole array. -/
theorem idx8 : ∀ t : Fin cfg1.N, win1_8.index t (0 : Fin 2) = 0 ∧ win1_8.index t (1 : Fin 2) = 0 :=
  (by decide +kernel : ∀ t : Fin grid1.N, _)

/-- Window 8's block at any point is its whole array. -/
theorem blk8 (c : Dev nD) (t : Fin cfg1.N) : iblk1 V c 8 t = V c (Pipeline.arrRef spec1 8) := by
  funext y
  show V c (Pipeline.arrRef spec1 8) (((cfg1.win 8).blk t).view.emb y) = V c (Pipeline.arrRef spec1 8) y
  refine congrArg _ (funext fun a => Fin.ext ?_)
  obtain ⟨e0, e1⟩ := idx8 t
  match a with
  | ⟨0, _⟩ => show win1_8.index t (0 : Fin 2) * 1 + 1 * (y 0).val = (y 0).val; omega
  | ⟨1, _⟩ => show win1_8.index t (1 : Fin 2) * 256 + 1 * (y 1).val = (y 1).val; omega

/-- Window 9's block index at a point: zero, the block is the whole array. -/
theorem idx9 : ∀ t : Fin cfg1.N, win1_9.index t (0 : Fin 2) = 0 ∧ win1_9.index t (1 : Fin 2) = 0 :=
  (by decide +kernel : ∀ t : Fin grid1.N, _)

/-- Window 9's block at any point is its whole array. -/
theorem blk9 (c : Dev nD) (t : Fin cfg1.N) : iblk1 V c 9 t = V c (Pipeline.arrRef spec1 9) := by
  funext y
  show V c (Pipeline.arrRef spec1 9) (((cfg1.win 9).blk t).view.emb y) = V c (Pipeline.arrRef spec1 9) y
  refine congrArg _ (funext fun a => Fin.ext ?_)
  obtain ⟨e0, e1⟩ := idx9 t
  match a with
  | ⟨0, _⟩ => show win1_9.index t (0 : Fin 2) * 256 + 1 * (y 0).val = (y 0).val; omega
  | ⟨1, _⟩ => show win1_9.index t (1 : Fin 2) * 1 + 1 * (y 1).val = (y 1).val; omega

/-- Window 10's block index at a point: zero, the block is the whole array. -/
theorem idx10 : ∀ t : Fin cfg1.N, win1_10.index t (0 : Fin 2) = 0 ∧ win1_10.index t (1 : Fin 2) = 0 :=
  (by decide +kernel : ∀ t : Fin grid1.N, _)

/-- Window 10's block at any point is its whole array. -/
theorem blk10 (c : Dev nD) (t : Fin cfg1.N) : iblk1 V c 10 t = V c (Pipeline.arrRef spec1 10) := by
  funext y
  show V c (Pipeline.arrRef spec1 10) (((cfg1.win 10).blk t).view.emb y) = V c (Pipeline.arrRef spec1 10) y
  refine congrArg _ (funext fun a => Fin.ext ?_)
  obtain ⟨e0, e1⟩ := idx10 t
  match a with
  | ⟨0, _⟩ => show win1_10.index t (0 : Fin 2) * 1 + 1 * (y 0).val = (y 0).val; omega
  | ⟨1, _⟩ => show win1_10.index t (1 : Fin 2) * 1 + 1 * (y 1).val = (y 1).val; omega

/-- Window 11's block index at a point: the point's number on the row axis. -/
theorem idx11 : ∀ t : Fin cfg1.N, win1_11.index t (0 : Fin 2) = t.val ∧ win1_11.index t (1 : Fin 2) = 0 :=
  (by decide +kernel : ∀ t : Fin grid1.N, _)

/-- Window 12's block index at a point: the point's number on the row axis. -/
theorem idx12 : ∀ t : Fin cfg1.N, win1_12.index t (0 : Fin 2) = t.val ∧ win1_12.index t (1 : Fin 2) = 0 :=
  (by decide +kernel : ∀ t : Fin grid1.N, _)

/-! ## Output window 11 -/

/-- The next layer's weights: row `i` is the normalised features of adjacency row `i` times the square matrix. -/
def G11 (c : Dev nD) : S10000x128.Idx → EReal := fun i =>
  Spec.prod (Spec.nrm (Spec.lay (row (V c (Pipeline.arrRef spec1 0)) (i 0)) (Spec.mat (V c (Pipeline.arrRef spec1 1))) (rvec (V c (Pipeline.arrRef spec1 3))))) (Spec.mat (V c (Pipeline.arrRef spec1 4))) (i 1)

/-- An entry of point `t`'s block of window 11, embedded in the array: global row `rowOf t r`, the same column. -/
theorem emb11 (t : Fin cfg1.N) (r : Fin 1000) (q : Fin 128) :
    ((cfg1.win 11).blk t).view.emb (ix2 r q) = ix2 (rowOf t r) q := by
  funext a; apply Fin.ext
  obtain ⟨e0, e1⟩ := idx11 t
  match a with
  | ⟨0, _⟩ => show win1_11.index t (0 : Fin 2) * 1000 + 1 * r.val = t.val * 1000 + r.val; omega
  | ⟨1, _⟩ => show win1_11.index t (1 : Fin 2) * 128 + 1 * q.val = q.val; omega

/-- What point `t` writes back to window 11's array is block `t` of `G11`. -/
theorem flushed11_eq (c : Dev nD) (t : Fin cfg1.N) :
    (dat1 V c).flushed 11 t = ((cfg1.win 11).blk t).view.read (Elt Ideal) (G11 V c) := by
  show (cfg1.win 11).cut (grid1.coords t) ((dat1 V c).after 11 t) = _
  rw [after1_11]
  unfold out1_11
  rw [View.canon_unit_zero hz]
  simp only [View.ld_unit_zero (S := S1000x10000) hz, View.ld_unit_zero (S := S10000x128) hz, View.ld_unit_zero (S := S1x128) hz, View.ld_unit_zero (S := S128x128) hz]
  funext j
  obtain ⟨r, q, rfl⟩ : ∃ (r : Fin 1000) (q : Fin 128), j = ix2 r q := ⟨j 0, j 1, eq_ix2 j⟩
  refine (Cert.KerRows.next1_apply (iblk1 V c 0 t) (iblk1 V c 1 t) (iblk1 V c 3 t) (iblk1 V c 4 t) r q).trans ?_
  show _ = G11 V c (((cfg1.win 11).blk t).view.emb (ix2 r q))
  rw [emb11, rowblk0, blk1, blk3, blk4]
  rfl

/-- An index of the array is in point `t`'s block of window 11 iff each coordinate is in the block's range. -/
theorem mem_blk11 (t : Fin cfg1.N) (i : S10000x128.Idx) :
    i ∈ ((cfg1.win 11).blk t).view.set ↔ ∀ a : Fin 2, win1_11.index t a * S1000x128.size a ≤ (i a).val ∧ (i a).val < win1_11.index t a * S1000x128.size a + S1000x128.size a := by
  show i ∈ ((View.whole main_v15_0).slice (win1_11.rect t)).set ↔ _
  rw [View.set_slice_whole, Rect.mem_set_unit]
  exact Iff.rfl

/-- Every index of window 11's array is in some point's block: row `i` is in block `i / 1000`. -/
theorem cover11 (i : S10000x128.Idx) :
    ∃ t : Fin cfg1.N, (cfg1.win 11).flush t = true ∧ i ∈ ((cfg1.win 11).blk t).view.set := by
  have hi0 : (i 0).val < 10000 := (i 0).isLt
  have hi1 : (i 1).val < 128 := (i 1).isLt
  have hN : cfg1.N = 10 := N_1
  have ht : (i 0).val / 1000 < cfg1.N := by omega
  obtain ⟨e0, e1⟩ := idx11 ⟨(i 0).val / 1000, ht⟩
  refine ⟨⟨(i 0).val / 1000, ht⟩, flush1_11 _, ?_⟩
  rw [mem_blk11]
  intro a
  match a with
  | ⟨0, _⟩ =>
    show win1_11.index ⟨(i 0).val / 1000, ht⟩ (0 : Fin 2) * 1000 ≤ (i 0).val ∧ (i 0).val < win1_11.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_11.index ⟨(i 0).val / 1000, ht⟩ (1 : Fin 2) * 128 ≤ (i 1).val ∧ (i 1).val < win1_11.index ⟨(i 0).val / 1000, ht⟩ (1 : Fin 2) * 128 + 128
    rw [e1]; omega

/-- After the region, window 11's array holds `G11`. -/
theorem final11 (c : Dev nD) : (dat1 V c).arrAt 11 cfg1.N = G11 V c :=
  (dat1 V c).arrAt_eq_of_cover 11 (G11 V c) (fun t _ => flushed11_eq V c t) (cover11)

/-! ## Output window 12 -/

/-- The running scores: entry `i` is the score so far at `i` plus the perceptron's score of the normalised features of adjacency row `i`. -/
def G12 (c : Dev nD) : S10000x1.Idx → EReal := fun i =>
  col0 (V c (Pipeline.arrRef spec1 2)) (i 0) + Spec.score ⟨Spec.mat (V c (Pipeline.arrRef spec1 5)), rvec (V c (Pipeline.arrRef spec1 6)), Spec.mat (V c (Pipeline.arrRef spec1 7)), rvec (V c (Pipeline.arrRef spec1 8)), Spec.mat (V c (Pipeline.arrRef spec1 9)), rvec (V c (Pipeline.arrRef spec1 10))⟩ (Spec.nrm (Spec.lay (row (V c (Pipeline.arrRef spec1 0)) (i 0)) (Spec.mat (V c (Pipeline.arrRef spec1 1))) (rvec (V c (Pipeline.arrRef spec1 3)))))

/-- An entry of point `t`'s block of window 12, embedded in the array: global row `rowOf t r`, the same column. -/
theorem emb12 (t : Fin cfg1.N) (r : Fin 1000) (q : Fin 1) :
    ((cfg1.win 12).blk t).view.emb (ix2 r q) = ix2 (rowOf t r) q := by
  funext a; apply Fin.ext
  obtain ⟨e0, e1⟩ := idx12 t
  match a with
  | ⟨0, _⟩ => show win1_12.index t (0 : Fin 2) * 1000 + 1 * r.val = t.val * 1000 + r.val; omega
  | ⟨1, _⟩ => show win1_12.index t (1 : Fin 2) * 1 + 1 * q.val = q.val; omega

/-- What point `t` writes back to window 12's array is block `t` of `G12`. -/
theorem flushed12_eq (c : Dev nD) (t : Fin cfg1.N) :
    (dat1 V c).flushed 12 t = ((cfg1.win 12).blk t).view.read (Elt Ideal) (G12 V c) := by
  show (cfg1.win 12).cut (grid1.coords t) ((dat1 V c).after 12 t) = _
  rw [after1_12]
  unfold out1_12
  rw [View.canon_unit_zero hz]
  simp only [View.ld_unit_zero (S := S1000x10000) hz, View.ld_unit_zero (S := S10000x128) hz, View.ld_unit_zero (S := S1000x1) hz, View.ld_unit_zero (S := S1x128) hz, View.ld_unit_zero (S := S128x256) hz, View.ld_unit_zero (S := S1x256) hz, View.ld_unit_zero (S := S256x256) hz, View.ld_unit_zero (S := S256x1) hz, View.ld_unit_zero (S := S1x1) hz]
  funext j
  obtain ⟨r, q, rfl⟩ : ∃ (r : Fin 1000) (q : Fin 1), j = ix2 r q := ⟨j 0, j 1, eq_ix2 j⟩
  have hq : q = 0 := Subsingleton.elim _ _
  subst hq
  refine (Cert.KerRows.score1_apply (iblk1 V c 0 t) (iblk1 V c 1 t) (iblk1 V c 2 t) (iblk1 V c 3 t) (iblk1 V c 5 t) (iblk1 V c 6 t) (iblk1 V c 7 t) (iblk1 V c 8 t) (iblk1 V c 9 t) (iblk1 V c 10 t) r).trans ?_
  show _ = G12 V c (((cfg1.win 12).blk t).view.emb (ix2 r (0 : Fin 1)))
  rw [emb12, blk2, rowblk0, blk1, blk3, blk5, blk6, blk7, blk8, blk9, blk10]
  rfl

/-- An index of the array is in point `t`'s block of window 12 iff each coordinate is in the block's range. -/
theorem mem_blk12 (t : Fin cfg1.N) (i : S10000x1.Idx) :
    i ∈ ((cfg1.win 12).blk t).view.set ↔ ∀ a : Fin 2, win1_12.index t a * S1000x1.size a ≤ (i a).val ∧ (i a).val < win1_12.index t a * S1000x1.size a + S1000x1.size a := by
  show i ∈ ((View.whole main_v15_1).slice (win1_12.rect t)).set ↔ _
  rw [View.set_slice_whole, Rect.mem_set_unit]
  exact Iff.rfl

/-- Every index of window 12's array is in some point's block: row `i` is in block `i / 1000`. -/
theorem cover12 (i : S10000x1.Idx) :
    ∃ t : Fin cfg1.N, (cfg1.win 12).flush t = true ∧ i ∈ ((cfg1.win 12).blk t).view.set := by
  have hi0 : (i 0).val < 10000 := (i 0).isLt
  have hi1 : (i 1).val < 1 := (i 1).isLt
  have hN : cfg1.N = 10 := N_1
  have ht : (i 0).val / 1000 < cfg1.N := by omega
  obtain ⟨e0, e1⟩ := idx12 ⟨(i 0).val / 1000, ht⟩
  refine ⟨⟨(i 0).val / 1000, ht⟩, flush1_12 _, ?_⟩
  rw [mem_blk12]
  intro a
  match a with
  | ⟨0, _⟩ =>
    show win1_12.index ⟨(i 0).val / 1000, ht⟩ (0 : Fin 2) * 1000 ≤ (i 0).val ∧ (i 0).val < win1_12.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_12.index ⟨(i 0).val / 1000, ht⟩ (1 : Fin 2) * 1 ≤ (i 1).val ∧ (i 1).val < win1_12.index ⟨(i 0).val / 1000, ht⟩ (1 : Fin 2) * 1 + 1
    rw [e1]; omega

/-- After the region, window 12's array holds `G12`. -/
theorem final12 (c : Dev nD) : (dat1 V c).arrAt 12 cfg1.N = G12 V c :=
  (dat1 V c).arrAt_eq_of_cover 12 (G12 V c) (fun t _ => flushed12_eq V c t) (cover12)

end Cert.KerReg1

end
-- ==== Proof.KerReg2.lean ====
/-
  A middle layer of the first graph, run block by block over the rows: after the region the two output arrays hold,
  row by row, the next layer's weights and the running scores of the specification.
-/
import proofs.«103950_g67688684585008_cont_9to1c4b_879_14_alg».proof.Proof.KerRowsB
import proofs.«103950_g67688684585008_cont_9to1c4b_879_14_alg».proof.Proof.Gen.KernelIdeal.Frame
import Idealize.ShloMosaic.Lib.Pipeline.Value

noncomputable section

namespace Cert.KerReg2

open Cert.KernelIdeal Cert.KernelIdeal.Gen Idealize.ShloMosaic Idealize.ShloMosaic.TcCoe Idealize.SL.Sem
open Idealize.ShloMosaic.ValueIdx Cert.KerOps
open Idealize.ShloMosaic.Pipeline (Dat)

variable (V : (c : Dev nD) → (b : Ref sig .tc) → Buf (Elt Ideal) ((c : Thread nD τ).loc b))

/-- A one-column matrix read at a row. -/
def col0 {M : Nat} (x : (⟨2, ![M, 1]⟩ : Shape).Idx → EReal) (r : Fin M) : EReal := x (ix2 r (0 : Fin 1))

theorem hz : (![0, 0] : Fin 2 → Nat) = fun _ => 0 := funext fun a => by fin_cases a <;> rfl

/-- The global row of local row `r` of point `t`'s block: the blocks are consecutive runs of 1000 rows. -/
def rowOf (t : Fin cfg2.N) (r : Fin 1000) : Fin 10000 :=
  ⟨t.val * 1000 + r.val, by have := t.isLt; have hN : cfg2.N = 10 := N_2; have := r.isLt; omega⟩

/-- Window 0's block index at a point: the point's number on the row axis. -/
theorem idx0 : ∀ t : Fin cfg2.N, win2_0.index t (0 : Fin 2) = t.val ∧ win2_0.index t (1 : Fin 2) = 0 :=
  (by decide +kernel : ∀ t : Fin grid2.N, _)

/-- Window 0's block at point `t`, at local entry `(r, j)`, is the array at global row `rowOf t r`. -/
theorem blk0 (c : Dev nD) (t : Fin cfg2.N) (r : Fin 1000) (j : Fin 10000) :
    iblk2 V c 0 t (ix2 r j) = V c (Pipeline.arrRef spec2 0) (ix2 (rowOf t r) j) := by
  show V c (Pipeline.arrRef spec2 0) (((cfg2.win 0).blk t).view.emb (ix2 r j)) = _
  refine congrArg _ (funext fun a => Fin.ext ?_)
  obtain ⟨e0, e1⟩ := idx0 t
  match a with
  | ⟨0, _⟩ => show win2_0.index t (0 : Fin 2) * 1000 + 1 * r.val = t.val * 1000 + r.val; omega
  | ⟨1, _⟩ => show win2_0.index t (1 : Fin 2) * 10000 + 1 * j.val = j.val; omega

/-- Local row `r` of window 0's block is global row `rowOf t r` of the array. -/
theorem rowblk0 (c : Dev nD) (t : Fin cfg2.N) (r : Fin 1000) :
    row (iblk2 V c 0 t) r = row (V c (Pipeline.arrRef spec2 0)) (rowOf t r) :=
  funext fun j => blk0 V c t r j

/-- Window 1's block index at a point: zero, the block is the whole array. -/
theorem idx1 : ∀ t : Fin cfg2.N, win2_1.index t (0 : Fin 2) = 0 ∧ win2_1.index t (1 : Fin 2) = 0 :=
  (by decide +kernel : ∀ t : Fin grid2.N, _)

/-- Window 1's block at any point is its whole array. -/
theorem blk1 (c : Dev nD) (t : Fin cfg2.N) : iblk2 V c 1 t = V c (Pipeline.arrRef spec2 1) := by
  funext y
  show V c (Pipeline.arrRef spec2 1) (((cfg2.win 1).blk t).view.emb y) = V c (Pipeline.arrRef spec2 1) y
  refine congrArg _ (funext fun a => Fin.ext ?_)
  obtain ⟨e0, e1⟩ := idx1 t
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- Window 2's block index at a point: the point's number on the row axis. -/
theorem idx2 : ∀ t : Fin cfg2.N, win2_2.index t (0 : Fin 2) = t.val ∧ win2_2.index t (1 : Fin 2) = 0 :=
  (by decide +kernel : ∀ t : Fin grid2.N, _)

/-- Window 2's block at point `t`, at local entry `(r, j)`, is the array at global row `rowOf t r`. -/
theorem blk2 (c : Dev nD) (t : Fin cfg2.N) (r : Fin 1000) (j : Fin 1) :
    iblk2 V c 2 t (ix2 r j) = V c (Pipeline.arrRef spec2 2) (ix2 (rowOf t r) j) := by
  show V c (Pipeline.arrRef spec2 2) (((cfg2.win 2).blk t).view.emb (ix2 r j)) = _
  refine congrArg _ (funext fun a => Fin.ext ?_)
  obtain ⟨e0, e1⟩ := idx2 t
  match a with
  | ⟨0, _⟩ => show win2_2.index t (0 : Fin 2) * 1000 + 1 * r.val = t.val * 1000 + r.val; omega
  | ⟨1, _⟩ => show win2_2.index t (1 : Fin 2) * 1 + 1 * j.val = j.val; omega

/-- Window 3's block index at a point: zero, the block is the whole array. -/
theorem idx3 : ∀ t : Fin cfg2.N, win2_3.index t (0 : Fin 2) = 0 ∧ win2_3.index t (1 : Fin 2) = 0 :=
  (by decide +kernel : ∀ t : Fin grid2.N, _)

/-- Window 3's block at any point is its whole array. -/
theorem blk3 (c : Dev nD) (t : Fin cfg2.N) : iblk2 V c 3 t = V c (Pipeline.arrRef spec2 3) := by
  funext y
  show V c (Pipeline.arrRef spec2 3) (((cfg2.win 3).blk t).view.emb y) = V c (Pipeline.arrRef spec2 3) y
  refine congrArg _ (funext fun a => Fin.ext ?_)
  obtain ⟨e0, e1⟩ := idx3 t
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block index at a point: zero, the block is the whole array. -/
theorem idx4 : ∀ t : Fin cfg2.N, win2_4.index t (0 : Fin 2) = 0 ∧ win2_4.index t (1 : Fin 2) = 0 :=
  (by decide +kernel : ∀ t : Fin grid2.N, _)

/-- Window 4's block at any point is its whole array. -/
theorem blk4 (c : Dev nD) (t : Fin cfg2.N) : iblk2 V c 4 t = V c (Pipeline.arrRef spec2 4) := by
  funext y
  show V c (Pipeline.arrRef spec2 4) (((cfg2.win 4).blk t).view.emb y) = V c (Pipeline.arrRef spec2 4) y
  refine congrArg _ (funext fun a => Fin.ext ?_)
  obtain ⟨e0, e1⟩ := idx4 t
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block index at a point: zero, the block is the whole array. -/
theorem idx5 : ∀ t : Fin cfg2.N, win2_5.index t (0 : Fin 2) = 0 ∧ win2_5.index t (1 : Fin 2) = 0 :=
  (by decide +kernel : ∀ t : Fin grid2.N, _)

/-- Window 5's block at any point is its whole array. -/
theorem blk5 (c : Dev nD) (t : Fin cfg2.N) : iblk2 V c 5 t = V c (Pipeline.arrRef spec2 5) := by
  funext y
  show V c (Pipeline.arrRef spec2 5) (((cfg2.win 5).blk t).view.emb y) = V c (Pipeline.arrRef spec2 5) y
  refine congrArg _ (funext fun a => Fin.ext ?_)
  obtain ⟨e0, e1⟩ := idx5 t
  match a with
  | ⟨0, _⟩ => show win2_5.index t (0 : Fin 2) * 128 + 1 * (y 0).val = (y 0).val; omega
  | ⟨1, _⟩ => show win2_5.index t (1 : Fin 2) * 256 + 1 * (y 1).val = (y 1).val; omega

/-- Window 6's block index at a point: zero, the block is the whole array. -/
theorem idx6 : ∀ t : Fin cfg2.N, win2_6.index t (0 : Fin 2) = 0 ∧ win2_6.index t (1 : Fin 2) = 0 :=
  (by decide +kernel : ∀ t : Fin grid2.N, _)

/-- Window 6's block at any point is its whole array. -/
theorem blk6 (c : Dev nD) (t : Fin cfg2.N) : iblk2 V c 6 t = V c (Pipeline.arrRef spec2 6) := by
  funext y
  show V c (Pipeline.arrRef spec2 6) (((cfg2.win 6).blk t).view.emb y) = V c (Pipeline.arrRef spec2 6) y
  refine congrArg _ (funext fun a => Fin.ext ?_)
  obtain ⟨e0, e1⟩ := idx6 t
  match a with
  | ⟨0, _⟩ => show win2_6.index t (0 : Fin 2) * 1 + 1 * (y 0).val = (y 0).val; omega
  | ⟨1, _⟩ => show win2_6.index t (1 : Fin 2) * 256 + 1 * (y 1).val = (y 1).val; omega

/-- Window 7's block index at a point: zero, the block is the whole array. -/
theorem idx7 : ∀ t : Fin cfg2.N, win2_7.index t (0 : Fin 2) = 0 ∧ win2_7.index t (1 : Fin 2) = 0 :=
  (by decide +kernel : ∀ t : Fin grid2.N, _)

/-- Window 7's block at any point is its whole array. -/
theorem blk7 (c : Dev nD) (t : Fin cfg2.N) : iblk2 V c 7 t = V c (Pipeline.arrRef spec2 7) := by
  funext y
  show V c (Pipeline.arrRef spec2 7) (((cfg2.win 7).blk t).view.emb y) = V c (Pipeline.arrRef spec2 7) y
  refine congrArg _ (funext fun a => Fin.ext ?_)
  obtain ⟨e0, e1⟩ := idx7 t
  match a with
  | ⟨0, _⟩ => show win2_7.index t (0 : Fin 2) * 256 + 1 * (y 0).val = (y 0).val; omega
  | ⟨1, _⟩ => show win2_7.index t (1 : Fin 2) * 256 + 1 * (y 1).val = (y 1).val; omega

/-- Window 8's block index at a point: zero, the block is the whole array. -/
theorem idx8 : ∀ t : Fin cfg2.N, win2_8.index t (0 : Fin 2) = 0 ∧ win2_8.index t (1 : Fin 2) = 0 :=
  (by decide +kernel : ∀ t : Fin grid2.N, _)

/-- Window 8's block at any point is its whole array. -/
theorem blk8 (c : Dev nD) (t : Fin cfg2.N) : iblk2 V c 8 t = V c (Pipeline.arrRef spec2 8) := by
  funext y
  show V c (Pipeline.arrRef spec2 8) (((cfg2.win 8).blk t).view.emb y) = V c (Pipeline.arrRef spec2 8) y
  refine congrArg _ (funext fun a => Fin.ext ?_)
  obtain ⟨e0, e1⟩ := idx8 t
  match a with
  | ⟨0, _⟩ => show win2_8.index t (0 : Fin 2) * 1 + 1 * (y 0).val = (y 0).val; omega
  | ⟨1, _⟩ => show win2_8.index t (1 : Fin 2) * 256 + 1 * (y 1).val = (y 1).val; omega

/-- Window 9's block index at a point: zero, the block is the whole array. -/
theorem idx9 : ∀ t : Fin cfg2.N, win2_9.index t (0 : Fin 2) = 0 ∧ win2_9.index t (1 : Fin 2) = 0 :=
  (by decide +kernel : ∀ t : Fin grid2.N, _)

/-- Window 9's block at any point is its whole array. -/
theorem blk9 (c : Dev nD) (t : Fin cfg2.N) : iblk2 V c 9 t = V c (Pipeline.arrRef spec2 9) := by
  funext y
  show V c (Pipeline.arrRef spec2 9) (((cfg2.win 9).blk t).view.emb y) = V c (Pipeline.arrRef spec2 9) y
  refine congrArg _ (funext fun a => Fin.ext ?_)
  obtain ⟨e0, e1⟩ := idx9 t
  match a with
  | ⟨0, _⟩ => show win2_9.index t (0 : Fin 2) * 256 + 1 * (y 0).val = (y 0).val; omega
  | ⟨1, _⟩ => show win2_9.index t (1 : Fin 2) * 1 + 1 * (y 1).val = (y 1).val; omega

/-- Window 10's block index at a point: zero, the block is the whole array. -/
theorem idx10 : ∀ t : Fin cfg2.N, win2_10.index t (0 : Fin 2) = 0 ∧ win2_10.index t (1 : Fin 2) = 0 :=
  (by decide +kernel : ∀ t : Fin grid2.N, _)

/-- Window 10's block at any point is its whole array. -/
theorem blk10 (c : Dev nD) (t : Fin cfg2.N) : iblk2 V c 10 t = V c (Pipeline.arrRef spec2 10) := by
  funext y
  show V c (Pipeline.arrRef spec2 10) (((cfg2.win 10).blk t).view.emb y) = V c (Pipeline.arrRef spec2 10) y
  refine congrArg _ (funext fun a => Fin.ext ?_)
  obtain ⟨e0, e1⟩ := idx10 t
  match a with
  | ⟨0, _⟩ => show win2_10.index t (0 : Fin 2) * 1 + 1 * (y 0).val = (y 0).val; omega
  | ⟨1, _⟩ => show win2_10.index t (1 : Fin 2) * 1 + 1 * (y 1).val = (y 1).val; omega

/-- Window 11's block index at a point: the point's number on the row axis. -/
theorem idx11 : ∀ t : Fin cfg2.N, win2_11.index t (0 : Fin 2) = t.val ∧ win2_11.index t (1 : Fin 2) = 0 :=
  (by decide +kernel : ∀ t : Fin grid2.N, _)

/-- Window 12's block index at a point: the point's number on the row axis. -/
theorem idx12 : ∀ t : Fin cfg2.N, win2_12.index t (0 : Fin 2) = t.val ∧ win2_12.index t (1 : Fin 2) = 0 :=
  (by decide +kernel : ∀ t : Fin grid2.N, _)

/-! ## Output window 11 -/

/-- The next layer's weights: row `i` is the normalised features of adjacency row `i` times the square matrix. -/
def G11 (c : Dev nD) : S10000x128.Idx → EReal := fun i =>
  Spec.prod (Spec.nrm (Spec.lay (row (V c (Pipeline.arrRef spec2 0)) (i 0)) (Spec.mat (V c (Pipeline.arrRef spec2 1))) (rvec (V c (Pipeline.arrRef spec2 3))))) (Spec.mat (V c (Pipeline.arrRef spec2 4))) (i 1)

/-- An entry of point `t`'s block of window 11, embedded in the array: global row `rowOf t r`, the same column. -/
theorem emb11 (t : Fin cfg2.N) (r : Fin 1000) (q : Fin 128) :
    ((cfg2.win 11).blk t).view.emb (ix2 r q) = ix2 (rowOf t r) q := by
  funext a; apply Fin.ext
  obtain ⟨e0, e1⟩ := idx11 t
  match a with
  | ⟨0, _⟩ => show win2_11.index t (0 : Fin 2) * 1000 + 1 * r.val = t.val * 1000 + r.val; omega
  | ⟨1, _⟩ => show win2_11.index t (1 : Fin 2) * 128 + 1 * q.val = q.val; omega

/-- What point `t` writes back to window 11's array is block `t` of `G11`. -/
theorem flushed11_eq (c : Dev nD) (t : Fin cfg2.N) :
    (dat2 V c).flushed 11 t = ((cfg2.win 11).blk t).view.read (Elt Ideal) (G11 V c) := by
  show (cfg2.win 11).cut (grid2.coords t) ((dat2 V c).after 11 t) = _
  rw [after2_11]
  unfold out2_11
  rw [View.canon_unit_zero hz]
  simp only [View.ld_unit_zero (S := S1000x10000) hz, View.ld_unit_zero (S := S10000x128) hz, View.ld_unit_zero (S := S1x128) hz, View.ld_unit_zero (S := S128x128) hz]
  funext j
  obtain ⟨r, q, rfl⟩ : ∃ (r : Fin 1000) (q : Fin 128), j = ix2 r q := ⟨j 0, j 1, eq_ix2 j⟩
  refine (Cert.KerRows.next2_apply (iblk2 V c 0 t) (iblk2 V c 1 t) (iblk2 V c 3 t) (iblk2 V c 4 t) r q).trans ?_
  show _ = G11 V c (((cfg2.win 11).blk t).view.emb (ix2 r q))
  rw [emb11, rowblk0, blk1, blk3, blk4]
  rfl

/-- An index of the array is in point `t`'s block of window 11 iff each coordinate is in the block's range. -/
theorem mem_blk11 (t : Fin cfg2.N) (i : S10000x128.Idx) :
    i ∈ ((cfg2.win 11).blk t).view.set ↔ ∀ a : Fin 2, win2_11.index t a * S1000x128.size a ≤ (i a).val ∧ (i a).val < win2_11.index t a * S1000x128.size a + S1000x128.size a := by
  show i ∈ ((View.whole main_v16_0).slice (win2_11.rect t)).set ↔ _
  rw [View.set_slice_whole, Rect.mem_set_unit]
  exact Iff.rfl

/-- Every index of window 11's array is in some point's block: row `i` is in block `i / 1000`. -/
theorem cover11 (i : S10000x128.Idx) :
    ∃ t : Fin cfg2.N, (cfg2.win 11).flush t = true ∧ i ∈ ((cfg2.win 11).blk t).view.set := by
  have hi0 : (i 0).val < 10000 := (i 0).isLt
  have hi1 : (i 1).val < 128 := (i 1).isLt
  have hN : cfg2.N = 10 := N_2
  have ht : (i 0).val / 1000 < cfg2.N := by omega
  obtain ⟨e0, e1⟩ := idx11 ⟨(i 0).val / 1000, ht⟩
  refine ⟨⟨(i 0).val / 1000, ht⟩, flush2_11 _, ?_⟩
  rw [mem_blk11]
  intro a
  match a with
  | ⟨0, _⟩ =>
    show win2_11.index ⟨(i 0).val / 1000, ht⟩ (0 : Fin 2) * 1000 ≤ (i 0).val ∧ (i 0).val < win2_11.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win2_11.index ⟨(i 0).val / 1000, ht⟩ (1 : Fin 2) * 128 ≤ (i 1).val ∧ (i 1).val < win2_11.index ⟨(i 0).val / 1000, ht⟩ (1 : Fin 2) * 128 + 128
    rw [e1]; omega

/-- After the region, window 11's array holds `G11`. -/
theorem final11 (c : Dev nD) : (dat2 V c).arrAt 11 cfg2.N = G11 V c :=
  (dat2 V c).arrAt_eq_of_cover 11 (G11 V c) (fun t _ => flushed11_eq V c t) (cover11)

/-! ## Output window 12 -/

/-- The running scores: entry `i` is the score so far at `i` plus the perceptron's score of the normalised features of adjacency row `i`. -/
def G12 (c : Dev nD) : S10000x1.Idx → EReal := fun i =>
  col0 (V c (Pipeline.arrRef spec2 2)) (i 0) + Spec.score ⟨Spec.mat (V c (Pipeline.arrRef spec2 5)), rvec (V c (Pipeline.arrRef spec2 6)), Spec.mat (V c (Pipeline.arrRef spec2 7)), rvec (V c (Pipeline.arrRef spec2 8)), Spec.mat (V c (Pipeline.arrRef spec2 9)), rvec (V c (Pipeline.arrRef spec2 10))⟩ (Spec.nrm (Spec.lay (row (V c (Pipeline.arrRef spec2 0)) (i 0)) (Spec.mat (V c (Pipeline.arrRef spec2 1))) (rvec (V c (Pipeline.arrRef spec2 3)))))

/-- An entry of point `t`'s block of window 12, embedded in the array: global row `rowOf t r`, the same column. -/
theorem emb12 (t : Fin cfg2.N) (r : Fin 1000) (q : Fin 1) :
    ((cfg2.win 12).blk t).view.emb (ix2 r q) = ix2 (rowOf t r) q := by
  funext a; apply Fin.ext
  obtain ⟨e0, e1⟩ := idx12 t
  match a with
  | ⟨0, _⟩ => show win2_12.index t (0 : Fin 2) * 1000 + 1 * r.val = t.val * 1000 + r.val; omega
  | ⟨1, _⟩ => show win2_12.index t (1 : Fin 2) * 1 + 1 * q.val = q.val; omega

/-- What point `t` writes back to window 12's array is block `t` of `G12`. -/
theorem flushed12_eq (c : Dev nD) (t : Fin cfg2.N) :
    (dat2 V c).flushed 12 t = ((cfg2.win 12).blk t).view.read (Elt Ideal) (G12 V c) := by
  show (cfg2.win 12).cut (grid2.coords t) ((dat2 V c).after 12 t) = _
  rw [after2_12]
  unfold out2_12
  rw [View.canon_unit_zero hz]
  simp only [View.ld_unit_zero (S := S1000x10000) hz, View.ld_unit_zero (S := S10000x128) hz, View.ld_unit_zero (S := S1000x1) hz, View.ld_unit_zero (S := S1x128) hz, View.ld_unit_zero (S := S128x256) hz, View.ld_unit_zero (S := S1x256) hz, View.ld_unit_zero (S := S256x256) hz, View.ld_unit_zero (S := S256x1) hz, View.ld_unit_zero (S := S1x1) hz]
  funext j
  obtain ⟨r, q, rfl⟩ : ∃ (r : Fin 1000) (q : Fin 1), j = ix2 r q := ⟨j 0, j 1, eq_ix2 j⟩
  have hq : q = 0 := Subsingleton.elim _ _
  subst hq
  refine (Cert.KerRows.score2_apply (iblk2 V c 0 t) (iblk2 V c 1 t) (iblk2 V c 2 t) (iblk2 V c 3 t) (iblk2 V c 5 t) (iblk2 V c 6 t) (iblk2 V c 7 t) (iblk2 V c 8 t) (iblk2 V c 9 t) (iblk2 V c 10 t) r).trans ?_
  show _ = G12 V c (((cfg2.win 12).blk t).view.emb (ix2 r (0 : Fin 1)))
  rw [emb12, blk2, rowblk0, blk1, blk3, blk5, blk6, blk7, blk8, blk9, blk10]
  rfl

/-- An index of the array is in point `t`'s block of window 12 iff each coordinate is in the block's range. -/
theorem mem_blk12 (t : Fin cfg2.N) (i : S10000x1.Idx) :
    i ∈ ((cfg2.win 12).blk t).view.set ↔ ∀ a : Fin 2, win2_12.index t a * S1000x1.size a ≤ (i a).val ∧ (i a).val < win2_12.index t a * S1000x1.size a + S1000x1.size a := by
  show i ∈ ((View.whole main_v16_1).slice (win2_12.rect t)).set ↔ _
  rw [View.set_slice_whole, Rect.mem_set_unit]
  exact Iff.rfl

/-- Every index of window 12's array is in some point's block: row `i` is in block `i / 1000`. -/
theorem cover12 (i : S10000x1.Idx) :
    ∃ t : Fin cfg2.N, (cfg2.win 12).flush t = true ∧ i ∈ ((cfg2.win 12).blk t).view.set := by
  have hi0 : (i 0).val < 10000 := (i 0).isLt
  have hi1 : (i 1).val < 1 := (i 1).isLt
  have hN : cfg2.N = 10 := N_2
  have ht : (i 0).val / 1000 < cfg2.N := by omega
  obtain ⟨e0, e1⟩ := idx12 ⟨(i 0).val / 1000, ht⟩
  refine ⟨⟨(i 0).val / 1000, ht⟩, flush2_12 _, ?_⟩
  rw [mem_blk12]
  intro a
  match a with
  | ⟨0, _⟩ =>
    show win2_12.index ⟨(i 0).val / 1000, ht⟩ (0 : Fin 2) * 1000 ≤ (i 0).val ∧ (i 0).val < win2_12.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win2_12.index ⟨(i 0).val / 1000, ht⟩ (1 : Fin 2) * 1 ≤ (i 1).val ∧ (i 1).val < win2_12.index ⟨(i 0).val / 1000, ht⟩ (1 : Fin 2) * 1 + 1
    rw [e1]; omega

/-- After the region, window 12's array holds `G12`. -/
theorem final12 (c : Dev nD) : (dat2 V c).arrAt 12 cfg2.N = G12 V c :=
  (dat2 V c).arrAt_eq_of_cover 12 (G12 V c) (fun t _ => flushed12_eq V c t) (cover12)

end Cert.KerReg2

end
-- ==== Proof.KerReg3.lean ====
/-
  Layer 1 of the second graph, run block by block over the rows: after the region the three output arrays
  hold, row by row, the adjacency rows themselves, the next layer's weights and the first scores of the specification.
-/
import proofs.«103950_g67688684585008_cont_9to1c4b_879_14_alg».proof.Proof.KerRowsA
import proofs.«103950_g67688684585008_cont_9to1c4b_879_14_alg».proof.Proof.Gen.KernelIdeal.Frame
import Idealize.ShloMosaic.Lib.Pipeline.Value

noncomputable section

namespace Cert.KerReg3

open Cert.KernelIdeal Cert.KernelIdeal.Gen Idealize.ShloMosaic Idealize.ShloMosaic.TcCoe Idealize.SL.Sem
open Idealize.ShloMosaic.ValueIdx Cert.KerOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The global row of local row `r` of point `t`'s block: the blocks are consecutive runs of 400 rows. -/
def rowOf (t : Fin cfg3.N) (r : Fin 400) : Fin 10000 :=
  ⟨t.val * 400 + r.val, by have := t.isLt; have hN : cfg3.N = 25 := N_3; have := r.isLt; omega⟩

/-- Window 0's block index at a point: the point's number on the row axis. -/
theorem idx0 : ∀ t : Fin cfg3.N, win3_0.index t (0 : Fin 2) = t.val ∧ win3_0.index t (1 : Fin 2) = 0 :=
  (by decide +kernel : ∀ t : Fin grid3.N, _)

/-- Window 0's block at point `t`, at local entry `(r, j)`, is the array at global row `rowOf t r`. -/
theorem blk0 (c : Dev nD) (t : Fin cfg3.N) (r : Fin 400) (j : Fin 10000) :
    iblk3 V c 0 t (ix2 r j) = V c (Pipeline.arrRef spec3 0) (ix2 (rowOf t r) j) := by
  show V c (Pipeline.arrRef spec3 0) (((cfg3.win 0).blk t).view.emb (ix2 r j)) = _
  refine congrArg _ (funext fun a => Fin.ext ?_)
  obtain ⟨e0, e1⟩ := idx0 t
  match a with
  | ⟨0, _⟩ => show win3_0.index t (0 : Fin 2) * 400 + 1 * r.val = t.val * 400 + r.val; omega
  | ⟨1, _⟩ => show win3_0.index t (1 : Fin 2) * 10000 + 1 * j.val = j.val; omega

/-- Local row `r` of window 0's block is global row `rowOf t r` of the array. -/
theorem rowblk0 (c : Dev nD) (t : Fin cfg3.N) (r : Fin 400) :
    row (iblk3 V c 0 t) r = row (V c (Pipeline.arrRef spec3 0)) (rowOf t r) :=
  funext fun j => blk0 V c t r j

/-- Window 1's block index at a point: zero, the block is the whole array. -/
theorem idx1 : ∀ t : Fin cfg3.N, win3_1.index t (0 : Fin 2) = 0 ∧ win3_1.index t (1 : Fin 2) = 0 :=
  (by decide +kernel : ∀ t : Fin grid3.N, _)

/-- Window 1's block at any point is its whole array. -/
theorem blk1 (c : Dev nD) (t : Fin cfg3.N) : iblk3 V c 1 t = V c (Pipeline.arrRef spec3 1) := by
  funext y
  show V c (Pipeline.arrRef spec3 1) (((cfg3.win 1).blk t).view.emb y) = V c (Pipeline.arrRef spec3 1) y
  refine congrArg _ (funext fun a => Fin.ext ?_)
  obtain ⟨e0, e1⟩ := idx1 t
  match a with
  | ⟨0, _⟩ => show win3_1.index t (0 : Fin 2) * 10000 + 1 * (y 0).val = (y 0).val; omega
  | ⟨1, _⟩ => show win3_1.index t (1 : Fin 2) * 128 + 1 * (y 1).val = (y 1).val; omega

/-- Window 2's block index at a point: zero, the block is the whole array. -/
theorem idx2 : ∀ t : Fin cfg3.N, win3_2.index t (0 : Fin 2) = 0 ∧ win3_2.index t (1 : Fin 2) = 0 :=
  (by decide +kernel : ∀ t : Fin grid3.N, _)

/-- Window 2's block at any point is its whole array. -/
theorem blk2 (c : Dev nD) (t : Fin cfg3.N) : iblk3 V c 2 t = V c (Pipeline.arrRef spec3 2) := by
  funext y
  show V c (Pipeline.arrRef spec3 2) (((cfg3.win 2).blk t).view.emb y) = V c (Pipeline.arrRef spec3 2) y
  refine congrArg _ (funext fun a => Fin.ext ?_)
  obtain ⟨e0, e1⟩ := idx2 t
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block index at a point: zero, the block is the whole array. -/
theorem idx3 : ∀ t : Fin cfg3.N, win3_3.index t (0 : Fin 2) = 0 ∧ win3_3.index t (1 : Fin 2) = 0 :=
  (by decide +kernel : ∀ t : Fin grid3.N, _)

/-- Window 3's block at any point is its whole array. -/
theorem blk3 (c : Dev nD) (t : Fin cfg3.N) : iblk3 V c 3 t = V c (Pipeline.arrRef spec3 3) := by
  funext y
  show V c (Pipeline.arrRef spec3 3) (((cfg3.win 3).blk t).view.emb y) = V c (Pipeline.arrRef spec3 3) y
  refine congrArg _ (funext fun a => Fin.ext ?_)
  obtain ⟨e0, e1⟩ := idx3 t
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Window 4's block index at a point: zero, the block is the whole array. -/
theorem idx4 : ∀ t : Fin cfg3.N, win3_4.index t (0 : Fin 2) = 0 ∧ win3_4.index t (1 : Fin 2) = 0 :=
  (by decide +kernel : ∀ t : Fin grid3.N, _)

/-- Window 4's block at any point is its whole array. -/
theorem blk4 (c : Dev nD) (t : Fin cfg3.N) : iblk3 V c 4 t = V c (Pipeline.arrRef spec3 4) := by
  funext y
  show V c (Pipeline.arrRef spec3 4) (((cfg3.win 4).blk t).view.emb y) = V c (Pipeline.arrRef spec3 4) y
  refine congrArg _ (funext fun a => Fin.ext ?_)
  obtain ⟨e0, e1⟩ := idx4 t
  match a with
  | ⟨0, _⟩ => show win3_4.index t (0 : Fin 2) * 128 + 1 * (y 0).val = (y 0).val; omega
  | ⟨1, _⟩ => show win3_4.index t (1 : Fin 2) * 256 + 1 * (y 1).val = (y 1).val; omega

/-- Window 5's block index at a point: zero, the block is the whole array. -/
theorem idx5 : ∀ t : Fin cfg3.N, win3_5.index t (0 : Fin 2) = 0 ∧ win3_5.index t (1 : Fin 2) = 0 :=
  (by decide +kernel : ∀ t : Fin grid3.N, _)

/-- Window 5's block at any point is its whole array. -/
theorem blk5 (c : Dev nD) (t : Fin cfg3.N) : iblk3 V c 5 t = V c (Pipeline.arrRef spec3 5) := by
  funext y
  show V c (Pipeline.arrRef spec3 5) (((cfg3.win 5).blk t).view.emb y) = V c (Pipeline.arrRef spec3 5) y
  refine congrArg _ (funext fun a => Fin.ext ?_)
  obtain ⟨e0, e1⟩ := idx5 t
  match a with
  | ⟨0, _⟩ => show win3_5.index t (0 : Fin 2) * 1 + 1 * (y 0).val = (y 0).val; omega
  | ⟨1, _⟩ => show win3_5.index t (1 : Fin 2) * 256 + 1 * (y 1).val = (y 1).val; omega

/-- Window 6's block index at a point: zero, the block is the whole array. -/
theorem idx6 : ∀ t : Fin cfg3.N, win3_6.index t (0 : Fin 2) = 0 ∧ win3_6.index t (1 : Fin 2) = 0 :=
  (by decide +kernel : ∀ t : Fin grid3.N, _)

/-- Window 6's block at any point is its whole array. -/
theorem blk6 (c : Dev nD) (t : Fin cfg3.N) : iblk3 V c 6 t = V c (Pipeline.arrRef spec3 6) := by
  funext y
  show V c (Pipeline.arrRef spec3 6) (((cfg3.win 6).blk t).view.emb y) = V c (Pipeline.arrRef spec3 6) y
  refine congrArg _ (funext fun a => Fin.ext ?_)
  obtain ⟨e0, e1⟩ := idx6 t
  match a with
  | ⟨0, _⟩ => show win3_6.index t (0 : Fin 2) * 256 + 1 * (y 0).val = (y 0).val; omega
  | ⟨1, _⟩ => show win3_6.index t (1 : Fin 2) * 256 + 1 * (y 1).val = (y 1).val; omega

/-- Window 7's block index at a point: zero, the block is the whole array. -/
theorem idx7 : ∀ t : Fin cfg3.N, win3_7.index t (0 : Fin 2) = 0 ∧ win3_7.index t (1 : Fin 2) = 0 :=
  (by decide +kernel : ∀ t : Fin grid3.N, _)

/-- Window 7's block at any point is its whole array. -/
theorem blk7 (c : Dev nD) (t : Fin cfg3.N) : iblk3 V c 7 t = V c (Pipeline.arrRef spec3 7) := by
  funext y
  show V c (Pipeline.arrRef spec3 7) (((cfg3.win 7).blk t).view.emb y) = V c (Pipeline.arrRef spec3 7) y
  refine congrArg _ (funext fun a => Fin.ext ?_)
  obtain ⟨e0, e1⟩ := idx7 t
  match a with
  | ⟨0, _⟩ => show win3_7.index t (0 : Fin 2) * 1 + 1 * (y 0).val = (y 0).val; omega
  | ⟨1, _⟩ => show win3_7.index t (1 : Fin 2) * 256 + 1 * (y 1).val = (y 1).val; omega

/-- Window 8's block index at a point: zero, the block is the whole array. -/
theorem idx8 : ∀ t : Fin cfg3.N, win3_8.index t (0 : Fin 2) = 0 ∧ win3_8.index t (1 : Fin 2) = 0 :=
  (by decide +kernel : ∀ t : Fin grid3.N, _)

/-- Window 8's block at any point is its whole array. -/
theorem blk8 (c : Dev nD) (t : Fin cfg3.N) : iblk3 V c 8 t = V c (Pipeline.arrRef spec3 8) := by
  funext y
  show V c (Pipeline.arrRef spec3 8) (((cfg3.win 8).blk t).view.emb y) = V c (Pipeline.arrRef spec3 8) y
  refine congrArg _ (funext fun a => Fin.ext ?_)
  obtain ⟨e0, e1⟩ := idx8 t
  match a with
  | ⟨0, _⟩ => show win3_8.index t (0 : Fin 2) * 256 + 1 * (y 0).val = (y 0).val; omega
  | ⟨1, _⟩ => show win3_8.index t (1 : Fin 2) * 1 + 1 * (y 1).val = (y 1).val; omega

/-- Window 9's block index at a point: zero, the block is the whole array. -/
theorem idx9 : ∀ t : Fin cfg3.N, win3_9.index t (0 : Fin 2) = 0 ∧ win3_9.index t (1 : Fin 2) = 0 :=
  (by decide +kernel : ∀ t : Fin grid3.N, _)

/-- Window 9's block at any point is its whole array. -/
theorem blk9 (c : Dev nD) (t : Fin cfg3.N) : iblk3 V c 9 t = V c (Pipeline.arrRef spec3 9) := by
  funext y
  show V c (Pipeline.arrRef spec3 9) (((cfg3.win 9).blk t).view.emb y) = V c (Pipeline.arrRef spec3 9) y
  refine congrArg _ (funext fun a => Fin.ext ?_)
  obtain ⟨e0, e1⟩ := idx9 t
  match a with
  | ⟨0, _⟩ => show win3_9.index t (0 : Fin 2) * 1 + 1 * (y 0).val = (y 0).val; omega
  | ⟨1, _⟩ => show win3_9.index t (1 : Fin 2) * 1 + 1 * (y 1).val = (y 1).val; omega

/-- Window 10's block index at a point: the point's number on the row axis. -/
theorem idx10 : ∀ t : Fin cfg3.N, win3_10.index t (0 : Fin 2) = t.val ∧ win3_10.index t (1 : Fin 2) = 0 :=
  (by decide +kernel : ∀ t : Fin grid3.N, _)

/-- Window 11's block index at a point: the point's number on the row axis. -/
theorem idx11 : ∀ t : Fin cfg3.N, win3_11.index t (0 : Fin 2) = t.val ∧ win3_11.index t (1 : Fin 2) = 0 :=
  (by decide +kernel : ∀ t : Fin grid3.N, _)

/-- Window 12's block index at a point: the point's number on the row axis. -/
theorem idx12 : ∀ t : Fin cfg3.N, win3_12.index t (0 : Fin 2) = t.val ∧ win3_12.index t (1 : Fin 2) = 0 :=
  (by decide +kernel : ∀ t : Fin grid3.N, _)

/-! ## Output window 10 -/

/-- The adjacency matrix itself: the region copies each block of rows. -/
def G10 (c : Dev nD) : S10000x10000.Idx → EReal := fun i =>
  (V c (Pipeline.arrRef spec3 0)) i

/-- An entry of point `t`'s block of window 10, embedded in the array: global row `rowOf t r`, the same column. -/
theorem emb10 (t : Fin cfg3.N) (r : Fin 400) (q : Fin 10000) :
    ((cfg3.win 10).blk t).view.emb (ix2 r q) = ix2 (rowOf t r) q := by
  funext a; apply Fin.ext
  obtain ⟨e0, e1⟩ := idx10 t
  match a with
  | ⟨0, _⟩ => show win3_10.index t (0 : Fin 2) * 400 + 1 * r.val = t.val * 400 + r.val; omega
  | ⟨1, _⟩ => show win3_10.index t (1 : Fin 2) * 10000 + 1 * q.val = q.val; omega

/-- What point `t` writes back to window 10's array is block `t` of `G10`. -/
theorem flushed10_eq (c : Dev nD) (t : Fin cfg3.N) :
    (dat3 V c).flushed 10 t = ((cfg3.win 10).blk t).view.read (Elt Ideal) (G10 V c) := by
  show (cfg3.win 10).cut (grid3.coords t) ((dat3 V c).after 10 t) = _
  rw [after3_10]
  unfold out3_10
  rw [View.canon_unit_zero hz]
  simp only [View.ld_unit_zero (S := S400x10000) hz]
  funext j
  obtain ⟨r, q, rfl⟩ : ∃ (r : Fin 400) (q : Fin 10000), j = ix2 r q := ⟨j 0, j 1, eq_ix2 j⟩
  show (iblk3 V c 0 t) (ix2 r q) = G10 V c (((cfg3.win 10).blk t).view.emb (ix2 r q))
  rw [emb10, blk0]
  rfl

/-- An index of the array is in point `t`'s block of window 10 iff each coordinate is in the block's range. -/
theorem mem_blk10 (t : Fin cfg3.N) (i : S10000x10000.Idx) :
    i ∈ ((cfg3.win 10).blk t).view.set ↔ ∀ a : Fin 2, win3_10.index t a * S400x10000.size a ≤ (i a).val ∧ (i a).val < win3_10.index t a * S400x10000.size a + S400x10000.size a := by
  show i ∈ ((View.whole main_v17_0).slice (win3_10.rect t)).set ↔ _
  rw [View.set_slice_whole, Rect.mem_set_unit]
  exact Iff.rfl

/-- Every index of window 10's array is in some point's block: row `i` is in block `i / 400`. -/
theorem cover10 (i : S10000x10000.Idx) :
    ∃ t : Fin cfg3.N, (cfg3.win 10).flush t = true ∧ i ∈ ((cfg3.win 10).blk t).view.set := by
  have hi0 : (i 0).val < 10000 := (i 0).isLt
  have hi1 : (i 1).val < 10000 := (i 1).isLt
  have hN : cfg3.N = 25 := N_3
  have ht : (i 0).val / 400 < cfg3.N := by omega
  obtain ⟨e0, e1⟩ := idx10 ⟨(i 0).val / 400, ht⟩
  refine ⟨⟨(i 0).val / 400, ht⟩, flush3_10 _, ?_⟩
  rw [mem_blk10]
  intro a
  match a with
  | ⟨0, _⟩ =>
    show win3_10.index ⟨(i 0).val / 400, ht⟩ (0 : Fin 2) * 400 ≤ (i 0).val ∧ (i 0).val < win3_10.index ⟨(i 0).val / 400, ht⟩ (0 : Fin 2) * 400 + 400
    rw [e0]; show (i 0).val / 400 * 400 ≤ (i 0).val ∧ (i 0).val < (i 0).val / 400 * 400 + 400; omega
  | ⟨1, _⟩ =>
    show win3_10.index ⟨(i 0).val / 400, ht⟩ (1 : Fin 2) * 10000 ≤ (i 1).val ∧ (i 1).val < win3_10.index ⟨(i 0).val / 400, ht⟩ (1 : Fin 2) * 10000 + 10000
    rw [e1]; omega

/-- After the region, window 10's array holds `G10`. -/
theorem final10 (c : Dev nD) : (dat3 V c).arrAt 10 cfg3.N = G10 V c :=
  (dat3 V c).arrAt_eq_of_cover 10 (G10 V c) (fun t _ => flushed10_eq V c t) (cover10)

/-! ## Output window 11 -/

/-- The next layer's weights: row `i` is the normalised features of adjacency row `i` times the square matrix. -/
def G11 (c : Dev nD) : S10000x128.Idx → EReal := fun i =>
  Spec.prod (Spec.nrm (Spec.lay (row (V c (Pipeline.arrRef spec3 0)) (i 0)) (Spec.mat (V c (Pipeline.arrRef spec3 1))) (rvec (V c (Pipeline.arrRef spec3 2))))) (Spec.mat (V c (Pipeline.arrRef spec3 3))) (i 1)

/-- An entry of point `t`'s block of window 11, embedded in the array: global row `rowOf t r`, the same column. -/
theorem emb11 (t : Fin cfg3.N) (r : Fin 400) (q : Fin 128) :
    ((cfg3.win 11).blk t).view.emb (ix2 r q) = ix2 (rowOf t r) q := by
  funext a; apply Fin.ext
  obtain ⟨e0, e1⟩ := idx11 t
  match a with
  | ⟨0, _⟩ => show win3_11.index t (0 : Fin 2) * 400 + 1 * r.val = t.val * 400 + r.val; omega
  | ⟨1, _⟩ => show win3_11.index t (1 : Fin 2) * 128 + 1 * q.val = q.val; omega

/-- What point `t` writes back to window 11's array is block `t` of `G11`. -/
theorem flushed11_eq (c : Dev nD) (t : Fin cfg3.N) :
    (dat3 V c).flushed 11 t = ((cfg3.win 11).blk t).view.read (Elt Ideal) (G11 V c) := by
  show (cfg3.win 11).cut (grid3.coords t) ((dat3 V c).after 11 t) = _
  rw [after3_11]
  unfold out3_11
  rw [View.canon_unit_zero hz]
  simp only [View.ld_unit_zero (S := S400x10000) hz, View.ld_unit_zero (S := S10000x128) hz, View.ld_unit_zero (S := S1x128) hz, View.ld_unit_zero (S := S128x128) hz]
  funext j
  obtain ⟨r, q, rfl⟩ : ∃ (r : Fin 400) (q : Fin 128), j = ix2 r q := ⟨j 0, j 1, eq_ix2 j⟩
  refine (Cert.KerRows.next3_apply (iblk3 V c 0 t) (iblk3 V c 1 t) (iblk3 V c 2 t) (iblk3 V c 3 t) r q).trans ?_
  show _ = G11 V c (((cfg3.win 11).blk t).view.emb (ix2 r q))
  rw [emb11, rowblk0, blk1, blk2, blk3]
  rfl

/-- An index of the array is in point `t`'s block of window 11 iff each coordinate is in the block's range. -/
theorem mem_blk11 (t : Fin cfg3.N) (i : S10000x128.Idx) :
    i ∈ ((cfg3.win 11).blk t).view.set ↔ ∀ a : Fin 2, win3_11.index t a * S400x128.size a ≤ (i a).val ∧ (i a).val < win3_11.index t a * S400x128.size a + S400x128.size a := by
  show i ∈ ((View.whole main_v17_1).slice (win3_11.rect t)).set ↔ _
  rw [View.set_slice_whole, Rect.mem_set_unit]
  exact Iff.rfl

/-- Every index of window 11's array is in some point's block: row `i` is in block `i / 400`. -/
theorem cover11 (i : S10000x128.Idx) :
    ∃ t : Fin cfg3.N, (cfg3.win 11).flush t = true ∧ i ∈ ((cfg3.win 11).blk t).view.set := by
  have hi0 : (i 0).val < 10000 := (i 0).isLt
  have hi1 : (i 1).val < 128 := (i 1).isLt
  have hN : cfg3.N = 25 := N_3
  have ht : (i 0).val / 400 < cfg3.N := by omega
  obtain ⟨e0, e1⟩ := idx11 ⟨(i 0).val / 400, ht⟩
  refine ⟨⟨(i 0).val / 400, ht⟩, flush3_11 _, ?_⟩
  rw [mem_blk11]
  intro a
  match a with
  | ⟨0, _⟩ =>
    show win3_11.index ⟨(i 0).val / 400, ht⟩ (0 : Fin 2) * 400 ≤ (i 0).val ∧ (i 0).val < win3_11.index ⟨(i 0).val / 400, ht⟩ (0 : Fin 2) * 400 + 400
    rw [e0]; show (i 0).val / 400 * 400 ≤ (i 0).val ∧ (i 0).val < (i 0).val / 400 * 400 + 400; omega
  | ⟨1, _⟩ =>
    show win3_11.index ⟨(i 0).val / 400, ht⟩ (1 : Fin 2) * 128 ≤ (i 1).val ∧ (i 1).val < win3_11.index ⟨(i 0).val / 400, ht⟩ (1 : Fin 2) * 128 + 128
    rw [e1]; omega

/-- After the region, window 11's array holds `G11`. -/
theorem final11 (c : Dev nD) : (dat3 V c).arrAt 11 cfg3.N = G11 V c :=
  (dat3 V c).arrAt_eq_of_cover 11 (G11 V c) (fun t _ => flushed11_eq V c t) (cover11)

/-! ## Output window 12 -/

/-- The first scores: entry `i` is the perceptron's score of the normalised features of adjacency row `i`. -/
def G12 (c : Dev nD) : S10000x1.Idx → EReal := fun i =>
  Spec.score ⟨Spec.mat (V c (Pipeline.arrRef spec3 4)), rvec (V c (Pipeline.arrRef spec3 5)), Spec.mat (V c (Pipeline.arrRef spec3 6)), rvec (V c (Pipeline.arrRef spec3 7)), Spec.mat (V c (Pipeline.arrRef spec3 8)), rvec (V c (Pipeline.arrRef spec3 9))⟩ (Spec.nrm (Spec.lay (row (V c (Pipeline.arrRef spec3 0)) (i 0)) (Spec.mat (V c (Pipeline.arrRef spec3 1))) (rvec (V c (Pipeline.arrRef spec3 2)))))

/-- An entry of point `t`'s block of window 12, embedded in the array: global row `rowOf t r`, the same column. -/
theorem emb12 (t : Fin cfg3.N) (r : Fin 400) (q : Fin 1) :
    ((cfg3.win 12).blk t).view.emb (ix2 r q) = ix2 (rowOf t r) q := by
  funext a; apply Fin.ext
  obtain ⟨e0, e1⟩ := idx12 t
  match a with
  | ⟨0, _⟩ => show win3_12.index t (0 : Fin 2) * 400 + 1 * r.val = t.val * 400 + r.val; omega
  | ⟨1, _⟩ => show win3_12.index t (1 : Fin 2) * 1 + 1 * q.val = q.val; omega

/-- What point `t` writes back to window 12's array is block `t` of `G12`. -/
theorem flushed12_eq (c : Dev nD) (t : Fin cfg3.N) :
    (dat3 V c).flushed 12 t = ((cfg3.win 12).blk t).view.read (Elt Ideal) (G12 V c) := by
  show (cfg3.win 12).cut (grid3.coords t) ((dat3 V c).after 12 t) = _
  rw [after3_12]
  unfold out3_12
  rw [View.canon_unit_zero hz]
  simp only [View.ld_unit_zero (S := S400x10000) hz, View.ld_unit_zero (S := S10000x128) hz, View.ld_unit_zero (S := S1x128) hz, View.ld_unit_zero (S := S128x256) hz, View.ld_unit_zero (S := S1x256) hz, View.ld_unit_zero (S := S256x256) hz, View.ld_unit_zero (S := S256x1) hz, View.ld_unit_zero (S := S1x1) hz]
  funext j
  obtain ⟨r, q, rfl⟩ : ∃ (r : Fin 400) (q : Fin 1), j = ix2 r q := ⟨j 0, j 1, eq_ix2 j⟩
  have hq : q = 0 := Subsingleton.elim _ _
  subst hq
  refine (Cert.KerRows.score3_apply (iblk3 V c 0 t) (iblk3 V c 1 t) (iblk3 V c 2 t) (iblk3 V c 4 t) (iblk3 V c 5 t) (iblk3 V c 6 t) (iblk3 V c 7 t) (iblk3 V c 8 t) (iblk3 V c 9 t) r).trans ?_
  show _ = G12 V c (((cfg3.win 12).blk t).view.emb (ix2 r (0 : Fin 1)))
  rw [emb12, rowblk0, blk1, blk2, blk4, blk5, blk6, blk7, blk8, blk9]
  rfl

/-- An index of the array is in point `t`'s block of window 12 iff each coordinate is in the block's range. -/
theorem mem_blk12 (t : Fin cfg3.N) (i : S10000x1.Idx) :
    i ∈ ((cfg3.win 12).blk t).view.set ↔ ∀ a : Fin 2, win3_12.index t a * S400x1.size a ≤ (i a).val ∧ (i a).val < win3_12.index t a * S400x1.size a + S400x1.size a := by
  show i ∈ ((View.whole main_v17_2).slice (win3_12.rect t)).set ↔ _
  rw [View.set_slice_whole, Rect.mem_set_unit]
  exact Iff.rfl

/-- Every index of window 12's array is in some point's block: row `i` is in block `i / 400`. -/
theorem cover12 (i : S10000x1.Idx) :
    ∃ t : Fin cfg3.N, (cfg3.win 12).flush t = true ∧ i ∈ ((cfg3.win 12).blk t).view.set := by
  have hi0 : (i 0).val < 10000 := (i 0).isLt
  have hi1 : (i 1).val < 1 := (i 1).isLt
  have hN : cfg3.N = 25 := N_3
  have ht : (i 0).val / 400 < cfg3.N := by omega
  obtain ⟨e0, e1⟩ := idx12 ⟨(i 0).val / 400, ht⟩
  refine ⟨⟨(i 0).val / 400, ht⟩, flush3_12 _, ?_⟩
  rw [mem_blk12]
  intro a
  match a with
  | ⟨0, _⟩ =>
    show win3_12.index ⟨(i 0).val / 400, ht⟩ (0 : Fin 2) * 400 ≤ (i 0).val ∧ (i 0).val < win3_12.index ⟨(i 0).val / 400, ht⟩ (0 : Fin 2) * 400 + 400
    rw [e0]; show (i 0).val / 400 * 400 ≤ (i 0).val ∧ (i 0).val < (i 0).val / 400 * 400 + 400; omega
  | ⟨1, _⟩ =>
    show win3_12.index ⟨(i 0).val / 400, ht⟩ (1 : Fin 2) * 1 ≤ (i 1).val ∧ (i 1).val < win3_12.index ⟨(i 0).val / 400, ht⟩ (1 : Fin 2) * 1 + 1
    rw [e1]; omega

/-- After the region, window 12's array holds `G12`. -/
theorem final12 (c : Dev nD) : (dat3 V c).arrAt 12 cfg3.N = G12 V c :=
  (dat3 V c).arrAt_eq_of_cover 12 (G12 V c) (fun t _ => flushed12_eq V c t) (cover12)

end Cert.KerReg3

end
-- ==== Proof.KerReg4.lean ====
/-
  A middle layer of the second graph, run block by block over the rows: after the region the two output arrays hold,
  row by row, the next layer's weights and the running scores of the specification.
-/
import proofs.«103950_g67688684585008_cont_9to1c4b_879_14_alg».proof.Proof.KerRowsB
import proofs.«103950_g67688684585008_cont_9to1c4b_879_14_alg».proof.Proof.Gen.KernelIdeal.Frame
import Idealize.ShloMosaic.Lib.Pipeline.Value

noncomputable section

namespace Cert.KerReg4

open Cert.KernelIdeal Cert.KernelIdeal.Gen Idealize.ShloMosaic Idealize.ShloMosaic.TcCoe Idealize.SL.Sem
open Idealize.ShloMosaic.ValueIdx Cert.KerOps
open Idealize.ShloMosaic.Pipeline (Dat)

variable (V : (c : Dev nD) → (b : Ref sig .tc) → Buf (Elt Ideal) ((c : Thread nD τ).loc b))

/-- A one-column matrix read at a row. -/
def col0 {M : Nat} (x : (⟨2, ![M, 1]⟩ : Shape).Idx → EReal) (r : Fin M) : EReal := x (ix2 r (0 : Fin 1))

theorem hz : (![0, 0] : Fin 2 → Nat) = fun _ => 0 := funext fun a => by fin_cases a <;> rfl

/-- The global row of local row `r` of point `t`'s block: the blocks are consecutive runs of 1000 rows. -/
def rowOf (t : Fin cfg4.N) (r : Fin 1000) : Fin 10000 :=
  ⟨t.val * 1000 + r.val, by have := t.isLt; have hN : cfg4.N = 10 := N_4; have := r.isLt; omega⟩

/-- Window 0's block index at a point: the point's number on the row axis. -/
theorem idx0 : ∀ t : Fin cfg4.N, win4_0.index t (0 : Fin 2) = t.val ∧ win4_0.index t (1 : Fin 2) = 0 :=
  (by decide +kernel : ∀ t : Fin grid4.N, _)

/-- Window 0's block at point `t`, at local entry `(r, j)`, is the array at global row `rowOf t r`. -/
theorem blk0 (c : Dev nD) (t : Fin cfg4.N) (r : Fin 1000) (j : Fin 10000) :
    iblk4 V c 0 t (ix2 r j) = V c (Pipeline.arrRef spec4 0) (ix2 (rowOf t r) j) := by
  show V c (Pipeline.arrRef spec4 0) (((cfg4.win 0).blk t).view.emb (ix2 r j)) = _
  refine congrArg _ (funext fun a => Fin.ext ?_)
  obtain ⟨e0, e1⟩ := idx0 t
  match a with
  | ⟨0, _⟩ => show win4_0.index t (0 : Fin 2) * 1000 + 1 * r.val = t.val * 1000 + r.val; omega
  | ⟨1, _⟩ => show win4_0.index t (1 : Fin 2) * 10000 + 1 * j.val = j.val; omega

/-- Local row `r` of window 0's block is global row `rowOf t r` of the array. -/
theorem rowblk0 (c : Dev nD) (t : Fin cfg4.N) (r : Fin 1000) :
    row (iblk4 V c 0 t) r = row (V c (Pipeline.arrRef spec4 0)) (rowOf t r) :=
  funext fun j => blk0 V c t r j

/-- Window 1's block index at a point: zero, the block is the whole array. -/
theorem idx1 : ∀ t : Fin cfg4.N, win4_1.index t (0 : Fin 2) = 0 ∧ win4_1.index t (1 : Fin 2) = 0 :=
  (by decide +kernel : ∀ t : Fin grid4.N, _)

/-- Window 1's block at any point is its whole array. -/
theorem blk1 (c : Dev nD) (t : Fin cfg4.N) : iblk4 V c 1 t = V c (Pipeline.arrRef spec4 1) := by
  funext y
  show V c (Pipeline.arrRef spec4 1) (((cfg4.win 1).blk t).view.emb y) = V c (Pipeline.arrRef spec4 1) y
  refine congrArg _ (funext fun a => Fin.ext ?_)
  obtain ⟨e0, e1⟩ := idx1 t
  match a with
  | ⟨0, _⟩ => show win4_1.index t (0 : Fin 2) * 10000 + 1 * (y 0).val = (y 0).val; omega
  | ⟨1, _⟩ => show win4_1.index t (1 : Fin 2) * 128 + 1 * (y 1).val = (y 1).val; omega

/-- Window 2's block index at a point: the point's number on the row axis. -/
theorem idx2 : ∀ t : Fin cfg4.N, win4_2.index t (0 : Fin 2) = t.val ∧ win4_2.index t (1 : Fin 2) = 0 :=
  (by decide +kernel : ∀ t : Fin grid4.N, _)

/-- Window 2's block at point `t`, at local entry `(r, j)`, is the array at global row `rowOf t r`. -/
theorem blk2 (c : Dev nD) (t : Fin cfg4.N) (r : Fin 1000) (j : Fin 1) :
    iblk4 V c 2 t (ix2 r j) = V c (Pipeline.arrRef spec4 2) (ix2 (rowOf t r) j) := by
  show V c (Pipeline.arrRef spec4 2) (((cfg4.win 2).blk t).view.emb (ix2 r j)) = _
  refine congrArg _ (funext fun a => Fin.ext ?_)
  obtain ⟨e0, e1⟩ := idx2 t
  match a with
  | ⟨0, _⟩ => show win4_2.index t (0 : Fin 2) * 1000 + 1 * r.val = t.val * 1000 + r.val; omega
  | ⟨1, _⟩ => show win4_2.index t (1 : Fin 2) * 1 + 1 * j.val = j.val; omega

/-- Window 3's block index at a point: zero, the block is the whole array. -/
theorem idx3 : ∀ t : Fin cfg4.N, win4_3.index t (0 : Fin 2) = 0 ∧ win4_3.index t (1 : Fin 2) = 0 :=
  (by decide +kernel : ∀ t : Fin grid4.N, _)

/-- Window 3's block at any point is its whole array. -/
theorem blk3 (c : Dev nD) (t : Fin cfg4.N) : iblk4 V c 3 t = V c (Pipeline.arrRef spec4 3) := by
  funext y
  show V c (Pipeline.arrRef spec4 3) (((cfg4.win 3).blk t).view.emb y) = V c (Pipeline.arrRef spec4 3) y
  refine congrArg _ (funext fun a => Fin.ext ?_)
  obtain ⟨e0, e1⟩ := idx3 t
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- Window 4's block index at a point: zero, the block is the whole array. -/
theorem idx4 : ∀ t : Fin cfg4.N, win4_4.index t (0 : Fin 2) = 0 ∧ win4_4.index t (1 : Fin 2) = 0 :=
  (by decide +kernel : ∀ t : Fin grid4.N, _)

/-- Window 4's block at any point is its whole array. -/
theorem blk4 (c : Dev nD) (t : Fin cfg4.N) : iblk4 V c 4 t = V c (Pipeline.arrRef spec4 4) := by
  funext y
  show V c (Pipeline.arrRef spec4 4) (((cfg4.win 4).blk t).view.emb y) = V c (Pipeline.arrRef spec4 4) y
  refine congrArg _ (funext fun a => Fin.ext ?_)
  obtain ⟨e0, e1⟩ := idx4 t
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- Window 5's block index at a point: zero, the block is the whole array. -/
theorem idx5 : ∀ t : Fin cfg4.N, win4_5.index t (0 : Fin 2) = 0 ∧ win4_5.index t (1 : Fin 2) = 0 :=
  (by decide +kernel : ∀ t : Fin grid4.N, _)

/-- Window 5's block at any point is its whole array. -/
theorem blk5 (c : Dev nD) (t : Fin cfg4.N) : iblk4 V c 5 t = V c (Pipeline.arrRef spec4 5) := by
  funext y
  show V c (Pipeline.arrRef spec4 5) (((cfg4.win 5).blk t).view.emb y) = V c (Pipeline.arrRef spec4 5) y
  refine congrArg _ (funext fun a => Fin.ext ?_)
  obtain ⟨e0, e1⟩ := idx5 t
  match a with
  | ⟨0, _⟩ => show win4_5.index t (0 : Fin 2) * 128 + 1 * (y 0).val = (y 0).val; omega
  | ⟨1, _⟩ => show win4_5.index t (1 : Fin 2) * 256 + 1 * (y 1).val = (y 1).val; omega

/-- Window 6's block index at a point: zero, the block is the whole array. -/
theorem idx6 : ∀ t : Fin cfg4.N, win4_6.index t (0 : Fin 2) = 0 ∧ win4_6.index t (1 : Fin 2) = 0 :=
  (by decide +kernel : ∀ t : Fin grid4.N, _)

/-- Window 6's block at any point is its whole array. -/
theorem blk6 (c : Dev nD) (t : Fin cfg4.N) : iblk4 V c 6 t = V c (Pipeline.arrRef spec4 6) := by
  funext y
  show V c (Pipeline.arrRef spec4 6) (((cfg4.win 6).blk t).view.emb y) = V c (Pipeline.arrRef spec4 6) y
  refine congrArg _ (funext fun a => Fin.ext ?_)
  obtain ⟨e0, e1⟩ := idx6 t
  match a with
  | ⟨0, _⟩ => show win4_6.index t (0 : Fin 2) * 1 + 1 * (y 0).val = (y 0).val; omega
  | ⟨1, _⟩ => show win4_6.index t (1 : Fin 2) * 256 + 1 * (y 1).val = (y 1).val; omega

/-- Window 7's block index at a point: zero, the block is the whole array. -/
theorem idx7 : ∀ t : Fin cfg4.N, win4_7.index t (0 : Fin 2) = 0 ∧ win4_7.index t (1 : Fin 2) = 0 :=
  (by decide +kernel : ∀ t : Fin grid4.N, _)

/-- Window 7's block at any point is its whole array. -/
theorem blk7 (c : Dev nD) (t : Fin cfg4.N) : iblk4 V c 7 t = V c (Pipeline.arrRef spec4 7) := by
  funext y
  show V c (Pipeline.arrRef spec4 7) (((cfg4.win 7).blk t).view.emb y) = V c (Pipeline.arrRef spec4 7) y
  refine congrArg _ (funext fun a => Fin.ext ?_)
  obtain ⟨e0, e1⟩ := idx7 t
  match a with
  | ⟨0, _⟩ => show win4_7.index t (0 : Fin 2) * 256 + 1 * (y 0).val = (y 0).val; omega
  | ⟨1, _⟩ => show win4_7.index t (1 : Fin 2) * 256 + 1 * (y 1).val = (y 1).val; omega

/-- Window 8's block index at a point: zero, the block is the whole array. -/
theorem idx8 : ∀ t : Fin cfg4.N, win4_8.index t (0 : Fin 2) = 0 ∧ win4_8.index t (1 : Fin 2) = 0 :=
  (by decide +kernel : ∀ t : Fin grid4.N, _)

/-- Window 8's block at any point is its whole array. -/
theorem blk8 (c : Dev nD) (t : Fin cfg4.N) : iblk4 V c 8 t = V c (Pipeline.arrRef spec4 8) := by
  funext y
  show V c (Pipeline.arrRef spec4 8) (((cfg4.win 8).blk t).view.emb y) = V c (Pipeline.arrRef spec4 8) y
  refine congrArg _ (funext fun a => Fin.ext ?_)
  obtain ⟨e0, e1⟩ := idx8 t
  match a with
  | ⟨0, _⟩ => show win4_8.index t (0 : Fin 2) * 1 + 1 * (y 0).val = (y 0).val; omega
  | ⟨1, _⟩ => show win4_8.index t (1 : Fin 2) * 256 + 1 * (y 1).val = (y 1).val; omega

/-- Window 9's block index at a point: zero, the block is the whole array. -/
theorem idx9 : ∀ t : Fin cfg4.N, win4_9.index t (0 : Fin 2) = 0 ∧ win4_9.index t (1 : Fin 2) = 0 :=
  (by decide +kernel : ∀ t : Fin grid4.N, _)

/-- Window 9's block at any point is its whole array. -/
theorem blk9 (c : Dev nD) (t : Fin cfg4.N) : iblk4 V c 9 t = V c (Pipeline.arrRef spec4 9) := by
  funext y
  show V c (Pipeline.arrRef spec4 9) (((cfg4.win 9).blk t).view.emb y) = V c (Pipeline.arrRef spec4 9) y
  refine congrArg _ (funext fun a => Fin.ext ?_)
  obtain ⟨e0, e1⟩ := idx9 t
  match a with
  | ⟨0, _⟩ => show win4_9.index t (0 : Fin 2) * 256 + 1 * (y 0).val = (y 0).val; omega
  | ⟨1, _⟩ => show win4_9.index t (1 : Fin 2) * 1 + 1 * (y 1).val = (y 1).val; omega

/-- Window 10's block index at a point: zero, the block is the whole array. -/
theorem idx10 : ∀ t : Fin cfg4.N, win4_10.index t (0 : Fin 2) = 0 ∧ win4_10.index t (1 : Fin 2) = 0 :=
  (by decide +kernel : ∀ t : Fin grid4.N, _)

/-- Window 10's block at any point is its whole array. -/
theorem blk10 (c : Dev nD) (t : Fin cfg4.N) : iblk4 V c 10 t = V c (Pipeline.arrRef spec4 10) := by
  funext y
  show V c (Pipeline.arrRef spec4 10) (((cfg4.win 10).blk t).view.emb y) = V c (Pipeline.arrRef spec4 10) y
  refine congrArg _ (funext fun a => Fin.ext ?_)
  obtain ⟨e0, e1⟩ := idx10 t
  match a with
  | ⟨0, _⟩ => show win4_10.index t (0 : Fin 2) * 1 + 1 * (y 0).val = (y 0).val; omega
  | ⟨1, _⟩ => show win4_10.index t (1 : Fin 2) * 1 + 1 * (y 1).val = (y 1).val; omega

/-- Window 11's block index at a point: the point's number on the row axis. -/
theorem idx11 : ∀ t : Fin cfg4.N, win4_11.index t (0 : Fin 2) = t.val ∧ win4_11.index t (1 : Fin 2) = 0 :=
  (by decide +kernel : ∀ t : Fin grid4.N, _)

/-- Window 12's block index at a point: the point's number on the row axis. -/
theorem idx12 : ∀ t : Fin cfg4.N, win4_12.index t (0 : Fin 2) = t.val ∧ win4_12.index t (1 : Fin 2) = 0 :=
  (by decide +kernel : ∀ t : Fin grid4.N, _)

/-! ## Output window 11 -/

/-- The next layer's weights: row `i` is the normalised features of adjacency row `i` times the square matrix. -/
def G11 (c : Dev nD) : S10000x128.Idx → EReal := fun i =>
  Spec.prod (Spec.nrm (Spec.lay (row (V c (Pipeline.arrRef spec4 0)) (i 0)) (Spec.mat (V c (Pipeline.arrRef spec4 1))) (rvec (V c (Pipeline.arrRef spec4 3))))) (Spec.mat (V c (Pipeline.arrRef spec4 4))) (i 1)

/-- An entry of point `t`'s block of window 11, embedded in the array: global row `rowOf t r`, the same column. -/
theorem emb11 (t : Fin cfg4.N) (r : Fin 1000) (q : Fin 128) :
    ((cfg4.win 11).blk t).view.emb (ix2 r q) = ix2 (rowOf t r) q := by
  funext a; apply Fin.ext
  obtain ⟨e0, e1⟩ := idx11 t
  match a with
  | ⟨0, _⟩ => show win4_11.index t (0 : Fin 2) * 1000 + 1 * r.val = t.val * 1000 + r.val; omega
  | ⟨1, _⟩ => show win4_11.index t (1 : Fin 2) * 128 + 1 * q.val = q.val; omega

/-- What point `t` writes back to window 11's array is block `t` of `G11`. -/
theorem flushed11_eq (c : Dev nD) (t : Fin cfg4.N) :
    (dat4 V c).flushed 11 t = ((cfg4.win 11).blk t).view.read (Elt Ideal) (G11 V c) := by
  show (cfg4.win 11).cut (grid4.coords t) ((dat4 V c).after 11 t) = _
  rw [after4_11]
  unfold out4_11
  rw [View.canon_unit_zero hz]
  simp only [View.ld_unit_zero (S := S1000x10000) hz, View.ld_unit_zero (S := S10000x128) hz, View.ld_unit_zero (S := S1x128) hz, View.ld_unit_zero (S := S128x128) hz]
  funext j
  obtain ⟨r, q, rfl⟩ : ∃ (r : Fin 1000) (q : Fin 128), j = ix2 r q := ⟨j 0, j 1, eq_ix2 j⟩
  refine (Cert.KerRows.next4_apply (iblk4 V c 0 t) (iblk4 V c 1 t) (iblk4 V c 3 t) (iblk4 V c 4 t) r q).trans ?_
  show _ = G11 V c (((cfg4.win 11).blk t).view.emb (ix2 r q))
  rw [emb11, rowblk0, blk1, blk3, blk4]
  rfl

/-- An index of the array is in point `t`'s block of window 11 iff each coordinate is in the block's range. -/
theorem mem_blk11 (t : Fin cfg4.N) (i : S10000x128.Idx) :
    i ∈ ((cfg4.win 11).blk t).view.set ↔ ∀ a : Fin 2, win4_11.index t a * S1000x128.size a ≤ (i a).val ∧ (i a).val < win4_11.index t a * S1000x128.size a + S1000x128.size a := by
  show i ∈ ((View.whole main_v18_0).slice (win4_11.rect t)).set ↔ _
  rw [View.set_slice_whole, Rect.mem_set_unit]
  exact Iff.rfl

/-- Every index of window 11's array is in some point's block: row `i` is in block `i / 1000`. -/
theorem cover11 (i : S10000x128.Idx) :
    ∃ t : Fin cfg4.N, (cfg4.win 11).flush t = true ∧ i ∈ ((cfg4.win 11).blk t).view.set := by
  have hi0 : (i 0).val < 10000 := (i 0).isLt
  have hi1 : (i 1).val < 128 := (i 1).isLt
  have hN : cfg4.N = 10 := N_4
  have ht : (i 0).val / 1000 < cfg4.N := by omega
  obtain ⟨e0, e1⟩ := idx11 ⟨(i 0).val / 1000, ht⟩
  refine ⟨⟨(i 0).val / 1000, ht⟩, flush4_11 _, ?_⟩
  rw [mem_blk11]
  intro a
  match a with
  | ⟨0, _⟩ =>
    show win4_11.index ⟨(i 0).val / 1000, ht⟩ (0 : Fin 2) * 1000 ≤ (i 0).val ∧ (i 0).val < win4_11.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win4_11.index ⟨(i 0).val / 1000, ht⟩ (1 : Fin 2) * 128 ≤ (i 1).val ∧ (i 1).val < win4_11.index ⟨(i 0).val / 1000, ht⟩ (1 : Fin 2) * 128 + 128
    rw [e1]; omega

/-- After the region, window 11's array holds `G11`. -/
theorem final11 (c : Dev nD) : (dat4 V c).arrAt 11 cfg4.N = G11 V c :=
  (dat4 V c).arrAt_eq_of_cover 11 (G11 V c) (fun t _ => flushed11_eq V c t) (cover11)

/-! ## Output window 12 -/

/-- The running scores: entry `i` is the score so far at `i` plus the perceptron's score of the normalised features of adjacency row `i`. -/
def G12 (c : Dev nD) : S10000x1.Idx → EReal := fun i =>
  col0 (V c (Pipeline.arrRef spec4 2)) (i 0) + Spec.score ⟨Spec.mat (V c (Pipeline.arrRef spec4 5)), rvec (V c (Pipeline.arrRef spec4 6)), Spec.mat (V c (Pipeline.arrRef spec4 7)), rvec (V c (Pipeline.arrRef spec4 8)), Spec.mat (V c (Pipeline.arrRef spec4 9)), rvec (V c (Pipeline.arrRef spec4 10))⟩ (Spec.nrm (Spec.lay (row (V c (Pipeline.arrRef spec4 0)) (i 0)) (Spec.mat (V c (Pipeline.arrRef spec4 1))) (rvec (V c (Pipeline.arrRef spec4 3)))))

/-- An entry of point `t`'s block of window 12, embedded in the array: global row `rowOf t r`, the same column. -/
theorem emb12 (t : Fin cfg4.N) (r : Fin 1000) (q : Fin 1) :
    ((cfg4.win 12).blk t).view.emb (ix2 r q) = ix2 (rowOf t r) q := by
  funext a; apply Fin.ext
  obtain ⟨e0, e1⟩ := idx12 t
  match a with
  | ⟨0, _⟩ => show win4_12.index t (0 : Fin 2) * 1000 + 1 * r.val = t.val * 1000 + r.val; omega
  | ⟨1, _⟩ => show win4_12.index t (1 : Fin 2) * 1 + 1 * q.val = q.val; omega

/-- What point `t` writes back to window 12's array is block `t` of `G12`. -/
theorem flushed12_eq (c : Dev nD) (t : Fin cfg4.N) :
    (dat4 V c).flushed 12 t = ((cfg4.win 12).blk t).view.read (Elt Ideal) (G12 V c) := by
  show (cfg4.win 12).cut (grid4.coords t) ((dat4 V c).after 12 t) = _
  rw [after4_12]
  unfold out4_12
  rw [View.canon_unit_zero hz]
  simp only [View.ld_unit_zero (S := S1000x10000) hz, View.ld_unit_zero (S := S10000x128) hz, View.ld_unit_zero (S := S1000x1) hz, View.ld_unit_zero (S := S1x128) hz, View.ld_unit_zero (S := S128x256) hz, View.ld_unit_zero (S := S1x256) hz, View.ld_unit_zero (S := S256x256) hz, View.ld_unit_zero (S := S256x1) hz, View.ld_unit_zero (S := S1x1) hz]
  funext j
  obtain ⟨r, q, rfl⟩ : ∃ (r : Fin 1000) (q : Fin 1), j = ix2 r q := ⟨j 0, j 1, eq_ix2 j⟩
  have hq : q = 0 := Subsingleton.elim _ _
  subst hq
  refine (Cert.KerRows.score4_apply (iblk4 V c 0 t) (iblk4 V c 1 t) (iblk4 V c 2 t) (iblk4 V c 3 t) (iblk4 V c 5 t) (iblk4 V c 6 t) (iblk4 V c 7 t) (iblk4 V c 8 t) (iblk4 V c 9 t) (iblk4 V c 10 t) r).trans ?_
  show _ = G12 V c (((cfg4.win 12).blk t).view.emb (ix2 r (0 : Fin 1)))
  rw [emb12, blk2, rowblk0, blk1, blk3, blk5, blk6, blk7, blk8, blk9, blk10]
  rfl

/-- An index of the array is in point `t`'s block of window 12 iff each coordinate is in the block's range. -/
theorem mem_blk12 (t : Fin cfg4.N) (i : S10000x1.Idx) :
    i ∈ ((cfg4.win 12).blk t).view.set ↔ ∀ a : Fin 2, win4_12.index t a * S1000x1.size a ≤ (i a).val ∧ (i a).val < win4_12.index t a * S1000x1.size a + S1000x1.size a := by
  show i ∈ ((View.whole main_v18_1).slice (win4_12.rect t)).set ↔ _
  rw [View.set_slice_whole, Rect.mem_set_unit]
  exact Iff.rfl

/-- Every index of window 12's array is in some point's block: row `i` is in block `i / 1000`. -/
theorem cover12 (i : S10000x1.Idx) :
    ∃ t : Fin cfg4.N, (cfg4.win 12).flush t = true ∧ i ∈ ((cfg4.win 12).blk t).view.set := by
  have hi0 : (i 0).val < 10000 := (i 0).isLt
  have hi1 : (i 1).val < 1 := (i 1).isLt
  have hN : cfg4.N = 10 := N_4
  have ht : (i 0).val / 1000 < cfg4.N := by omega
  obtain ⟨e0, e1⟩ := idx12 ⟨(i 0).val / 1000, ht⟩
  refine ⟨⟨(i 0).val / 1000, ht⟩, flush4_12 _, ?_⟩
  rw [mem_blk12]
  intro a
  match a with
  | ⟨0, _⟩ =>
    show win4_12.index ⟨(i 0).val / 1000, ht⟩ (0 : Fin 2) * 1000 ≤ (i 0).val ∧ (i 0).val < win4_12.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win4_12.index ⟨(i 0).val / 1000, ht⟩ (1 : Fin 2) * 1 ≤ (i 1).val ∧ (i 1).val < win4_12.index ⟨(i 0).val / 1000, ht⟩ (1 : Fin 2) * 1 + 1
    rw [e1]; omega

/-- After the region, window 12's array holds `G12`. -/
theorem final12 (c : Dev nD) : (dat4 V c).arrAt 12 cfg4.N = G12 V c :=
  (dat4 V c).arrAt_eq_of_cover 12 (G12 V c) (fun t _ => flushed12_eq V c t) (cover12)

end Cert.KerReg4

end
-- ==== Proof.KerReg5.lean ====
/-
  A middle layer of the second graph, run block by block over the rows: after the region the two output arrays hold,
  row by row, the next layer's weights and the running scores of the specification.
-/
import proofs.«103950_g67688684585008_cont_9to1c4b_879_14_alg».proof.Proof.KerRowsB
import proofs.«103950_g67688684585008_cont_9to1c4b_879_14_alg».proof.Proof.Gen.KernelIdeal.Frame
import Idealize.ShloMosaic.Lib.Pipeline.Value

noncomputable section

namespace Cert.KerReg5

open Cert.KernelIdeal Cert.KernelIdeal.Gen Idealize.ShloMosaic Idealize.ShloMosaic.TcCoe Idealize.SL.Sem
open Idealize.ShloMosaic.ValueIdx Cert.KerOps
open Idealize.ShloMosaic.Pipeline (Dat)

variable (V : (c : Dev nD) → (b : Ref sig .tc) → Buf (Elt Ideal) ((c : Thread nD τ).loc b))

/-- A one-column matrix read at a row. -/
def col0 {M : Nat} (x : (⟨2, ![M, 1]⟩ : Shape).Idx → EReal) (r : Fin M) : EReal := x (ix2 r (0 : Fin 1))

theorem hz : (![0, 0] : Fin 2 → Nat) = fun _ => 0 := funext fun a => by fin_cases a <;> rfl

/-- The global row of local row `r` of point `t`'s block: the blocks are consecutive runs of 1000 rows. -/
def rowOf (t : Fin cfg5.N) (r : Fin 1000) : Fin 10000 :=
  ⟨t.val * 1000 + r.val, by have := t.isLt; have hN : cfg5.N = 10 := N_5; have := r.isLt; omega⟩

/-- Window 0's block index at a point: the point's number on the row axis. -/
theorem idx0 : ∀ t : Fin cfg5.N, win5_0.index t (0 : Fin 2) = t.val ∧ win5_0.index t (1 : Fin 2) = 0 :=
  (by decide +kernel : ∀ t : Fin grid5.N, _)

/-- Window 0's block at point `t`, at local entry `(r, j)`, is the array at global row `rowOf t r`. -/
theorem blk0 (c : Dev nD) (t : Fin cfg5.N) (r : Fin 1000) (j : Fin 10000) :
    iblk5 V c 0 t (ix2 r j) = V c (Pipeline.arrRef spec5 0) (ix2 (rowOf t r) j) := by
  show V c (Pipeline.arrRef spec5 0) (((cfg5.win 0).blk t).view.emb (ix2 r j)) = _
  refine congrArg _ (funext fun a => Fin.ext ?_)
  obtain ⟨e0, e1⟩ := idx0 t
  match a with
  | ⟨0, _⟩ => show win5_0.index t (0 : Fin 2) * 1000 + 1 * r.val = t.val * 1000 + r.val; omega
  | ⟨1, _⟩ => show win5_0.index t (1 : Fin 2) * 10000 + 1 * j.val = j.val; omega

/-- Local row `r` of window 0's block is global row `rowOf t r` of the array. -/
theorem rowblk0 (c : Dev nD) (t : Fin cfg5.N) (r : Fin 1000) :
    row (iblk5 V c 0 t) r = row (V c (Pipeline.arrRef spec5 0)) (rowOf t r) :=
  funext fun j => blk0 V c t r j

/-- Window 1's block index at a point: zero, the block is the whole array. -/
theorem idx1 : ∀ t : Fin cfg5.N, win5_1.index t (0 : Fin 2) = 0 ∧ win5_1.index t (1 : Fin 2) = 0 :=
  (by decide +kernel : ∀ t : Fin grid5.N, _)

/-- Window 1's block at any point is its whole array. -/
theorem blk1 (c : Dev nD) (t : Fin cfg5.N) : iblk5 V c 1 t = V c (Pipeline.arrRef spec5 1) := by
  funext y
  show V c (Pipeline.arrRef spec5 1) (((cfg5.win 1).blk t).view.emb y) = V c (Pipeline.arrRef spec5 1) y
  refine congrArg _ (funext fun a => Fin.ext ?_)
  obtain ⟨e0, e1⟩ := idx1 t
  match a with
  | ⟨0, _⟩ => show win5_1.index t (0 : Fin 2) * 10000 + 1 * (y 0).val = (y 0).val; omega
  | ⟨1, _⟩ => show win5_1.index t (1 : Fin 2) * 128 + 1 * (y 1).val = (y 1).val; omega

/-- Window 2's block index at a point: the point's number on the row axis. -/
theorem idx2 : ∀ t : Fin cfg5.N, win5_2.index t (0 : Fin 2) = t.val ∧ win5_2.index t (1 : Fin 2) = 0 :=
  (by decide +kernel : ∀ t : Fin grid5.N, _)

/-- Window 2's block at point `t`, at local entry `(r, j)`, is the array at global row `rowOf t r`. -/
theorem blk2 (c : Dev nD) (t : Fin cfg5.N) (r : Fin 1000) (j : Fin 1) :
    iblk5 V c 2 t (ix2 r j) = V c (Pipeline.arrRef spec5 2) (ix2 (rowOf t r) j) := by
  show V c (Pipeline.arrRef spec5 2) (((cfg5.win 2).blk t).view.emb (ix2 r j)) = _
  refine congrArg _ (funext fun a => Fin.ext ?_)
  obtain ⟨e0, e1⟩ := idx2 t
  match a with
  | ⟨0, _⟩ => show win5_2.index t (0 : Fin 2) * 1000 + 1 * r.val = t.val * 1000 + r.val; omega
  | ⟨1, _⟩ => show win5_2.index t (1 : Fin 2) * 1 + 1 * j.val = j.val; omega

/-- Window 3's block index at a point: zero, the block is the whole array. -/
theorem idx3 : ∀ t : Fin cfg5.N, win5_3.index t (0 : Fin 2) = 0 ∧ win5_3.index t (1 : Fin 2) = 0 :=
  (by decide +kernel : ∀ t : Fin grid5.N, _)

/-- Window 3's block at any point is its whole array. -/
theorem blk3 (c : Dev nD) (t : Fin cfg5.N) : iblk5 V c 3 t = V c (Pipeline.arrRef spec5 3) := by
  funext y
  show V c (Pipeline.arrRef spec5 3) (((cfg5.win 3).blk t).view.emb y) = V c (Pipeline.arrRef spec5 3) y
  refine congrArg _ (funext fun a => Fin.ext ?_)
  obtain ⟨e0, e1⟩ := idx3 t
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Window 4's block index at a point: zero, the block is the whole array. -/
theorem idx4 : ∀ t : Fin cfg5.N, win5_4.index t (0 : Fin 2) = 0 ∧ win5_4.index t (1 : Fin 2) = 0 :=
  (by decide +kernel : ∀ t : Fin grid5.N, _)

/-- Window 4's block at any point is its whole array. -/
theorem blk4 (c : Dev nD) (t : Fin cfg5.N) : iblk5 V c 4 t = V c (Pipeline.arrRef spec5 4) := by
  funext y
  show V c (Pipeline.arrRef spec5 4) (((cfg5.win 4).blk t).view.emb y) = V c (Pipeline.arrRef spec5 4) y
  refine congrArg _ (funext fun a => Fin.ext ?_)
  obtain ⟨e0, e1⟩ := idx4 t
  match a with
  | ⟨0, _⟩ => show win5_4.index t (0 : Fin 2) * 128 + 1 * (y 0).val = (y 0).val; omega
  | ⟨1, _⟩ => show win5_4.index t (1 : Fin 2) * 128 + 1 * (y 1).val = (y 1).val; omega

/-- Window 5's block index at a point: zero, the block is the whole array. -/
theorem idx5 : ∀ t : Fin cfg5.N, win5_5.index t (0 : Fin 2) = 0 ∧ win5_5.index t (1 : Fin 2) = 0 :=
  (by decide +kernel : ∀ t : Fin grid5.N, _)

/-- Window 5's block at any point is its whole array. -/
theorem blk5 (c : Dev nD) (t : Fin cfg5.N) : iblk5 V c 5 t = V c (Pipeline.arrRef spec5 5) := by
  funext y
  show V c (Pipeline.arrRef spec5 5) (((cfg5.win 5).blk t).view.emb y) = V c (Pipeline.arrRef spec5 5) y
  refine congrArg _ (funext fun a => Fin.ext ?_)
  obtain ⟨e0, e1⟩ := idx5 t
  match a with
  | ⟨0, _⟩ => show win5_5.index t (0 : Fin 2) * 128 + 1 * (y 0).val = (y 0).val; omega
  | ⟨1, _⟩ => show win5_5.index t (1 : Fin 2) * 256 + 1 * (y 1).val = (y 1).val; omega

/-- Window 6's block index at a point: zero, the block is the whole array. -/
theorem idx6 : ∀ t : Fin cfg5.N, win5_6.index t (0 : Fin 2) = 0 ∧ win5_6.index t (1 : Fin 2) = 0 :=
  (by decide +kernel : ∀ t : Fin grid5.N, _)

/-- Window 6's block at any point is its whole array. -/
theorem blk6 (c : Dev nD) (t : Fin cfg5.N) : iblk5 V c 6 t = V c (Pipeline.arrRef spec5 6) := by
  funext y
  show V c (Pipeline.arrRef spec5 6) (((cfg5.win 6).blk t).view.emb y) = V c (Pipeline.arrRef spec5 6) y
  refine congrArg _ (funext fun a => Fin.ext ?_)
  obtain ⟨e0, e1⟩ := idx6 t
  match a with
  | ⟨0, _⟩ => show win5_6.index t (0 : Fin 2) * 1 + 1 * (y 0).val = (y 0).val; omega
  | ⟨1, _⟩ => show win5_6.index t (1 : Fin 2) * 256 + 1 * (y 1).val = (y 1).val; omega

/-- Window 7's block index at a point: zero, the block is the whole array. -/
theorem idx7 : ∀ t : Fin cfg5.N, win5_7.index t (0 : Fin 2) = 0 ∧ win5_7.index t (1 : Fin 2) = 0 :=
  (by decide +kernel : ∀ t : Fin grid5.N, _)

/-- Window 7's block at any point is its whole array. -/
theorem blk7 (c : Dev nD) (t : Fin cfg5.N) : iblk5 V c 7 t = V c (Pipeline.arrRef spec5 7) := by
  funext y
  show V c (Pipeline.arrRef spec5 7) (((cfg5.win 7).blk t).view.emb y) = V c (Pipeline.arrRef spec5 7) y
  refine congrArg _ (funext fun a => Fin.ext ?_)
  obtain ⟨e0, e1⟩ := idx7 t
  match a with
  | ⟨0, _⟩ => show win5_7.index t (0 : Fin 2) * 256 + 1 * (y 0).val = (y 0).val; omega
  | ⟨1, _⟩ => show win5_7.index t (1 : Fin 2) * 256 + 1 * (y 1).val = (y 1).val; omega

/-- Window 8's block index at a point: zero, the block is the whole array. -/
theorem idx8 : ∀ t : Fin cfg5.N, win5_8.index t (0 : Fin 2) = 0 ∧ win5_8.index t (1 : Fin 2) = 0 :=
  (by decide +kernel : ∀ t : Fin grid5.N, _)

/-- Window 8's block at any point is its whole array. -/
theorem blk8 (c : Dev nD) (t : Fin cfg5.N) : iblk5 V c 8 t = V c (Pipeline.arrRef spec5 8) := by
  funext y
  show V c (Pipeline.arrRef spec5 8) (((cfg5.win 8).blk t).view.emb y) = V c (Pipeline.arrRef spec5 8) y
  refine congrArg _ (funext fun a => Fin.ext ?_)
  obtain ⟨e0, e1⟩ := idx8 t
  match a with
  | ⟨0, _⟩ => show win5_8.index t (0 : Fin 2) * 1 + 1 * (y 0).val = (y 0).val; omega
  | ⟨1, _⟩ => show win5_8.index t (1 : Fin 2) * 256 + 1 * (y 1).val = (y 1).val; omega

/-- Window 9's block index at a point: zero, the block is the whole array. -/
theorem idx9 : ∀ t : Fin cfg5.N, win5_9.index t (0 : Fin 2) = 0 ∧ win5_9.index t (1 : Fin 2) = 0 :=
  (by decide +kernel : ∀ t : Fin grid5.N, _)

/-- Window 9's block at any point is its whole array. -/
theorem blk9 (c : Dev nD) (t : Fin cfg5.N) : iblk5 V c 9 t = V c (Pipeline.arrRef spec5 9) := by
  funext y
  show V c (Pipeline.arrRef spec5 9) (((cfg5.win 9).blk t).view.emb y) = V c (Pipeline.arrRef spec5 9) y
  refine congrArg _ (funext fun a => Fin.ext ?_)
  obtain ⟨e0, e1⟩ := idx9 t
  match a with
  | ⟨0, _⟩ => show win5_9.index t (0 : Fin 2) * 256 + 1 * (y 0).val = (y 0).val; omega
  | ⟨1, _⟩ => show win5_9.index t (1 : Fin 2) * 1 + 1 * (y 1).val = (y 1).val; omega

/-- Window 10's block index at a point: zero, the block is the whole array. -/
theorem idx10 : ∀ t : Fin cfg5.N, win5_10.index t (0 : Fin 2) = 0 ∧ win5_10.index t (1 : Fin 2) = 0 :=
  (by decide +kernel : ∀ t : Fin grid5.N, _)

/-- Window 10's block at any point is its whole array. -/
theorem blk10 (c : Dev nD) (t : Fin cfg5.N) : iblk5 V c 10 t = V c (Pipeline.arrRef spec5 10) := by
  funext y
  show V c (Pipeline.arrRef spec5 10) (((cfg5.win 10).blk t).view.emb y) = V c (Pipeline.arrRef spec5 10) y
  refine congrArg _ (funext fun a => Fin.ext ?_)
  obtain ⟨e0, e1⟩ := idx10 t
  match a with
  | ⟨0, _⟩ => show win5_10.index t (0 : Fin 2) * 1 + 1 * (y 0).val = (y 0).val; omega
  | ⟨1, _⟩ => show win5_10.index t (1 : Fin 2) * 1 + 1 * (y 1).val = (y 1).val; omega

/-- Window 11's block index at a point: the point's number on the row axis. -/
theorem idx11 : ∀ t : Fin cfg5.N, win5_11.index t (0 : Fin 2) = t.val ∧ win5_11.index t (1 : Fin 2) = 0 :=
  (by decide +kernel : ∀ t : Fin grid5.N, _)

/-- Window 12's block index at a point: the point's number on the row axis. -/
theorem idx12 : ∀ t : Fin cfg5.N, win5_12.index t (0 : Fin 2) = t.val ∧ win5_12.index t (1 : Fin 2) = 0 :=
  (by decide +kernel : ∀ t : Fin grid5.N, _)

/-! ## Output window 11 -/

/-- The next layer's weights: row `i` is the normalised features of adjacency row `i` times the square matrix. -/
def G11 (c : Dev nD) : S10000x128.Idx → EReal := fun i =>
  Spec.prod (Spec.nrm (Spec.lay (row (V c (Pipeline.arrRef spec5 0)) (i 0)) (Spec.mat (V c (Pipeline.arrRef spec5 1))) (rvec (V c (Pipeline.arrRef spec5 3))))) (Spec.mat (V c (Pipeline.arrRef spec5 4))) (i 1)

/-- An entry of point `t`'s block of window 11, embedded in the array: global row `rowOf t r`, the same column. -/
theorem emb11 (t : Fin cfg5.N) (r : Fin 1000) (q : Fin 128) :
    ((cfg5.win 11).blk t).view.emb (ix2 r q) = ix2 (rowOf t r) q := by
  funext a; apply Fin.ext
  obtain ⟨e0, e1⟩ := idx11 t
  match a with
  | ⟨0, _⟩ => show win5_11.index t (0 : Fin 2) * 1000 + 1 * r.val = t.val * 1000 + r.val; omega
  | ⟨1, _⟩ => show win5_11.index t (1 : Fin 2) * 128 + 1 * q.val = q.val; omega

/-- What point `t` writes back to window 11's array is block `t` of `G11`. -/
theorem flushed11_eq (c : Dev nD) (t : Fin cfg5.N) :
    (dat5 V c).flushed 11 t = ((cfg5.win 11).blk t).view.read (Elt Ideal) (G11 V c) := by
  show (cfg5.win 11).cut (grid5.coords t) ((dat5 V c).after 11 t) = _
  rw [after5_11]
  unfold out5_11
  rw [View.canon_unit_zero hz]
  simp only [View.ld_unit_zero (S := S1000x10000) hz, View.ld_unit_zero (S := S10000x128) hz, View.ld_unit_zero (S := S1x128) hz, View.ld_unit_zero (S := S128x128) hz]
  funext j
  obtain ⟨r, q, rfl⟩ : ∃ (r : Fin 1000) (q : Fin 128), j = ix2 r q := ⟨j 0, j 1, eq_ix2 j⟩
  refine (Cert.KerRows.next5_apply (iblk5 V c 0 t) (iblk5 V c 1 t) (iblk5 V c 3 t) (iblk5 V c 4 t) r q).trans ?_
  show _ = G11 V c (((cfg5.win 11).blk t).view.emb (ix2 r q))
  rw [emb11, rowblk0, blk1, blk3, blk4]
  rfl

/-- An index of the array is in point `t`'s block of window 11 iff each coordinate is in the block's range. -/
theorem mem_blk11 (t : Fin cfg5.N) (i : S10000x128.Idx) :
    i ∈ ((cfg5.win 11).blk t).view.set ↔ ∀ a : Fin 2, win5_11.index t a * S1000x128.size a ≤ (i a).val ∧ (i a).val < win5_11.index t a * S1000x128.size a + S1000x128.size a := by
  show i ∈ ((View.whole main_v19_0).slice (win5_11.rect t)).set ↔ _
  rw [View.set_slice_whole, Rect.mem_set_unit]
  exact Iff.rfl

/-- Every index of window 11's array is in some point's block: row `i` is in block `i / 1000`. -/
theorem cover11 (i : S10000x128.Idx) :
    ∃ t : Fin cfg5.N, (cfg5.win 11).flush t = true ∧ i ∈ ((cfg5.win 11).blk t).view.set := by
  have hi0 : (i 0).val < 10000 := (i 0).isLt
  have hi1 : (i 1).val < 128 := (i 1).isLt
  have hN : cfg5.N = 10 := N_5
  have ht : (i 0).val / 1000 < cfg5.N := by omega
  obtain ⟨e0, e1⟩ := idx11 ⟨(i 0).val / 1000, ht⟩
  refine ⟨⟨(i 0).val / 1000, ht⟩, flush5_11 _, ?_⟩
  rw [mem_blk11]
  intro a
  match a with
  | ⟨0, _⟩ =>
    show win5_11.index ⟨(i 0).val / 1000, ht⟩ (0 : Fin 2) * 1000 ≤ (i 0).val ∧ (i 0).val < win5_11.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win5_11.index ⟨(i 0).val / 1000, ht⟩ (1 : Fin 2) * 128 ≤ (i 1).val ∧ (i 1).val < win5_11.index ⟨(i 0).val / 1000, ht⟩ (1 : Fin 2) * 128 + 128
    rw [e1]; omega

/-- After the region, window 11's array holds `G11`. -/
theorem final11 (c : Dev nD) : (dat5 V c).arrAt 11 cfg5.N = G11 V c :=
  (dat5 V c).arrAt_eq_of_cover 11 (G11 V c) (fun t _ => flushed11_eq V c t) (cover11)

/-! ## Output window 12 -/

/-- The running scores: entry `i` is the score so far at `i` plus the perceptron's score of the normalised features of adjacency row `i`. -/
def G12 (c : Dev nD) : S10000x1.Idx → EReal := fun i =>
  col0 (V c (Pipeline.arrRef spec5 2)) (i 0) + Spec.score ⟨Spec.mat (V c (Pipeline.arrRef spec5 5)), rvec (V c (Pipeline.arrRef spec5 6)), Spec.mat (V c (Pipeline.arrRef spec5 7)), rvec (V c (Pipeline.arrRef spec5 8)), Spec.mat (V c (Pipeline.arrRef spec5 9)), rvec (V c (Pipeline.arrRef spec5 10))⟩ (Spec.nrm (Spec.lay (row (V c (Pipeline.arrRef spec5 0)) (i 0)) (Spec.mat (V c (Pipeline.arrRef spec5 1))) (rvec (V c (Pipeline.arrRef spec5 3)))))

/-- An entry of point `t`'s block of window 12, embedded in the array: global row `rowOf t r`, the same column. -/
theorem emb12 (t : Fin cfg5.N) (r : Fin 1000) (q : Fin 1) :
    ((cfg5.win 12).blk t).view.emb (ix2 r q) = ix2 (rowOf t r) q := by
  funext a; apply Fin.ext
  obtain ⟨e0, e1⟩ := idx12 t
  match a with
  | ⟨0, _⟩ => show win5_12.index t (0 : Fin 2) * 1000 + 1 * r.val = t.val * 1000 + r.val; omega
  | ⟨1, _⟩ => show win5_12.index t (1 : Fin 2) * 1 + 1 * q.val = q.val; omega

/-- What point `t` writes back to window 12's array is block `t` of `G12`. -/
theorem flushed12_eq (c : Dev nD) (t : Fin cfg5.N) :
    (dat5 V c).flushed 12 t = ((cfg5.win 12).blk t).view.read (Elt Ideal) (G12 V c) := by
  show (cfg5.win 12).cut (grid5.coords t) ((dat5 V c).after 12 t) = _
  rw [after5_12]
  unfold out5_12
  rw [View.canon_unit_zero hz]
  simp only [View.ld_unit_zero (S := S1000x10000) hz, View.ld_unit_zero (S := S10000x128) hz, View.ld_unit_zero (S := S1000x1) hz, View.ld_unit_zero (S := S1x128) hz, View.ld_unit_zero (S := S128x256) hz, View.ld_unit_zero (S := S1x256) hz, View.ld_unit_zero (S := S256x256) hz, View.ld_unit_zero (S := S256x1) hz, View.ld_unit_zero (S := S1x1) hz]
  funext j
  obtain ⟨r, q, rfl⟩ : ∃ (r : Fin 1000) (q : Fin 1), j = ix2 r q := ⟨j 0, j 1, eq_ix2 j⟩
  have hq : q = 0 := Subsingleton.elim _ _
  subst hq
  refine (Cert.KerRows.score5_apply (iblk5 V c 0 t) (iblk5 V c 1 t) (iblk5 V c 2 t) (iblk5 V c 3 t) (iblk5 V c 5 t) (iblk5 V c 6 t) (iblk5 V c 7 t) (iblk5 V c 8 t) (iblk5 V c 9 t) (iblk5 V c 10 t) r).trans ?_
  show _ = G12 V c (((cfg5.win 12).blk t).view.emb (ix2 r (0 : Fin 1)))
  rw [emb12, blk2, rowblk0, blk1, blk3, blk5, blk6, blk7, blk8, blk9, blk10]
  rfl

/-- An index of the array is in point `t`'s block of window 12 iff each coordinate is in the block's range. -/
theorem mem_blk12 (t : Fin cfg5.N) (i : S10000x1.Idx) :
    i ∈ ((cfg5.win 12).blk t).view.set ↔ ∀ a : Fin 2, win5_12.index t a * S1000x1.size a ≤ (i a).val ∧ (i a).val < win5_12.index t a * S1000x1.size a + S1000x1.size a := by
  show i ∈ ((View.whole main_v19_1).slice (win5_12.rect t)).set ↔ _
  rw [View.set_slice_whole, Rect.mem_set_unit]
  exact Iff.rfl

/-- Every index of window 12's array is in some point's block: row `i` is in block `i / 1000`. -/
theorem cover12 (i : S10000x1.Idx) :
    ∃ t : Fin cfg5.N, (cfg5.win 12).flush t = true ∧ i ∈ ((cfg5.win 12).blk t).view.set := by
  have hi0 : (i 0).val < 10000 := (i 0).isLt
  have hi1 : (i 1).val < 1 := (i 1).isLt
  have hN : cfg5.N = 10 := N_5
  have ht : (i 0).val / 1000 < cfg5.N := by omega
  obtain ⟨e0, e1⟩ := idx12 ⟨(i 0).val / 1000, ht⟩
  refine ⟨⟨(i 0).val / 1000, ht⟩, flush5_12 _, ?_⟩
  rw [mem_blk12]
  intro a
  match a with
  | ⟨0, _⟩ =>
    show win5_12.index ⟨(i 0).val / 1000, ht⟩ (0 : Fin 2) * 1000 ≤ (i 0).val ∧ (i 0).val < win5_12.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win5_12.index ⟨(i 0).val / 1000, ht⟩ (1 : Fin 2) * 1 ≤ (i 1).val ∧ (i 1).val < win5_12.index ⟨(i 0).val / 1000, ht⟩ (1 : Fin 2) * 1 + 1
    rw [e1]; omega

/-- After the region, window 12's array holds `G12`. -/
theorem final12 (c : Dev nD) : (dat5 V c).arrAt 12 cfg5.N = G12 V c :=
  (dat5 V c).arrAt_eq_of_cover 12 (G12 V c) (fun t _ => flushed12_eq V c t) (cover12)

end Cert.KerReg5

end
-- ==== Proof.KerRowsC.lean ====
/-
  The last layer on a block of adjacency rows, entry by entry: the result at row `p` is the running score plus the
  perceptron's score of row `p`'s rectified dense features, and in the second graph's last pass that total times the
  first graph's.
-/
import proofs.«103950_g67688684585008_cont_9to1c4b_879_14_alg».proof.Proof.KerOps
import proofs.«103950_g67688684585008_cont_9to1c4b_879_14_alg».proof.Proof.Spec
import proofs.«103950_g67688684585008_cont_9to1c4b_879_14_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KerRows

open Idealize.ShloMosaic Idealize.ShloMosaic.ValueIdx Cert.KernelIdeal Cert.KernelIdeal.Gen Cert.KerOps

/-! ## Region 6: a block of 1000 adjacency rows through the last layer -/

set_option backward.isDefEq.respectTransparency.types false in
/-- Entry `(p, 0)` of the block's result: the score so far plus the perceptron's score of row `p`'s rectified
    (not normalised) dense features. -/
theorem score6_apply (x0 : FVec Ideal S1000x10000 .bf16) (x1 : FVec Ideal S10000x128 .bf16) (x2 : FVec Ideal S1000x1 .f32) (x3 : FVec Ideal S1x128 .f32)
    (x4 : FVec Ideal S128x256 .bf16) (x5 : FVec Ideal S1x256 .f32) (x6 : FVec Ideal S256x256 .bf16) (x7 : FVec Ideal S1x256 .f32)
    (x8 : FVec Ideal S256x1 .bf16) (x9 : FVec Ideal S1x1 .f32) (p : Fin 1000) :
    k6_pay1 (F := Ideal) (k6_pay2 x2) (k6_pay3 x0 x1 x3 x4 x5 x6 x7) (k6_pay4 x8) x9 (ix2 p (0 : Fin 1))
      = x2 (ix2 p (0 : Fin 1)) + Spec.score ⟨Spec.mat x4, rvec x5, Spec.mat x6, rvec x7, Spec.mat x8, rvec x9⟩ (Spec.lay (row x0 p) (Spec.mat x1) (rvec x3)) := by
  unfold k6_pay1 k6_pay2 k6_pay3 k6_pay4
  simp only [maximumf_apply, addf_apply, mulf_apply, broadcast_apply, truncf_apply, broadcastTo_1b_ab_apply, shapeCast_self,
    Cert.LibRows.matmul_plain_apply dot_S1000x256_S256x1_S1000x1_1_0_0_1_n_n rfl none, Cert.LibRows.matmul_plain_apply dot_S1000x256_S256x256_S1000x256_1_0_0_1_n_n rfl none,
    Cert.LibRows.matmul_plain_apply dot_S1000x128_S128x256_S1000x256_1_0_0_1_n_n rfl none, Cert.LibRows.matmul_plain_apply dot_S1000x10000_S10000x128_S1000x128_1_0_0_1_n_n rfl none]
  rfl

/-! ## Region 7: a block of 1000 adjacency rows through the last layer -/

set_option backward.isDefEq.respectTransparency.types false in
/-- Entry `(p, 0)` of the block's result: the score so far plus the perceptron's score of row `p`'s rectified
    (not normalised) dense features, times the other graph's total at the row. -/
theorem score7_apply (x0 : FVec Ideal S1000x10000 .bf16) (x1 : FVec Ideal S10000x128 .bf16) (x2 : FVec Ideal S1000x1 .f32) (xs : FVec Ideal S1000x1 .f32) (x3 : FVec Ideal S1x128 .f32)
    (x4 : FVec Ideal S128x256 .bf16) (x5 : FVec Ideal S1x256 .f32) (x6 : FVec Ideal S256x256 .bf16) (x7 : FVec Ideal S1x256 .f32)
    (x8 : FVec Ideal S256x1 .bf16) (x9 : FVec Ideal S1x1 .f32) (p : Fin 1000) :
    k7_pay1 (F := Ideal) (k7_pay2 x2) (k7_pay3 x0 x1 x3 x4 x5 x6 x7) (k7_pay4 x8) x9 xs (ix2 p (0 : Fin 1))
      = (x2 (ix2 p (0 : Fin 1)) + Spec.score ⟨Spec.mat x4, rvec x5, Spec.mat x6, rvec x7, Spec.mat x8, rvec x9⟩ (Spec.lay (row x0 p) (Spec.mat x1) (rvec x3))) * xs (ix2 p (0 : Fin 1)) := by
  unfold k7_pay1 k7_pay2 k7_pay3 k7_pay4
  simp only [maximumf_apply, addf_apply, mulf_apply, broadcast_apply, truncf_apply, broadcastTo_1b_ab_apply, shapeCast_self,
    Cert.LibRows.matmul_plain_apply dot_S1000x256_S256x1_S1000x1_1_0_0_1_n_n rfl none, Cert.LibRows.matmul_plain_apply dot_S1000x256_S256x256_S1000x256_1_0_0_1_n_n rfl none,
    Cert.LibRows.matmul_plain_apply dot_S1000x128_S128x256_S1000x256_1_0_0_1_n_n rfl none, Cert.LibRows.matmul_plain_apply dot_S1000x10000_S10000x128_S1000x128_1_0_0_1_n_n rfl none]
  rfl

end Cert.KerRows

end
-- ==== Proof.KerReg6.lean ====
/-
  The last layer of the first graph, run block by block over the rows: after the region the output array holds, entry by
  entry, the first graph's total score of the specification.
-/
import proofs.«103950_g67688684585008_cont_9to1c4b_879_14_alg».proof.Proof.KerRowsC
import proofs.«103950_g67688684585008_cont_9to1c4b_879_14_alg».proof.Proof.Gen.KernelIdeal.Frame
import Idealize.ShloMosaic.Lib.Pipeline.Value

noncomputable section

namespace Cert.KerReg6

open Cert.KernelIdeal Cert.KernelIdeal.Gen Idealize.ShloMosaic Idealize.ShloMosaic.TcCoe Idealize.SL.Sem
open Idealize.ShloMosaic.ValueIdx Cert.KerOps
open Idealize.ShloMosaic.Pipeline (Dat)

variable (V : (c : Dev nD) → (b : Ref sig .tc) → Buf (Elt Ideal) ((c : Thread nD τ).loc b))

/-- A one-column matrix read at a row. -/
def col0 {M : Nat} (x : (⟨2, ![M, 1]⟩ : Shape).Idx → EReal) (r : Fin M) : EReal := x (ix2 r (0 : Fin 1))

theorem hz : (![0, 0] : Fin 2 → Nat) = fun _ => 0 := funext fun a => by fin_cases a <;> rfl

/-- The global row of local row `r` of point `t`'s block: the blocks are consecutive runs of 1000 rows. -/
def rowOf (t : Fin cfg6.N) (r : Fin 1000) : Fin 10000 :=
  ⟨t.val * 1000 + r.val, by have := t.isLt; have hN : cfg6.N = 10 := N_6; have := r.isLt; omega⟩

/-- Window 0's block index at a point: the point's number on the row axis. -/
theorem idx0 : ∀ t : Fin cfg6.N, win6_0.index t (0 : Fin 2) = t.val ∧ win6_0.index t (1 : Fin 2) = 0 :=
  (by decide +kernel : ∀ t : Fin grid6.N, _)

/-- Window 0's block at point `t`, at local entry `(r, j)`, is the array at global row `rowOf t r`. -/
theorem blk0 (c : Dev nD) (t : Fin cfg6.N) (r : Fin 1000) (j : Fin 10000) :
    iblk6 V c 0 t (ix2 r j) = V c (Pipeline.arrRef spec6 0) (ix2 (rowOf t r) j) := by
  show V c (Pipeline.arrRef spec6 0) (((cfg6.win 0).blk t).view.emb (ix2 r j)) = _
  refine congrArg _ (funext fun a => Fin.ext ?_)
  obtain ⟨e0, e1⟩ := idx0 t
  match a with
  | ⟨0, _⟩ => show win6_0.index t (0 : Fin 2) * 1000 + 1 * r.val = t.val * 1000 + r.val; omega
  | ⟨1, _⟩ => show win6_0.index t (1 : Fin 2) * 10000 + 1 * j.val = j.val; omega

/-- Local row `r` of window 0's block is global row `rowOf t r` of the array. -/
theorem rowblk0 (c : Dev nD) (t : Fin cfg6.N) (r : Fin 1000) :
    row (iblk6 V c 0 t) r = row (V c (Pipeline.arrRef spec6 0)) (rowOf t r) :=
  funext fun j => blk0 V c t r j

/-- Window 1's block index at a point: zero, the block is the whole array. -/
theorem idx1 : ∀ t : Fin cfg6.N, win6_1.index t (0 : Fin 2) = 0 ∧ win6_1.index t (1 : Fin 2) = 0 :=
  (by decide +kernel : ∀ t : Fin grid6.N, _)

/-- Window 1's block at any point is its whole array. -/
theorem blk1 (c : Dev nD) (t : Fin cfg6.N) : iblk6 V c 1 t = V c (Pipeline.arrRef spec6 1) := by
  funext y
  show V c (Pipeline.arrRef spec6 1) (((cfg6.win 1).blk t).view.emb y) = V c (Pipeline.arrRef spec6 1) y
  refine congrArg _ (funext fun a => Fin.ext ?_)
  obtain ⟨e0, e1⟩ := idx1 t
  match a with
  | ⟨0, _⟩ => show win6_1.index t (0 : Fin 2) * 10000 + 1 * (y 0).val = (y 0).val; omega
  | ⟨1, _⟩ => show win6_1.index t (1 : Fin 2) * 128 + 1 * (y 1).val = (y 1).val; omega

/-- Window 2's block index at a point: the point's number on the row axis. -/
theorem idx2 : ∀ t : Fin cfg6.N, win6_2.index t (0 : Fin 2) = t.val ∧ win6_2.index t (1 : Fin 2) = 0 :=
  (by decide +kernel : ∀ t : Fin grid6.N, _)

/-- Window 2's block at point `t`, at local entry `(r, j)`, is the array at global row `rowOf t r`. -/
theorem blk2 (c : Dev nD) (t : Fin cfg6.N) (r : Fin 1000) (j : Fin 1) :
    iblk6 V c 2 t (ix2 r j) = V c (Pipeline.arrRef spec6 2) (ix2 (rowOf t r) j) := by
  show V c (Pipeline.arrRef spec6 2) (((cfg6.win 2).blk t).view.emb (ix2 r j)) = _
  refine congrArg _ (funext fun a => Fin.ext ?_)
  obtain ⟨e0, e1⟩ := idx2 t
  match a with
  | ⟨0, _⟩ => show win6_2.index t (0 : Fin 2) * 1000 + 1 * r.val = t.val * 1000 + r.val; omega
  | ⟨1, _⟩ => show win6_2.index t (1 : Fin 2) * 1 + 1 * j.val = j.val; omega

/-- Window 3's block index at a point: zero, the block is the whole array. -/
theorem idx3 : ∀ t : Fin cfg6.N, win6_3.index t (0 : Fin 2) = 0 ∧ win6_3.index t (1 : Fin 2) = 0 :=
  (by decide +kernel : ∀ t : Fin grid6.N, _)

/-- Window 3's block at any point is its whole array. -/
theorem blk3 (c : Dev nD) (t : Fin cfg6.N) : iblk6 V c 3 t = V c (Pipeline.arrRef spec6 3) := by
  funext y
  show V c (Pipeline.arrRef spec6 3) (((cfg6.win 3).blk t).view.emb y) = V c (Pipeline.arrRef spec6 3) y
  refine congrArg _ (funext fun a => Fin.ext ?_)
  obtain ⟨e0, e1⟩ := idx3 t
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Window 4's block index at a point: zero, the block is the whole array. -/
theorem idx4 : ∀ t : Fin cfg6.N, win6_4.index t (0 : Fin 2) = 0 ∧ win6_4.index t (1 : Fin 2) = 0 :=
  (by decide +kernel : ∀ t : Fin grid6.N, _)

/-- Window 4's block at any point is its whole array. -/
theorem blk4 (c : Dev nD) (t : Fin cfg6.N) : iblk6 V c 4 t = V c (Pipeline.arrRef spec6 4) := by
  funext y
  show V c (Pipeline.arrRef spec6 4) (((cfg6.win 4).blk t).view.emb y) = V c (Pipeline.arrRef spec6 4) y
  refine congrArg _ (funext fun a => Fin.ext ?_)
  obtain ⟨e0, e1⟩ := idx4 t
  match a with
  | ⟨0, _⟩ => show win6_4.index t (0 : Fin 2) * 128 + 1 * (y 0).val = (y 0).val; omega
  | ⟨1, _⟩ => show win6_4.index t (1 : Fin 2) * 256 + 1 * (y 1).val = (y 1).val; omega

/-- Window 5's block index at a point: zero, the block is the whole array. -/
theorem idx5 : ∀ t : Fin cfg6.N, win6_5.index t (0 : Fin 2) = 0 ∧ win6_5.index t (1 : Fin 2) = 0 :=
  (by decide +kernel : ∀ t : Fin grid6.N, _)

/-- Window 5's block at any point is its whole array. -/
theorem blk5 (c : Dev nD) (t : Fin cfg6.N) : iblk6 V c 5 t = V c (Pipeline.arrRef spec6 5) := by
  funext y
  show V c (Pipeline.arrRef spec6 5) (((cfg6.win 5).blk t).view.emb y) = V c (Pipeline.arrRef spec6 5) y
  refine congrArg _ (funext fun a => Fin.ext ?_)
  obtain ⟨e0, e1⟩ := idx5 t
  match a with
  | ⟨0, _⟩ => show win6_5.index t (0 : Fin 2) * 1 + 1 * (y 0).val = (y 0).val; omega
  | ⟨1, _⟩ => show win6_5.index t (1 : Fin 2) * 256 + 1 * (y 1).val = (y 1).val; omega

/-- Window 6's block index at a point: zero, the block is the whole array. -/
theorem idx6 : ∀ t : Fin cfg6.N, win6_6.index t (0 : Fin 2) = 0 ∧ win6_6.index t (1 : Fin 2) = 0 :=
  (by decide +kernel : ∀ t : Fin grid6.N, _)

/-- Window 6's block at any point is its whole array. -/
theorem blk6 (c : Dev nD) (t : Fin cfg6.N) : iblk6 V c 6 t = V c (Pipeline.arrRef spec6 6) := by
  funext y
  show V c (Pipeline.arrRef spec6 6) (((cfg6.win 6).blk t).view.emb y) = V c (Pipeline.arrRef spec6 6) y
  refine congrArg _ (funext fun a => Fin.ext ?_)
  obtain ⟨e0, e1⟩ := idx6 t
  match a with
  | ⟨0, _⟩ => show win6_6.index t (0 : Fin 2) * 256 + 1 * (y 0).val = (y 0).val; omega
  | ⟨1, _⟩ => show win6_6.index t (1 : Fin 2) * 256 + 1 * (y 1).val = (y 1).val; omega

/-- Window 7's block index at a point: zero, the block is the whole array. -/
theorem idx7 : ∀ t : Fin cfg6.N, win6_7.index t (0 : Fin 2) = 0 ∧ win6_7.index t (1 : Fin 2) = 0 :=
  (by decide +kernel : ∀ t : Fin grid6.N, _)

/-- Window 7's block at any point is its whole array. -/
theorem blk7 (c : Dev nD) (t : Fin cfg6.N) : iblk6 V c 7 t = V c (Pipeline.arrRef spec6 7) := by
  funext y
  show V c (Pipeline.arrRef spec6 7) (((cfg6.win 7).blk t).view.emb y) = V c (Pipeline.arrRef spec6 7) y
  refine congrArg _ (funext fun a => Fin.ext ?_)
  obtain ⟨e0, e1⟩ := idx7 t
  match a with
  | ⟨0, _⟩ => show win6_7.index t (0 : Fin 2) * 1 + 1 * (y 0).val = (y 0).val; omega
  | ⟨1, _⟩ => show win6_7.index t (1 : Fin 2) * 256 + 1 * (y 1).val = (y 1).val; omega

/-- Window 8's block index at a point: zero, the block is the whole array. -/
theorem idx8 : ∀ t : Fin cfg6.N, win6_8.index t (0 : Fin 2) = 0 ∧ win6_8.index t (1 : Fin 2) = 0 :=
  (by decide +kernel : ∀ t : Fin grid6.N, _)

/-- Window 8's block at any point is its whole array. -/
theorem blk8 (c : Dev nD) (t : Fin cfg6.N) : iblk6 V c 8 t = V c (Pipeline.arrRef spec6 8) := by
  funext y
  show V c (Pipeline.arrRef spec6 8) (((cfg6.win 8).blk t).view.emb y) = V c (Pipeline.arrRef spec6 8) y
  refine congrArg _ (funext fun a => Fin.ext ?_)
  obtain ⟨e0, e1⟩ := idx8 t
  match a with
  | ⟨0, _⟩ => show win6_8.index t (0 : Fin 2) * 256 + 1 * (y 0).val = (y 0).val; omega
  | ⟨1, _⟩ => show win6_8.index t (1 : Fin 2) * 1 + 1 * (y 1).val = (y 1).val; omega

/-- Window 9's block index at a point: zero, the block is the whole array. -/
theorem idx9 : ∀ t : Fin cfg6.N, win6_9.index t (0 : Fin 2) = 0 ∧ win6_9.index t (1 : Fin 2) = 0 :=
  (by decide +kernel : ∀ t : Fin grid6.N, _)

/-- Window 9's block at any point is its whole array. -/
theorem blk9 (c : Dev nD) (t : Fin cfg6.N) : iblk6 V c 9 t = V c (Pipeline.arrRef spec6 9) := by
  funext y
  show V c (Pipeline.arrRef spec6 9) (((cfg6.win 9).blk t).view.emb y) = V c (Pipeline.arrRef spec6 9) y
  refine congrArg _ (funext fun a => Fin.ext ?_)
  obtain ⟨e0, e1⟩ := idx9 t
  match a with
  | ⟨0, _⟩ => show win6_9.index t (0 : Fin 2) * 1 + 1 * (y 0).val = (y 0).val; omega
  | ⟨1, _⟩ => show win6_9.index t (1 : Fin 2) * 1 + 1 * (y 1).val = (y 1).val; omega

/-- Window 10's block index at a point: the point's number on the row axis. -/
theorem idx10 : ∀ t : Fin cfg6.N, win6_10.index t (0 : Fin 2) = t.val ∧ win6_10.index t (1 : Fin 2) = 0 :=
  (by decide +kernel : ∀ t : Fin grid6.N, _)

/-! ## Output window 10 -/

/-- The total score: entry `i` is the score so far at `i` plus the perceptron's score of the rectified dense features of adjacency row `i`. -/
def G10 (c : Dev nD) : S10000x1.Idx → EReal := fun i =>
  col0 (V c (Pipeline.arrRef spec6 2)) (i 0) + Spec.score ⟨Spec.mat (V c (Pipeline.arrRef spec6 4)), rvec (V c (Pipeline.arrRef spec6 5)), Spec.mat (V c (Pipeline.arrRef spec6 6)), rvec (V c (Pipeline.arrRef spec6 7)), Spec.mat (V c (Pipeline.arrRef spec6 8)), rvec (V c (Pipeline.arrRef spec6 9))⟩ (Spec.lay (row (V c (Pipeline.arrRef spec6 0)) (i 0)) (Spec.mat (V c (Pipeline.arrRef spec6 1))) (rvec (V c (Pipeline.arrRef spec6 3))))

/-- An entry of point `t`'s block of window 10, embedded in the array: global row `rowOf t r`, the same column. -/
theorem emb10 (t : Fin cfg6.N) (r : Fin 1000) (q : Fin 1) :
    ((cfg6.win 10).blk t).view.emb (ix2 r q) = ix2 (rowOf t r) q := by
  funext a; apply Fin.ext
  obtain ⟨e0, e1⟩ := idx10 t
  match a with
  | ⟨0, _⟩ => show win6_10.index t (0 : Fin 2) * 1000 + 1 * r.val = t.val * 1000 + r.val; omega
  | ⟨1, _⟩ => show win6_10.index t (1 : Fin 2) * 1 + 1 * q.val = q.val; omega

/-- What point `t` writes back to window 10's array is block `t` of `G10`. -/
theorem flushed10_eq (c : Dev nD) (t : Fin cfg6.N) :
    (dat6 V c).flushed 10 t = ((cfg6.win 10).blk t).view.read (Elt Ideal) (G10 V c) := by
  show (cfg6.win 10).cut (grid6.coords t) ((dat6 V c).after 10 t) = _
  rw [after6_10]
  unfold out6_10
  rw [View.canon_unit_zero hz]
  simp only [View.ld_unit_zero (S := S1000x10000) hz, View.ld_unit_zero (S := S10000x128) hz, View.ld_unit_zero (S := S1000x1) hz, View.ld_unit_zero (S := S1x128) hz, View.ld_unit_zero (S := S128x256) hz, View.ld_unit_zero (S := S1x256) hz, View.ld_unit_zero (S := S256x256) hz, View.ld_unit_zero (S := S256x1) hz, View.ld_unit_zero (S := S1x1) hz]
  funext j
  obtain ⟨r, q, rfl⟩ : ∃ (r : Fin 1000) (q : Fin 1), j = ix2 r q := ⟨j 0, j 1, eq_ix2 j⟩
  have hq : q = 0 := Subsingleton.elim _ _
  subst hq
  refine (Cert.KerRows.score6_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) r).trans ?_
  show _ = G10 V c (((cfg6.win 10).blk t).view.emb (ix2 r (0 : Fin 1)))
  rw [emb10, blk2, rowblk0, blk1, blk3, blk4, blk5, blk6, blk7, blk8, blk9]
  rfl

/-- An index of the array is in point `t`'s block of window 10 iff each coordinate is in the block's range. -/
theorem mem_blk10 (t : Fin cfg6.N) (i : S10000x1.Idx) :
    i ∈ ((cfg6.win 10).blk t).view.set ↔ ∀ a : Fin 2, win6_10.index t a * S1000x1.size a ≤ (i a).val ∧ (i a).val < win6_10.index t a * S1000x1.size a + S1000x1.size a := by
  show i ∈ ((View.whole main_v20).slice (win6_10.rect t)).set ↔ _
  rw [View.set_slice_whole, Rect.mem_set_unit]
  exact Iff.rfl

/-- Every index of window 10's array is in some point's block: row `i` is in block `i / 1000`. -/
theorem cover10 (i : S10000x1.Idx) :
    ∃ t : Fin cfg6.N, (cfg6.win 10).flush t = true ∧ i ∈ ((cfg6.win 10).blk t).view.set := by
  have hi0 : (i 0).val < 10000 := (i 0).isLt
  have hi1 : (i 1).val < 1 := (i 1).isLt
  have hN : cfg6.N = 10 := N_6
  have ht : (i 0).val / 1000 < cfg6.N := by omega
  obtain ⟨e0, e1⟩ := idx10 ⟨(i 0).val / 1000, ht⟩
  refine ⟨⟨(i 0).val / 1000, ht⟩, flush6_10 _, ?_⟩
  rw [mem_blk10]
  intro a
  match a with
  | ⟨0, _⟩ =>
    show win6_10.index ⟨(i 0).val / 1000, ht⟩ (0 : Fin 2) * 1000 ≤ (i 0).val ∧ (i 0).val < win6_10.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win6_10.index ⟨(i 0).val / 1000, ht⟩ (1 : Fin 2) * 1 ≤ (i 1).val ∧ (i 1).val < win6_10.index ⟨(i 0).val / 1000, ht⟩ (1 : Fin 2) * 1 + 1
    rw [e1]; omega

/-- After the region, window 10's array holds `G10`. -/
theorem final10 (c : Dev nD) : (dat6 V c).arrAt 10 cfg6.N = G10 V c :=
  (dat6 V c).arrAt_eq_of_cover 10 (G10 V c) (fun t _ => flushed10_eq V c t) (cover10)

end Cert.KerReg6

end
-- ==== Proof.KerReg7.lean ====
/-
  The last layer of the second graph, run block by block over the rows: after the region the output array holds, entry by
  entry, the second graph's total score times the first graph's.
-/
import proofs.«103950_g67688684585008_cont_9to1c4b_879_14_alg».proof.Proof.KerRowsC
import proofs.«103950_g67688684585008_cont_9to1c4b_879_14_alg».proof.Proof.Gen.KernelIdeal.Frame
import Idealize.ShloMosaic.Lib.Pipeline.Value

noncomputable section

namespace Cert.KerReg7

open Cert.KernelIdeal Cert.KernelIdeal.Gen Idealize.ShloMosaic Idealize.ShloMosaic.TcCoe Idealize.SL.Sem
open Idealize.ShloMosaic.ValueIdx Cert.KerOps
open Idealize.ShloMosaic.Pipeline (Dat)

variable (V : (c : Dev nD) → (b : Ref sig .tc) → Buf (Elt Ideal) ((c : Thread nD τ).loc b))

/-- A one-column matrix read at a row. -/
def col0 {M : Nat} (x : (⟨2, ![M, 1]⟩ : Shape).Idx → EReal) (r : Fin M) : EReal := x (ix2 r (0 : Fin 1))

theorem hz : (![0, 0] : Fin 2 → Nat) = fun _ => 0 := funext fun a => by fin_cases a <;> rfl

/-- The global row of local row `r` of point `t`'s block: the blocks are consecutive runs of 1000 rows. -/
def rowOf (t : Fin cfg7.N) (r : Fin 1000) : Fin 10000 :=
  ⟨t.val * 1000 + r.val, by have := t.isLt; have hN : cfg7.N = 10 := N_7; have := r.isLt; omega⟩

/-- Window 0's block index at a point: the point's number on the row axis. -/
theorem idx0 : ∀ t : Fin cfg7.N, win7_0.index t (0 : Fin 2) = t.val ∧ win7_0.index t (1 : Fin 2) = 0 :=
  (by decide +kernel : ∀ t : Fin grid7.N, _)

/-- Window 0's block at point `t`, at local entry `(r, j)`, is the array at global row `rowOf t r`. -/
theorem blk0 (c : Dev nD) (t : Fin cfg7.N) (r : Fin 1000) (j : Fin 10000) :
    iblk7 V c 0 t (ix2 r j) = V c (Pipeline.arrRef spec7 0) (ix2 (rowOf t r) j) := by
  show V c (Pipeline.arrRef spec7 0) (((cfg7.win 0).blk t).view.emb (ix2 r j)) = _
  refine congrArg _ (funext fun a => Fin.ext ?_)
  obtain ⟨e0, e1⟩ := idx0 t
  match a with
  | ⟨0, _⟩ => show win7_0.index t (0 : Fin 2) * 1000 + 1 * r.val = t.val * 1000 + r.val; omega
  | ⟨1, _⟩ => show win7_0.index t (1 : Fin 2) * 10000 + 1 * j.val = j.val; omega

/-- Local row `r` of window 0's block is global row `rowOf t r` of the array. -/
theorem rowblk0 (c : Dev nD) (t : Fin cfg7.N) (r : Fin 1000) :
    row (iblk7 V c 0 t) r = row (V c (Pipeline.arrRef spec7 0)) (rowOf t r) :=
  funext fun j => blk0 V c t r j

/-- Window 1's block index at a point: zero, the block is the whole array. -/
theorem idx1 : ∀ t : Fin cfg7.N, win7_1.index t (0 : Fin 2) = 0 ∧ win7_1.index t (1 : Fin 2) = 0 :=
  (by decide +kernel : ∀ t : Fin grid7.N, _)

/-- Window 1's block at any point is its whole array. -/
theorem blk1 (c : Dev nD) (t : Fin cfg7.N) : iblk7 V c 1 t = V c (Pipeline.arrRef spec7 1) := by
  funext y
  show V c (Pipeline.arrRef spec7 1) (((cfg7.win 1).blk t).view.emb y) = V c (Pipeline.arrRef spec7 1) y
  refine congrArg _ (funext fun a => Fin.ext ?_)
  obtain ⟨e0, e1⟩ := idx1 t
  match a with
  | ⟨0, _⟩ => show win7_1.index t (0 : Fin 2) * 10000 + 1 * (y 0).val = (y 0).val; omega
  | ⟨1, _⟩ => show win7_1.index t (1 : Fin 2) * 128 + 1 * (y 1).val = (y 1).val; omega

/-- Window 2's block index at a point: the point's number on the row axis. -/
theorem idx2 : ∀ t : Fin cfg7.N, win7_2.index t (0 : Fin 2) = t.val ∧ win7_2.index t (1 : Fin 2) = 0 :=
  (by decide +kernel : ∀ t : Fin grid7.N, _)

/-- Window 2's block at point `t`, at local entry `(r, j)`, is the array at global row `rowOf t r`. -/
theorem blk2 (c : Dev nD) (t : Fin cfg7.N) (r : Fin 1000) (j : Fin 1) :
    iblk7 V c 2 t (ix2 r j) = V c (Pipeline.arrRef spec7 2) (ix2 (rowOf t r) j) := by
  show V c (Pipeline.arrRef spec7 2) (((cfg7.win 2).blk t).view.emb (ix2 r j)) = _
  refine congrArg _ (funext fun a => Fin.ext ?_)
  obtain ⟨e0, e1⟩ := idx2 t
  match a with
  | ⟨0, _⟩ => show win7_2.index t (0 : Fin 2) * 1000 + 1 * r.val = t.val * 1000 + r.val; omega
  | ⟨1, _⟩ => show win7_2.index t (1 : Fin 2) * 1 + 1 * j.val = j.val; omega

/-- Window 3's block index at a point: the point's number on the row axis. -/
theorem idx3 : ∀ t : Fin cfg7.N, win7_3.index t (0 : Fin 2) = t.val ∧ win7_3.index t (1 : Fin 2) = 0 :=
  (by decide +kernel : ∀ t : Fin grid7.N, _)

/-- Window 3's block at point `t`, at local entry `(r, j)`, is the array at global row `rowOf t r`. -/
theorem blk3 (c : Dev nD) (t : Fin cfg7.N) (r : Fin 1000) (j : Fin 1) :
    iblk7 V c 3 t (ix2 r j) = V c (Pipeline.arrRef spec7 3) (ix2 (rowOf t r) j) := by
  show V c (Pipeline.arrRef spec7 3) (((cfg7.win 3).blk t).view.emb (ix2 r j)) = _
  refine congrArg _ (funext fun a => Fin.ext ?_)
  obtain ⟨e0, e1⟩ := idx3 t
  match a with
  | ⟨0, _⟩ => show win7_3.index t (0 : Fin 2) * 1000 + 1 * r.val = t.val * 1000 + r.val; omega
  | ⟨1, _⟩ => show win7_3.index t (1 : Fin 2) * 1 + 1 * j.val = j.val; omega

/-- Window 4's block index at a point: zero, the block is the whole array. -/
theorem idx4 : ∀ t : Fin cfg7.N, win7_4.index t (0 : Fin 2) = 0 ∧ win7_4.index t (1 : Fin 2) = 0 :=
  (by decide +kernel : ∀ t : Fin grid7.N, _)

/-- Window 4's block at any point is its whole array. -/
theorem blk4 (c : Dev nD) (t : Fin cfg7.N) : iblk7 V c 4 t = V c (Pipeline.arrRef spec7 4) := by
  funext y
  show V c (Pipeline.arrRef spec7 4) (((cfg7.win 4).blk t).view.emb y) = V c (Pipeline.arrRef spec7 4) y
  refine congrArg _ (funext fun a => Fin.ext ?_)
  obtain ⟨e0, e1⟩ := idx4 t
  match a with
  | ⟨0, _⟩ => show win7_4.index t (0 : Fin 2) * 1 + 1 * (y 0).val = (y 0).val; omega
  | ⟨1, _⟩ => show win7_4.index t (1 : Fin 2) * 128 + 1 * (y 1).val = (y 1).val; omega

/-- Window 5's block index at a point: zero, the block is the whole array. -/
theorem idx5 : ∀ t : Fin cfg7.N, win7_5.index t (0 : Fin 2) = 0 ∧ win7_5.index t (1 : Fin 2) = 0 :=
  (by decide +kernel : ∀ t : Fin grid7.N, _)

/-- Window 5's block at any point is its whole array. -/
theorem blk5 (c : Dev nD) (t : Fin cfg7.N) : iblk7 V c 5 t = V c (Pipeline.arrRef spec7 5) := by
  funext y
  show V c (Pipeline.arrRef spec7 5) (((cfg7.win 5).blk t).view.emb y) = V c (Pipeline.arrRef spec7 5) y
  refine congrArg _ (funext fun a => Fin.ext ?_)
  obtain ⟨e0, e1⟩ := idx5 t
  match a with
  | ⟨0, _⟩ => show win7_5.index t (0 : Fin 2) * 128 + 1 * (y 0).val = (y 0).val; omega
  | ⟨1, _⟩ => show win7_5.index t (1 : Fin 2) * 256 + 1 * (y 1).val = (y 1).val; omega

/-- Window 6's block index at a point: zero, the block is the whole array. -/
theorem idx6 : ∀ t : Fin cfg7.N, win7_6.index t (0 : Fin 2) = 0 ∧ win7_6.index t (1 : Fin 2) = 0 :=
  (by decide +kernel : ∀ t : Fin grid7.N, _)

/-- Window 6's block at any point is its whole array. -/
theorem blk6 (c : Dev nD) (t : Fin cfg7.N) : iblk7 V c 6 t = V c (Pipeline.arrRef spec7 6) := by
  funext y
  show V c (Pipeline.arrRef spec7 6) (((cfg7.win 6).blk t).view.emb y) = V c (Pipeline.arrRef spec7 6) y
  refine congrArg _ (funext fun a => Fin.ext ?_)
  obtain ⟨e0, e1⟩ := idx6 t
  match a with
  | ⟨0, _⟩ => show win7_6.index t (0 : Fin 2) * 1 + 1 * (y 0).val = (y 0).val; omega
  | ⟨1, _⟩ => show win7_6.index t (1 : Fin 2) * 256 + 1 * (y 1).val = (y 1).val; omega

/-- Window 7's block index at a point: zero, the block is the whole array. -/
theorem idx7 : ∀ t : Fin cfg7.N, win7_7.index t (0 : Fin 2) = 0 ∧ win7_7.index t (1 : Fin 2) = 0 :=
  (by decide +kernel : ∀ t : Fin grid7.N, _)

/-- Window 7's block at any point is its whole array. -/
theorem blk7 (c : Dev nD) (t : Fin cfg7.N) : iblk7 V c 7 t = V c (Pipeline.arrRef spec7 7) := by
  funext y
  show V c (Pipeline.arrRef spec7 7) (((cfg7.win 7).blk t).view.emb y) = V c (Pipeline.arrRef spec7 7) y
  refine congrArg _ (funext fun a => Fin.ext ?_)
  obtain ⟨e0, e1⟩ := idx7 t
  match a with
  | ⟨0, _⟩ => show win7_7.index t (0 : Fin 2) * 256 + 1 * (y 0).val = (y 0).val; omega
  | ⟨1, _⟩ => show win7_7.index t (1 : Fin 2) * 256 + 1 * (y 1).val = (y 1).val; omega

/-- Window 8's block index at a point: zero, the block is the whole array. -/
theorem idx8 : ∀ t : Fin cfg7.N, win7_8.index t (0 : Fin 2) = 0 ∧ win7_8.index t (1 : Fin 2) = 0 :=
  (by decide +kernel : ∀ t : Fin grid7.N, _)

/-- Window 8's block at any point is its whole array. -/
theorem blk8 (c : Dev nD) (t : Fin cfg7.N) : iblk7 V c 8 t = V c (Pipeline.arrRef spec7 8) := by
  funext y
  show V c (Pipeline.arrRef spec7 8) (((cfg7.win 8).blk t).view.emb y) = V c (Pipeline.arrRef spec7 8) y
  refine congrArg _ (funext fun a => Fin.ext ?_)
  obtain ⟨e0, e1⟩ := idx8 t
  match a with
  | ⟨0, _⟩ => show win7_8.index t (0 : Fin 2) * 1 + 1 * (y 0).val = (y 0).val; omega
  | ⟨1, _⟩ => show win7_8.index t (1 : Fin 2) * 256 + 1 * (y 1).val = (y 1).val; omega

/-- Window 9's block index at a point: zero, the block is the whole array. -/
theorem idx9 : ∀ t : Fin cfg7.N, win7_9.index t (0 : Fin 2) = 0 ∧ win7_9.index t (1 : Fin 2) = 0 :=
  (by decide +kernel : ∀ t : Fin grid7.N, _)

/-- Window 9's block at any point is its whole array. -/
theorem blk9 (c : Dev nD) (t : Fin cfg7.N) : iblk7 V c 9 t = V c (Pipeline.arrRef spec7 9) := by
  funext y
  show V c (Pipeline.arrRef spec7 9) (((cfg7.win 9).blk t).view.emb y) = V c (Pipeline.arrRef spec7 9) y
  refine congrArg _ (funext fun a => Fin.ext ?_)
  obtain ⟨e0, e1⟩ := idx9 t
  match a with
  | ⟨0, _⟩ => show win7_9.index t (0 : Fin 2) * 256 + 1 * (y 0).val = (y 0).val; omega
  | ⟨1, _⟩ => show win7_9.index t (1 : Fin 2) * 1 + 1 * (y 1).val = (y 1).val; omega

/-- Window 10's block index at a point: zero, the block is the whole array. -/
theorem idx10 : ∀ t : Fin cfg7.N, win7_10.index t (0 : Fin 2) = 0 ∧ win7_10.index t (1 : Fin 2) = 0 :=
  (by decide +kernel : ∀ t : Fin grid7.N, _)

/-- Window 10's block at any point is its whole array. -/
theorem blk10 (c : Dev nD) (t : Fin cfg7.N) : iblk7 V c 10 t = V c (Pipeline.arrRef spec7 10) := by
  funext y
  show V c (Pipeline.arrRef spec7 10) (((cfg7.win 10).blk t).view.emb y) = V c (Pipeline.arrRef spec7 10) y
  refine congrArg _ (funext fun a => Fin.ext ?_)
  obtain ⟨e0, e1⟩ := idx10 t
  match a with
  | ⟨0, _⟩ => show win7_10.index t (0 : Fin 2) * 1 + 1 * (y 0).val = (y 0).val; omega
  | ⟨1, _⟩ => show win7_10.index t (1 : Fin 2) * 1 + 1 * (y 1).val = (y 1).val; omega

/-- Window 11's block index at a point: the point's number on the row axis. -/
theorem idx11 : ∀ t : Fin cfg7.N, win7_11.index t (0 : Fin 2) = t.val ∧ win7_11.index t (1 : Fin 2) = 0 :=
  (by decide +kernel : ∀ t : Fin grid7.N, _)

/-! ## Output window 11 -/

/-- The result: entry `i` is the second graph's total score at `i` times the first graph's total there. -/
def G11 (c : Dev nD) : S10000x1.Idx → EReal := fun i =>
  (col0 (V c (Pipeline.arrRef spec7 2)) (i 0) + Spec.score ⟨Spec.mat (V c (Pipeline.arrRef spec7 5)), rvec (V c (Pipeline.arrRef spec7 6)), Spec.mat (V c (Pipeline.arrRef spec7 7)), rvec (V c (Pipeline.arrRef spec7 8)), Spec.mat (V c (Pipeline.arrRef spec7 9)), rvec (V c (Pipeline.arrRef spec7 10))⟩ (Spec.lay (row (V c (Pipeline.arrRef spec7 0)) (i 0)) (Spec.mat (V c (Pipeline.arrRef spec7 1))) (rvec (V c (Pipeline.arrRef spec7 4))))) * col0 (V c (Pipeline.arrRef spec7 3)) (i 0)

/-- An entry of point `t`'s block of window 11, embedded in the array: global row `rowOf t r`, the same column. -/
theorem emb11 (t : Fin cfg7.N) (r : Fin 1000) (q : Fin 1) :
    ((cfg7.win 11).blk t).view.emb (ix2 r q) = ix2 (rowOf t r) q := by
  funext a; apply Fin.ext
  obtain ⟨e0, e1⟩ := idx11 t
  match a with
  | ⟨0, _⟩ => show win7_11.index t (0 : Fin 2) * 1000 + 1 * r.val = t.val * 1000 + r.val; omega
  | ⟨1, _⟩ => show win7_11.index t (1 : Fin 2) * 1 + 1 * q.val = q.val; omega

/-- What point `t` writes back to window 11's array is block `t` of `G11`. -/
theorem flushed11_eq (c : Dev nD) (t : Fin cfg7.N) :
    (dat7 V c).flushed 11 t = ((cfg7.win 11).blk t).view.read (Elt Ideal) (G11 V c) := by
  show (cfg7.win 11).cut (grid7.coords t) ((dat7 V c).after 11 t) = _
  rw [after7_11]
  unfold out7_11
  rw [View.canon_unit_zero hz]
  simp only [View.ld_unit_zero (S := S1000x10000) hz, View.ld_unit_zero (S := S10000x128) hz, View.ld_unit_zero (S := S1000x1) hz, View.ld_unit_zero (S := S1x128) hz, View.ld_unit_zero (S := S128x256) hz, View.ld_unit_zero (S := S1x256) hz, View.ld_unit_zero (S := S256x256) hz, View.ld_unit_zero (S := S256x1) hz, View.ld_unit_zero (S := S1x1) hz]
  funext j
  obtain ⟨r, q, rfl⟩ : ∃ (r : Fin 1000) (q : Fin 1), j = ix2 r q := ⟨j 0, j 1, eq_ix2 j⟩
  have hq : q = 0 := Subsingleton.elim _ _
  subst hq
  refine (Cert.KerRows.score7_apply (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) r).trans ?_
  show _ = G11 V c (((cfg7.win 11).blk t).view.emb (ix2 r (0 : Fin 1)))
  rw [emb11, blk2, blk3, rowblk0, blk1, blk4, blk5, blk6, blk7, blk8, blk9, blk10]
  rfl

/-- An index of the array is in point `t`'s block of window 11 iff each coordinate is in the block's range. -/
theorem mem_blk11 (t : Fin cfg7.N) (i : S10000x1.Idx) :
    i ∈ ((cfg7.win 11).blk t).view.set ↔ ∀ a : Fin 2, win7_11.index t a * S1000x1.size a ≤ (i a).val ∧ (i a).val < win7_11.index t a * S1000x1.size a + S1000x1.size a := by
  show i ∈ ((View.whole main_v21).slice (win7_11.rect t)).set ↔ _
  rw [View.set_slice_whole, Rect.mem_set_unit]
  exact Iff.rfl

/-- Every index of window 11's array is in some point's block: row `i` is in block `i / 1000`. -/
theorem cover11 (i : S10000x1.Idx) :
    ∃ t : Fin cfg7.N, (cfg7.win 11).flush t = true ∧ i ∈ ((cfg7.win 11).blk t).view.set := by
  have hi0 : (i 0).val < 10000 := (i 0).isLt
  have hi1 : (i 1).val < 1 := (i 1).isLt
  have hN : cfg7.N = 10 := N_7
  have ht : (i 0).val / 1000 < cfg7.N := by omega
  obtain ⟨e0, e1⟩ := idx11 ⟨(i 0).val / 1000, ht⟩
  refine ⟨⟨(i 0).val / 1000, ht⟩, flush7_11 _, ?_⟩
  rw [mem_blk11]
  intro a
  match a with
  | ⟨0, _⟩ =>
    show win7_11.index ⟨(i 0).val / 1000, ht⟩ (0 : Fin 2) * 1000 ≤ (i 0).val ∧ (i 0).val < win7_11.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win7_11.index ⟨(i 0).val / 1000, ht⟩ (1 : Fin 2) * 1 ≤ (i 1).val ∧ (i 1).val < win7_11.index ⟨(i 0).val / 1000, ht⟩ (1 : Fin 2) * 1 + 1
    rw [e1]; omega

/-- After the region, window 11's array holds `G11`. -/
theorem final11 (c : Dev nD) : (dat7 V c).arrAt 11 cfg7.N = G11 V c :=
  (dat7 V c).arrAt_eq_of_cover 11 (G11 V c) (fun t _ => flushed11_eq V c t) (cover11)

end Cert.KerReg7

end
-- ==== Proof.KerChainA.lean ====
/-
  The kernel program's buffers followed from the launch through the eight regions. The host operations before the
  first region only change formats and make each bias a one-row matrix, so on the extended reals the weights the regions
  read are the arguments themselves. Each region's outputs are, row by row, the specification's next quantities of what
  it read (the region modules); a buffer no later region writes keeps its contents. Chained, the last region's output is
  the second graph's total score times the first graph's at every node.
-/
import proofs.«103950_g67688684585008_cont_9to1c4b_879_14_alg».proof.Proof.KerReg0
import proofs.«103950_g67688684585008_cont_9to1c4b_879_14_alg».proof.Proof.KerReg1
import proofs.«103950_g67688684585008_cont_9to1c4b_879_14_alg».proof.Proof.KerReg2
import proofs.«103950_g67688684585008_cont_9to1c4b_879_14_alg».proof.Proof.KerReg3
import proofs.«103950_g67688684585008_cont_9to1c4b_879_14_alg».proof.Proof.KerReg4
import proofs.«103950_g67688684585008_cont_9to1c4b_879_14_alg».proof.Proof.KerReg5
import proofs.«103950_g67688684585008_cont_9to1c4b_879_14_alg».proof.Proof.KerReg6
import proofs.«103950_g67688684585008_cont_9to1c4b_879_14_alg».proof.Proof.KerReg7
import proofs.«103950_g67688684585008_cont_9to1c4b_879_14_alg».proof.Proof.Gen.KernelIdeal.Frame
import Idealize.ShloMosaic.Lib.StableHlo.Run

noncomputable section

namespace Cert.KerChain

open Cert.KernelIdeal Cert.KernelIdeal.Gen Idealize.ShloMosaic Idealize.ShloMosaic.TcCoe Idealize.SL.Sem Idealize.ShloMosaic.StableHlo
open Idealize.ShloMosaic.ValueIdx Cert.KerOps
open Idealize.ShloMosaic.Pipeline (Dat)

variable (m : (ℓ : Loc nD τ sig) → Buf (Elt Ideal) ℓ) (ρ : Dev nD → PrngReg) (c : Dev nD)

/-! ## The arguments, as arrays of extended reals -/
abbrev a0 : S10000x10000.Idx → EReal := m ((c : Thread nD τ).loc main_arg0)
abbrev a1 : S10000x10000.Idx → EReal := m ((c : Thread nD τ).loc main_arg1)
abbrev a2 : S10000x128.Idx → EReal := m ((c : Thread nD τ).loc main_arg2)
abbrev a3 : S128.Idx → EReal := m ((c : Thread nD τ).loc main_arg3)
abbrev a4 : S128x128.Idx → EReal := m ((c : Thread nD τ).loc main_arg4)
abbrev a5 : S128.Idx → EReal := m ((c : Thread nD τ).loc main_arg5)
abbrev a6 : S128x128.Idx → EReal := m ((c : Thread nD τ).loc main_arg6)
abbrev a7 : S128.Idx → EReal := m ((c : Thread nD τ).loc main_arg7)
abbrev a8 : S128x128.Idx → EReal := m ((c : Thread nD τ).loc main_arg8)
abbrev a9 : S128.Idx → EReal := m ((c : Thread nD τ).loc main_arg9)
abbrev a10 : S128x256.Idx → EReal := m ((c : Thread nD τ).loc main_arg10)
abbrev a11 : S256.Idx → EReal := m ((c : Thread nD τ).loc main_arg11)
abbrev a12 : S256x256.Idx → EReal := m ((c : Thread nD τ).loc main_arg12)
abbrev a13 : S256.Idx → EReal := m ((c : Thread nD τ).loc main_arg13)
abbrev a14 : S256x1.Idx → EReal := m ((c : Thread nD τ).loc main_arg14)
abbrev a15 : S1.Idx → EReal := m ((c : Thread nD τ).loc main_arg15)

/-- The convolution's weights and the scoring perceptron's, from the arguments. -/
abbrev cv : Spec.Conv := Spec.convOf (a2 m c) (a3 m c) (a4 m c) (a5 m c) (a6 m c) (a7 m c) (a8 m c) (a9 m c)
abbrev hd : Spec.Head := Spec.headOf (a10 m c) (a11 m c) (a12 m c) (a13 m c) (a14 m c) (a15 m c)
abbrev Ain : Fin 10000 → Fin 10000 → EReal := Spec.mat (a0 m c)
abbrev Aout : Fin 10000 → Fin 10000 → EReal := Spec.mat (a1 m c)

/-! ## Before the first region: formats changed, biases made rows -/

theorem w1_arg0 : W1 m ρ c (Proc.devRef .tc main_arg0) = m ((c : Thread nD τ).loc main_arg0) := by
  show StableHlo.after hostOps0 (W0 m ρ c) (Proc.devRef .tc main_arg0) = _
  after_results
theorem w1_arg1 : W1 m ρ c (Proc.devRef .tc main_arg1) = m ((c : Thread nD τ).loc main_arg1) := by
  show StableHlo.after hostOps0 (W0 m ρ c) (Proc.devRef .tc main_arg1) = _
  after_results

/-- A change of float format is the identity on the extended reals. -/
theorem w1_main_v0 : (W1 m ρ c (Proc.devRef .tc main_v0) : S10000x128.Idx → EReal) = a2 m c := by
  show StableHlo.after hostOps0 (W0 m ρ c) (Proc.devRef .tc main_v0) = _
  after_results
  rfl

/-- A change of float format is the identity on the extended reals. -/
theorem w1_main_v1 : (W1 m ρ c (Proc.devRef .tc main_v1) : S128x128.Idx → EReal) = a4 m c := by
  show StableHlo.after hostOps0 (W0 m ρ c) (Proc.devRef .tc main_v1) = _
  after_results
  rfl

/-- A change of float format is the identity on the extended reals. -/
theorem w1_main_v2 : (W1 m ρ c (Proc.devRef .tc main_v2) : S128x128.Idx → EReal) = a6 m c := by
  show StableHlo.after hostOps0 (W0 m ρ c) (Proc.devRef .tc main_v2) = _
  after_results
  rfl

/-- A change of float format is the identity on the extended reals. -/
theorem w1_main_v3 : (W1 m ρ c (Proc.devRef .tc main_v3) : S128x128.Idx → EReal) = a8 m c := by
  show StableHlo.after hostOps0 (W0 m ρ c) (Proc.devRef .tc main_v3) = _
  after_results
  rfl

/-- A change of float format is the identity on the extended reals. -/
theorem w1_main_v8 : (W1 m ρ c (Proc.devRef .tc main_v8) : S128x256.Idx → EReal) = a10 m c := by
  show StableHlo.after hostOps0 (W0 m ρ c) (Proc.devRef .tc main_v8) = _
  after_results
  rfl

/-- A change of float format is the identity on the extended reals. -/
theorem w1_main_v10 : (W1 m ρ c (Proc.devRef .tc main_v10) : S256x256.Idx → EReal) = a12 m c := by
  show StableHlo.after hostOps0 (W0 m ρ c) (Proc.devRef .tc main_v10) = _
  after_results
  rfl

/-- A change of float format is the identity on the extended reals. -/
theorem w1_main_v12 : (W1 m ρ c (Proc.devRef .tc main_v12) : S256x1.Idx → EReal) = a14 m c := by
  show StableHlo.after hostOps0 (W0 m ρ c) (Proc.devRef .tc main_v12) = _
  after_results
  rfl

/-- A bias made a one-row matrix reads, as a row, the bias. -/
theorem w1_main_v4 : rvec (W1 m ρ c (Proc.devRef .tc main_v4) : S1x128.Idx → EReal) = Spec.vec (a3 m c) := by
  have e : (W1 m ρ c (Proc.devRef .tc main_v4) : S1x128.Idx → EReal) = shapeCast S1x128 (a3 m c) shapeCasts_S128_S1x128 := by
    show StableHlo.after hostOps0 (W0 m ρ c) (Proc.devRef .tc main_v4) = _
    after_results
    rfl
  rw [e]
  funext q
  exact shapeCast_a_1a_apply _ _ (0 : Fin 1) q

/-- A bias made a one-row matrix reads, as a row, the bias. -/
theorem w1_main_v5 : rvec (W1 m ρ c (Proc.devRef .tc main_v5) : S1x128.Idx → EReal) = Spec.vec (a5 m c) := by
  have e : (W1 m ρ c (Proc.devRef .tc main_v5) : S1x128.Idx → EReal) = shapeCast S1x128 (a5 m c) shapeCasts_S128_S1x128 := by
    show StableHlo.after hostOps0 (W0 m ρ c) (Proc.devRef .tc main_v5) = _
    after_results
    rfl
  rw [e]
  funext q
  exact shapeCast_a_1a_apply _ _ (0 : Fin 1) q

/-- A bias made a one-row matrix reads, as a row, the bias. -/
theorem w1_main_v6 : rvec (W1 m ρ c (Proc.devRef .tc main_v6) : S1x128.Idx → EReal) = Spec.vec (a7 m c) := by
  have e : (W1 m ρ c (Proc.devRef .tc main_v6) : S1x128.Idx → EReal) = shapeCast S1x128 (a7 m c) shapeCasts_S128_S1x128 := by
    show StableHlo.after hostOps0 (W0 m ρ c) (Proc.devRef .tc main_v6) = _
    after_results
    rfl
  rw [e]
  funext q
  exact shapeCast_a_1a_apply _ _ (0 : Fin 1) q

/-- A bias made a one-row matrix reads, as a row, the bias. -/
theorem w1_main_v7 : rvec (W1 m ρ c (Proc.devRef .tc main_v7) : S1x128.Idx → EReal) = Spec.vec (a9 m c) := by
  have e : (W1 m ρ c (Proc.devRef .tc main_v7) : S1x128.Idx → EReal) = shapeCast S1x128 (a9 m c) shapeCasts_S128_S1x128 := by
    show StableHlo.after hostOps0 (W0 m ρ c) (Proc.devRef .tc main_v7) = _
    after_results
    rfl
  rw [e]
  funext q
  exact shapeCast_a_1a_apply _ _ (0 : Fin 1) q

/-- A bias made a one-row matrix reads, as a row, the bias. -/
theorem w1_main_v9 : rvec (W1 m ρ c (Proc.devRef .tc main_v9) : S1x256.Idx → EReal) = Spec.vec (a11 m c) := by
  have e : (W1 m ρ c (Proc.devRef .tc main_v9) : S1x256.Idx → EReal) = shapeCast S1x256 (a11 m c) shapeCasts_S256_S1x256 := by
    show StableHlo.after hostOps0 (W0 m ρ c) (Proc.devRef .tc main_v9) = _
    after_results
    rfl
  rw [e]
  funext q
  exact shapeCast_a_1a_apply _ _ (0 : Fin 1) q

/-- A bias made a one-row matrix reads, as a row, the bias. -/
theorem w1_main_v11 : rvec (W1 m ρ c (Proc.devRef .tc main_v11) : S1x256.Idx → EReal) = Spec.vec (a13 m c) := by
  have e : (W1 m ρ c (Proc.devRef .tc main_v11) : S1x256.Idx → EReal) = shapeCast S1x256 (a13 m c) shapeCasts_S256_S1x256 := by
    show StableHlo.after hostOps0 (W0 m ρ c) (Proc.devRef .tc main_v11) = _
    after_results
    rfl
  rw [e]
  funext q
  exact shapeCast_a_1a_apply _ _ (0 : Fin 1) q

/-- A bias made a one-row matrix reads, as a row, the bias. -/
theorem w1_main_v13 : rvec (W1 m ρ c (Proc.devRef .tc main_v13) : S1x1.Idx → EReal) = Spec.vec (a15 m c) := by
  have e : (W1 m ρ c (Proc.devRef .tc main_v13) : S1x1.Idx → EReal) = shapeCast S1x1 (a15 m c) shapeCasts_S1_S1x1 := by
    show StableHlo.after hostOps0 (W0 m ρ c) (Proc.devRef .tc main_v13) = _
    after_results
    rfl
  rw [e]
  funext q
  exact shapeCast_a_1a_apply _ _ (0 : Fin 1) q

/-! ## What a region leaves alone: a buffer it only reads, or does not touch, keeps its contents -/
theorem keep0_main_v5 : W2 m ρ c (Proc.devRef .tc main_v5) = W1 m ρ c (Proc.devRef .tc main_v5) :=
  W2_of_ne m ρ c main_v5 (by decide)
theorem keep0_main_v2 : W2 m ρ c (Proc.devRef .tc main_v2) = W1 m ρ c (Proc.devRef .tc main_v2) :=
  W2_of_ne m ρ c main_v2 (by decide)
theorem keep0_main_v8 : W2 m ρ c (Proc.devRef .tc main_v8) = W1 m ρ c (Proc.devRef .tc main_v8) :=
  (W2_arr m ρ c 4).trans (((dat0 (V1 m ρ) c).arrAt_in 4 rfl _).trans (A_eq0 (V1 m ρ) c 4))
theorem keep0_main_v9 : W2 m ρ c (Proc.devRef .tc main_v9) = W1 m ρ c (Proc.devRef .tc main_v9) :=
  (W2_arr m ρ c 5).trans (((dat0 (V1 m ρ) c).arrAt_in 5 rfl _).trans (A_eq0 (V1 m ρ) c 5))
theorem keep0_main_v10 : W2 m ρ c (Proc.devRef .tc main_v10) = W1 m ρ c (Proc.devRef .tc main_v10) :=
  (W2_arr m ρ c 6).trans (((dat0 (V1 m ρ) c).arrAt_in 6 rfl _).trans (A_eq0 (V1 m ρ) c 6))
theorem keep0_main_v11 : W2 m ρ c (Proc.devRef .tc main_v11) = W1 m ρ c (Proc.devRef .tc main_v11) :=
  (W2_arr m ρ c 7).trans (((dat0 (V1 m ρ) c).arrAt_in 7 rfl _).trans (A_eq0 (V1 m ρ) c 7))
theorem keep0_main_v12 : W2 m ρ c (Proc.devRef .tc main_v12) = W1 m ρ c (Proc.devRef .tc main_v12) :=
  (W2_arr m ρ c 8).trans (((dat0 (V1 m ρ) c).arrAt_in 8 rfl _).trans (A_eq0 (V1 m ρ) c 8))
theorem keep0_main_v13 : W2 m ρ c (Proc.devRef .tc main_v13) = W1 m ρ c (Proc.devRef .tc main_v13) :=
  (W2_arr m ρ c 9).trans (((dat0 (V1 m ρ) c).arrAt_in 9 rfl _).trans (A_eq0 (V1 m ρ) c 9))
theorem keep0_main_v6 : W2 m ρ c (Proc.devRef .tc main_v6) = W1 m ρ c (Proc.devRef .tc main_v6) :=
  W2_of_ne m ρ c main_v6 (by decide)
theorem keep0_main_v3 : W2 m ρ c (Proc.devRef .tc main_v3) = W1 m ρ c (Proc.devRef .tc main_v3) :=
  W2_of_ne m ρ c main_v3 (by decide)
theorem keep0_main_arg1 : W2 m ρ c (Proc.devRef .tc main_arg1) = W1 m ρ c (Proc.devRef .tc main_arg1) :=
  W2_of_ne m ρ c main_arg1 (by decide)
theorem keep0_main_v0 : W2 m ρ c (Proc.devRef .tc main_v0) = W1 m ρ c (Proc.devRef .tc main_v0) :=
  (W2_arr m ρ c 1).trans (((dat0 (V1 m ρ) c).arrAt_in 1 rfl _).trans (A_eq0 (V1 m ρ) c 1))
theorem keep0_main_v4 : W2 m ρ c (Proc.devRef .tc main_v4) = W1 m ρ c (Proc.devRef .tc main_v4) :=
  (W2_arr m ρ c 2).trans (((dat0 (V1 m ρ) c).arrAt_in 2 rfl _).trans (A_eq0 (V1 m ρ) c 2))
theorem keep0_main_v1 : W2 m ρ c (Proc.devRef .tc main_v1) = W1 m ρ c (Proc.devRef .tc main_v1) :=
  (W2_arr m ρ c 3).trans (((dat0 (V1 m ρ) c).arrAt_in 3 rfl _).trans (A_eq0 (V1 m ρ) c 3))
theorem keep0_main_v7 : W2 m ρ c (Proc.devRef .tc main_v7) = W1 m ρ c (Proc.devRef .tc main_v7) :=
  W2_of_ne m ρ c main_v7 (by decide)
theorem keep1_main_v14_0 : W3 m ρ c (Proc.devRef .tc main_v14_0) = W2 m ρ c (Proc.devRef .tc main_v14_0) :=
  (W3_arr m ρ c 0).trans (((dat1 (V2 m ρ) c).arrAt_in 0 rfl _).trans (A_eq1 (V2 m ρ) c 0))
theorem keep1_main_v6 : W3 m ρ c (Proc.devRef .tc main_v6) = W2 m ρ c (Proc.devRef .tc main_v6) :=
  W3_of_ne m ρ c main_v6 (by decide)
theorem keep1_main_v3 : W3 m ρ c (Proc.devRef .tc main_v3) = W2 m ρ c (Proc.devRef .tc main_v3) :=
  W3_of_ne m ρ c main_v3 (by decide)
theorem keep1_main_v8 : W3 m ρ c (Proc.devRef .tc main_v8) = W2 m ρ c (Proc.devRef .tc main_v8) :=
  (W3_arr m ρ c 5).trans (((dat1 (V2 m ρ) c).arrAt_in 5 rfl _).trans (A_eq1 (V2 m ρ) c 5))
theorem keep1_main_v9 : W3 m ρ c (Proc.devRef .tc main_v9) = W2 m ρ c (Proc.devRef .tc main_v9) :=
  (W3_arr m ρ c 6).trans (((dat1 (V2 m ρ) c).arrAt_in 6 rfl _).trans (A_eq1 (V2 m ρ) c 6))
theorem keep1_main_v10 : W3 m ρ c (Proc.devRef .tc main_v10) = W2 m ρ c (Proc.devRef .tc main_v10) :=
  (W3_arr m ρ c 7).trans (((dat1 (V2 m ρ) c).arrAt_in 7 rfl _).trans (A_eq1 (V2 m ρ) c 7))
theorem keep1_main_v11 : W3 m ρ c (Proc.devRef .tc main_v11) = W2 m ρ c (Proc.devRef .tc main_v11) :=
  (W3_arr m ρ c 8).trans (((dat1 (V2 m ρ) c).arrAt_in 8 rfl _).trans (A_eq1 (V2 m ρ) c 8))
theorem keep1_main_v12 : W3 m ρ c (Proc.devRef .tc main_v12) = W2 m ρ c (Proc.devRef .tc main_v12) :=
  (W3_arr m ρ c 9).trans (((dat1 (V2 m ρ) c).arrAt_in 9 rfl _).trans (A_eq1 (V2 m ρ) c 9))
theorem keep1_main_v13 : W3 m ρ c (Proc.devRef .tc main_v13) = W2 m ρ c (Proc.devRef .tc main_v13) :=
  (W3_arr m ρ c 10).trans (((dat1 (V2 m ρ) c).arrAt_in 10 rfl _).trans (A_eq1 (V2 m ρ) c 10))
theorem keep1_main_arg1 : W3 m ρ c (Proc.devRef .tc main_arg1) = W2 m ρ c (Proc.devRef .tc main_arg1) :=
  W3_of_ne m ρ c main_arg1 (by decide)
theorem keep1_main_v0 : W3 m ρ c (Proc.devRef .tc main_v0) = W2 m ρ c (Proc.devRef .tc main_v0) :=
  W3_of_ne m ρ c main_v0 (by decide)
theorem keep1_main_v4 : W3 m ρ c (Proc.devRef .tc main_v4) = W2 m ρ c (Proc.devRef .tc main_v4) :=
  W3_of_ne m ρ c main_v4 (by decide)
theorem keep1_main_v1 : W3 m ρ c (Proc.devRef .tc main_v1) = W2 m ρ c (Proc.devRef .tc main_v1) :=
  W3_of_ne m ρ c main_v1 (by decide)
theorem keep1_main_v5 : W3 m ρ c (Proc.devRef .tc main_v5) = W2 m ρ c (Proc.devRef .tc main_v5) :=
  (W3_arr m ρ c 3).trans (((dat1 (V2 m ρ) c).arrAt_in 3 rfl _).trans (A_eq1 (V2 m ρ) c 3))
theorem keep1_main_v2 : W3 m ρ c (Proc.devRef .tc main_v2) = W2 m ρ c (Proc.devRef .tc main_v2) :=
  (W3_arr m ρ c 4).trans (((dat1 (V2 m ρ) c).arrAt_in 4 rfl _).trans (A_eq1 (V2 m ρ) c 4))
theorem keep1_main_v7 : W3 m ρ c (Proc.devRef .tc main_v7) = W2 m ρ c (Proc.devRef .tc main_v7) :=
  W3_of_ne m ρ c main_v7 (by decide)
theorem keep2_main_arg1 : W4 m ρ c (Proc.devRef .tc main_arg1) = W3 m ρ c (Proc.devRef .tc main_arg1) :=
  W4_of_ne m ρ c main_arg1 (by decide)
theorem keep2_main_v0 : W4 m ρ c (Proc.devRef .tc main_v0) = W3 m ρ c (Proc.devRef .tc main_v0) :=
  W4_of_ne m ρ c main_v0 (by decide)
theorem keep2_main_v4 : W4 m ρ c (Proc.devRef .tc main_v4) = W3 m ρ c (Proc.devRef .tc main_v4) :=
  W4_of_ne m ρ c main_v4 (by decide)
theorem keep2_main_v1 : W4 m ρ c (Proc.devRef .tc main_v1) = W3 m ρ c (Proc.devRef .tc main_v1) :=
  W4_of_ne m ρ c main_v1 (by decide)
theorem keep2_main_v8 : W4 m ρ c (Proc.devRef .tc main_v8) = W3 m ρ c (Proc.devRef .tc main_v8) :=
  (W4_arr m ρ c 5).trans (((dat2 (V3 m ρ) c).arrAt_in 5 rfl _).trans (A_eq2 (V3 m ρ) c 5))
theorem keep2_main_v9 : W4 m ρ c (Proc.devRef .tc main_v9) = W3 m ρ c (Proc.devRef .tc main_v9) :=
  (W4_arr m ρ c 6).trans (((dat2 (V3 m ρ) c).arrAt_in 6 rfl _).trans (A_eq2 (V3 m ρ) c 6))
theorem keep2_main_v10 : W4 m ρ c (Proc.devRef .tc main_v10) = W3 m ρ c (Proc.devRef .tc main_v10) :=
  (W4_arr m ρ c 7).trans (((dat2 (V3 m ρ) c).arrAt_in 7 rfl _).trans (A_eq2 (V3 m ρ) c 7))
theorem keep2_main_v11 : W4 m ρ c (Proc.devRef .tc main_v11) = W3 m ρ c (Proc.devRef .tc main_v11) :=
  (W4_arr m ρ c 8).trans (((dat2 (V3 m ρ) c).arrAt_in 8 rfl _).trans (A_eq2 (V3 m ρ) c 8))
theorem keep2_main_v12 : W4 m ρ c (Proc.devRef .tc main_v12) = W3 m ρ c (Proc.devRef .tc main_v12) :=
  (W4_arr m ρ c 9).trans (((dat2 (V3 m ρ) c).arrAt_in 9 rfl _).trans (A_eq2 (V3 m ρ) c 9))
theorem keep2_main_v13 : W4 m ρ c (Proc.devRef .tc main_v13) = W3 m ρ c (Proc.devRef .tc main_v13) :=
  (W4_arr m ρ c 10).trans (((dat2 (V3 m ρ) c).arrAt_in 10 rfl _).trans (A_eq2 (V3 m ρ) c 10))
theorem keep2_main_v5 : W4 m ρ c (Proc.devRef .tc main_v5) = W3 m ρ c (Proc.devRef .tc main_v5) :=
  W4_of_ne m ρ c main_v5 (by decide)
theorem keep2_main_v2 : W4 m ρ c (Proc.devRef .tc main_v2) = W3 m ρ c (Proc.devRef .tc main_v2) :=
  W4_of_ne m ρ c main_v2 (by decide)
theorem keep2_main_v6 : W4 m ρ c (Proc.devRef .tc main_v6) = W3 m ρ c (Proc.devRef .tc main_v6) :=
  (W4_arr m ρ c 3).trans (((dat2 (V3 m ρ) c).arrAt_in 3 rfl _).trans (A_eq2 (V3 m ρ) c 3))
theorem keep2_main_v3 : W4 m ρ c (Proc.devRef .tc main_v3) = W3 m ρ c (Proc.devRef .tc main_v3) :=
  (W4_arr m ρ c 4).trans (((dat2 (V3 m ρ) c).arrAt_in 4 rfl _).trans (A_eq2 (V3 m ρ) c 4))
theorem keep2_main_v14_0 : W4 m ρ c (Proc.devRef .tc main_v14_0) = W3 m ρ c (Proc.devRef .tc main_v14_0) :=
  (W4_arr m ρ c 0).trans (((dat2 (V3 m ρ) c).arrAt_in 0 rfl _).trans (A_eq2 (V3 m ρ) c 0))
theorem keep2_main_v7 : W4 m ρ c (Proc.devRef .tc main_v7) = W3 m ρ c (Proc.devRef .tc main_v7) :=
  W4_of_ne m ρ c main_v7 (by decide)
theorem keep3_main_v5 : W5 m ρ c (Proc.devRef .tc main_v5) = W4 m ρ c (Proc.devRef .tc main_v5) :=
  W5_of_ne m ρ c main_v5 (by decide)
theorem keep3_main_v2 : W5 m ρ c (Proc.devRef .tc main_v2) = W4 m ρ c (Proc.devRef .tc main_v2) :=
  W5_of_ne m ρ c main_v2 (by decide)
theorem keep3_main_v8 : W5 m ρ c (Proc.devRef .tc main_v8) = W4 m ρ c (Proc.devRef .tc main_v8) :=
  (W5_arr m ρ c 4).trans (((dat3 (V4 m ρ) c).arrAt_in 4 rfl _).trans (A_eq3 (V4 m ρ) c 4))
theorem keep3_main_v9 : W5 m ρ c (Proc.devRef .tc main_v9) = W4 m ρ c (Proc.devRef .tc main_v9) :=
  (W5_arr m ρ c 5).trans (((dat3 (V4 m ρ) c).arrAt_in 5 rfl _).trans (A_eq3 (V4 m ρ) c 5))
theorem keep3_main_v10 : W5 m ρ c (Proc.devRef .tc main_v10) = W4 m ρ c (Proc.devRef .tc main_v10) :=
  (W5_arr m ρ c 6).trans (((dat3 (V4 m ρ) c).arrAt_in 6 rfl _).trans (A_eq3 (V4 m ρ) c 6))
theorem keep3_main_v11 : W5 m ρ c (Proc.devRef .tc main_v11) = W4 m ρ c (Proc.devRef .tc main_v11) :=
  (W5_arr m ρ c 7).trans (((dat3 (V4 m ρ) c).arrAt_in 7 rfl _).trans (A_eq3 (V4 m ρ) c 7))
theorem keep3_main_v12 : W5 m ρ c (Proc.devRef .tc main_v12) = W4 m ρ c (Proc.devRef .tc main_v12) :=
  (W5_arr m ρ c 8).trans (((dat3 (V4 m ρ) c).arrAt_in 8 rfl _).trans (A_eq3 (V4 m ρ) c 8))
theorem keep3_main_v13 : W5 m ρ c (Proc.devRef .tc main_v13) = W4 m ρ c (Proc.devRef .tc main_v13) :=
  (W5_arr m ρ c 9).trans (((dat3 (V4 m ρ) c).arrAt_in 9 rfl _).trans (A_eq3 (V4 m ρ) c 9))
theorem keep3_main_v6 : W5 m ρ c (Proc.devRef .tc main_v6) = W4 m ρ c (Proc.devRef .tc main_v6) :=
  W5_of_ne m ρ c main_v6 (by decide)
theorem keep3_main_v3 : W5 m ρ c (Proc.devRef .tc main_v3) = W4 m ρ c (Proc.devRef .tc main_v3) :=
  W5_of_ne m ρ c main_v3 (by decide)
theorem keep3_main_v14_0 : W5 m ρ c (Proc.devRef .tc main_v14_0) = W4 m ρ c (Proc.devRef .tc main_v14_0) :=
  W5_of_ne m ρ c main_v14_0 (by decide)
theorem keep3_main_v16_0 : W5 m ρ c (Proc.devRef .tc main_v16_0) = W4 m ρ c (Proc.devRef .tc main_v16_0) :=
  W5_of_ne m ρ c main_v16_0 (by decide)
theorem keep3_main_v16_1 : W5 m ρ c (Proc.devRef .tc main_v16_1) = W4 m ρ c (Proc.devRef .tc main_v16_1) :=
  W5_of_ne m ρ c main_v16_1 (by decide)
theorem keep3_main_v7 : W5 m ρ c (Proc.devRef .tc main_v7) = W4 m ρ c (Proc.devRef .tc main_v7) :=
  W5_of_ne m ρ c main_v7 (by decide)
theorem keep4_main_v17_0 : W6 m ρ c (Proc.devRef .tc main_v17_0) = W5 m ρ c (Proc.devRef .tc main_v17_0) :=
  (W6_arr m ρ c 0).trans (((dat4 (V5 m ρ) c).arrAt_in 0 rfl _).trans (A_eq4 (V5 m ρ) c 0))
theorem keep4_main_v6 : W6 m ρ c (Proc.devRef .tc main_v6) = W5 m ρ c (Proc.devRef .tc main_v6) :=
  W6_of_ne m ρ c main_v6 (by decide)
theorem keep4_main_v3 : W6 m ρ c (Proc.devRef .tc main_v3) = W5 m ρ c (Proc.devRef .tc main_v3) :=
  W6_of_ne m ρ c main_v3 (by decide)
theorem keep4_main_v8 : W6 m ρ c (Proc.devRef .tc main_v8) = W5 m ρ c (Proc.devRef .tc main_v8) :=
  (W6_arr m ρ c 5).trans (((dat4 (V5 m ρ) c).arrAt_in 5 rfl _).trans (A_eq4 (V5 m ρ) c 5))
theorem keep4_main_v9 : W6 m ρ c (Proc.devRef .tc main_v9) = W5 m ρ c (Proc.devRef .tc main_v9) :=
  (W6_arr m ρ c 6).trans (((dat4 (V5 m ρ) c).arrAt_in 6 rfl _).trans (A_eq4 (V5 m ρ) c 6))
theorem keep4_main_v10 : W6 m ρ c (Proc.devRef .tc main_v10) = W5 m ρ c (Proc.devRef .tc main_v10) :=
  (W6_arr m ρ c 7).trans (((dat4 (V5 m ρ) c).arrAt_in 7 rfl _).trans (A_eq4 (V5 m ρ) c 7))
theorem keep4_main_v11 : W6 m ρ c (Proc.devRef .tc main_v11) = W5 m ρ c (Proc.devRef .tc main_v11) :=
  (W6_arr m ρ c 8).trans (((dat4 (V5 m ρ) c).arrAt_in 8 rfl _).trans (A_eq4 (V5 m ρ) c 8))
theorem keep4_main_v12 : W6 m ρ c (Proc.devRef .tc main_v12) = W5 m ρ c (Proc.devRef .tc main_v12) :=
  (W6_arr m ρ c 9).trans (((dat4 (V5 m ρ) c).arrAt_in 9 rfl _).trans (A_eq4 (V5 m ρ) c 9))
theorem keep4_main_v13 : W6 m ρ c (Proc.devRef .tc main_v13) = W5 m ρ c (Proc.devRef .tc main_v13) :=
  (W6_arr m ρ c 10).trans (((dat4 (V5 m ρ) c).arrAt_in 10 rfl _).trans (A_eq4 (V5 m ρ) c 10))
theorem keep4_main_v14_0 : W6 m ρ c (Proc.devRef .tc main_v14_0) = W5 m ρ c (Proc.devRef .tc main_v14_0) :=
  W6_of_ne m ρ c main_v14_0 (by decide)
theorem keep4_main_v16_0 : W6 m ρ c (Proc.devRef .tc main_v16_0) = W5 m ρ c (Proc.devRef .tc main_v16_0) :=
  W6_of_ne m ρ c main_v16_0 (by decide)
theorem keep4_main_v16_1 : W6 m ρ c (Proc.devRef .tc main_v16_1) = W5 m ρ c (Proc.devRef .tc main_v16_1) :=
  W6_of_ne m ρ c main_v16_1 (by decide)
theorem keep4_main_v7 : W6 m ρ c (Proc.devRef .tc main_v7) = W5 m ρ c (Proc.devRef .tc main_v7) :=
  W6_of_ne m ρ c main_v7 (by decide)
theorem keep5_main_v14_0 : W7 m ρ c (Proc.devRef .tc main_v14_0) = W6 m ρ c (Proc.devRef .tc main_v14_0) :=
  W7_of_ne m ρ c main_v14_0 (by decide)
theorem keep5_main_v16_0 : W7 m ρ c (Proc.devRef .tc main_v16_0) = W6 m ρ c (Proc.devRef .tc main_v16_0) :=
  W7_of_ne m ρ c main_v16_0 (by decide)
theorem keep5_main_v16_1 : W7 m ρ c (Proc.devRef .tc main_v16_1) = W6 m ρ c (Proc.devRef .tc main_v16_1) :=
  W7_of_ne m ρ c main_v16_1 (by decide)
theorem keep5_main_v7 : W7 m ρ c (Proc.devRef .tc main_v7) = W6 m ρ c (Proc.devRef .tc main_v7) :=
  W7_of_ne m ρ c main_v7 (by decide)
theorem keep5_main_v8 : W7 m ρ c (Proc.devRef .tc main_v8) = W6 m ρ c (Proc.devRef .tc main_v8) :=
  (W7_arr m ρ c 5).trans (((dat5 (V6 m ρ) c).arrAt_in 5 rfl _).trans (A_eq5 (V6 m ρ) c 5))
theorem keep5_main_v9 : W7 m ρ c (Proc.devRef .tc main_v9) = W6 m ρ c (Proc.devRef .tc main_v9) :=
  (W7_arr m ρ c 6).trans (((dat5 (V6 m ρ) c).arrAt_in 6 rfl _).trans (A_eq5 (V6 m ρ) c 6))
theorem keep5_main_v10 : W7 m ρ c (Proc.devRef .tc main_v10) = W6 m ρ c (Proc.devRef .tc main_v10) :=
  (W7_arr m ρ c 7).trans (((dat5 (V6 m ρ) c).arrAt_in 7 rfl _).trans (A_eq5 (V6 m ρ) c 7))
theorem keep5_main_v11 : W7 m ρ c (Proc.devRef .tc main_v11) = W6 m ρ c (Proc.devRef .tc main_v11) :=
  (W7_arr m ρ c 8).trans (((dat5 (V6 m ρ) c).arrAt_in 8 rfl _).trans (A_eq5 (V6 m ρ) c 8))
theorem keep5_main_v12 : W7 m ρ c (Proc.devRef .tc main_v12) = W6 m ρ c (Proc.devRef .tc main_v12) :=
  (W7_arr m ρ c 9).trans (((dat5 (V6 m ρ) c).arrAt_in 9 rfl _).trans (A_eq5 (V6 m ρ) c 9))
theorem keep5_main_v13 : W7 m ρ c (Proc.devRef .tc main_v13) = W6 m ρ c (Proc.devRef .tc main_v13) :=
  (W7_arr m ρ c 10).trans (((dat5 (V6 m ρ) c).arrAt_in 10 rfl _).trans (A_eq5 (V6 m ρ) c 10))
theorem keep5_main_v17_0 : W7 m ρ c (Proc.devRef .tc main_v17_0) = W6 m ρ c (Proc.devRef .tc main_v17_0) :=
  (W7_arr m ρ c 0).trans (((dat5 (V6 m ρ) c).arrAt_in 0 rfl _).trans (A_eq5 (V6 m ρ) c 0))
theorem keep6_main_v17_0 : W8 m ρ c (Proc.devRef .tc main_v17_0) = W7 m ρ c (Proc.devRef .tc main_v17_0) :=
  W8_of_ne m ρ c main_v17_0 (by decide)
theorem keep6_main_v19_0 : W8 m ρ c (Proc.devRef .tc main_v19_0) = W7 m ρ c (Proc.devRef .tc main_v19_0) :=
  W8_of_ne m ρ c main_v19_0 (by decide)
theorem keep6_main_v19_1 : W8 m ρ c (Proc.devRef .tc main_v19_1) = W7 m ρ c (Proc.devRef .tc main_v19_1) :=
  W8_of_ne m ρ c main_v19_1 (by decide)
theorem keep6_main_v7 : W8 m ρ c (Proc.devRef .tc main_v7) = W7 m ρ c (Proc.devRef .tc main_v7) :=
  (W8_arr m ρ c 3).trans (((dat6 (V7 m ρ) c).arrAt_in 3 rfl _).trans (A_eq6 (V7 m ρ) c 3))
theorem keep6_main_v8 : W8 m ρ c (Proc.devRef .tc main_v8) = W7 m ρ c (Proc.devRef .tc main_v8) :=
  (W8_arr m ρ c 4).trans (((dat6 (V7 m ρ) c).arrAt_in 4 rfl _).trans (A_eq6 (V7 m ρ) c 4))
theorem keep6_main_v9 : W8 m ρ c (Proc.devRef .tc main_v9) = W7 m ρ c (Proc.devRef .tc main_v9) :=
  (W8_arr m ρ c 5).trans (((dat6 (V7 m ρ) c).arrAt_in 5 rfl _).trans (A_eq6 (V7 m ρ) c 5))
theorem keep6_main_v10 : W8 m ρ c (Proc.devRef .tc main_v10) = W7 m ρ c (Proc.devRef .tc main_v10) :=
  (W8_arr m ρ c 6).trans (((dat6 (V7 m ρ) c).arrAt_in 6 rfl _).trans (A_eq6 (V7 m ρ) c 6))
theorem keep6_main_v11 : W8 m ρ c (Proc.devRef .tc main_v11) = W7 m ρ c (Proc.devRef .tc main_v11) :=
  (W8_arr m ρ c 7).trans (((dat6 (V7 m ρ) c).arrAt_in 7 rfl _).trans (A_eq6 (V7 m ρ) c 7))
theorem keep6_main_v12 : W8 m ρ c (Proc.devRef .tc main_v12) = W7 m ρ c (Proc.devRef .tc main_v12) :=
  (W8_arr m ρ c 8).trans (((dat6 (V7 m ρ) c).arrAt_in 8 rfl _).trans (A_eq6 (V7 m ρ) c 8))
theorem keep6_main_v13 : W8 m ρ c (Proc.devRef .tc main_v13) = W7 m ρ c (Proc.devRef .tc main_v13) :=
  (W8_arr m ρ c 9).trans (((dat6 (V7 m ρ) c).arrAt_in 9 rfl _).trans (A_eq6 (V7 m ρ) c 9))

/-! ## What each region finds in its input windows' arrays -/
theorem entry0_0 : V1 m ρ c (Pipeline.arrRef spec0 0) = W1 m ρ c (Proc.devRef .tc main_arg0) :=
  rfl
theorem entry0_1 : V1 m ρ c (Pipeline.arrRef spec0 1) = W1 m ρ c (Proc.devRef .tc main_v0) :=
  rfl
theorem entry0_2 : V1 m ρ c (Pipeline.arrRef spec0 2) = W1 m ρ c (Proc.devRef .tc main_v4) :=
  rfl
theorem entry0_3 : V1 m ρ c (Pipeline.arrRef spec0 3) = W1 m ρ c (Proc.devRef .tc main_v1) :=
  rfl
theorem entry0_4 : V1 m ρ c (Pipeline.arrRef spec0 4) = W1 m ρ c (Proc.devRef .tc main_v8) :=
  rfl
theorem entry0_5 : V1 m ρ c (Pipeline.arrRef spec0 5) = W1 m ρ c (Proc.devRef .tc main_v9) :=
  rfl
theorem entry0_6 : V1 m ρ c (Pipeline.arrRef spec0 6) = W1 m ρ c (Proc.devRef .tc main_v10) :=
  rfl
theorem entry0_7 : V1 m ρ c (Pipeline.arrRef spec0 7) = W1 m ρ c (Proc.devRef .tc main_v11) :=
  rfl
theorem entry0_8 : V1 m ρ c (Pipeline.arrRef spec0 8) = W1 m ρ c (Proc.devRef .tc main_v12) :=
  rfl
theorem entry0_9 : V1 m ρ c (Pipeline.arrRef spec0 9) = W1 m ρ c (Proc.devRef .tc main_v13) :=
  rfl
theorem entry1_0 : V2 m ρ c (Pipeline.arrRef spec1 0) = W2 m ρ c (Proc.devRef .tc main_v14_0) :=
  rfl
theorem entry1_1 : V2 m ρ c (Pipeline.arrRef spec1 1) = W2 m ρ c (Proc.devRef .tc main_v14_1) :=
  rfl
theorem entry1_2 : V2 m ρ c (Pipeline.arrRef spec1 2) = W2 m ρ c (Proc.devRef .tc main_v14_2) :=
  rfl
theorem entry1_3 : V2 m ρ c (Pipeline.arrRef spec1 3) = W1 m ρ c (Proc.devRef .tc main_v5) :=
  (keep0_main_v5 m ρ c)
theorem entry1_4 : V2 m ρ c (Pipeline.arrRef spec1 4) = W1 m ρ c (Proc.devRef .tc main_v2) :=
  (keep0_main_v2 m ρ c)
theorem entry1_5 : V2 m ρ c (Pipeline.arrRef spec1 5) = W1 m ρ c (Proc.devRef .tc main_v8) :=
  (keep0_main_v8 m ρ c)
theorem entry1_6 : V2 m ρ c (Pipeline.arrRef spec1 6) = W1 m ρ c (Proc.devRef .tc main_v9) :=
  (keep0_main_v9 m ρ c)
theorem entry1_7 : V2 m ρ c (Pipeline.arrRef spec1 7) = W1 m ρ c (Proc.devRef .tc main_v10) :=
  (keep0_main_v10 m ρ c)
theorem entry1_8 : V2 m ρ c (Pipeline.arrRef spec1 8) = W1 m ρ c (Proc.devRef .tc main_v11) :=
  (keep0_main_v11 m ρ c)
theorem entry1_9 : V2 m ρ c (Pipeline.arrRef spec1 9) = W1 m ρ c (Proc.devRef .tc main_v12) :=
  (keep0_main_v12 m ρ c)
theorem entry1_10 : V2 m ρ c (Pipeline.arrRef spec1 10) = W1 m ρ c (Proc.devRef .tc main_v13) :=
  (keep0_main_v13 m ρ c)
theorem entry2_0 : V3 m ρ c (Pipeline.arrRef spec2 0) = W2 m ρ c (Proc.devRef .tc main_v14_0) :=
  (keep1_main_v14_0 m ρ c)
theorem entry2_1 : V3 m ρ c (Pipeline.arrRef spec2 1) = W3 m ρ c (Proc.devRef .tc main_v15_0) :=
  rfl
theorem entry2_2 : V3 m ρ c (Pipeline.arrRef spec2 2) = W3 m ρ c (Proc.devRef .tc main_v15_1) :=
  rfl
theorem entry2_3 : V3 m ρ c (Pipeline.arrRef spec2 3) = W1 m ρ c (Proc.devRef .tc main_v6) :=
  ((keep1_main_v6 m ρ c).trans (keep0_main_v6 m ρ c))
theorem entry2_4 : V3 m ρ c (Pipeline.arrRef spec2 4) = W1 m ρ c (Proc.devRef .tc main_v3) :=
  ((keep1_main_v3 m ρ c).trans (keep0_main_v3 m ρ c))
theorem entry2_5 : V3 m ρ c (Pipeline.arrRef spec2 5) = W1 m ρ c (Proc.devRef .tc main_v8) :=
  ((keep1_main_v8 m ρ c).trans (keep0_main_v8 m ρ c))
theorem entry2_6 : V3 m ρ c (Pipeline.arrRef spec2 6) = W1 m ρ c (Proc.devRef .tc main_v9) :=
  ((keep1_main_v9 m ρ c).trans (keep0_main_v9 m ρ c))
theorem entry2_7 : V3 m ρ c (Pipeline.arrRef spec2 7) = W1 m ρ c (Proc.devRef .tc main_v10) :=
  ((keep1_main_v10 m ρ c).trans (keep0_main_v10 m ρ c))
theorem entry2_8 : V3 m ρ c (Pipeline.arrRef spec2 8) = W1 m ρ c (Proc.devRef .tc main_v11) :=
  ((keep1_main_v11 m ρ c).trans (keep0_main_v11 m ρ c))
theorem entry2_9 : V3 m ρ c (Pipeline.arrRef spec2 9) = W1 m ρ c (Proc.devRef .tc main_v12) :=
  ((keep1_main_v12 m ρ c).trans (keep0_main_v12 m ρ c))
theorem entry2_10 : V3 m ρ c (Pipeline.arrRef spec2 10) = W1 m ρ c (Proc.devRef .tc main_v13) :=
  ((keep1_main_v13 m ρ c).trans (keep0_main_v13 m ρ c))
theorem entry3_0 : V4 m ρ c (Pipeline.arrRef spec3 0) = W1 m ρ c (Proc.devRef .tc main_arg1) :=
  ((keep2_main_arg1 m ρ c).trans ((keep1_main_arg1 m ρ c).trans (keep0_main_arg1 m ρ c)))
theorem entry3_1 : V4 m ρ c (Pipeline.arrRef spec3 1) = W1 m ρ c (Proc.devRef .tc main_v0) :=
  ((keep2_main_v0 m ρ c).trans ((keep1_main_v0 m ρ c).trans (keep0_main_v0 m ρ c)))
theorem entry3_2 : V4 m ρ c (Pipeline.arrRef spec3 2) = W1 m ρ c (Proc.devRef .tc main_v4) :=
  ((keep2_main_v4 m ρ c).trans ((keep1_main_v4 m ρ c).trans (keep0_main_v4 m ρ c)))
theorem entry3_3 : V4 m ρ c (Pipeline.arrRef spec3 3) = W1 m ρ c (Proc.devRef .tc main_v1) :=
  ((keep2_main_v1 m ρ c).trans ((keep1_main_v1 m ρ c).trans (keep0_main_v1 m ρ c)))
theorem entry3_4 : V4 m ρ c (Pipeline.arrRef spec3 4) = W1 m ρ c (Proc.devRef .tc main_v8) :=
  ((keep2_main_v8 m ρ c).trans ((keep1_main_v8 m ρ c).trans (keep0_main_v8 m ρ c)))
theorem entry3_5 : V4 m ρ c (Pipeline.arrRef spec3 5) = W1 m ρ c (Proc.devRef .tc main_v9) :=
  ((keep2_main_v9 m ρ c).trans ((keep1_main_v9 m ρ c).trans (keep0_main_v9 m ρ c)))
theorem entry3_6 : V4 m ρ c (Pipeline.arrRef spec3 6) = W1 m ρ c (Proc.devRef .tc main_v10) :=
  ((keep2_main_v10 m ρ c).trans ((keep1_main_v10 m ρ c).trans (keep0_main_v10 m ρ c)))
theorem entry3_7 : V4 m ρ c (Pipeline.arrRef spec3 7) = W1 m ρ c (Proc.devRef .tc main_v11) :=
  ((keep2_main_v11 m ρ c).trans ((keep1_main_v11 m ρ c).trans (keep0_main_v11 m ρ c)))
theorem entry3_8 : V4 m ρ c (Pipeline.arrRef spec3 8) = W1 m ρ c (Proc.devRef .tc main_v12) :=
  ((keep2_main_v12 m ρ c).trans ((keep1_main_v12 m ρ c).trans (keep0_main_v12 m ρ c)))
theorem entry3_9 : V4 m ρ c (Pipeline.arrRef spec3 9) = W1 m ρ c (Proc.devRef .tc main_v13) :=
  ((keep2_main_v13 m ρ c).trans ((keep1_main_v13 m ρ c).trans (keep0_main_v13 m ρ c)))
theorem entry4_0 : V5 m ρ c (Pipeline.arrRef spec4 0) = W5 m ρ c (Proc.devRef .tc main_v17_0) :=
  rfl
theorem entry4_1 : V5 m ρ c (Pipeline.arrRef spec4 1) = W5 m ρ c (Proc.devRef .tc main_v17_1) :=
  rfl
theorem entry4_2 : V5 m ρ c (Pipeline.arrRef spec4 2) = W5 m ρ c (Proc.devRef .tc main_v17_2) :=
  rfl
theorem entry4_3 : V5 m ρ c (Pipeline.arrRef spec4 3) = W1 m ρ c (Proc.devRef .tc main_v5) :=
  ((keep3_main_v5 m ρ c).trans ((keep2_main_v5 m ρ c).trans ((keep1_main_v5 m ρ c).trans (keep0_main_v5 m ρ c))))
theorem entry4_4 : V5 m ρ c (Pipeline.arrRef spec4 4) = W1 m ρ c (Proc.devRef .tc main_v2) :=
  ((keep3_main_v2 m ρ c).trans ((keep2_main_v2 m ρ c).trans ((keep1_main_v2 m ρ c).trans (keep0_main_v2 m ρ c))))
theorem entry4_5 : V5 m ρ c (Pipeline.arrRef spec4 5) = W1 m ρ c (Proc.devRef .tc main_v8) :=
  ((keep3_main_v8 m ρ c).trans ((keep2_main_v8 m ρ c).trans ((keep1_main_v8 m ρ c).trans (keep0_main_v8 m ρ c))))
theorem entry4_6 : V5 m ρ c (Pipeline.arrRef spec4 6) = W1 m ρ c (Proc.devRef .tc main_v9) :=
  ((keep3_main_v9 m ρ c).trans ((keep2_main_v9 m ρ c).trans ((keep1_main_v9 m ρ c).trans (keep0_main_v9 m ρ c))))
theorem entry4_7 : V5 m ρ c (Pipeline.arrRef spec4 7) = W1 m ρ c (Proc.devRef .tc main_v10) :=
  ((keep3_main_v10 m ρ c).trans ((keep2_main_v10 m ρ c).trans ((keep1_main_v10 m ρ c).trans (keep0_main_v10 m ρ c))))
theorem entry4_8 : V5 m ρ c (Pipeline.arrRef spec4 8) = W1 m ρ c (Proc.devRef .tc main_v11) :=
  ((keep3_main_v11 m ρ c).trans ((keep2_main_v11 m ρ c).trans ((keep1_main_v11 m ρ c).trans (keep0_main_v11 m ρ c))))
theorem entry4_9 : V5 m ρ c (Pipeline.arrRef spec4 9) = W1 m ρ c (Proc.devRef .tc main_v12) :=
  ((keep3_main_v12 m ρ c).trans ((keep2_main_v12 m ρ c).trans ((keep1_main_v12 m ρ c).trans (keep0_main_v12 m ρ c))))
theorem entry4_10 : V5 m ρ c (Pipeline.arrRef spec4 10) = W1 m ρ c (Proc.devRef .tc main_v13) :=
  ((keep3_main_v13 m ρ c).trans ((keep2_main_v13 m ρ c).trans ((keep1_main_v13 m ρ c).trans (keep0_main_v13 m ρ c))))
theorem entry5_0 : V6 m ρ c (Pipeline.arrRef spec5 0) = W5 m ρ c (Proc.devRef .tc main_v17_0) :=
  (keep4_main_v17_0 m ρ c)
theorem entry5_1 : V6 m ρ c (Pipeline.arrRef spec5 1) = W6 m ρ c (Proc.devRef .tc main_v18_0) :=
  rfl
theorem entry5_2 : V6 m ρ c (Pipeline.arrRef spec5 2) = W6 m ρ c (Proc.devRef .tc main_v18_1) :=
  rfl
theorem entry5_3 : V6 m ρ c (Pipeline.arrRef spec5 3) = W1 m ρ c (Proc.devRef .tc main_v6) :=
  ((keep4_main_v6 m ρ c).trans ((keep3_main_v6 m ρ c).trans ((keep2_main_v6 m ρ c).trans ((keep1_main_v6 m ρ c).trans (keep0_main_v6 m ρ c)))))
theorem entry5_4 : V6 m ρ c (Pipeline.arrRef spec5 4) = W1 m ρ c (Proc.devRef .tc main_v3) :=
  ((keep4_main_v3 m ρ c).trans ((keep3_main_v3 m ρ c).trans ((keep2_main_v3 m ρ c).trans ((keep1_main_v3 m ρ c).trans (keep0_main_v3 m ρ c)))))
theorem entry5_5 : V6 m ρ c (Pipeline.arrRef spec5 5) = W1 m ρ c (Proc.devRef .tc main_v8) :=
  ((keep4_main_v8 m ρ c).trans ((keep3_main_v8 m ρ c).trans ((keep2_main_v8 m ρ c).trans ((keep1_main_v8 m ρ c).trans (keep0_main_v8 m ρ c)))))
theorem entry5_6 : V6 m ρ c (Pipeline.arrRef spec5 6) = W1 m ρ c (Proc.devRef .tc main_v9) :=
  ((keep4_main_v9 m ρ c).trans ((keep3_main_v9 m ρ c).trans ((keep2_main_v9 m ρ c).trans ((keep1_main_v9 m ρ c).trans (keep0_main_v9 m ρ c)))))
theorem entry5_7 : V6 m ρ c (Pipeline.arrRef spec5 7) = W1 m ρ c (Proc.devRef .tc main_v10) :=
  ((keep4_main_v10 m ρ c).trans ((keep3_main_v10 m ρ c).trans ((keep2_main_v10 m ρ c).trans ((keep1_main_v10 m ρ c).trans (keep0_main_v10 m ρ c)))))
theorem entry5_8 : V6 m ρ c (Pipeline.arrRef spec5 8) = W1 m ρ c (Proc.devRef .tc main_v11) :=
  ((keep4_main_v11 m ρ c).trans ((keep3_main_v11 m ρ c).trans ((keep2_main_v11 m ρ c).trans ((keep1_main_v11 m ρ c).trans (keep0_main_v11 m ρ c)))))
theorem entry5_9 : V6 m ρ c (Pipeline.arrRef spec5 9) = W1 m ρ c (Proc.devRef .tc main_v12) :=
  ((keep4_main_v12 m ρ c).trans ((keep3_main_v12 m ρ c).trans ((keep2_main_v12 m ρ c).trans ((keep1_main_v12 m ρ c).trans (keep0_main_v12 m ρ c)))))
theorem entry5_10 : V6 m ρ c (Pipeline.arrRef spec5 10) = W1 m ρ c (Proc.devRef .tc main_v13) :=
  ((keep4_main_v13 m ρ c).trans ((keep3_main_v13 m ρ c).trans ((keep2_main_v13 m ρ c).trans ((keep1_main_v13 m ρ c).trans (keep0_main_v13 m ρ c)))))
theorem entry6_0 : V7 m ρ c (Pipeline.arrRef spec6 0) = W2 m ρ c (Proc.devRef .tc main_v14_0) :=
  ((keep5_main_v14_0 m ρ c).trans ((keep4_main_v14_0 m ρ c).trans ((keep3_main_v14_0 m ρ c).trans ((keep2_main_v14_0 m ρ c).trans (keep1_main_v14_0 m ρ c)))))
theorem entry6_1 : V7 m ρ c (Pipeline.arrRef spec6 1) = W4 m ρ c (Proc.devRef .tc main_v16_0) :=
  ((keep5_main_v16_0 m ρ c).trans ((keep4_main_v16_0 m ρ c).trans (keep3_main_v16_0 m ρ c)))
theorem entry6_2 : V7 m ρ c (Pipeline.arrRef spec6 2) = W4 m ρ c (Proc.devRef .tc main_v16_1) :=
  ((keep5_main_v16_1 m ρ c).trans ((keep4_main_v16_1 m ρ c).trans (keep3_main_v16_1 m ρ c)))
theorem entry6_3 : V7 m ρ c (Pipeline.arrRef spec6 3) = W1 m ρ c (Proc.devRef .tc main_v7) :=
  ((keep5_main_v7 m ρ c).trans ((keep4_main_v7 m ρ c).trans ((keep3_main_v7 m ρ c).trans ((keep2_main_v7 m ρ c).trans ((keep1_main_v7 m ρ c).trans (keep0_main_v7 m ρ c))))))
theorem entry6_4 : V7 m ρ c (Pipeline.arrRef spec6 4) = W1 m ρ c (Proc.devRef .tc main_v8) :=
  ((keep5_main_v8 m ρ c).trans ((keep4_main_v8 m ρ c).trans ((keep3_main_v8 m ρ c).trans ((keep2_main_v8 m ρ c).trans ((keep1_main_v8 m ρ c).trans (keep0_main_v8 m ρ c))))))
theorem entry6_5 : V7 m ρ c (Pipeline.arrRef spec6 5) = W1 m ρ c (Proc.devRef .tc main_v9) :=
  ((keep5_main_v9 m ρ c).trans ((keep4_main_v9 m ρ c).trans ((keep3_main_v9 m ρ c).trans ((keep2_main_v9 m ρ c).trans ((keep1_main_v9 m ρ c).trans (keep0_main_v9 m ρ c))))))
theorem entry6_6 : V7 m ρ c (Pipeline.arrRef spec6 6) = W1 m ρ c (Proc.devRef .tc main_v10) :=
  ((keep5_main_v10 m ρ c).trans ((keep4_main_v10 m ρ c).trans ((keep3_main_v10 m ρ c).trans ((keep2_main_v10 m ρ c).trans ((keep1_main_v10 m ρ c).trans (keep0_main_v10 m ρ c))))))
theorem entry6_7 : V7 m ρ c (Pipeline.arrRef spec6 7) = W1 m ρ c (Proc.devRef .tc main_v11) :=
  ((keep5_main_v11 m ρ c).trans ((keep4_main_v11 m ρ c).trans ((keep3_main_v11 m ρ c).trans ((keep2_main_v11 m ρ c).trans ((keep1_main_v11 m ρ c).trans (keep0_main_v11 m ρ c))))))
theorem entry6_8 : V7 m ρ c (Pipeline.arrRef spec6 8) = W1 m ρ c (Proc.devRef .tc main_v12) :=
  ((keep5_main_v12 m ρ c).trans ((keep4_main_v12 m ρ c).trans ((keep3_main_v12 m ρ c).trans ((keep2_main_v12 m ρ c).trans ((keep1_main_v12 m ρ c).trans (keep0_main_v12 m ρ c))))))
theorem entry6_9 : V7 m ρ c (Pipeline.arrRef spec6 9) = W1 m ρ c (Proc.devRef .tc main_v13) :=
  ((keep5_main_v13 m ρ c).trans ((keep4_main_v13 m ρ c).trans ((keep3_main_v13 m ρ c).trans ((keep2_main_v13 m ρ c).trans ((keep1_main_v13 m ρ c).trans (keep0_main_v13 m ρ c))))))
theorem entry7_0 : V8 m ρ c (Pipeline.arrRef spec7 0) = W5 m ρ c (Proc.devRef .tc main_v17_0) :=
  ((keep6_main_v17_0 m ρ c).trans ((keep5_main_v17_0 m ρ c).trans (keep4_main_v17_0 m ρ c)))
theorem entry7_1 : V8 m ρ c (Pipeline.arrRef spec7 1) = W7 m ρ c (Proc.devRef .tc main_v19_0) :=
  (keep6_main_v19_0 m ρ c)
theorem entry7_2 : V8 m ρ c (Pipeline.arrRef spec7 2) = W7 m ρ c (Proc.devRef .tc main_v19_1) :=
  (keep6_main_v19_1 m ρ c)
theorem entry7_3 : V8 m ρ c (Pipeline.arrRef spec7 3) = W8 m ρ c (Proc.devRef .tc main_v20) :=
  rfl
theorem entry7_4 : V8 m ρ c (Pipeline.arrRef spec7 4) = W1 m ρ c (Proc.devRef .tc main_v7) :=
  ((keep6_main_v7 m ρ c).trans ((keep5_main_v7 m ρ c).trans ((keep4_main_v7 m ρ c).trans ((keep3_main_v7 m ρ c).trans ((keep2_main_v7 m ρ c).trans ((keep1_main_v7 m ρ c).trans (keep0_main_v7 m ρ c)))))))
theorem entry7_5 : V8 m ρ c (Pipeline.arrRef spec7 5) = W1 m ρ c (Proc.devRef .tc main_v8) :=
  ((keep6_main_v8 m ρ c).trans ((keep5_main_v8 m ρ c).trans ((keep4_main_v8 m ρ c).trans ((keep3_main_v8 m ρ c).trans ((keep2_main_v8 m ρ c).trans ((keep1_main_v8 m ρ c).trans (keep0_main_v8 m ρ c)))))))
theorem entry7_6 : V8 m ρ c (Pipeline.arrRef spec7 6) = W1 m ρ c (Proc.devRef .tc main_v9) :=
  ((keep6_main_v9 m ρ c).trans ((keep5_main_v9 m ρ c).trans ((keep4_main_v9 m ρ c).trans ((keep3_main_v9 m ρ c).trans ((keep2_main_v9 m ρ c).trans ((keep1_main_v9 m ρ c).trans (keep0_main_v9 m ρ c)))))))
theorem entry7_7 : V8 m ρ c (Pipeline.arrRef spec7 7) = W1 m ρ c (Proc.devRef .tc main_v10) :=
  ((keep6_main_v10 m ρ c).trans ((keep5_main_v10 m ρ c).trans ((keep4_main_v10 m ρ c).trans ((keep3_main_v10 m ρ c).trans ((keep2_main_v10 m ρ c).trans ((keep1_main_v10 m ρ c).trans (keep0_main_v10 m ρ c)))))))
theorem entry7_8 : V8 m ρ c (Pipeline.arrRef spec7 8) = W1 m ρ c (Proc.devRef .tc main_v11) :=
  ((keep6_main_v11 m ρ c).trans ((keep5_main_v11 m ρ c).trans ((keep4_main_v11 m ρ c).trans ((keep3_main_v11 m ρ c).trans ((keep2_main_v11 m ρ c).trans ((keep1_main_v11 m ρ c).trans (keep0_main_v11 m ρ c)))))))
theorem entry7_9 : V8 m ρ c (Pipeline.arrRef spec7 9) = W1 m ρ c (Proc.devRef .tc main_v12) :=
  ((keep6_main_v12 m ρ c).trans ((keep5_main_v12 m ρ c).trans ((keep4_main_v12 m ρ c).trans ((keep3_main_v12 m ρ c).trans ((keep2_main_v12 m ρ c).trans ((keep1_main_v12 m ρ c).trans (keep0_main_v12 m ρ c)))))))
theorem entry7_10 : V8 m ρ c (Pipeline.arrRef spec7 10) = W1 m ρ c (Proc.devRef .tc main_v13) :=
  ((keep6_main_v13 m ρ c).trans ((keep5_main_v13 m ρ c).trans ((keep4_main_v13 m ρ c).trans ((keep3_main_v13 m ρ c).trans ((keep2_main_v13 m ρ c).trans ((keep1_main_v13 m ρ c).trans (keep0_main_v13 m ρ c)))))))

/-! ## The regions' outputs, in order -/

theorem val_main_v14_0 : (W2 m ρ c (Proc.devRef .tc main_v14_0) : S10000x10000.Idx → EReal) = a0 m c := by
  refine (W2_arr m ρ c 10).trans ?_
  refine (KerReg0.final10 (V1 m ρ) c).trans ?_
  unfold KerReg0.G10
  rw [entry0_0 m ρ c]
  rw [w1_arg0 m ρ c]

theorem val_main_v14_1 : (W2 m ρ c (Proc.devRef .tc main_v14_1) : S10000x128.Idx → EReal) = fun i => Spec.y2 (cv m c) (Ain m c) (i 0) (i 1) := by
  refine (W2_arr m ρ c 11).trans ?_
  refine (KerReg0.final11 (V1 m ρ) c).trans ?_
  unfold KerReg0.G11
  rw [entry0_0 m ρ c, entry0_1 m ρ c, entry0_2 m ρ c, entry0_3 m ρ c]
  rw [w1_arg0 m ρ c, w1_main_v0 m ρ c, w1_main_v4 m ρ c, w1_main_v1 m ρ c]
  rfl

theorem val_main_v14_2 : (W2 m ρ c (Proc.devRef .tc main_v14_2) : S10000x1.Idx → EReal) = fun i => Spec.s1 (cv m c) (Ain m c) (hd m c) (i 0) := by
  refine (W2_arr m ρ c 12).trans ?_
  refine (KerReg0.final12 (V1 m ρ) c).trans ?_
  unfold KerReg0.G12
  rw [entry0_0 m ρ c, entry0_1 m ρ c, entry0_2 m ρ c, entry0_4 m ρ c, entry0_5 m ρ c, entry0_6 m ρ c, entry0_7 m ρ c, entry0_8 m ρ c, entry0_9 m ρ c]
  rw [w1_arg0 m ρ c, w1_main_v0 m ρ c, w1_main_v4 m ρ c, w1_main_v8 m ρ c, w1_main_v9 m ρ c, w1_main_v10 m ρ c, w1_main_v11 m ρ c, w1_main_v12 m ρ c, w1_main_v13 m ρ c]
  rfl

theorem val_main_v15_0 : (W3 m ρ c (Proc.devRef .tc main_v15_0) : S10000x128.Idx → EReal) = fun i => Spec.y3 (cv m c) (Ain m c) (i 0) (i 1) := by
  refine (W3_arr m ρ c 11).trans ?_
  refine (KerReg1.final11 (V2 m ρ) c).trans ?_
  unfold KerReg1.G11
  rw [entry1_0 m ρ c, entry1_1 m ρ c, entry1_3 m ρ c, entry1_4 m ρ c]
  rw [val_main_v14_0 m ρ c, val_main_v14_1 m ρ c, w1_main_v5 m ρ c, w1_main_v2 m ρ c]
  rfl

theorem val_main_v15_1 : (W3 m ρ c (Proc.devRef .tc main_v15_1) : S10000x1.Idx → EReal) = fun i => Spec.s2 (cv m c) (Ain m c) (hd m c) (i 0) := by
  refine (W3_arr m ρ c 12).trans ?_
  refine (KerReg1.final12 (V2 m ρ) c).trans ?_
  unfold KerReg1.G12
  rw [entry1_0 m ρ c, entry1_1 m ρ c, entry1_2 m ρ c, entry1_3 m ρ c, entry1_5 m ρ c, entry1_6 m ρ c, entry1_7 m ρ c, entry1_8 m ρ c, entry1_9 m ρ c, entry1_10 m ρ c]
  rw [val_main_v14_0 m ρ c, val_main_v14_1 m ρ c, val_main_v14_2 m ρ c, w1_main_v5 m ρ c, w1_main_v8 m ρ c, w1_main_v9 m ρ c, w1_main_v10 m ρ c, w1_main_v11 m ρ c, w1_main_v12 m ρ c, w1_main_v13 m ρ c]
  rfl

theorem val_main_v16_0 : (W4 m ρ c (Proc.devRef .tc main_v16_0) : S10000x128.Idx → EReal) = fun i => Spec.y4 (cv m c) (Ain m c) (i 0) (i 1) := by
  refine (W4_arr m ρ c 11).trans ?_
  refine (KerReg2.final11 (V3 m ρ) c).trans ?_
  unfold KerReg2.G11
  rw [entry2_0 m ρ c, entry2_1 m ρ c, entry2_3 m ρ c, entry2_4 m ρ c]
  rw [val_main_v14_0 m ρ c, val_main_v15_0 m ρ c, w1_main_v6 m ρ c, w1_main_v3 m ρ c]
  rfl

theorem val_main_v16_1 : (W4 m ρ c (Proc.devRef .tc main_v16_1) : S10000x1.Idx → EReal) = fun i => Spec.s3 (cv m c) (Ain m c) (hd m c) (i 0) := by
  refine (W4_arr m ρ c 12).trans ?_
  refine (KerReg2.final12 (V3 m ρ) c).trans ?_
  unfold KerReg2.G12
  rw [entry2_0 m ρ c, entry2_1 m ρ c, entry2_2 m ρ c, entry2_3 m ρ c, entry2_5 m ρ c, entry2_6 m ρ c, entry2_7 m ρ c, entry2_8 m ρ c, entry2_9 m ρ c, entry2_10 m ρ c]
  rw [val_main_v14_0 m ρ c, val_main_v15_0 m ρ c, val_main_v15_1 m ρ c, w1_main_v6 m ρ c, w1_main_v8 m ρ c, w1_main_v9 m ρ c, w1_main_v10 m ρ c, w1_main_v11 m ρ c, w1_main_v12 m ρ c, w1_main_v13 m ρ c]
  rfl

theorem val_main_v17_0 : (W5 m ρ c (Proc.devRef .tc main_v17_0) : S10000x10000.Idx → EReal) = a1 m c := by
  refine (W5_arr m ρ c 10).trans ?_
  refine (KerReg3.final10 (V4 m ρ) c).trans ?_
  unfold KerReg3.G10
  rw [entry3_0 m ρ c]
  rw [w1_arg1 m ρ c]

theorem val_main_v17_1 : (W5 m ρ c (Proc.devRef .tc main_v17_1) : S10000x128.Idx → EReal) = fun i => Spec.y2 (cv m c) (Aout m c) (i 0) (i 1) := by
  refine (W5_arr m ρ c 11).trans ?_
  refine (KerReg3.final11 (V4 m ρ) c).trans ?_
  unfold KerReg3.G11
  rw [entry3_0 m ρ c, entry3_1 m ρ c, entry3_2 m ρ c, entry3_3 m ρ c]
  rw [w1_arg1 m ρ c, w1_main_v0 m ρ c, w1_main_v4 m ρ c, w1_main_v1 m ρ c]
  rfl

theorem val_main_v17_2 : (W5 m ρ c (Proc.devRef .tc main_v17_2) : S10000x1.Idx → EReal) = fun i => Spec.s1 (cv m c) (Aout m c) (hd m c) (i 0) := by
  refine (W5_arr m ρ c 12).trans ?_
  refine (KerReg3.final12 (V4 m ρ) c).trans ?_
  unfold KerReg3.G12
  rw [entry3_0 m ρ c, entry3_1 m ρ c, entry3_2 m ρ c, entry3_4 m ρ c, entry3_5 m ρ c, entry3_6 m ρ c, entry3_7 m ρ c, entry3_8 m ρ c, entry3_9 m ρ c]
  rw [w1_arg1 m ρ c, w1_main_v0 m ρ c, w1_main_v4 m ρ c, w1_main_v8 m ρ c, w1_main_v9 m ρ c, w1_main_v10 m ρ c, w1_main_v11 m ρ c, w1_main_v12 m ρ c, w1_main_v13 m ρ c]
  rfl

theorem val_main_v18_0 : (W6 m ρ c (Proc.devRef .tc main_v18_0) : S10000x128.Idx → EReal) = fun i => Spec.y3 (cv m c) (Aout m c) (i 0) (i 1) := by
  refine (W6_arr m ρ c 11).trans ?_
  refine (KerReg4.final11 (V5 m ρ) c).trans ?_
  unfold KerReg4.G11
  rw [entry4_0 m ρ c, entry4_1 m ρ c, entry4_3 m ρ c, entry4_4 m ρ c]
  rw [val_main_v17_0 m ρ c, val_main_v17_1 m ρ c, w1_main_v5 m ρ c, w1_main_v2 m ρ c]
  rfl

theorem val_main_v18_1 : (W6 m ρ c (Proc.devRef .tc main_v18_1) : S10000x1.Idx → EReal) = fun i => Spec.s2 (cv m c) (Aout m c) (hd m c) (i 0) := by
  refine (W6_arr m ρ c 12).trans ?_
  refine (KerReg4.final12 (V5 m ρ) c).trans ?_
  unfold KerReg4.G12
  rw [entry4_0 m ρ c, entry4_1 m ρ c, entry4_2 m ρ c, entry4_3 m ρ c, entry4_5 m ρ c, entry4_6 m ρ c, entry4_7 m ρ c, entry4_8 m ρ c, entry4_9 m ρ c, entry4_10 m ρ c]
  rw [val_main_v17_0 m ρ c, val_main_v17_1 m ρ c, val_main_v17_2 m ρ c, w1_main_v5 m ρ c, w1_main_v8 m ρ c, w1_main_v9 m ρ c, w1_main_v10 m ρ c, w1_main_v11 m ρ c, w1_main_v12 m ρ c, w1_main_v13 m ρ c]
  rfl

theorem val_main_v19_0 : (W7 m ρ c (Proc.devRef .tc main_v19_0) : S10000x128.Idx → EReal) = fun i => Spec.y4 (cv m c) (Aout m c) (i 0) (i 1) := by
  refine (W7_arr m ρ c 11).trans ?_
  refine (KerReg5.final11 (V6 m ρ) c).trans ?_
  unfold KerReg5.G11
  rw [entry5_0 m ρ c, entry5_1 m ρ c, entry5_3 m ρ c, entry5_4 m ρ c]
  rw [val_main_v17_0 m ρ c, val_main_v18_0 m ρ c, w1_main_v6 m ρ c, w1_main_v3 m ρ c]
  rfl

theorem val_main_v19_1 : (W7 m ρ c (Proc.devRef .tc main_v19_1) : S10000x1.Idx → EReal) = fun i => Spec.s3 (cv m c) (Aout m c) (hd m c) (i 0) := by
  refine (W7_arr m ρ c 12).trans ?_
  refine (KerReg5.final12 (V6 m ρ) c).trans ?_
  unfold KerReg5.G12
  rw [entry5_0 m ρ c, entry5_1 m ρ c, entry5_2 m ρ c, entry5_3 m ρ c, entry5_5 m ρ c, entry5_6 m ρ c, entry5_7 m ρ c, entry5_8 m ρ c, entry5_9 m ρ c, entry5_10 m ρ c]
  rw [val_main_v17_0 m ρ c, val_main_v18_0 m ρ c, val_main_v18_1 m ρ c, w1_main_v6 m ρ c, w1_main_v8 m ρ c, w1_main_v9 m ρ c, w1_main_v10 m ρ c, w1_main_v11 m ρ c, w1_main_v12 m ρ c, w1_main_v13 m ρ c]
  rfl

theorem val_main_v20 : (W8 m ρ c (Proc.devRef .tc main_v20) : S10000x1.Idx → EReal) = fun i => Spec.s4 (cv m c) (Ain m c) (hd m c) (i 0) := by
  refine (W8_arr m ρ c 10).trans ?_
  refine (KerReg6.final10 (V7 m ρ) c).trans ?_
  unfold KerReg6.G10
  rw [entry6_0 m ρ c, entry6_1 m ρ c, entry6_2 m ρ c, entry6_3 m ρ c, entry6_4 m ρ c, entry6_5 m ρ c, entry6_6 m ρ c, entry6_7 m ρ c, entry6_8 m ρ c, entry6_9 m ρ c]
  rw [val_main_v14_0 m ρ c, val_main_v16_0 m ρ c, val_main_v16_1 m ρ c, w1_main_v7 m ρ c, w1_main_v8 m ρ c, w1_main_v9 m ρ c, w1_main_v10 m ρ c, w1_main_v11 m ρ c, w1_main_v12 m ρ c, w1_main_v13 m ρ c]
  rfl

end Cert.KerChain

end
-- ==== Proof.KerChain.lean ====
/-
  The last region's output, and with it the kernel program's result: at every node the second graph's total score times
  the first graph's, which is the specification's result with the two factors in the other order.
-/
import proofs.«103950_g67688684585008_cont_9to1c4b_879_14_alg».proof.Proof.KerChainA

noncomputable section

namespace Cert.KerChain

open Cert.KernelIdeal Cert.KernelIdeal.Gen Idealize.ShloMosaic Idealize.ShloMosaic.TcCoe Idealize.SL.Sem Idealize.ShloMosaic.StableHlo
open Idealize.ShloMosaic.ValueIdx Cert.KerOps
open Idealize.ShloMosaic.Pipeline (Dat)

variable (m : (ℓ : Loc nD τ sig) → Buf (Elt Ideal) ℓ) (ρ : Dev nD → PrngReg) (c : Dev nD)

set_option maxHeartbeats 4000000 in
theorem val_main_v21 : (W9 m ρ c (Proc.devRef .tc main_v21) : S10000x1.Idx → EReal) = fun i => Spec.result (cv m c) (hd m c) (Aout m c) (Ain m c) (i 0) := by
  refine (W9_arr m ρ c 11).trans ?_
  refine (KerReg7.final11 (V8 m ρ) c).trans ?_
  unfold KerReg7.G11
  rw [entry7_0 m ρ c, entry7_1 m ρ c, entry7_2 m ρ c, entry7_3 m ρ c, entry7_4 m ρ c, entry7_5 m ρ c, entry7_6 m ρ c, entry7_7 m ρ c, entry7_8 m ρ c, entry7_9 m ρ c, entry7_10 m ρ c]
  rw [w1_main_v7 m ρ c, w1_main_v8 m ρ c, w1_main_v9 m ρ c]
  rw [w1_main_v10 m ρ c]
  rw [w1_main_v11 m ρ c, w1_main_v12 m ρ c, w1_main_v13 m ρ c]
  rw [val_main_v17_0 m ρ c, val_main_v19_0 m ρ c, val_main_v19_1 m ρ c]
  rw [val_main_v20 m ρ c]
  rfl

/-- The result buffer after the last region: at every node the first graph's total score times the second graph's. -/
theorem result : (W9 m ρ c (Proc.devRef .tc main_v21) : S10000x1.Idx → EReal)
    = fun j => Spec.result (cv m c) (hd m c) (Ain m c) (Aout m c) (j 0) := by
  rw [val_main_v21]
  funext j
  unfold Spec.result
  exact mul_comm _ _

end Cert.KerChain

end
-- ==== Proof.KerRun.lean ====
/-
  The kernel program's run with its result named. Every weakly fair execution of the eight regions, one after the other,
  terminates without a fault; the argument arrays end as launched; and the result buffer ends holding what the last
  boundary's contents hold at it — the contents that the last region's write-backs leave, folded through the regions
  from the launch memory. What those contents are, entry by entry, is the value modules' business.
-/
import proofs.«103950_g67688684585008_cont_9to1c4b_879_14_alg».proof.Proof.Gen.KernelIdeal.Frame

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments launched from the memory `m`, the last thread state read against the final state at every
    unscoped buffer — the result buffer among them, and each argument, which no region and no host operation writes. -/
theorem run_result : θ_run defs (onTc (τ := τ) (main (F := F))) ⟨m, fun _ => 0, ρ⟩ (fun r => ∀ c : Dev nD,
      r.2.mem ((c.tc : Thread nD τ).loc main_v21) = W9 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v21 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KerRun

end
-- ==== Proof.RefOps.lean ====
/-
  The host's operations of one network layer, read entry by entry on the extended reals. A dense layer's entry
  `(p, q)` (a plain matrix product plus a bias row) is the textbook sum over row `p` of the left operand against
  column `q` of the right, plus the bias entry `q`; rectifying it takes the larger of that and the zero word's value;
  dividing a matrix by its rows' Euclidean lengths (floored at a small constant) divides entry `(p, q)` by the floored
  square root of the sum of squares of row `p`. In each case the entry depends on one row of the left operand only,
  so each operation, seen as a function of rows, is the specification's row function applied to every row. The
  scoring perceptron (two rectified dense layers and a dense layer with one output) is the same three steps in a row.
-/
import proofs.«103950_g67688684585008_cont_9to1c4b_879_14_alg».proof.Proof.Spec
import proofs.«103950_g67688684585008_cont_9to1c4b_879_14_alg».proof.Proof.LibRows
import proofs.«103950_g67688684585008_cont_9to1c4b_879_14_alg».proof.Proof.LibCols
import Idealize.ShloMosaic.PureOps.Ideal
import Idealize.ShloMosaic.PureOps.Ideal.Laws
import Idealize.ShloMosaic.Lib.Pipeline.Value
import Idealize.ShloMosaic.Lib.ValueIdx

noncomputable section

namespace Cert.RefOps

open Idealize.ShloMosaic Idealize.ShloMosaic.ValueIdx Cert.Spec

variable {M K N : Nat}

/-- A plain matrix product's entry `(p, q)`: row `p` of the left operand against column `q` of the right. -/
theorem prod_apply (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (p : Fin M) (q : Fin N) :
    Host.dotGeneral (F := Ideal) D none l r (ix2 p q) = prod (mat l p) (mat r) q :=
  Cert.LibRows.dotGeneral_plain_apply D hD none l r p q

/-- The product as a function of rows: row `p` of the result is row `p` of the left operand times the right. -/
theorem mat_prod (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) :
    mat (Host.dotGeneral (F := Ideal) D none l r) = fun p q => prod (mat l p) (mat r) q :=
  funext fun p => funext fun q => prod_apply D hD l r p q

/-- A dense layer's entry `(p, q)`: the product's entry plus the bias entry `q`. -/
theorem dense_apply (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) D none l r)
        (broadcastInDim ⟨2, ![M, N]⟩ ![0, 1] h2 (broadcastInDim ⟨2, ![1, N]⟩ ![1] h1 b)) (ix2 p q)
      = dense (mat l p) (mat r) (vec b) q := by
  show Host.dotGeneral (F := Ideal) D none l r (ix2 p q)
      + broadcastInDim ⟨2, ![M, N]⟩ ![0, 1] h2 (broadcastInDim ⟨2, ![1, N]⟩ ![1] h1 b) (ix2 p q) = _
  rw [prod_apply D hD, Cert.LibRows.rowBiasInDim_apply]
  rfl

/-- A rectified dense layer's entry `(p, q)`: the larger of the dense entry and the zero word's value. -/
theorem reluDense_apply (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf (addf (Host.dotGeneral (F := Ideal) D none l r)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = relu (dense (mat l p) (mat r) (vec b) q) := by
  show max (addf (Host.dotGeneral (F := Ideal) D none l r)
        (broadcastInDim ⟨2, ![M, N]⟩ ![0, 1] h2 (broadcastInDim ⟨2, ![1, N]⟩ ![1] h1 b)) (ix2 p q))
      (broadcastInDim ⟨2, ![M, N]⟩ ![] h0 (constant (F := Ideal) ⟨0, ![]⟩ .f32 0x00000000#32) (ix2 p q)) = _
  rw [dense_apply D hD, Cert.LibRows.scalarInDim_apply]
  rfl

/-- The rectified dense layer as a function of rows. -/
theorem mat_reluDense (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    mat (maximumf (addf (Host.dotGeneral (F := Ideal) D none l r)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)))
      = fun p q => relu (dense (mat l p) (mat r) (vec b) q) :=
  funext fun p => funext fun q => reluDense_apply D hD l r b h1 h2 h0 p q

/-- The host's sum along the rows of a `10000 × 128` matrix from the zero word: entry `p` is the sum of row `p`. -/
theorem rowSum_apply (Y : FVec Ideal ⟨2, ![10000, 128]⟩ .f32)
    (hr : (⟨2, ![10000, 128]⟩ : Shape).ReducesTo [1] ⟨1, ![10000]⟩) (hu : 0 < (⟨0, ![]⟩ : Shape).numel) (p : Fin 10000) :
    Host.reduceAdd (F := Ideal) Y (constant (F := Ideal) ⟨0, ![]⟩ .f32 0x00000000#32) hr hu (ix1 p)
      = ∑ k : Fin 128, Y (ix2 p k) := by
  simp only [Host.reduceAdd, Ideal.hostReduceAdd_def]
  rw [Ideal.hostReduceAdd_single hr (by decide)]
  show Ideal.ofBits .f32 0x00000000#32 + _ = _
  rw [Ideal.ofBits_zero_f32, zero_add]
  refine Finset.sum_congr rfl fun k _ => ?_
  exact congrArg Y (funext fun a => Fin.ext (by match a with | ⟨0, _⟩ => rfl | ⟨1, _⟩ => rfl))

/-- A `10000 × 128` matrix divided by its rows' floored Euclidean lengths: entry `(p, q)` is row `p` normalised, at `q`. -/
theorem nrm_apply (X : FVec Ideal ⟨2, ![10000, 128]⟩ .f32)
    (hr : (⟨2, ![10000, 128]⟩ : Shape).ReducesTo [1] ⟨1, ![10000]⟩) (hu : 0 < (⟨0, ![]⟩ : Shape).numel)
    (hc : (⟨1, ![10000]⟩ : Shape).BroadcastsInDim ⟨2, ![10000, 1]⟩ ![0])
    (he : (⟨0, ![]⟩ : Shape).BroadcastsInDim ⟨2, ![10000, 1]⟩ ![])
    (hb : (⟨2, ![10000, 1]⟩ : Shape).BroadcastsInDim ⟨2, ![10000, 128]⟩ ![0, 1]) (p : Fin 10000) (q : Fin 128) :
    Host.divf (F := Ideal) X (broadcastInDim ⟨2, ![10000, 128]⟩ ![0, 1] hb
        (maximumf (Host.sqrt (F := Ideal) (broadcastInDim ⟨2, ![10000, 1]⟩ ![0] hc
            (Host.reduceAdd (F := Ideal) (mulf X X) (constant (F := Ideal) ⟨0, ![]⟩ .f32 0x00000000#32) hr hu)))
          (broadcastInDim ⟨2, ![10000, 1]⟩ ![] he (constant (F := Ideal) ⟨0, ![]⟩ .f32 0x2B8CBCCC#32)))) (ix2 p q)
      = nrm (mat X p) q := by
  show Ideal.div (X (ix2 p q)) (broadcastInDim ⟨2, ![10000, 128]⟩ ![0, 1] hb
        (maximumf (Host.sqrt (F := Ideal) (broadcastInDim ⟨2, ![10000, 1]⟩ ![0] hc
            (Host.reduceAdd (F := Ideal) (mulf X X) (constant (F := Ideal) ⟨0, ![]⟩ .f32 0x00000000#32) hr hu)))
          (broadcastInDim ⟨2, ![10000, 1]⟩ ![] he (constant (F := Ideal) ⟨0, ![]⟩ .f32 0x2B8CBCCC#32))) (ix2 p q)) = _
  rw [Cert.LibCols.inDim_a1_ab_apply]
  show Ideal.div (X (ix2 p q)) (max (Ideal.sqrt (broadcastInDim ⟨2, ![10000, 1]⟩ ![0] hc
            (Host.reduceAdd (F := Ideal) (mulf X X) (constant (F := Ideal) ⟨0, ![]⟩ .f32 0x00000000#32) hr hu) (ix2 p (0 : Fin 1))))
          (broadcastInDim ⟨2, ![10000, 1]⟩ ![] he (constant (F := Ideal) ⟨0, ![]⟩ .f32 0x2B8CBCCC#32) (ix2 p (0 : Fin 1)))) = _
  rw [Cert.LibCols.inDim_a_a1_apply, Cert.LibRows.scalarInDim_apply, rowSum_apply]
  rfl

/-- The normalisation as a function of rows. -/
theorem mat_nrm (X : FVec Ideal ⟨2, ![10000, 128]⟩ .f32)
    (hr : (⟨2, ![10000, 128]⟩ : Shape).ReducesTo [1] ⟨1, ![10000]⟩) (hu : 0 < (⟨0, ![]⟩ : Shape).numel)
    (hc : (⟨1, ![10000]⟩ : Shape).BroadcastsInDim ⟨2, ![10000, 1]⟩ ![0])
    (he : (⟨0, ![]⟩ : Shape).BroadcastsInDim ⟨2, ![10000, 1]⟩ ![])
    (hb : (⟨2, ![10000, 1]⟩ : Shape).BroadcastsInDim ⟨2, ![10000, 128]⟩ ![0, 1]) :
    mat (Host.divf (F := Ideal) X (broadcastInDim ⟨2, ![10000, 128]⟩ ![0, 1] hb
        (maximumf (Host.sqrt (F := Ideal) (broadcastInDim ⟨2, ![10000, 1]⟩ ![0] hc
            (Host.reduceAdd (F := Ideal) (mulf X X) (constant (F := Ideal) ⟨0, ![]⟩ .f32 0x00000000#32) hr hu)))
          (broadcastInDim ⟨2, ![10000, 1]⟩ ![] he (constant (F := Ideal) ⟨0, ![]⟩ .f32 0x2B8CBCCC#32)))))
      = fun p => nrm (mat X p) :=
  funext fun p => funext fun q => nrm_apply X hr hu hc he hb p q

/-- The scoring perceptron on a matrix of feature rows: entry `(p, 0)` of its one output column is the score of row `p`. -/
theorem score_apply {H : Nat}
    (D1 : DotDims ⟨2, ![M, K]⟩ ⟨2, ![K, H]⟩ ⟨2, ![M, H]⟩) (hD1 : D1 = DotDims.plain M K H)
    (D2 : DotDims ⟨2, ![M, H]⟩ ⟨2, ![H, H]⟩ ⟨2, ![M, H]⟩) (hD2 : D2 = DotDims.plain M H H)
    (D3 : DotDims ⟨2, ![M, H]⟩ ⟨2, ![H, 1]⟩ ⟨2, ![M, 1]⟩) (hD3 : D3 = DotDims.plain M H 1)
    (X : FVec Ideal ⟨2, ![M, K]⟩ .f32)
    (l1 : FVec Ideal ⟨2, ![K, H]⟩ .f32) (c1 : FVec Ideal ⟨1, ![H]⟩ .f32)
    (l2 : FVec Ideal ⟨2, ![H, H]⟩ .f32) (c2 : FVec Ideal ⟨1, ![H]⟩ .f32)
    (l3 : FVec Ideal ⟨2, ![H, 1]⟩ .f32) (c3 : FVec Ideal ⟨1, ![1]⟩ .f32)
    (h1 : (⟨1, ![H]⟩ : Shape).BroadcastsInDim ⟨2, ![1, H]⟩ ![1])
    (h2 : (⟨2, ![1, H]⟩ : Shape).BroadcastsInDim ⟨2, ![M, H]⟩ ![0, 1])
    (h0 : (⟨0, ![]⟩ : Shape).BroadcastsInDim ⟨2, ![M, H]⟩ ![])
    (g1 : (⟨1, ![1]⟩ : Shape).BroadcastsInDim ⟨2, ![1, 1]⟩ ![1])
    (g2 : (⟨2, ![1, 1]⟩ : Shape).BroadcastsInDim ⟨2, ![M, 1]⟩ ![0, 1]) (p : Fin M) (u : Fin 1) :
    addf (Host.dotGeneral (F := Ideal) D3 none
          (maximumf (addf (Host.dotGeneral (F := Ideal) D2 none
                (maximumf (addf (Host.dotGeneral (F := Ideal) D1 none X l1)
                      (broadcastInDim ⟨2, ![M, H]⟩ ![0, 1] h2 (broadcastInDim ⟨2, ![1, H]⟩ ![1] h1 c1)))
                    (broadcastInDim ⟨2, ![M, H]⟩ ![] h0 (constant (F := Ideal) ⟨0, ![]⟩ .f32 0x00000000#32))) l2)
              (broadcastInDim ⟨2, ![M, H]⟩ ![0, 1] h2 (broadcastInDim ⟨2, ![1, H]⟩ ![1] h1 c2)))
            (broadcastInDim ⟨2, ![M, H]⟩ ![] h0 (constant (F := Ideal) ⟨0, ![]⟩ .f32 0x00000000#32))) l3)
        (broadcastInDim ⟨2, ![M, 1]⟩ ![0, 1] g2 (broadcastInDim ⟨2, ![1, 1]⟩ ![1] g1 c3)) (ix2 p u)
      = dense (fun k => relu (dense (fun j => relu (dense (mat X p) (mat l1) (vec c1) j)) (mat l2) (vec c2) k))
          (mat l3) (vec c3) u := by
  rw [dense_apply D3 hD3, mat_reluDense D2 hD2, mat_reluDense D1 hD1]

end Cert.RefOps

end
-- ==== Proof.RefValue.lean ====
/-
  The reference's value, stage by stage, as the specification's row functions. Each stage of the reference is one of
  the host operations read in the operations' module (a product, a rectified dense layer, a row normalisation, the
  scoring perceptron) applied to earlier stages; as a function of rows it is therefore the specification's row
  function of the earlier stages' row functions. Layer by layer: the features after layer 1, the next layer's dense
  weights (features times a square matrix), the features after layers 2, 3 and 4, the score of each layer's features,
  the four scores added in the layers' order, and the two graphs' totals multiplied. Both graphs run the same
  operations on the same weights, so the stages are read once, for an arbitrary adjacency matrix.
-/
import proofs.«103950_g67688684585008_cont_9to1c4b_879_14_alg».proof.Proof.Gen.ReferenceIdeal.Read
import proofs.«103950_g67688684585008_cont_9to1c4b_879_14_alg».proof.Proof.RefOps
import proofs.«103950_g67688684585008_cont_9to1c4b_879_14_alg».proof.Proof.Spec

noncomputable section

namespace Cert.RefValue

open Cert.ReferenceIdeal Cert.ReferenceIdeal.Gen Cert.ReferenceIdeal.Read Idealize.ShloMosaic Idealize.ShloMosaic.ValueIdx Cert.Spec

/-- An array of extended reals on a shape's indices. -/
abbrev Arr (s : Shape) : Type := (⟨s, .f32⟩ : BufTy).Contents (Elt Ideal)

variable (a : Arr S10000x10000) (w1 : Arr S10000x128) (b1 : Arr S128) (w2 : Arr S128x128) (b2 : Arr S128)
  (w3 : Arr S128x128) (b3 : Arr S128) (w4 : Arr S128x128) (b4 : Arr S128)
  (l1 : Arr S128x256) (c1 : Arr S256) (l2 : Arr S256x256) (c2 : Arr S256) (l3 : Arr S256x1) (c3 : Arr S1)

/-! ## The features, layer by layer -/

/-- Layer 1 before normalisation: row `p` is the rectified dense row of adjacency row `p` against `W1`. -/
theorem m4 : mat (val_main_v4 (F := Ideal) a w1 b1) = fun p => lay (mat a p) (mat w1) (vec b1) :=
  Cert.RefOps.mat_reluDense dot_S10000x10000_S10000x128_S10000x128_1_0_0_1_n_n rfl a w1 b1 bcast_S128_S1x128_1 bcast_S1x128_S10000x128_0_1 bcast_S_S10000x128

/-- Layer 1's features. -/
theorem m9 : mat (val_main_v9 (F := Ideal) a w1 b1) = Spec.x1 (convOf w1 b1 w2 b2 w3 b3 w4 b4) (mat a) :=
  (Cert.RefOps.mat_nrm (val_main_v4 (F := Ideal) a w1 b1) reducesTo_S10000x128_S10000_d1 h_S_ bcast_S10000_S10000x1_0 bcast_S_S10000x1 bcast_S10000x1_S10000x128_0_1).trans (by rw [m4]; rfl)

/-- Layer 2's dense weights: layer 1's features times `W2`. -/
theorem m10 : mat (val_main_v10 (F := Ideal) a w1 b1 w2) = Spec.y2 (convOf w1 b1 w2 b2 w3 b3 w4 b4) (mat a) :=
  (Cert.RefOps.mat_prod dot_S10000x128_S128x128_S10000x128_1_0_0_1_n_n rfl (val_main_v9 (F := Ideal) a w1 b1) w2).trans (by rw [m9 a w1 b1 w2 b2 w3 b3 w4 b4]; rfl)

/-- Layer 2 before normalisation. -/
theorem m15 : mat (val_main_v15 (F := Ideal) a w1 b1 w2 b2) = fun p => lay (mat a p) (Spec.y2 (convOf w1 b1 w2 b2 w3 b3 w4 b4) (mat a)) (vec b2) :=
  (Cert.RefOps.mat_reluDense dot_S10000x10000_S10000x128_S10000x128_1_0_0_1_n_n rfl a (val_main_v10 (F := Ideal) a w1 b1 w2) b2 bcast_S128_S1x128_1 bcast_S1x128_S10000x128_0_1 bcast_S_S10000x128).trans (by rw [m10 a w1 b1 w2 b2 w3 b3 w4 b4]; rfl)

/-- Layer 2's features. -/
theorem m20 : mat (val_main_v20 (F := Ideal) a w1 b1 w2 b2) = Spec.x2 (convOf w1 b1 w2 b2 w3 b3 w4 b4) (mat a) :=
  (Cert.RefOps.mat_nrm (val_main_v15 (F := Ideal) a w1 b1 w2 b2) reducesTo_S10000x128_S10000_d1 h_S_ bcast_S10000_S10000x1_0 bcast_S_S10000x1 bcast_S10000x1_S10000x128_0_1).trans (by rw [m15 a w1 b1 w2 b2 w3 b3 w4 b4]; rfl)

/-- Layer 3's dense weights: layer 2's features times `W3`. -/
theorem m21 : mat (val_main_v21 (F := Ideal) a w1 b1 w2 b2 w3) = Spec.y3 (convOf w1 b1 w2 b2 w3 b3 w4 b4) (mat a) :=
  (Cert.RefOps.mat_prod dot_S10000x128_S128x128_S10000x128_1_0_0_1_n_n rfl (val_main_v20 (F := Ideal) a w1 b1 w2 b2) w3).trans (by rw [m20 a w1 b1 w2 b2 w3 b3 w4 b4]; rfl)

/-- Layer 3 before normalisation. -/
theorem m26 : mat (val_main_v26 (F := Ideal) a w1 b1 w2 b2 w3 b3) = fun p => lay (mat a p) (Spec.y3 (convOf w1 b1 w2 b2 w3 b3 w4 b4) (mat a)) (vec b3) :=
  (Cert.RefOps.mat_reluDense dot_S10000x10000_S10000x128_S10000x128_1_0_0_1_n_n rfl a (val_main_v21 (F := Ideal) a w1 b1 w2 b2 w3) b3 bcast_S128_S1x128_1 bcast_S1x128_S10000x128_0_1 bcast_S_S10000x128).trans (by rw [m21 a w1 b1 w2 b2 w3 b3 w4 b4]; rfl)

/-- Layer 3's features. -/
theorem m31 : mat (val_main_v31 (F := Ideal) a w1 b1 w2 b2 w3 b3) = Spec.x3 (convOf w1 b1 w2 b2 w3 b3 w4 b4) (mat a) :=
  (Cert.RefOps.mat_nrm (val_main_v26 (F := Ideal) a w1 b1 w2 b2 w3 b3) reducesTo_S10000x128_S10000_d1 h_S_ bcast_S10000_S10000x1_0 bcast_S_S10000x1 bcast_S10000x1_S10000x128_0_1).trans (by rw [m26 a w1 b1 w2 b2 w3 b3 w4 b4]; rfl)

/-- Layer 4's dense weights: layer 3's features times `W4`. -/
theorem m32 : mat (val_main_v32 (F := Ideal) a w1 b1 w2 b2 w3 b3 w4) = Spec.y4 (convOf w1 b1 w2 b2 w3 b3 w4 b4) (mat a) :=
  (Cert.RefOps.mat_prod dot_S10000x128_S128x128_S10000x128_1_0_0_1_n_n rfl (val_main_v31 (F := Ideal) a w1 b1 w2 b2 w3 b3) w4).trans (by rw [m31 a w1 b1 w2 b2 w3 b3 w4 b4]; rfl)

/-- Layer 4's features: rectified, not normalised. -/
theorem m37 : mat (val_main_v37 (F := Ideal) a w1 b1 w2 b2 w3 b3 w4 b4) = Spec.x4 (convOf w1 b1 w2 b2 w3 b3 w4 b4) (mat a) :=
  (Cert.RefOps.mat_reluDense dot_S10000x10000_S10000x128_S10000x128_1_0_0_1_n_n rfl a (val_main_v32 (F := Ideal) a w1 b1 w2 b2 w3 b3 w4) b4 bcast_S128_S1x128_1 bcast_S1x128_S10000x128_0_1 bcast_S_S10000x128).trans (by rw [m32 a w1 b1 w2 b2 w3 b3 w4 b4]; rfl)

/-! ## The scores -/

theorem sc1 (p : Fin 10000) (u : Fin 1) :
    val_main_v51 (F := Ideal) a w1 b1 l1 c1 l2 c2 l3 c3 (ix2 p u) = score (headOf l1 c1 l2 c2 l3 c3) (Spec.x1 (convOf w1 b1 w2 b2 w3 b3 w4 b4) (mat a) p) := by
  refine (Cert.RefOps.score_apply dot_S10000x128_S128x256_S10000x256_1_0_0_1_n_n rfl dot_S10000x256_S256x256_S10000x256_1_0_0_1_n_n rfl dot_S10000x256_S256x1_S10000x1_1_0_0_1_n_n rfl
    (val_main_v9 (F := Ideal) a w1 b1) l1 c1 l2 c2 l3 c3
    bcast_S256_S1x256_1 bcast_S1x256_S10000x256_0_1 bcast_S_S10000x256 bcast_S1_S1x1_1 bcast_S1x1_S10000x1_0_1 p u).trans ?_
  rw [m9 a w1 b1 w2 b2 w3 b3 w4 b4]
  obtain rfl : u = 0 := Subsingleton.elim _ _
  rfl

theorem sc2 (p : Fin 10000) (u : Fin 1) :
    val_main_v65 (F := Ideal) a w1 b1 w2 b2 l1 c1 l2 c2 l3 c3 (ix2 p u) = score (headOf l1 c1 l2 c2 l3 c3) (Spec.x2 (convOf w1 b1 w2 b2 w3 b3 w4 b4) (mat a) p) := by
  refine (Cert.RefOps.score_apply dot_S10000x128_S128x256_S10000x256_1_0_0_1_n_n rfl dot_S10000x256_S256x256_S10000x256_1_0_0_1_n_n rfl dot_S10000x256_S256x1_S10000x1_1_0_0_1_n_n rfl
    (val_main_v20 (F := Ideal) a w1 b1 w2 b2) l1 c1 l2 c2 l3 c3
    bcast_S256_S1x256_1 bcast_S1x256_S10000x256_0_1 bcast_S_S10000x256 bcast_S1_S1x1_1 bcast_S1x1_S10000x1_0_1 p u).trans ?_
  rw [m20 a w1 b1 w2 b2 w3 b3 w4 b4]
  obtain rfl : u = 0 := Subsingleton.elim _ _
  rfl

theorem sc3 (p : Fin 10000) (u : Fin 1) :
    val_main_v80 (F := Ideal) a w1 b1 w2 b2 w3 b3 l1 c1 l2 c2 l3 c3 (ix2 p u) = score (headOf l1 c1 l2 c2 l3 c3) (Spec.x3 (convOf w1 b1 w2 b2 w3 b3 w4 b4) (mat a) p) := by
  refine (Cert.RefOps.score_apply dot_S10000x128_S128x256_S10000x256_1_0_0_1_n_n rfl dot_S10000x256_S256x256_S10000x256_1_0_0_1_n_n rfl dot_S10000x256_S256x1_S10000x1_1_0_0_1_n_n rfl
    (val_main_v31 (F := Ideal) a w1 b1 w2 b2 w3 b3) l1 c1 l2 c2 l3 c3
    bcast_S256_S1x256_1 bcast_S1x256_S10000x256_0_1 bcast_S_S10000x256 bcast_S1_S1x1_1 bcast_S1x1_S10000x1_0_1 p u).trans ?_
  rw [m31 a w1 b1 w2 b2 w3 b3 w4 b4]
  obtain rfl : u = 0 := Subsingleton.elim _ _
  rfl

theorem sc4 (p : Fin 10000) (u : Fin 1) :
    val_main_v95 (F := Ideal) a w1 b1 w2 b2 w3 b3 w4 b4 l1 c1 l2 c2 l3 c3 (ix2 p u) = score (headOf l1 c1 l2 c2 l3 c3) (Spec.x4 (convOf w1 b1 w2 b2 w3 b3 w4 b4) (mat a) p) := by
  refine (Cert.RefOps.score_apply dot_S10000x128_S128x256_S10000x256_1_0_0_1_n_n rfl dot_S10000x256_S256x256_S10000x256_1_0_0_1_n_n rfl dot_S10000x256_S256x1_S10000x1_1_0_0_1_n_n rfl
    (val_main_v37 (F := Ideal) a w1 b1 w2 b2 w3 b3 w4 b4) l1 c1 l2 c2 l3 c3
    bcast_S256_S1x256_1 bcast_S1x256_S10000x256_0_1 bcast_S_S10000x256 bcast_S1_S1x1_1 bcast_S1x1_S10000x1_0_1 p u).trans ?_
  rw [m37 a w1 b1 w2 b2 w3 b3 w4 b4]
  obtain rfl : u = 0 := Subsingleton.elim _ _
  rfl

/-- One graph's total: the four layers' scores added in the layers' order. -/
theorem total (p : Fin 10000) (u : Fin 1) :
    val_main_v96 (F := Ideal) a w1 b1 w2 b2 w3 b3 w4 b4 l1 c1 l2 c2 l3 c3 (ix2 p u) = s4 (convOf w1 b1 w2 b2 w3 b3 w4 b4) (mat a) (headOf l1 c1 l2 c2 l3 c3) p := by
  show ((val_main_v51 (F := Ideal) a w1 b1 l1 c1 l2 c2 l3 c3 (ix2 p u) + val_main_v65 (F := Ideal) a w1 b1 w2 b2 l1 c1 l2 c2 l3 c3 (ix2 p u))
      + val_main_v80 (F := Ideal) a w1 b1 w2 b2 w3 b3 l1 c1 l2 c2 l3 c3 (ix2 p u)) + val_main_v95 (F := Ideal) a w1 b1 w2 b2 w3 b3 w4 b4 l1 c1 l2 c2 l3 c3 (ix2 p u) = _
  rw [sc1 a w1 b1 w2 b2 w3 b3 w4 b4 l1 c1 l2 c2 l3 c3, sc2 a w1 b1 w2 b2 w3 b3 w4 b4 l1 c1 l2 c2 l3 c3, sc3 a w1 b1 w2 b2 w3 b3 w4 b4 l1 c1 l2 c2 l3 c3, sc4 a w1 b1 w2 b2 w3 b3 w4 b4 l1 c1 l2 c2 l3 c3]
  rfl

/-! ## The result -/

/-- The reference's value at node `j 0`: the first graph's total times the second graph's. The second graph's stages
    are the first's operations on the other adjacency matrix. -/
theorem result_eq (x0 x1 : Arr S10000x10000) (x2 : Arr S10000x128) (x3 : Arr S128) (x4 : Arr S128x128) (x5 : Arr S128)
    (x6 : Arr S128x128) (x7 : Arr S128) (x8 : Arr S128x128) (x9 : Arr S128) (x10 : Arr S128x256) (x11 : Arr S256)
    (x12 : Arr S256x256) (x13 : Arr S256) (x14 : Arr S256x1) (x15 : Arr S1) :
    val_main_v194 (F := Ideal) x0 x1 x2 x3 x4 x5 x6 x7 x8 x9 x10 x11 x12 x13 x14 x15
      = fun j => Cert.Spec.result (Cert.Spec.convOf x2 x3 x4 x5 x6 x7 x8 x9) (Cert.Spec.headOf x10 x11 x12 x13 x14 x15)
          (Cert.Spec.mat x0) (Cert.Spec.mat x1) (j 0) := by
  funext j
  obtain ⟨p, u, rfl⟩ : ∃ (p : Fin 10000) (u : Fin 1), j = ix2 p u := ⟨j 0, j 1, eq_ix2 j⟩
  show val_main_v96 (F := Ideal) x0 x2 x3 x4 x5 x6 x7 x8 x9 x10 x11 x12 x13 x14 x15 (ix2 p u)
      * val_main_v96 (F := Ideal) x1 x2 x3 x4 x5 x6 x7 x8 x9 x10 x11 x12 x13 x14 x15 (ix2 p u) = _
  rw [total x0 x2 x3 x4 x5 x6 x7 x8 x9 x10 x11 x12 x13 x14 x15, total x1 x2 x3 x4 x5 x6 x7 x8 x9 x10 x11 x12 x13 x14 x15]
  rfl

end Cert.RefValue

end
-- ==== Proof.Algebraic.lean ====
/-
  The two idealized programs compute one function. The kernel program's result buffer ends at the specification's
  result of the arguments (its run with the result named, and the chain through the regions); the reference's result
  ends at the same specification of its own arguments (its run, its stages read row by row); and the two memories agree
  on the arguments. The one law between the two sides is the commutativity of the final product: the kernel multiplies
  the second graph's total by the first graph's, the reference the first by the second.
-/
import proofs.«103950_g67688684585008_cont_9to1c4b_879_14_alg».proof.Proof.KerChain
import proofs.«103950_g67688684585008_cont_9to1c4b_879_14_alg».proof.Proof.KerRun
import proofs.«103950_g67688684585008_cont_9to1c4b_879_14_alg».proof.Proof.RefValue
import proofs.«103950_g67688684585008_cont_9to1c4b_879_14_alg».proof.Proof.Gen.ReferenceIdeal.Run
import proofs.«103950_g67688684585008_cont_9to1c4b_879_14_alg».proof.Proof.Gen.ReferenceIdeal.Read
import proofs.«103950_g67688684585008_cont_9to1c4b_879_14_alg».proof.Proof.Gen.Kernel
import proofs.«103950_g67688684585008_cont_9to1c4b_879_14_alg».proof.Proof.Gen.KernelIdeal
import proofs.«103950_g67688684585008_cont_9to1c4b_879_14_alg».proof.Proof.Gen.ReferenceIdeal
import proofs.«103950_g67688684585008_cont_9to1c4b_879_14_alg».proof.Proof.Gen.Pre_finite_inputs
import proofs.«103950_g67688684585008_cont_9to1c4b_879_14_alg».proof.Defs

noncomputable section

namespace Cert.Proof.Value

open Idealize.ShloMosaic Idealize.ShloMosaic.TcCoe Idealize.SL.Sem

/-- From memories agreeing on the arguments both idealized programs run, and end with the result buffers equal: both
    hold the specification's result of the common arguments. -/
theorem algebraic : Cert.algebraic_KernelIdeal_ReferenceIdeal := by
  intro m ρ m' ρ' _ hagree
  refine ⟨fun c => (fun j => Cert.Spec.result (Cert.KerChain.cv m c) (Cert.KerChain.hd m c) (Cert.KerChain.Ain m c) (Cert.KerChain.Aout m c) (j 0)), ?_, ?_⟩
  · exact (θ_run Cert.KernelIdeal.defs _ _).mono
      (fun r h c => ⟨(h c).1.trans (Cert.KerChain.result m ρ c), (h c).2⟩)
      (Cert.KerRun.run_result (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15⟩ := hagree c
    rw [(h c).1, Cert.ReferenceIdeal.Read.val_main_v194_eq, Cert.RefValue.result_eq, h0, h1, h2, h3, h4, h5, h6, h7, h8, h9, h10, h11, h12, h13, h14, h15]
    rfl

end Cert.Proof.Value

end
-- ==== Proof.lean ====
/- The certificate's five claims. The three frames: the kernel program's, at the word level and idealized, are the
   generated frame proofs of its eight regions; the reference has no kernel, and its frame is its run with the result
   dropped. The idealization rewrote nothing, so there is nothing to preserve. The value claim is the module
   Proof/Algebraic.lean: both idealized programs end at one specification of the common arguments. -/
import proofs.«103950_g67688684585008_cont_9to1c4b_879_14_alg».proof.Defs
import proofs.«103950_g67688684585008_cont_9to1c4b_879_14_alg».proof.Proof.Gen.Kernel
import proofs.«103950_g67688684585008_cont_9to1c4b_879_14_alg».proof.Proof.Gen.Kernel.Skeleton
import proofs.«103950_g67688684585008_cont_9to1c4b_879_14_alg».proof.Proof.Gen.Kernel.Launch
import proofs.«103950_g67688684585008_cont_9to1c4b_879_14_alg».proof.Proof.Gen.Kernel.Points
import proofs.«103950_g67688684585008_cont_9to1c4b_879_14_alg».proof.Proof.Gen.Kernel.Frame
import proofs.«103950_g67688684585008_cont_9to1c4b_879_14_alg».proof.Proof.Gen.KernelIdeal
import proofs.«103950_g67688684585008_cont_9to1c4b_879_14_alg».proof.Proof.Gen.KernelIdeal.Skeleton
import proofs.«103950_g67688684585008_cont_9to1c4b_879_14_alg».proof.Proof.Gen.KernelIdeal.Launch
import proofs.«103950_g67688684585008_cont_9to1c4b_879_14_alg».proof.Proof.Gen.KernelIdeal.Points
import proofs.«103950_g67688684585008_cont_9to1c4b_879_14_alg».proof.Proof.Gen.KernelIdeal.Frame
import proofs.«103950_g67688684585008_cont_9to1c4b_879_14_alg».proof.Proof.Gen.ReferenceIdeal
import proofs.«103950_g67688684585008_cont_9to1c4b_879_14_alg».proof.Proof.Gen.Pre_finite_inputs
import proofs.«103950_g67688684585008_cont_9to1c4b_879_14_alg».proof.Proof.Gen.ReferenceIdeal.Run
import proofs.«103950_g67688684585008_cont_9to1c4b_879_14_alg».proof.Proof.Gen.ReferenceIdeal.Read
import proofs.«103950_g67688684585008_cont_9to1c4b_879_14_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Value.algebraic⟩

end Cert.Proof

end
